-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10x50x3072 : Shape := ⟨3, ![10, 50, 3072]⟩
abbrev S10x50x768 : Shape := ⟨3, ![10, 50, 768]⟩
abbrev S_ : Shape := ⟨0, ![]⟩

class Facts : Prop where
  bcast_S_S10x50x3072 : S_.BroadcastsInDim S10x50x3072 (![] : Fin 0 → Fin S10x50x3072.rank)
  reducesTo_S10x50x3072_S_d0_1_2 : S10x50x3072.ReducesTo [0, 1, 2] S_
  h_S_ : 0 < S_.numel
  bcast_S_S10x50x768 : S_.BroadcastsInDim S10x50x768 (![] : Fin 0 → Fin S10x50x768.rank)
  reducesTo_S10x50x768_S_d0_1_2 : S10x50x768.ReducesTo [0, 1, 2] S_

variable [Facts]

def fn_part1 {F : FTy → Type} [FloatOps F] (main_v13 : IVec S_ 1) (main_v16 : IVec S10x50x768 1) : IVec S_ 1 :=
  let main_c_5 : IVec S_ 1 := constantI S_ 1 1#1
  let main_v17 : IVec S_ 1 := (fun x v => Host.reduce IntOp.andi x v reducesTo_S10x50x768_S_d0_1_2 h_S_) main_v16 main_c_5
  let main_v18 : IVec S_ 1 := andi main_v13 main_v17
  main_v18

def fn {F : FTy → Type} [FloatOps F] (main_arg0 : FVec F S10x50x3072 .f32) (main_arg1 : FVec F S10x50x3072 .f32) (main_arg2 : FVec F S10x50x3072 .f32) (main_arg3 : FVec F S10x50x768 .f32) : IVec S_ 1 :=
  let main_v0 : FVec F S10x50x3072 .f32 := Host.absf main_arg0
  let main_cst : FVec F S_ .f32 := constant S_ .f32 0x7F800000#32
  let main_v1 : FVec F S10x50x3072 .f32 := broadcastInDim S10x50x3072 ![] bcast_S_S10x50x3072 main_cst
  let main_v2 : IVec S10x50x3072 1 := cmpf .olt main_v0 main_v1
  let main_c : IVec S_ 1 := constantI S_ 1 1#1
  let main_v3 : IVec S_ 1 := (fun x v => Host.reduce IntOp.andi x v reducesTo_S10x50x3072_S_d0_1_2 h_S_) main_v2 main_c
  let main_v4 : FVec F S10x50x3072 .f32 := Host.absf main_arg1
  let main_cst_0 : FVec F S_ .f32 := constant S_ .f32 0x7F800000#32
  let main_v5 : FVec F S10x50x3072 .f32 := broadcastInDim S10x50x3072 ![] bcast_S_S10x50x3072 main_cst_0
  let main_v6 : IVec S10x50x3072 1 := cmpf .olt main_v4 main_v5
  let main_c_1 : IVec S_ 1 := constantI S_ 1 1#1
  let main_v7 : IVec S_ 1 := (fun x v => Host.reduce IntOp.andi x v reducesTo_S10x50x3072_S_d0_1_2 h_S_) main_v6 main_c_1
  let main_v8 : IVec S_ 1 := andi main_v3 main_v7
  let main_v9 : FVec F S10x50x3072 .f32 := Host.absf main_arg2
  let main_cst_2 : FVec F S_ .f32 := constant S_ .f32 0x7F800000#32
  let main_v10 : FVec F S10x50x3072 .f32 := broadcastInDim S10x50x3072 ![] bcast_S_S10x50x3072 main_cst_2
  let main_v11 : IVec S10x50x3072 1 := cmpf .olt main_v9 main_v10
  let main_c_3 : IVec S_ 1 := constantI S_ 1 1#1
  let main_v12 : IVec S_ 1 := (fun x v => Host.reduce IntOp.andi x v reducesTo_S10x50x3072_S_d0_1_2 h_S_) main_v11 main_c_3
  let main_v13 : IVec S_ 1 := andi main_v8 main_v12
  let main_v14 : FVec F S10x50x768 .f32 := Host.absf main_arg3
  let main_cst_4 : FVec F S_ .f32 := constant S_ .f32 0x7F800000#32
  let main_v15 : FVec F S10x50x768 .f32 := broadcastInDim S10x50x768 ![] bcast_S_S10x50x768 main_cst_4
  let main_v16 : IVec S10x50x768 1 := cmpf .olt main_v14 main_v15
  fn_part1 (F := F) main_v13 main_v16
-- ==== Kernel.lean ====
abbrev S10x50x3072 : Shape := ⟨3, ![10, 50, 3072]⟩
abbrev S10x50x768 : Shape := ⟨3, ![10, 50, 768]⟩
abbrev S_ : Shape := ⟨0, ![]⟩
abbrev S10x768x50 : Shape := ⟨3, ![10, 768, 50]⟩
abbrev S10x2304x50 : Shape := ⟨3, ![10, 2304, 50]⟩
abbrev S10x50 : Shape := ⟨2, ![10, 50]⟩
abbrev S10x1x50 : Shape := ⟨3, ![10, 1, 50]⟩
abbrev S10x768x1 : Shape := ⟨3, ![10, 768, 1]⟩
abbrev S10x50x256 : Shape := ⟨3, ![10, 50, 256]⟩
abbrev S10x768x256 : Shape := ⟨3, ![10, 768, 256]⟩
abbrev S10x768 : Shape := ⟨2, ![10, 768]⟩

abbrev nBuf : Space → Nat
  | .hbm => 129
  | .vmem => 78
  | .smem => 0
  | _ => 0

abbrev hbmTy0_0 (i : Nat) : BufTy := match i % 128 with
  | 0 => ⟨S10x50x3072, .f32⟩
  | 1 => ⟨S10x50x3072, .f32⟩
  | 2 => ⟨S10x50x3072, .f32⟩
  | 3 => ⟨S10x50x768, .f32⟩
  | 4 => ⟨S10x50x3072, .bf16⟩
  | 5 => ⟨S10x50x3072, .bf16⟩
  | 6 => ⟨S10x50x3072, .bf16⟩
  | 7 => ⟨S10x50x768, .bf16⟩
  | 8 => ⟨S_, .f32⟩
  | 9 => ⟨S10x768x50, .f32⟩
  | 10 => ⟨S_, .f32⟩
  | 11 => ⟨S10x768x50, .f32⟩
  | 12 => ⟨S_, .f32⟩
  | 13 => ⟨S10x768x50, .f32⟩
  | 14 => ⟨S10x2304x50, .f32⟩
  | 15 => ⟨S_, .f32⟩
  | 16 => ⟨S10x50, .f32⟩
  | 17 => ⟨S_, .f32⟩
  | 18 => ⟨S10x50, .f32⟩
  | 19 => ⟨S10x50, .f32⟩
  | 20 => ⟨S10x1x50, .f32⟩
  | 21 => ⟨S10x2304x50, .f32⟩
  | 22 => ⟨S10x2304x50, .f32⟩
  | 23 => ⟨S10x2304x50, .f32⟩
  | 24 => ⟨S_, .f32⟩
  | 25 => ⟨S10x50, .f32⟩
  | 26 => ⟨S10x1x50, .f32⟩
  | 27 => ⟨S10x2304x50, .f32⟩
  | 28 => ⟨S10x2304x50, .f32⟩
  | 29 => ⟨S10x768x50, .f32⟩
  | 30 => ⟨S10x768x50, .f32⟩
  | 31 => ⟨S10x768x50, .f32⟩
  | 32 => ⟨S10x768x50, .bf16⟩
  | 33 => ⟨S10x768x50, .bf16⟩
  | 34 => ⟨S10x768x50, .bf16⟩
  | 35 => ⟨S10x768x1, .f32⟩
  | 36 => ⟨S_, .f32⟩
  | 37 => ⟨S10x768x1, .f32⟩
  | 38 => ⟨S10x768x1, .f32⟩
  | 39 => ⟨S10x768x1, .f32⟩
  | 40 => ⟨S10x768x1, .f32⟩
  | 41 => ⟨S_, .f32⟩
  | 42 => ⟨S10x768x1, .f32⟩
  | 43 => ⟨S10x768x1, .f32⟩
  | 44 => ⟨S10x768x1, .f32⟩
  | 45 => ⟨S10x768x50, .bf16⟩
  | 46 => ⟨S10x768x50, .bf16⟩
  | 47 => ⟨S10x768x50, .bf16⟩
  | 48 => ⟨S10x768x50, .f32⟩
  | 49 => ⟨S10x768x50, .f32⟩
  | 50 => ⟨S10x768x50, .f32⟩
  | 51 => ⟨S10x768x50, .f32⟩
  | 52 => ⟨S10x768x50, .f32⟩
  | 53 => ⟨S10x768x50, .f32⟩
  | 54 => ⟨S10x2304x50, .f32⟩
  | 55 => ⟨S_, .f32⟩
  | 56 => ⟨S10x50, .f32⟩
  | 57 => ⟨S_, .f32⟩
  | 58 => ⟨S10x50, .f32⟩
  | 59 => ⟨S10x50, .f32⟩
  | 60 => ⟨S10x1x50, .f32⟩
  | 61 => ⟨S10x2304x50, .f32⟩
  | 62 => ⟨S10x2304x50, .f32⟩
  | 63 => ⟨S10x2304x50, .f32⟩
  | 64 => ⟨S_, .f32⟩
  | 65 => ⟨S10x50, .f32⟩
  | 66 => ⟨S10x1x50, .f32⟩
  | 67 => ⟨S10x2304x50, .f32⟩
  | 68 => ⟨S10x2304x50, .f32⟩
  | 69 => ⟨S10x768x50, .f32⟩
  | 70 => ⟨S10x768x50, .f32⟩
  | 71 => ⟨S10x768x50, .f32⟩
  | 72 => ⟨S10x768x50, .bf16⟩
  | 73 => ⟨S10x768x50, .bf16⟩
  | 74 => ⟨S10x768x50, .bf16⟩
  | 75 => ⟨S10x768x1, .f32⟩
  | 76 => ⟨S_, .f32⟩
  | 77 => ⟨S10x768x1, .f32⟩
  | 78 => ⟨S10x768x1, .f32⟩
  | 79 => ⟨S10x768x1, .f32⟩
  | 80 => ⟨S10x768x1, .f32⟩
  | 81 => ⟨S_, .f32⟩
  | 82 => ⟨S10x768x1, .f32⟩
  | 83 => ⟨S10x768x1, .f32⟩
  | 84 => ⟨S10x768x1, .f32⟩
  | 85 => ⟨S10x768x50, .bf16⟩
  | 86 => ⟨S10x768x50, .bf16⟩
  | 87 => ⟨S10x768x50, .bf16⟩
  | 88 => ⟨S10x768x50, .f32⟩
  | 89 => ⟨S10x768x50, .f32⟩
  | 90 => ⟨S10x768x50, .f32⟩
  | 91 => ⟨S10x768x50, .f32⟩
  | 92 => ⟨S10x768x50, .f32⟩
  | 93 => ⟨S10x768x50, .f32⟩
  | 94 => ⟨S10x2304x50, .f32⟩
  | 95 => ⟨S_, .f32⟩
  | 96 => ⟨S10x50, .f32⟩
  | 97 => ⟨S_, .f32⟩
  | 98 => ⟨S10x50, .f32⟩
  | 99 => ⟨S10x50, .f32⟩
  | 100 => ⟨S10x1x50, .f32⟩
  | 101 => ⟨S10x2304x50, .f32⟩
  | 102 => ⟨S10x2304x50, .f32⟩
  | 103 => ⟨S10x2304x50, .f32⟩
  | 104 => ⟨S_, .f32⟩
  | 105 => ⟨S10x50, .f32⟩
  | 106 => ⟨S10x1x50, .f32⟩
  | 107 => ⟨S10x2304x50, .f32⟩
  | 108 => ⟨S10x2304x50, .f32⟩
  | 109 => ⟨S10x768x50, .f32⟩
  | 110 => ⟨S10x768x50, .f32⟩
  | 111 => ⟨S10x768x50, .f32⟩
  | 112 => ⟨S10x768x50, .bf16⟩
  | 113 => ⟨S10x768x50, .bf16⟩
  | 114 => ⟨S10x768x50, .bf16⟩
  | 115 => ⟨S10x768x1, .f32⟩
  | 116 => ⟨S_, .f32⟩
  | 117 => ⟨S10x768x1, .f32⟩
  | 118 => ⟨S10x768x1, .f32⟩
  | 119 => ⟨S10x768x1, .f32⟩
  | 120 => ⟨S10x768x1, .f32⟩
  | 121 => ⟨S_, .f32⟩
  | 122 => ⟨S10x768x1, .f32⟩
  | 123 => ⟨S10x768x1, .f32⟩
  | 124 => ⟨S10x768x1, .f32⟩
  | 125 => ⟨S10x768x50, .bf16⟩
  | 126 => ⟨S10x768x50, .bf16⟩
  | 127 => ⟨S10x768x50, .bf16⟩
  | _ => ⟨S10x50x3072, .f32⟩

abbrev hbmTy0_1 (i : Nat) : BufTy := match i % 128 with
  | 0 => ⟨S10x50x3072, .f32⟩
  | _ => ⟨S10x50x3072, .f32⟩

abbrev hbmTy (i : Nat) : BufTy := match i / 128 with
  | 0 => hbmTy0_0 i
  | 1 => hbmTy0_1 i
  | _ => ⟨S10x50x3072, .f32⟩

abbrev bufTy : (tb : Table) → Fin (tcTables nBuf tb) → BufTy
  | .hbm, ⟨i, _⟩ => hbmTy i
  | .local _ .vmem, ⟨0, _⟩ => ⟨S10x768x50, .bf16⟩
  | .local _ .vmem, ⟨1, _⟩ => ⟨S10x768x50, .bf16⟩
  | .local _ .vmem, ⟨2, _⟩ => ⟨S10x768x50, .bf16⟩
  | .local _ .vmem, ⟨3, _⟩ => ⟨S10x50x256, .bf16⟩
  | .local _ .vmem, ⟨4, _⟩ => ⟨S10x50x256, .bf16⟩
  | .local _ .vmem, ⟨5, _⟩ => ⟨S10x50x256, .bf16⟩
  | .local _ .vmem, ⟨6, _⟩ => ⟨S10x50x256, .bf16⟩
  | .local _ .vmem, ⟨7, _⟩ => ⟨S10x50x256, .bf16⟩
  | .local _ .vmem, ⟨8, _⟩ => ⟨S10x50x256, .bf16⟩
  | .local _ .vmem, ⟨9, _⟩ => ⟨S10x768x1, .f32⟩
  | .local _ .vmem, ⟨10, _⟩ => ⟨S10x768x1, .f32⟩
  | .local _ .vmem, ⟨11, _⟩ => ⟨S10x768x50, .bf16⟩
  | .local _ .vmem, ⟨12, _⟩ => ⟨S10x768x50, .bf16⟩
  | .local _ .vmem, ⟨13, _⟩ => ⟨S10x768x50, .bf16⟩
  | .local _ .vmem, ⟨14, _⟩ => ⟨S10x50x256, .bf16⟩
  | .local _ .vmem, ⟨15, _⟩ => ⟨S10x50x256, .bf16⟩
  | .local _ .vmem, ⟨16, _⟩ => ⟨S10x50x256, .bf16⟩
  | .local _ .vmem, ⟨17, _⟩ => ⟨S10x50x256, .bf16⟩
  | .local _ .vmem, ⟨18, _⟩ => ⟨S10x50x256, .bf16⟩
  | .local _ .vmem, ⟨19, _⟩ => ⟨S10x50x256, .bf16⟩
  | .local _ .vmem, ⟨20, _⟩ => ⟨S10x768x1, .f32⟩
  | .local _ .vmem, ⟨21, _⟩ => ⟨S10x768x50, .f32⟩
  | .local _ .vmem, ⟨22, _⟩ => ⟨S10x768x50, .f32⟩
  | .local _ .vmem, ⟨23, _⟩ => ⟨S10x768x50, .f32⟩
  | .local _ .vmem, ⟨24, _⟩ => ⟨S10x768x50, .f32⟩
  | .local _ .vmem, ⟨25, _⟩ => ⟨S10x768x50, .f32⟩
  | .local _ .vmem, ⟨26, _⟩ => ⟨S10x768x50, .f32⟩
  | .local _ .vmem, ⟨27, _⟩ => ⟨S10x768x50, .bf16⟩
  | .local _ .vmem, ⟨28, _⟩ => ⟨S10x768x50, .bf16⟩
  | .local _ .vmem, ⟨29, _⟩ => ⟨S10x768x50, .bf16⟩
  | .local _ .vmem, ⟨30, _⟩ => ⟨S10x50x256, .bf16⟩
  | .local _ .vmem, ⟨31, _⟩ => ⟨S10x50x256, .bf16⟩
  | .local _ .vmem, ⟨32, _⟩ => ⟨S10x50x256, .bf16⟩
  | .local _ .vmem, ⟨33, _⟩ => ⟨S10x50x256, .bf16⟩
  | .local _ .vmem, ⟨34, _⟩ => ⟨S10x50x256, .bf16⟩
  | .local _ .vmem, ⟨35, _⟩ => ⟨S10x50x256, .bf16⟩
  | .local _ .vmem, ⟨36, _⟩ => ⟨S10x768x1, .f32⟩
  | .local _ .vmem, ⟨37, _⟩ => ⟨S10x768x1, .f32⟩
  | .local _ .vmem, ⟨38, _⟩ => ⟨S10x768x50, .bf16⟩
  | .local _ .vmem, ⟨39, _⟩ => ⟨S10x768x50, .bf16⟩
  | .local _ .vmem, ⟨40, _⟩ => ⟨S10x768x50, .bf16⟩
  | .local _ .vmem, ⟨41, _⟩ => ⟨S10x50x256, .bf16⟩
  | .local _ .vmem, ⟨42, _⟩ => ⟨S10x50x256, .bf16⟩
  | .local _ .vmem, ⟨43, _⟩ => ⟨S10x50x256, .bf16⟩
  | .local _ .vmem, ⟨44, _⟩ => ⟨S10x50x256, .bf16⟩
  | .local _ .vmem, ⟨45, _⟩ => ⟨S10x50x256, .bf16⟩
  | .local _ .vmem, ⟨46, _⟩ => ⟨S10x50x256, .bf16⟩
  | .local _ .vmem, ⟨47, _⟩ => ⟨S10x768x1, .f32⟩
  | .local _ .vmem, ⟨48, _⟩ => ⟨S10x768x50, .f32⟩
  | .local _ .vmem, ⟨49, _⟩ => ⟨S10x768x50, .f32⟩
  | .local _ .vmem, ⟨50, _⟩ => ⟨S10x768x50, .f32⟩
  | .local _ .vmem, ⟨51, _⟩ => ⟨S10x768x50, .f32⟩
  | .local _ .vmem, ⟨52, _⟩ => ⟨S10x768x50, .f32⟩
  | .local _ .vmem, ⟨53, _⟩ => ⟨S10x768x50, .f32⟩
  | .local _ .vmem, ⟨54, _⟩ => ⟨S10x768x50, .bf16⟩
  | .local _ .vmem, ⟨55, _⟩ => ⟨S10x768x50, .bf16⟩
  | .local _ .vmem, ⟨56, _⟩ => ⟨S10x768x50, .bf16⟩
  | .local _ .vmem, ⟨57, _⟩ => ⟨S10x50x256, .bf16⟩
  | .local _ .vmem, ⟨58, _⟩ => ⟨S10x50x256, .bf16⟩
  | .local _ .vmem, ⟨59, _⟩ => ⟨S10x50x256, .bf16⟩
  | .local _ .vmem, ⟨60, _⟩ => ⟨S10x50x256, .bf16⟩
  | .local _ .vmem, ⟨61, _⟩ => ⟨S10x50x256, .bf16⟩
  | .local _ .vmem, ⟨62, _⟩ => ⟨S10x50x256, .bf16⟩
  | .local _ .vmem, ⟨63, _⟩ => ⟨S10x768x1, .f32⟩
  | .local _ .vmem, ⟨64, _⟩ => ⟨S10x768x1, .f32⟩
  | .local _ .vmem, ⟨65, _⟩ => ⟨S10x768x50, .bf16⟩
  | .local _ .vmem, ⟨66, _⟩ => ⟨S10x768x50, .bf16⟩
  | .local _ .vmem, ⟨67, _⟩ => ⟨S10x768x50, .bf16⟩
  | .local _ .vmem, ⟨68, _⟩ => ⟨S10x50x256, .bf16⟩
  | .local _ .vmem, ⟨69, _⟩ => ⟨S10x50x256, .bf16⟩
  | .local _ .vmem, ⟨70, _⟩ => ⟨S10x50x256, .bf16⟩
  | .local _ .vmem, ⟨71, _⟩ => ⟨S10x50x256, .bf16⟩
  | .local _ .vmem, ⟨72, _⟩ => ⟨S10x50x256, .bf16⟩
  | .local _ .vmem, ⟨73, _⟩ => ⟨S10x50x256, .bf16⟩
  | .local _ .vmem, ⟨74, _⟩ => ⟨S10x768x1, .f32⟩
  | .local _ .vmem, ⟨75, _⟩ => ⟨S10x50x768, .bf16⟩
  | .local _ .vmem, ⟨76, _⟩ => ⟨S10x50x256, .f32⟩
  | .local _ .vmem, ⟨77, _⟩ => ⟨S10x50x256, .f32⟩
  | _, _ => ⟨S10x50x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36_0 : Ref sig .tc := ⟨.hbm, 48, rfl⟩
abbrev main_v36_1 : Ref sig .tc := ⟨.hbm, 49, rfl⟩
abbrev main_v36_2 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69_0 : Ref sig .tc := ⟨.hbm, 88, rfl⟩
abbrev main_v69_1 : Ref sig .tc := ⟨.hbm, 89, rfl⟩
abbrev main_v69_2 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_cst_13 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_14 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_15 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_16 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc2_stg0_0 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_scratch0 : Ref sig .tc := ⟨.vmem, 37, rfl⟩
abbrev cc3_stg0_0 : Ref sig .tc := ⟨.vmem, 38, rfl⟩
abbrev cc3_stg1_0 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg4_1 : Ref sig .tc := ⟨.vmem, 44, rfl⟩
abbrev cc3_stg5_0 : Ref sig .tc := ⟨.vmem, 45, rfl⟩
abbrev cc3_stg5_1 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_scratch0 : Ref sig .tc := ⟨.vmem, 51, rfl⟩
abbrev cc3_scratch1 : Ref sig .tc := ⟨.vmem, 52, rfl⟩
abbrev cc3_scratch2 : Ref sig .tc := ⟨.vmem, 53, rfl⟩
abbrev cc4_stg0_0 : Ref sig .tc := ⟨.vmem, 54, rfl⟩
abbrev cc4_stg1_0 : Ref sig .tc := ⟨.vmem, 55, rfl⟩
abbrev cc4_stg2_0 : Ref sig .tc := ⟨.vmem, 56, rfl⟩
abbrev cc4_stg3_0 : Ref sig .tc := ⟨.vmem, 57, rfl⟩
abbrev cc4_stg3_1 : Ref sig .tc := ⟨.vmem, 58, rfl⟩
abbrev cc4_stg4_0 : Ref sig .tc := ⟨.vmem, 59, rfl⟩
abbrev cc4_stg4_1 : Ref sig .tc := ⟨.vmem, 60, rfl⟩
abbrev cc4_stg5_0 : Ref sig .tc := ⟨.vmem, 61, rfl⟩
abbrev cc4_stg5_1 : Ref sig .tc := ⟨.vmem, 62, rfl⟩
abbrev cc4_stg6_0 : Ref sig .tc := ⟨.vmem, 63, rfl⟩
abbrev cc4_scratch0 : Ref sig .tc := ⟨.vmem, 64, rfl⟩
abbrev cc5_stg0_0 : Ref sig .tc := ⟨.vmem, 65, rfl⟩
abbrev cc5_stg1_0 : Ref sig .tc := ⟨.vmem, 66, rfl⟩
abbrev cc5_stg2_0 : Ref sig .tc := ⟨.vmem, 67, rfl⟩
abbrev cc5_stg3_0 : Ref sig .tc := ⟨.vmem, 68, rfl⟩
abbrev cc5_stg3_1 : Ref sig .tc := ⟨.vmem, 69, rfl⟩
abbrev cc5_stg4_0 : Ref sig .tc := ⟨.vmem, 70, rfl⟩
abbrev cc5_stg4_1 : Ref sig .tc := ⟨.vmem, 71, rfl⟩
abbrev cc5_stg5_0 : Ref sig .tc := ⟨.vmem, 72, rfl⟩
abbrev cc5_stg5_1 : Ref sig .tc := ⟨.vmem, 73, rfl⟩
abbrev cc5_stg6_0 : Ref sig .tc := ⟨.vmem, 74, rfl⟩
abbrev cc5_stg7_0 : Ref sig .tc := ⟨.vmem, 75, rfl⟩
abbrev cc5_stg8_0 : Ref sig .tc := ⟨.vmem, 76, rfl⟩
abbrev cc5_stg8_1 : Ref sig .tc := ⟨.vmem, 77, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem7_0 : DmaSem sig := 20
abbrev cc1_sem8_0 : DmaSem sig := 21
abbrev cc1_sem9_0 : DmaSem sig := 22
abbrev cc2_sem0_0 : DmaSem sig := 23
abbrev cc2_sem1_0 : DmaSem sig := 24
abbrev cc2_sem2_0 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc3_sem0_0 : DmaSem sig := 33
abbrev cc3_sem1_0 : DmaSem sig := 34
abbrev cc3_sem2_0 : DmaSem sig := 35
abbrev cc3_sem3_0 : DmaSem sig := 36
abbrev cc3_sem3_1 : DmaSem sig := 37
abbrev cc3_sem4_0 : DmaSem sig := 38
abbrev cc3_sem4_1 : DmaSem sig := 39
abbrev cc3_sem5_0 : DmaSem sig := 40
abbrev cc3_sem5_1 : DmaSem sig := 41
abbrev cc3_sem6_0 : DmaSem sig := 42
abbrev cc3_sem7_0 : DmaSem sig := 43
abbrev cc3_sem8_0 : DmaSem sig := 44
abbrev cc3_sem9_0 : DmaSem sig := 45
abbrev cc4_sem0_0 : DmaSem sig := 46
abbrev cc4_sem1_0 : DmaSem sig := 47
abbrev cc4_sem2_0 : DmaSem sig := 48
abbrev cc4_sem3_0 : DmaSem sig := 49
abbrev cc4_sem3_1 : DmaSem sig := 50
abbrev cc4_sem4_0 : DmaSem sig := 51
abbrev cc4_sem4_1 : DmaSem sig := 52
abbrev cc4_sem5_0 : DmaSem sig := 53
abbrev cc4_sem5_1 : DmaSem sig := 54
abbrev cc4_sem6_0 : DmaSem sig := 55
abbrev cc5_sem0_0 : DmaSem sig := 56
abbrev cc5_sem1_0 : DmaSem sig := 57
abbrev cc5_sem2_0 : DmaSem sig := 58
abbrev cc5_sem3_0 : DmaSem sig := 59
abbrev cc5_sem3_1 : DmaSem sig := 60
abbrev cc5_sem4_0 : DmaSem sig := 61
abbrev cc5_sem4_1 : DmaSem sig := 62
abbrev cc5_sem5_0 : DmaSem sig := 63
abbrev cc5_sem5_1 : DmaSem sig := 64
abbrev cc5_sem6_0 : DmaSem sig := 65
abbrev cc5_sem7_0 : DmaSem sig := 66
abbrev cc5_sem8_0 : DmaSem sig := 67
abbrev cc5_sem8_1 : DmaSem sig := 68

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c11_i32 : BitVec 32 := 11#32
  let v28 : BitVec 1 := Scalar.cmpi .eq arg0 c11_i32
  let v29 : BitVec 32 := Scalar.extui v28
  let c0_i32_27 : BitVec 32 := 0#32
  let v30 : BitVec 1 := Scalar.cmpi .ne v29 c0_i32_27
  v30

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S10x768x50 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10x768x50 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x768x50 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10x50x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10x50x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10x50x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S10x768x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![12], ![false]⟩

def k1_cond2 (i : grid1.Coords) : BitVec 1 :=
  let arg0 : BitVec 32 := BitVec.ofNat 32 (i 0).val
  let c11_i32 : BitVec 32 := 11#32
  let v43 : BitVec 1 := Scalar.cmpi .eq arg0 c11_i32
  let v44 : BitVec 32 := Scalar.extui v43
  let c0_i32_44 : BitVec 32 := 0#32
  let v45 : BitVec 1 := Scalar.cmpi .ne v44 c0_i32_44
  v45

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S10x768x50 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S10x768x50 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10x768x50 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10x50x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10x50x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S10x50x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S10x768x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S10x768x50 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S10x768x50 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S10x768x50 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![12], ![false]⟩

def k2_cond2 (i : grid2.Coords) : BitVec 1 :=
  let arg0 : BitVec 32 := BitVec.ofNat 32 (i 0).val
  let c11_i32 : BitVec 32 := 11#32
  let v28 : BitVec 1 := Scalar.cmpi .eq arg0 c11_i32
  let v29 : BitVec 32 := Scalar.extui v28
  let c0_i32_27 : BitVec 32 := 0#32
  let v30 : BitVec 1 := Scalar.cmpi .ne v29 c0_i32_27
  v30

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 1 → Memref sig .tc .vmem S10x768x50 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S10x768x50 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10x768x50 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10x50x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10x50x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10x50x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S10x768x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![12], ![false]⟩

def k3_cond2 (i : grid3.Coords) : BitVec 1 :=
  let arg0 : BitVec 32 := BitVec.ofNat 32 (i 0).val
  let c11_i32 : BitVec 32 := 11#32
  let v43 : BitVec 1 := Scalar.cmpi .eq arg0 c11_i32
  let v44 : BitVec 32 := Scalar.extui v43
  let c0_i32_44 : BitVec 32 := 0#32
  let v45 : BitVec 1 := Scalar.cmpi .ne v44 c0_i32_44
  v45

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage3_0 : Fin 1 → Memref sig .tc .vmem S10x768x50 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S10x768x50 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S10x768x50 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10x50x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S10x50x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S10x50x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S10x768x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S10x768x50 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S10x768x50 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S10x768x50 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev grid4 : Pipeline.Grid := ⟨1, ![12], ![false]⟩

def k4_cond2 (i : grid4.Coords) : BitVec 1 :=
  let arg0 : BitVec 32 := BitVec.ofNat 32 (i 0).val
  let c11_i32 : BitVec 32 := 11#32
  let v28 : BitVec 1 := Scalar.cmpi .eq arg0 c11_i32
  let v29 : BitVec 32 := Scalar.extui v28
  let c0_i32_27 : BitVec 32 := 0#32
  let v30 : BitVec 1 := Scalar.cmpi .ne v29 c0_i32_27
  v30

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage4_0 : Fin 1 → Memref sig .tc .vmem S10x768x50 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S10x768x50 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S10x768x50 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10x50x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S10x50x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S10x50x256 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S10x768x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![12], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc5_transform_6 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_8 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage5_0 : Fin 1 → Memref sig .tc .vmem S10x768x50 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S10x768x50 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S10x768x50 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10x50x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S10x50x256 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S10x50x256 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S10x768x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S10x50x768 .bf16 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S10x50x256 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  bitsLt_bf16_f32 : FTy.bits .bf16 < FTy.bits .f32
  bcast_S_S10x768x50 : S_.BroadcastsInDim S10x768x50 (![] : Fin 0 → Fin S10x768x50.rank)
  concatenates_S10x768x50_S10x768x50_S10x768x50_S10x2304x50_d1 : Shape.Concatenates [S10x768x50, S10x768x50, S10x768x50] S10x2304x50 1
  reducesTo_S10x2304x50_S10x50_d1 : S10x2304x50.ReducesTo [1] S10x50
  h_S_ : 0 < S_.numel
  bcast_S_S10x50 : S_.BroadcastsInDim S10x50 (![] : Fin 0 → Fin S10x50.rank)
  bcast_S10x50_S10x1x50_0_2 : S10x50.BroadcastsInDim S10x1x50 (![0, 2] : Fin 2 → Fin S10x1x50.rank)
  bcast_S10x1x50_S10x2304x50_0_1_2 : S10x1x50.BroadcastsInDim S10x2304x50 (![0, 1, 2] : Fin 3 → Fin S10x2304x50.rank)
  slices_S10x2304x50_S10x768x50_0_0_0 : S10x2304x50.Slices ![0, 0, 0] S10x768x50
  slices_S10x2304x50_S10x768x50_0_768_0 : S10x2304x50.Slices ![0, 768, 0] S10x768x50
  slices_S10x2304x50_S10x768x50_0_1536_0 : S10x2304x50.Slices ![0, 1536, 0] S10x768x50
  inb_S10x768x1_S10x768x1_0_0_0 : ∀ a, (![0, 0, 0] : Fin 3 → Nat) a + S10x768x1.size a ≤ S10x768x1.size a
  h_S10x768x1 : 0 < S10x768x1.numel
  shapeCasts_S10x768x1_S10x768x1 : S10x768x1.ShapeCasts S10x768x1
  inb_S10x768x50_S10x768x50_0_0_0 : ∀ a, (![0, 0, 0] : Fin 3 → Nat) a + S10x768x50.size a ≤ S10x768x50.size a
  h_S10x768x50 : 0 < S10x768x50.numel
  shapeCasts_S10x768x50_S10x768x50 : S10x768x50.ShapeCasts S10x768x50
  inb_S10x50x256_S10x50x256_0_0_0 : ∀ a, (![0, 0, 0] : Fin 3 → Nat) a + S10x50x256.size a ≤ S10x50x256.size a
  h_S10x50x256 : 0 < S10x50x256.numel
  shapeCasts_S10x50x256_S10x50x256 : S10x50x256.ShapeCasts S10x50x256
  reduces_S10x768x256_S10x768 : S10x768x256.Reduces [2] S10x768
  shapeCasts_S10x768_S10x768x1 : S10x768.ShapeCasts S10x768x1
  bcast_S_S10x768x1 : S_.BroadcastsInDim S10x768x1 (![] : Fin 0 → Fin S10x768x1.rank)
  broadcasts_S10x768x1_S10x768x256 : S10x768x1.Broadcasts S10x768x256
  inb_S10x50x768_S10x50x768_0_0_0 : ∀ a, (![0, 0, 0] : Fin 3 → Nat) a + S10x50x768.size a ≤ S10x50x768.size a
  h_S10x50x768 : 0 < S10x50x768.numel
  shapeCasts_S10x50x768_S10x50x768 : S10x50x768.ShapeCasts S10x50x768
  dot_S10x768x50_S10x50x256_S10x768x256_2_1_1_2_0_0_wf : DotDims.WF S10x768x50 S10x50x256 S10x768x256 [2] [1] [1] [2] [0] [0]
  dot_S10x768x256_S10x50x256_S10x768x50_2_2_1_1_0_0_wf : DotDims.WF S10x768x256 S10x50x256 S10x768x50 [2] [2] [1] [1] [0] [0]
  dot_S10x50x768_S10x768x256_S10x50x256_2_1_1_2_0_0_wf : DotDims.WF S10x50x768 S10x768x256 S10x50x256 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10x768x50.size a ≤ S10x768x50.size a
  hwx0_0 : ∀ i : grid0.Coords, EltTy.bits .bf16 = 32 ∨ (Rect.block (s := S10x768x50) S10x768x50.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x768x50.size a ≤ S10x768x50.size a
  hwx0_1 : ∀ i : grid0.Coords, EltTy.bits .bf16 = 32 ∨ (Rect.block (s := S10x768x50) S10x768x50.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x768x50.size a ≤ S10x768x50.size a
  hwx0_2 : ∀ i : grid0.Coords, EltTy.bits .bf16 = 32 ∨ (Rect.block (s := S10x768x50) S10x768x50.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10x50x256.size a ≤ S10x50x3072.size a
  hwx0_3 : ∀ i : grid0.Coords, EltTy.bits .bf16 = 32 ∨ (Rect.block (s := S10x50x3072) S10x50x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10x50x256.size a ≤ S10x50x3072.size a
  hwx0_4 : ∀ i : grid0.Coords, EltTy.bits .bf16 = 32 ∨ (Rect.block (s := S10x50x3072) S10x50x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10x50x256.size a ≤ S10x50x3072.size a
  hwx0_5 : ∀ i : grid0.Coords, EltTy.bits .bf16 = 32 ∨ (Rect.block (s := S10x50x3072) S10x50x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10x768x1.size a ≤ S10x768x1.size a
  hwx0_6 : ∀ i : grid0.Coords, EltTy.bits .f32 = 32 ∨ (Rect.block (s := S10x768x1) S10x768x1.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10x768x50.size a ≤ S10x768x50.size a
  hwx1_0 : ∀ i : grid1.Coords, EltTy.bits .bf16 = 32 ∨ (Rect.block (s := S10x768x50) S10x768x50.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10x768x50.size a ≤ S10x768x50.size a
  hwx1_1 : ∀ i : grid1.Coords, EltTy.bits .bf16 = 32 ∨ (Rect.block (s := S10x768x50) S10x768x50.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10x768x50.size a ≤ S10x768x50.size a
  hwx1_2 : ∀ i : grid1.Coords, EltTy.bits .bf16 = 32 ∨ (Rect.block (s := S10x768x50) S10x768x50.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10x50x256.size a ≤ S10x50x3072.size a
  hwx1_3 : ∀ i : grid1.Coords, EltTy.bits .bf16 = 32 ∨ (Rect.block (s := S10x50x3072) S10x50x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10x50x256.size a ≤ S10x50x3072.size a
  hwx1_4 : ∀ i : grid1.Coords, EltTy.bits .bf16 = 32 ∨ (Rect.block (s := S10x50x3072) S10x50x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10x50x256.size a ≤ S10x50x3072.size a
  hwx1_5 : ∀ i : grid1.Coords, EltTy.bits .bf16 = 32 ∨ (Rect.block (s := S10x50x3072) S10x50x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S10x768x1.size a ≤ S10x768x1.size a
  hwx1_6 : ∀ i : grid1.Coords, EltTy.bits .f32 = 32 ∨ (Rect.block (s := S10x768x1) S10x768x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S10x768x50.size a ≤ S10x768x50.size a
  hwx1_7 : ∀ i : grid1.Coords, EltTy.bits .f32 = 32 ∨ (Rect.block (s := S10x768x50) S10x768x50.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S10x768x50.size a ≤ S10x768x50.size a
  hwx1_8 : ∀ i : grid1.Coords, EltTy.bits .f32 = 32 ∨ (Rect.block (s := S10x768x50) S10x768x50.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S10x768x50.size a ≤ S10x768x50.size a
  hwx1_9 : ∀ i : grid1.Coords, EltTy.bits .f32 = 32 ∨ (Rect.block (s := S10x768x50) S10x768x50.size (cc1_transform_9 i) (hinb1_9 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10x768x50.size a ≤ S10x768x50.size a
  hwx2_0 : ∀ i : grid2.Coords, EltTy.bits .bf16 = 32 ∨ (Rect.block (s := S10x768x50) S10x768x50.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10x768x50.size a ≤ S10x768x50.size a
  hwx2_1 : ∀ i : grid2.Coords, EltTy.bits .bf16 = 32 ∨ (Rect.block (s := S10x768x50) S10x768x50.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10x768x50.size a ≤ S10x768x50.size a
  hwx2_2 : ∀ i : grid2.Coords, EltTy.bits .bf16 = 32 ∨ (Rect.block (s := S10x768x50) S10x768x50.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10x50x256.size a ≤ S10x50x3072.size a
  hwx2_3 : ∀ i : grid2.Coords, EltTy.bits .bf16 = 32 ∨ (Rect.block (s := S10x50x3072) S10x50x256.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10x50x256.size a ≤ S10x50x3072.size a
  hwx2_4 : ∀ i : grid2.Coords, EltTy.bits .bf16 = 32 ∨ (Rect.block (s := S10x50x3072) S10x50x256.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10x50x256.size a ≤ S10x50x3072.size a
  hwx2_5 : ∀ i : grid2.Coords, EltTy.bits .bf16 = 32 ∨ (Rect.block (s := S10x50x3072) S10x50x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S10x768x1.size a ≤ S10x768x1.size a
  hwx2_6 : ∀ i : grid2.Coords, EltTy.bits .f32 = 32 ∨ (Rect.block (s := S10x768x1) S10x768x1.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S10x768x50.size a ≤ S10x768x50.size a
  hwx3_0 : ∀ i : grid3.Coords, EltTy.bits .bf16 = 32 ∨ (Rect.block (s := S10x768x50) S10x768x50.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10x768x50.size a ≤ S10x768x50.size a
  hwx3_1 : ∀ i : grid3.Coords, EltTy.bits .bf16 = 32 ∨ (Rect.block (s := S10x768x50) S10x768x50.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10x768x50.size a ≤ S10x768x50.size a
  hwx3_2 : ∀ i : grid3.Coords, EltTy.bits .bf16 = 32 ∨ (Rect.block (s := S10x768x50) S10x768x50.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10x50x256.size a ≤ S10x50x3072.size a
  hwx3_3 : ∀ i : grid3.Coords, EltTy.bits .bf16 = 32 ∨ (Rect.block (s := S10x50x3072) S10x50x256.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10x50x256.size a ≤ S10x50x3072.size a
  hwx3_4 : ∀ i : grid3.Coords, EltTy.bits .bf16 = 32 ∨ (Rect.block (s := S10x50x3072) S10x50x256.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10x50x256.size a ≤ S10x50x3072.size a
  hwx3_5 : ∀ i : grid3.Coords, EltTy.bits .bf16 = 32 ∨ (Rect.block (s := S10x50x3072) S10x50x256.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S10x768x1.size a ≤ S10x768x1.size a
  hwx3_6 : ∀ i : grid3.Coords, EltTy.bits .f32 = 32 ∨ (Rect.block (s := S10x768x1) S10x768x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S10x768x50.size a ≤ S10x768x50.size a
  hwx3_7 : ∀ i : grid3.Coords, EltTy.bits .f32 = 32 ∨ (Rect.block (s := S10x768x50) S10x768x50.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S10x768x50.size a ≤ S10x768x50.size a
  hwx3_8 : ∀ i : grid3.Coords, EltTy.bits .f32 = 32 ∨ (Rect.block (s := S10x768x50) S10x768x50.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S10x768x50.size a ≤ S10x768x50.size a
  hwx3_9 : ∀ i : grid3.Coords, EltTy.bits .f32 = 32 ∨ (Rect.block (s := S10x768x50) S10x768x50.size (cc3_transform_9 i) (hinb3_9 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S10x768x50.size a ≤ S10x768x50.size a
  hwx4_0 : ∀ i : grid4.Coords, EltTy.bits .bf16 = 32 ∨ (Rect.block (s := S10x768x50) S10x768x50.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10x768x50.size a ≤ S10x768x50.size a
  hwx4_1 : ∀ i : grid4.Coords, EltTy.bits .bf16 = 32 ∨ (Rect.block (s := S10x768x50) S10x768x50.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S10x768x50.size a ≤ S10x768x50.size a
  hwx4_2 : ∀ i : grid4.Coords, EltTy.bits .bf16 = 32 ∨ (Rect.block (s := S10x768x50) S10x768x50.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10x50x256.size a ≤ S10x50x3072.size a
  hwx4_3 : ∀ i : grid4.Coords, EltTy.bits .bf16 = 32 ∨ (Rect.block (s := S10x50x3072) S10x50x256.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10x50x256.size a ≤ S10x50x3072.size a
  hwx4_4 : ∀ i : grid4.Coords, EltTy.bits .bf16 = 32 ∨ (Rect.block (s := S10x50x3072) S10x50x256.size (cc4_transform_4 i) (hinb4_4 i)).WholeWords (EltTy.packing .bf16)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10x50x256.size a ≤ S10x50x3072.size a
  hwx4_5 : ∀ i : grid4.Coords, EltTy.bits .bf16 = 32 ∨ (Rect.block (s := S10x50x3072) S10x50x256.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S10x768x1.size a ≤ S10x768x1.size a
  hwx4_6 : ∀ i : grid4.Coords, EltTy.bits .f32 = 32 ∨ (Rect.block (s := S10x768x1) S10x768x1.size (cc4_transform_6 i) (hinb4_6 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S10x768x50.size a ≤ S10x768x50.size a
  hwx5_0 : ∀ i : grid5.Coords, EltTy.bits .bf16 = 32 ∨ (Rect.block (s := S10x768x50) S10x768x50.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10x768x50.size a ≤ S10x768x50.size a
  hwx5_1 : ∀ i : grid5.Coords, EltTy.bits .bf16 = 32 ∨ (Rect.block (s := S10x768x50) S10x768x50.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S10x768x50.size a ≤ S10x768x50.size a
  hwx5_2 : ∀ i : grid5.Coords, EltTy.bits .bf16 = 32 ∨ (Rect.block (s := S10x768x50) S10x768x50.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10x50x256.size a ≤ S10x50x3072.size a
  hwx5_3 : ∀ i : grid5.Coords, EltTy.bits .bf16 = 32 ∨ (Rect.block (s := S10x50x3072) S10x50x256.size (cc5_transform_3 i) (hinb5_3 i)).WholeWords (EltTy.packing .bf16)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10x50x256.size a ≤ S10x50x3072.size a
  hwx5_4 : ∀ i : grid5.Coords, EltTy.bits .bf16 = 32 ∨ (Rect.block (s := S10x50x3072) S10x50x256.size (cc5_transform_4 i) (hinb5_4 i)).WholeWords (EltTy.packing .bf16)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10x50x256.size a ≤ S10x50x3072.size a
  hwx5_5 : ∀ i : grid5.Coords, EltTy.bits .bf16 = 32 ∨ (Rect.block (s := S10x50x3072) S10x50x256.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S10x768x1.size a ≤ S10x768x1.size a
  hwx5_6 : ∀ i : grid5.Coords, EltTy.bits .f32 = 32 ∨ (Rect.block (s := S10x768x1) S10x768x1.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S10x50x768.size a ≤ S10x50x768.size a
  hwx5_7 : ∀ i : grid5.Coords, EltTy.bits .bf16 = 32 ∨ (Rect.block (s := S10x50x768) S10x50x768.size (cc5_transform_7 i) (hinb5_7 i)).WholeWords (EltTy.packing .bf16)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S10x50x256.size a ≤ S10x50x3072.size a
  hwx5_8 : ∀ i : grid5.Coords, EltTy.bits .f32 = 32 ∨ (Rect.block (s := S10x50x3072) S10x50x256.size (cc5_transform_8 i) (hinb5_8 i)).WholeWords (EltTy.packing .f32)

variable [Facts₀]

def dot_S10x768x50_S10x50x256_S10x768x256_2_1_1_2_0_0 : DotDims S10x768x50 S10x50x256 S10x768x256 where
  lhsContracting := [2]
  rhsContracting := [1]
  lhsNonContracting := [1]
  rhsNonContracting := [2]
  lhsBatch := [0]
  rhsBatch := [0]
  wf := dot_S10x768x50_S10x50x256_S10x768x256_2_1_1_2_0_0_wf
def dot_S10x768x256_S10x50x256_S10x768x50_2_2_1_1_0_0 : DotDims S10x768x256 S10x50x256 S10x768x50 where
  lhsContracting := [2]
  rhsContracting := [2]
  lhsNonContracting := [1]
  rhsNonContracting := [1]
  lhsBatch := [0]
  rhsBatch := [0]
  wf := dot_S10x768x256_S10x50x256_S10x768x50_2_2_1_1_0_0_wf
def dot_S10x50x768_S10x768x256_S10x50x256_2_1_1_2_0_0 : DotDims S10x50x768 S10x768x256 S10x50x256 where
  lhsContracting := [2]
  rhsContracting := [1]
  lhsNonContracting := [1]
  rhsNonContracting := [2]
  lhsBatch := [0]
  rhsBatch := [0]
  wf := dot_S10x50x768_S10x768x256_S10x50x256_2_1_1_2_0_0_wf

abbrev win0_0 : Pipeline.Window sig grid0 :=
  Pipeline.Window.ofSpec (Memref.whole main_v22) S10x768x50.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v23) S10x768x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S10x768x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10x50x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S10x50x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10x50x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25) S10x768x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v33) S10x768x50.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v34) S10x768x50.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S10x768x50.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S10x50x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S10x50x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S10x50x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v32) S10x768x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36_0) S10x768x50.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36_1) S10x768x50.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36_2) S10x768x50.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v55) S10x768x50.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v56) S10x768x50.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S10x768x50.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S10x50x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v1) S10x50x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v2) S10x50x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v58) S10x768x1.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v66) S10x768x50.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v67) S10x768x50.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S10x768x50.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v0) S10x50x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v1) S10x50x256.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v2) S10x50x256.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v65) S10x768x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v69_0) S10x768x50.size cc3_transform_7 reads3_7 true true 1 stage3_7 sem3_7
    hrank3 hreads3_7 hinb3_7 nbuf3_7 (Memref.isWhole_whole _) hwx3_7 hstage3_7

abbrev win3_8 : Pipeline.Window sig grid3 :=
  Pipeline.Window.ofSpec (Memref.whole main_v69_1) S10x768x50.size cc3_transform_8 reads3_8 true true 1 stage3_8 sem3_8
    hrank3 hreads3_8 hinb3_8 nbuf3_8 (Memref.isWhole_whole _) hwx3_8 hstage3_8

abbrev win3_9 : Pipeline.Window sig grid3 :=
  Pipeline.Window.ofSpec (Memref.whole main_v69_2) S10x768x50.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev idle3 : Fin 10 → grid3.Coords → Bool := fun | 0 => fun _ => false | 1 => fun _ => false | 2 => fun _ => false | 3 => fun _ => false | 4 => fun _ => false | 5 => fun _ => false | 6 => fun _ => false | 7 => fun i => !(k3_cond2 i == 1#1) | 8 => fun i => !(k3_cond2 i == 1#1) | 9 => fun i => !(k3_cond2 i == 1#1) | ⟨_ + 10, h⟩ => absurd h (Nat.not_lt.2 (Nat.le_add_left _ _))

abbrev win4_0 : Pipeline.Window sig grid4 :=
  Pipeline.Window.ofSpec (Memref.whole main_v88) S10x768x50.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v89) S10x768x50.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v90) S10x768x50.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v0) S10x50x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v1) S10x50x256.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v2) S10x50x256.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v91) S10x768x1.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v99) S10x768x50.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v100) S10x768x50.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v101) S10x768x50.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v0) S10x50x256.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v1) S10x50x256.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v2) S10x50x256.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v98) S10x768x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v3) S10x50x768.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v102) S10x50x256.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S10x50x3072 : Shape := ⟨3, ![10, 50, 3072]⟩
abbrev S10x50x768 : Shape := ⟨3, ![10, 50, 768]⟩
abbrev S_ : Shape := ⟨0, ![]⟩
abbrev S10x768x50 : Shape := ⟨3, ![10, 768, 50]⟩
abbrev S10x2304x50 : Shape := ⟨3, ![10, 2304, 50]⟩
abbrev S10x50 : Shape := ⟨2, ![10, 50]⟩
abbrev S10x1x50 : Shape := ⟨3, ![10, 1, 50]⟩
abbrev S10x768x3072 : Shape := ⟨3, ![10, 768, 3072]⟩
abbrev S10x768 : Shape := ⟨2, ![10, 768]⟩
abbrev S10x768x1 : Shape := ⟨3, ![10, 768, 1]⟩
abbrev S10x3072x50 : Shape := ⟨3, ![10, 3072, 50]⟩

abbrev nBuf : Space → Nat
  | .hbm => 146
  | .vmem => 0
  | .smem => 0
  | _ => 0

abbrev hbmTy0_0 (i : Nat) : BufTy := match i % 128 with
  | 0 => ⟨S10x50x3072, .f32⟩
  | 1 => ⟨S10x50x3072, .f32⟩
  | 2 => ⟨S10x50x3072, .f32⟩
  | 3 => ⟨S10x50x768, .f32⟩
  | 4 => ⟨S_, .f32⟩
  | 5 => ⟨S10x768x50, .f32⟩
  | 6 => ⟨S_, .f32⟩
  | 7 => ⟨S10x768x50, .f32⟩
  | 8 => ⟨S_, .f32⟩
  | 9 => ⟨S10x768x50, .f32⟩
  | 10 => ⟨S10x2304x50, .f32⟩
  | 11 => ⟨S_, .f32⟩
  | 12 => ⟨S10x50, .f32⟩
  | 13 => ⟨S_, .f32⟩
  | 14 => ⟨S10x50, .f32⟩
  | 15 => ⟨S10x50, .f32⟩
  | 16 => ⟨S10x1x50, .f32⟩
  | 17 => ⟨S10x2304x50, .f32⟩
  | 18 => ⟨S10x2304x50, .f32⟩
  | 19 => ⟨S10x2304x50, .f32⟩
  | 20 => ⟨S_, .f32⟩
  | 21 => ⟨S10x50, .f32⟩
  | 22 => ⟨S10x1x50, .f32⟩
  | 23 => ⟨S10x2304x50, .f32⟩
  | 24 => ⟨S10x2304x50, .f32⟩
  | 25 => ⟨S10x768x50, .f32⟩
  | 26 => ⟨S10x768x50, .f32⟩
  | 27 => ⟨S10x768x50, .f32⟩
  | 28 => ⟨S10x768x3072, .f32⟩
  | 29 => ⟨S10x768x3072, .f32⟩
  | 30 => ⟨S10x768x3072, .f32⟩
  | 31 => ⟨S10x768x3072, .f32⟩
  | 32 => ⟨S10x768x3072, .f32⟩
  | 33 => ⟨S10x768x3072, .f32⟩
  | 34 => ⟨S_, .f32⟩
  | 35 => ⟨S10x768, .f32⟩
  | 36 => ⟨S10x768x1, .f32⟩
  | 37 => ⟨S_, .f32⟩
  | 38 => ⟨S10x768x1, .f32⟩
  | 39 => ⟨S10x768x1, .f32⟩
  | 40 => ⟨S10x768x1, .f32⟩
  | 41 => ⟨S10x768x3072, .f32⟩
  | 42 => ⟨S10x768x3072, .f32⟩
  | 43 => ⟨S10x768x1, .f32⟩
  | 44 => ⟨S_, .f32⟩
  | 45 => ⟨S10x768x1, .f32⟩
  | 46 => ⟨S10x768x1, .f32⟩
  | 47 => ⟨S10x768x3072, .f32⟩
  | 48 => ⟨S10x768x3072, .f32⟩
  | 49 => ⟨S10x3072x50, .f32⟩
  | 50 => ⟨S10x768x50, .f32⟩
  | 51 => ⟨S10x768x50, .f32⟩
  | 52 => ⟨S10x3072x50, .f32⟩
  | 53 => ⟨S10x768x50, .f32⟩
  | 54 => ⟨S10x768x50, .f32⟩
  | 55 => ⟨S10x3072x50, .f32⟩
  | 56 => ⟨S10x768x50, .f32⟩
  | 57 => ⟨S10x768x50, .f32⟩
  | 58 => ⟨S10x2304x50, .f32⟩
  | 59 => ⟨S_, .f32⟩
  | 60 => ⟨S10x50, .f32⟩
  | 61 => ⟨S_, .f32⟩
  | 62 => ⟨S10x50, .f32⟩
  | 63 => ⟨S10x50, .f32⟩
  | 64 => ⟨S10x1x50, .f32⟩
  | 65 => ⟨S10x2304x50, .f32⟩
  | 66 => ⟨S10x2304x50, .f32⟩
  | 67 => ⟨S10x2304x50, .f32⟩
  | 68 => ⟨S_, .f32⟩
  | 69 => ⟨S10x50, .f32⟩
  | 70 => ⟨S10x1x50, .f32⟩
  | 71 => ⟨S10x2304x50, .f32⟩
  | 72 => ⟨S10x2304x50, .f32⟩
  | 73 => ⟨S10x768x50, .f32⟩
  | 74 => ⟨S10x768x50, .f32⟩
  | 75 => ⟨S10x768x50, .f32⟩
  | 76 => ⟨S10x768x3072, .f32⟩
  | 77 => ⟨S10x768x3072, .f32⟩
  | 78 => ⟨S10x768x3072, .f32⟩
  | 79 => ⟨S10x768x3072, .f32⟩
  | 80 => ⟨S10x768x3072, .f32⟩
  | 81 => ⟨S10x768x3072, .f32⟩
  | 82 => ⟨S_, .f32⟩
  | 83 => ⟨S10x768, .f32⟩
  | 84 => ⟨S10x768x1, .f32⟩
  | 85 => ⟨S_, .f32⟩
  | 86 => ⟨S10x768x1, .f32⟩
  | 87 => ⟨S10x768x1, .f32⟩
  | 88 => ⟨S10x768x1, .f32⟩
  | 89 => ⟨S10x768x3072, .f32⟩
  | 90 => ⟨S10x768x3072, .f32⟩
  | 91 => ⟨S10x768x1, .f32⟩
  | 92 => ⟨S_, .f32⟩
  | 93 => ⟨S10x768x1, .f32⟩
  | 94 => ⟨S10x768x1, .f32⟩
  | 95 => ⟨S10x768x3072, .f32⟩
  | 96 => ⟨S10x768x3072, .f32⟩
  | 97 => ⟨S10x3072x50, .f32⟩
  | 98 => ⟨S10x768x50, .f32⟩
  | 99 => ⟨S10x768x50, .f32⟩
  | 100 => ⟨S10x3072x50, .f32⟩
  | 101 => ⟨S10x768x50, .f32⟩
  | 102 => ⟨S10x768x50, .f32⟩
  | 103 => ⟨S10x3072x50, .f32⟩
  | 104 => ⟨S10x768x50, .f32⟩
  | 105 => ⟨S10x768x50, .f32⟩
  | 106 => ⟨S10x2304x50, .f32⟩
  | 107 => ⟨S_, .f32⟩
  | 108 => ⟨S10x50, .f32⟩
  | 109 => ⟨S_, .f32⟩
  | 110 => ⟨S10x50, .f32⟩
  | 111 => ⟨S10x50, .f32⟩
  | 112 => ⟨S10x1x50, .f32⟩
  | 113 => ⟨S10x2304x50, .f32⟩
  | 114 => ⟨S10x2304x50, .f32⟩
  | 115 => ⟨S10x2304x50, .f32⟩
  | 116 => ⟨S_, .f32⟩
  | 117 => ⟨S10x50, .f32⟩
  | 118 => ⟨S10x1x50, .f32⟩
  | 119 => ⟨S10x2304x50, .f32⟩
  | 120 => ⟨S10x2304x50, .f32⟩
  | 121 => ⟨S10x768x50, .f32⟩
  | 122 => ⟨S10x768x50, .f32⟩
  | 123 => ⟨S10x768x50, .f32⟩
  | 124 => ⟨S10x768x3072, .f32⟩
  | 125 => ⟨S10x768x3072, .f32⟩
  | 126 => ⟨S10x768x3072, .f32⟩
  | 127 => ⟨S10x768x3072, .f32⟩
  | _ => ⟨S10x50x3072, .f32⟩

abbrev hbmTy0_1 (i : Nat) : BufTy := match i % 128 with
  | 0 => ⟨S10x768x3072, .f32⟩
  | 1 => ⟨S10x768x3072, .f32⟩
  | 2 => ⟨S_, .f32⟩
  | 3 => ⟨S10x768, .f32⟩
  | 4 => ⟨S10x768x1, .f32⟩
  | 5 => ⟨S_, .f32⟩
  | 6 => ⟨S10x768x1, .f32⟩
  | 7 => ⟨S10x768x1, .f32⟩
  | 8 => ⟨S10x768x1, .f32⟩
  | 9 => ⟨S10x768x3072, .f32⟩
  | 10 => ⟨S10x768x3072, .f32⟩
  | 11 => ⟨S10x768x1, .f32⟩
  | 12 => ⟨S_, .f32⟩
  | 13 => ⟨S10x768x1, .f32⟩
  | 14 => ⟨S10x768x1, .f32⟩
  | 15 => ⟨S10x768x3072, .f32⟩
  | 16 => ⟨S10x768x3072, .f32⟩
  | 17 => ⟨S10x50x3072, .f32⟩
  | _ => ⟨S10x50x3072, .f32⟩

abbrev hbmTy (i : Nat) : BufTy := match i / 128 with
  | 0 => hbmTy0_0 i
  | 1 => hbmTy0_1 i
  | _ => ⟨S10x50x3072, .f32⟩

abbrev bufTy : (tb : Table) → Fin (tcTables nBuf tb) → BufTy
  | .hbm, ⟨i, _⟩ => hbmTy i
  | _, _ => ⟨S10x50x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_cst_3 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_v67 : Ref sig .tc := ⟨.hbm, 84, rfl⟩
abbrev main_cst_12 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_13 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_14 : Ref sig .tc := ⟨.hbm, 107, rfl⟩
abbrev main_v88 : Ref sig .tc := ⟨.hbm, 108, rfl⟩
abbrev main_cst_15 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_16 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_17 : Ref sig .tc := ⟨.hbm, 130, rfl⟩
abbrev main_v108 : Ref sig .tc := ⟨.hbm, 131, rfl⟩
abbrev main_v109 : Ref sig .tc := ⟨.hbm, 132, rfl⟩
abbrev main_cst_18 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_cst_19 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩

abbrev nD : Nat := 1
abbrev τ : Topo := Topo.v7x

variable {F : FTy → Type} [FloatOps F]

class Facts₀ : Prop where
  bcast_S_S10x768x50 : S_.BroadcastsInDim S10x768x50 (![] : Fin 0 → Fin S10x768x50.rank)
  concatenates_S10x768x50_S10x768x50_S10x768x50_S10x2304x50_d1 : Shape.Concatenates [S10x768x50, S10x768x50, S10x768x50] S10x2304x50 1
  reducesTo_S10x2304x50_S10x50_d1 : S10x2304x50.ReducesTo [1] S10x50
  h_S_ : 0 < S_.numel
  bcast_S_S10x50 : S_.BroadcastsInDim S10x50 (![] : Fin 0 → Fin S10x50.rank)
  bcast_S10x50_S10x1x50_0_2 : S10x50.BroadcastsInDim S10x1x50 (![0, 2] : Fin 2 → Fin S10x1x50.rank)
  bcast_S10x1x50_S10x2304x50_0_1_2 : S10x1x50.BroadcastsInDim S10x2304x50 (![0, 1, 2] : Fin 3 → Fin S10x2304x50.rank)
  slices_S10x2304x50_S10x768x50_0_0_0 : S10x2304x50.Slices ![0, 0, 0] S10x768x50
  slices_S10x2304x50_S10x768x50_0_768_0 : S10x2304x50.Slices ![0, 768, 0] S10x768x50
  slices_S10x2304x50_S10x768x50_0_1536_0 : S10x2304x50.Slices ![0, 1536, 0] S10x768x50
  reducesTo_S10x768x3072_S10x768_d2 : S10x768x3072.ReducesTo [2] S10x768
  bcast_S10x768_S10x768x1_0_1 : S10x768.BroadcastsInDim S10x768x1 (![0, 1] : Fin 2 → Fin S10x768x1.rank)
  bcast_S_S10x768x1 : S_.BroadcastsInDim S10x768x1 (![] : Fin 0 → Fin S10x768x1.rank)
  bcast_S10x768x1_S10x768x3072_0_1_2 : S10x768x1.BroadcastsInDim S10x768x3072 (![0, 1, 2] : Fin 3 → Fin S10x768x3072.rank)
  transposes_S10x50x3072_S10x3072x50_0_2_1 : S10x50x3072.Transposes [0, 2, 1] S10x3072x50
  dot_S10x768x50_S10x50x3072_S10x768x3072_2_1_1_2_0_0_wf : DotDims.WF S10x768x50 S10x50x3072 S10x768x3072 [2] [1] [1] [2] [0] [0]
  dot_S10x768x3072_S10x3072x50_S10x768x50_2_1_1_2_0_0_wf : DotDims.WF S10x768x3072 S10x3072x50 S10x768x50 [2] [1] [1] [2] [0] [0]
  dot_S10x50x768_S10x768x3072_S10x50x3072_2_1_1_2_0_0_wf : DotDims.WF S10x50x768 S10x768x3072 S10x50x3072 [2] [1] [1] [2] [0] [0]

variable [Facts₀]

def dot_S10x768x50_S10x50x3072_S10x768x3072_2_1_1_2_0_0 : DotDims S10x768x50 S10x50x3072 S10x768x3072 where
  lhsContracting := [2]
  rhsContracting := [1]
  lhsNonContracting := [1]
  rhsNonContracting := [2]
  lhsBatch := [0]
  rhsBatch := [0]
  wf := dot_S10x768x50_S10x50x3072_S10x768x3072_2_1_1_2_0_0_wf
def dot_S10x768x3072_S10x3072x50_S10x768x50_2_1_1_2_0_0 : DotDims S10x768x3072 S10x3072x50 S10x768x50 where
  lhsContracting := [2]
  rhsContracting := [1]
  lhsNonContracting := [1]
  rhsNonContracting := [2]
  lhsBatch := [0]
  rhsBatch := [0]
  wf := dot_S10x768x3072_S10x3072x50_S10x768x50_2_1_1_2_0_0_wf
def dot_S10x50x768_S10x768x3072_S10x50x3072_2_1_1_2_0_0 : DotDims S10x50x768 S10x768x3072 S10x50x3072 where
  lhsContracting := [2]
  rhsContracting := [1]
  lhsNonContracting := [1]
  rhsNonContracting := [2]
  lhsBatch := [0]
  rhsBatch := [0]
  wf := dot_S10x50x768_S10x768x3072_S10x50x3072_2_1_1_2_0_0_wf

class Facts : Prop extends Facts₀ where

variable [Facts]
-- ==== Proof.K.Common.lean ====
/-
  Shared openings for the kernel-side modules: the zero offset of a whole-block rectangle.
-/
import proofs.«160248_j77816217469391_2_alg».proof.Proof.Gen.Kernel.Launch
import proofs.«160248_j77816217469391_2_alg».proof.Proof.Gen.Kernel.Skeleton
import proofs.«160248_j77816217469391_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The zero offset of a rank-3 rectangle. -/
theorem hz3 : (![0, 0, 0] : Fin 3 → Nat) = fun _ => 0 := funext fun a => by fin_cases a <;> rfl

end Cert.Kernel.Hand

end
-- ==== Proof.K.Sumsq0.lean ====
/-
  The sum-of-squares kernel (pallas_call 0) as a region: its body's runs, its proof data and its body obligation, at any
  region-entry contents `V`.

  The grid has twelve points, one per 256-column tile of visual / acoustic / va.  At point `t` the body forms the tile of
  s = c1·tv + c2·ta + c3·tva  (three batched products over the 50 positions, [10,768,256]), sums its squares along the 256
  columns, and adds that [10,768,1] column to a scratch accumulator it carries from point to point: at the first point it
  first zeroes the accumulator, and at the last point it copies the accumulator into the output block, which is written
  back only then.  So the accumulator after point `t` is  acc t = acc (t-1) + Σ_{columns of tile t} s², with acc (-1) = 0, and
  the output array ends at acc 11.  At the points before the last the output window is idle: the body does not touch its
  buffer, and the pipeline does not write it back there.
-/
import proofs.«160248_j77816217469391_2_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- "This is the first point" (the accumulator is zeroed), as the body computes it from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)
/-- "This is the last point" (the accumulator is copied out). -/
abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Before the last point the output window is idle and is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last point it is live. -/
theorem liveAt0_6 : ∀ t : Fin cfg0.N, cond0_1 (grid0.coords t) → cfg0.idle 6 (grid0.coords t) = false := by decide +kernel

/-! ## The body's runs, case by case, with what each leaves named -/

set_option maxHeartbeats 4000000 in
/-- FIRST point (and not the last): the accumulator, whatever it held, ends at the tile's column sums added to zero. The output's
    buffer is not touched. -/
theorem sound0_A (c : Dev nD) (E : Set ℕ) (i : grid0.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : cond0_0 i) (hc1 : ¬cond0_1 i)
    (c1 c2 c3 : Vec F S10x768x50 .bf16) (tv ta tva : Vec F S10x50x256 .bf16) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ (∃ d, owns (c : Thread nD τ) arg8 fullShare d)
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg8 fullShare (k0_pay2 c1 tv c2 ta c3 tva (k0_pay1 (F := F)))) -∗ K ⟨⟩))
      ⊢ wp frame (wpE (defs₀ (F := F)) Variants.none c none) E (cc0__sumsq_kernel i arg1 harg1 arg2 harg2 arg3 harg3 arg4 harg4 arg5 harg5 arg6 harg6 arg7 harg7 arg8 harg8) K := by
  simp only [cc0__sumsq_kernel_eq_skeleton]; unfold cc0__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_cons_unit_zero hz3]
  simp only [View.readCov_unit_zero (S := S10x768x1) _ hz3]
  simp only [View.readAt_eq_ld, View.ld_unit_zero (S := S10x768x50) hz3, View.ld_unit_zero (S := S10x50x256) hz3, View.ld_unit_zero (S := S10x768x1) hz3]

set_option maxHeartbeats 4000000 in
/-- A point that is neither first nor last: the accumulator at `xs` ends at `xs` plus the tile's column sums. -/
theorem sound0_B (c : Dev nD) (E : Set ℕ) (i : grid0.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : ¬cond0_0 i) (hc1 : ¬cond0_1 i)
    (c1 c2 c3 : Vec F S10x768x50 .bf16) (tv ta tva : Vec F S10x50x256 .bf16) (xs : Vec F S10x768x1 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg8 fullShare xs
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg8 fullShare (k0_pay2 c1 tv c2 ta c3 tva xs)) -∗ K ⟨⟩))
      ⊢ wp frame (wpE (defs₀ (F := F)) Variants.none c none) E (cc0__sumsq_kernel i arg1 harg1 arg2 harg2 arg3 harg3 arg4 harg4 arg5 harg5 arg6 harg6 arg7 harg7 arg8 harg8) K := by
  simp only [cc0__sumsq_kernel_eq_skeleton]; unfold cc0__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, Hk⟩
  subst hf1 hf2 hf3 hf4 hf5 hf6 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_unit_zero hz3]
  simp only [View.readAt_eq_ld, View.ld_unit_zero (S := S10x768x50) hz3, View.ld_unit_zero (S := S10x50x256) hz3, View.ld_unit_zero (S := S10x768x1) hz3]

set_option maxHeartbeats 4000000 in
/-- The LAST point: the accumulator at `xs` ends at `xs` plus the tile's column sums, and the output's buffer, whatever it
    held, ends at the same value. -/
theorem sound0_C (c : Dev nD) (E : Set ℕ) (i : grid0.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : ¬cond0_0 i) (hc1 : cond0_1 i)
    (c1 c2 c3 : Vec F S10x768x50 .bf16) (tv ta tva : Vec F S10x50x256 .bf16) (xs : Vec F S10x768x1 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ (∃ d, owns (c : Thread nD τ) arg7 fullShare d) ∗ owns (c : Thread nD τ) arg8 fullShare xs
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg7 fullShare (k0_pay2 c1 tv c2 ta c3 tva xs)
            ∗ owns (c : Thread nD τ) arg8 fullShare (k0_pay2 c1 tv c2 ta c3 tva xs)) -∗ K ⟨⟩))
      ⊢ wp frame (wpE (defs₀ (F := F)) Variants.none c none) E (cc0__sumsq_kernel i arg1 harg1 arg2 harg2 arg3 harg3 arg4 harg4 arg5 harg5 arg6 harg6 arg7 harg7 arg8 harg8) K := by
  simp only [cc0__sumsq_kernel_eq_skeleton]; unfold cc0__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf1 hf2 hf3 hf4 hf5 hf6 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (fun y => ⟨_, List.mem_cons_self, View.mem_set_unit_zero hz3 inb_S10x768x1_S10x768x1_0_0_0 y⟩), View.canon_unit_zero hz3]
    simp only [View.readCov_unit_zero (S := S10x768x1) _ hz3]
    simp only [View.readAt_eq_ld, View.ld_unit_zero (S := S10x768x50) hz3, View.ld_unit_zero (S := S10x50x256) hz3, View.ld_unit_zero (S := S10x768x1) hz3]
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_unit_zero hz3]
  simp only [View.readAt_eq_ld, View.ld_unit_zero (S := S10x768x50) hz3, View.ld_unit_zero (S := S10x50x256) hz3, View.ld_unit_zero (S := S10x768x1) hz3]

end Cert.Kernel.Hand

end
-- ==== Proof.K.SumsqDat0.lean ====
/-
  The sum-of-squares kernel (pallas_call 0): the proof data of its region and the body obligation, at any region-entry
  contents `V`.  `acc0 V c n` is the accumulator after point `n`: the tile's column sums of squares added to what the point
  before left (to zero at the first point).  The invariant carried from point to point is the scratch buffer at `acc0` of the
  point before (at anything before the first point), beside the scoped buffers the kernel does not use.
-/
import proofs.«160248_j77816217469391_2_alg».proof.Proof.K.Sumsq0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The scratch accumulator, as a whole memref. -/
abbrev scM0 : Memref sig .tc .vmem S10x768x1 .f32 := Memref.whole cc0_scratch0

/-- THE ACCUMULATION: the accumulator after point `n`. -/
def acc0 (c : Dev nD) : (n : ℕ) → n < cfg0.N → Vec F S10x768x1 .f32
  | 0, hn => k0_pay2 (iblk0 V c 0 ⟨0, hn⟩) (iblk0 V c 3 ⟨0, hn⟩) (iblk0 V c 1 ⟨0, hn⟩) (iblk0 V c 4 ⟨0, hn⟩) (iblk0 V c 2 ⟨0, hn⟩) (iblk0 V c 5 ⟨0, hn⟩) (k0_pay1 (F := F))
  | n + 1, hn => k0_pay2 (iblk0 V c 0 ⟨n + 1, hn⟩) (iblk0 V c 3 ⟨n + 1, hn⟩) (iblk0 V c 1 ⟨n + 1, hn⟩) (iblk0 V c 4 ⟨n + 1, hn⟩) (iblk0 V c 2 ⟨n + 1, hn⟩) (iblk0 V c 5 ⟨n + 1, hn⟩) (acc0 c n (Nat.lt_of_succ_lt hn))

theorem acc0_zero (c : Dev nD) (t : Fin cfg0.N) (h : t.val = 0) :
    acc0 V c t.val t.isLt = k0_pay2 (iblk0 V c 0 t) (iblk0 V c 3 t) (iblk0 V c 1 t) (iblk0 V c 4 t) (iblk0 V c 2 t) (iblk0 V c 5 t) (k0_pay1 (F := F)) := by
  obtain ⟨n, hn⟩ := t
  cases n with
  | zero => rfl
  | succ n => exact absurd h (Nat.succ_ne_zero n)

theorem acc0_pos (c : Dev nD) (t : Fin cfg0.N) (h : t.val ≠ 0) :
    acc0 V c t.val t.isLt = k0_pay2 (iblk0 V c 0 t) (iblk0 V c 3 t) (iblk0 V c 1 t) (iblk0 V c 4 t) (iblk0 V c 2 t) (iblk0 V c 5 t) (acc0 V c (t.val - 1) (Nat.lt_of_le_of_lt (Nat.sub_le _ _) t.isLt)) := by
  obtain ⟨n, hn⟩ := t
  cases n with
  | zero => exact absurd rfl h
  | succ n => rfl

/-- The invariant before position `n`: before the first point the plain one (every scratch at anything); afterwards the
    accumulator at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ Pipeline.scopedRestBut (Ix := Unit) (Name := ℕ) (U := Pipeline.UD sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ Pipeline.scopedRestBut (Ix := Unit) (Name := ℕ) (U := Pipeline.UD sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ Pipeline.scopedRestBut (Ix := Unit) (Name := ℕ) (U := Pipeline.UD sig nD τ) (Lvl := ℕ) (Val := Elt F) spec0 c [cc0_scratch0]) ∗ (∃ r, prngReg c r)) := by
  cases n with
  | zero => exact absurd rfl hz
  | succ n => rfl

/-- The plain invariant with the accumulator's buffer split out of the scoped rest. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := Pipeline.UD sig nD τ) (Lvl := ℕ) (Val := Elt F) spec0 c [cc0_scratch0]) ∗ (∃ r, prngReg c r)) := by
  unfold Pipeline.ΦA; rw [scopedRest0_split]; simp only [scM0, owns_whole]; try rfl

/-- The proof data: the arrays as the region finds them; after the body each input's buffer at its block and the output's
    at the accumulator; the carried invariant; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the closed forms say which case the point is in; the invariant hands the body the accumulator at
    what the point before left (at anything at the first point) and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 12 := lt_of_lt_of_eq t.isLt (show cfg0.N = 12 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  by_cases h1 : t.val % 12 = 11
  · -- the last point
    have h0 : ¬ t.val % 12 = 0 := by omega
    have hz : t.val ≠ 0 := by omega
    rw [show (dat0 V c).leavesExact 6 t = owns (c : Thread nD τ) (st0_6 t) fullShare ((dat0 V c).after 6 t) from by
      unfold Dat.leavesExact; rw [liveAt0_6 t ((hcond0_1 t).mpr h1)], after0_6]
    rw [acc0_pos V c t hz, PhiS0_castSucc V c t, PhiS0_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound0_C c Set.univ (grid0.coords t) _ _ _ _ _ _ _ _ _ _ _ _ _ _ _ _ (fun h => h0 ((hcond0_0 t).mp h)) ((hcond0_1 t).mpr h1)
      (iblk0 V c 0 t) (iblk0 V c 1 t) (iblk0 V c 2 t) (iblk0 V c 3 t) (iblk0 V c 4 t) (iblk0 V c 5 t) (acc0 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat0 V c) 6 t (idleAt0_6 t (fun h => h1 ((hcond0_1 t).mp h))) (noFlush0_6 t (fun h => h1 ((hcond0_1 t).mp h)))]
    by_cases h0 : t.val % 12 = 0
    · -- the first point
      have hz : t.val = 0 := by omega
      rw [acc0_zero V c t hz, PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (sound0_A c Set.univ (grid0.coords t) _ _ _ _ _ _ _ _ _ _ _ _ _ _ _ _ ((hcond0_0 t).mpr h0) (fun h => h1 ((hcond0_1 t).mp h))
        (iblk0 V c 0 t) (iblk0 V c 1 t) (iblk0 V c 2 t) (iblk0 V c 3 t) (iblk0 V c 4 t) (iblk0 V c 5 t) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hz : t.val ≠ 0 := by omega
      rw [acc0_pos V c t hz, PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (sound0_B c Set.univ (grid0.coords t) _ _ _ _ _ _ _ _ _ _ _ _ _ _ _ _ (fun h => h0 ((hcond0_0 t).mp h)) (fun h => h1 ((hcond0_1 t).mp h))
        (iblk0 V c 0 t) (iblk0 V c 1 t) (iblk0 V c 2 t) (iblk0 V c 3 t) (iblk0 V c 4 t) (iblk0 V c 5 t) (acc0 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is handed (the plain invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the plain one back: the accumulator's value is forgotten. -/
theorem hout0 (c : Dev nD) : (dat0 V c).Φ (Fin.last cfg0.N) ⊢ Pipeline.ΦA spec0 c := by
  have hne : (Fin.last cfg0.N).val ≠ 0 := by rw [Fin.val_last]; have : cfg0.N = 12 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS, HR⟩, Hg⟩
  isplitl [HS HR]
  · isplitl [HS]; · iexists _; iexact HS
    iexact HR
  iexact Hg

end Cert.Kernel.Hand

end
-- ==== Proof.K.Bupd1.lean ====
/-
  The logit-update kernel (pallas_call 1): its body's runs, case by case, with what each leaves named.

  The grid has twelve points, one per 256-column tile of visual / acoustic / va.  At point `t` the body forms the tile of the
  squashed capsules  a = factor · (c1·tv + c2·ta + c3·tva)  ([10,768,256]) and adds the three batched products of `a` with the
  tiles of visual, acoustic and va over the 256 columns (each [10,768,50]) to three scratch accumulators it carries from
  point to point: at the first point it first zeroes them, and at the last point it copies them into the three output
  blocks, which are written back only then.
-/
import proofs.«160248_j77816217469391_2_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- "This is the first point" (the accumulators are zeroed), as the body computes it from the grid coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 12 = 0 :=
  (by decide +kernel : ∀ t : Fin grid1.N, cond1_0 (grid1.coords t) ↔ t.val % 12 = 0)
/-- "This is the last point" (the accumulators are copied out). -/
abbrev cond1_1 (i : grid1.Coords) : Prop := k1_cond2 i = 1#1
theorem hcond1_1 : ∀ t : Fin cfg1.N, cond1_1 (grid1.coords t) ↔ t.val % 12 = 11 :=
  (by decide +kernel : ∀ t : Fin grid1.N, cond1_1 (grid1.coords t) ↔ t.val % 12 = 11)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel
theorem idleAt1_9 : ∀ t : Fin cfg1.N, ¬cond1_1 (grid1.coords t) → cfg1.idle 9 (grid1.coords t) = true := by decide +kernel
theorem noFlush1_9 : ∀ t : Fin cfg1.N, ¬cond1_1 (grid1.coords t) → (cfg1.win 9).flush t = false := by decide +kernel
theorem liveAt1_9 : ∀ t : Fin cfg1.N, cond1_1 (grid1.coords t) → cfg1.idle 9 (grid1.coords t) = false := by decide +kernel

/-! ## The body's runs -/

set_option maxHeartbeats 8000000 in
/-- FIRST point (and not the last): the three accumulators, whatever they held, end at the tile's three products added to zero.
    The outputs' buffers are not touched. -/
theorem sound1_A (c : Dev nD) (E : Set ℕ) (i : grid1.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x50 .f32) (harg8 : arg8.IsWhole)
    (arg9 : Memref sig .tc .vmem S10x768x50 .f32) (harg9 : arg9.IsWhole) (arg10 : Memref sig .tc .vmem S10x768x50 .f32) (harg10 : arg10.IsWhole)
    (arg11 : Memref sig .tc .vmem S10x768x50 .f32) (harg11 : arg11.IsWhole) (arg12 : Memref sig .tc .vmem S10x768x50 .f32) (harg12 : arg12.IsWhole)
    (arg13 : Memref sig .tc .vmem S10x768x50 .f32) (harg13 : arg13.IsWhole)
    (hc0 : cond1_0 i) (hc1 : ¬cond1_1 i)
    (c1 c2 c3 : Vec F S10x768x50 .bf16) (tv ta tva : Vec F S10x50x256 .bf16) (fac : Vec F S10x768x1 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
            ∗ owns (c : Thread nD τ) arg11 fullShare (k1_pay1 (k1_pay11 tv ta tva c1 c2 c3 fac (k1_pay4 (F := F))))
            ∗ owns (c : Thread nD τ) arg12 fullShare (k1_pay2 (k1_pay8 ta) (k1_pay10 tv ta tva c1 c2 c3 fac) (k1_pay5 (F := F)))
            ∗ owns (c : Thread nD τ) arg13 fullShare (k1_pay3 (k1_pay9 tva) (k1_pay10 tv ta tva c1 c2 c3 fac) (k1_pay6 (F := F)))) -∗ K ⟨⟩))
      ⊢ wp frame (wpE (defs₀ (F := F)) Variants.none c none) E (cc1__bupdate_kernel i arg1 harg1 arg2 harg2 arg3 harg3 arg4 harg4 arg5 harg5 arg6 harg6 arg7 harg7 arg8 harg8 arg9 harg9 arg10 harg10 arg11 harg11 arg12 harg12 arg13 harg13) K := by
  simp only [cc1__bupdate_kernel_eq_skeleton]; unfold cc1__bupdate_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d11, %f11, -, H11⟩, ⟨%d12, %f12, -, H12⟩, ⟨%d13, %f13, -, H13⟩, Hk⟩
  subst hf1 hf2 hf3 hf4 hf5 hf6 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H11]
  · iexists _; isplitr
    swap; · iexact H11
    ipureintro
    sl_unfold_words
    rw [View.read_writes_eq_canon _ _ _ (fun y => ⟨_, List.mem_cons_self, View.mem_set_unit_zero hz3 inb_S10x768x50_S10x768x50_0_0_0 y⟩), View.canon_cons_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H12]
  · iexists _; isplitr
    swap; · iexact H12
    ipureintro
    sl_unfold_words
    rw [View.read_writes_eq_canon _ _ _ (fun y => ⟨_, List.mem_cons_self, View.mem_set_unit_zero hz3 inb_S10x768x50_S10x768x50_0_0_0 y⟩), View.canon_cons_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  iexists _; isplitr
  swap; · iexact H13
  ipureintro
  sl_unfold_words
  rw [View.read_writes_eq_canon _ _ _ (fun y => ⟨_, List.mem_cons_self, View.mem_set_unit_zero hz3 inb_S10x768x50_S10x768x50_0_0_0 y⟩), View.canon_cons_unit_zero hz3]
  simp only [View.readCov_unit_zero (S := S10x768x50) _ hz3, View.readAt_eq_ld, View.ld_unit_zero (S := S10x768x50) hz3, View.ld_unit_zero (S := S10x50x256) hz3, View.ld_unit_zero (S := S10x768x1) hz3]

set_option maxHeartbeats 8000000 in
/-- A point that is neither first nor last: the accumulators at `x1 x2 x3` end at those plus the tile's three products. -/
theorem sound1_B (c : Dev nD) (E : Set ℕ) (i : grid1.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x50 .f32) (harg8 : arg8.IsWhole)
    (arg9 : Memref sig .tc .vmem S10x768x50 .f32) (harg9 : arg9.IsWhole) (arg10 : Memref sig .tc .vmem S10x768x50 .f32) (harg10 : arg10.IsWhole)
    (arg11 : Memref sig .tc .vmem S10x768x50 .f32) (harg11 : arg11.IsWhole) (arg12 : Memref sig .tc .vmem S10x768x50 .f32) (harg12 : arg12.IsWhole)
    (arg13 : Memref sig .tc .vmem S10x768x50 .f32) (harg13 : arg13.IsWhole)
    (hc0 : ¬cond1_0 i) (hc1 : ¬cond1_1 i)
    (c1 c2 c3 : Vec F S10x768x50 .bf16) (tv ta tva : Vec F S10x50x256 .bf16) (fac : Vec F S10x768x1 .f32)
    (x1 x2 x3 : Vec F S10x768x50 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
        ∗ owns (c : Thread nD τ) arg11 fullShare x1 ∗ owns (c : Thread nD τ) arg12 fullShare x2 ∗ owns (c : Thread nD τ) arg13 fullShare x3
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
            ∗ owns (c : Thread nD τ) arg11 fullShare (k1_pay1 (k1_pay11 tv ta tva c1 c2 c3 fac x1))
            ∗ owns (c : Thread nD τ) arg12 fullShare (k1_pay2 (k1_pay8 ta) (k1_pay10 tv ta tva c1 c2 c3 fac) x2)
            ∗ owns (c : Thread nD τ) arg13 fullShare (k1_pay3 (k1_pay9 tva) (k1_pay10 tv ta tva c1 c2 c3 fac) x3)) -∗ K ⟨⟩))
      ⊢ wp frame (wpE (defs₀ (F := F)) Variants.none c none) E (cc1__bupdate_kernel i arg1 harg1 arg2 harg2 arg3 harg3 arg4 harg4 arg5 harg5 arg6 harg6 arg7 harg7 arg8 harg8 arg9 harg9 arg10 harg10 arg11 harg11 arg12 harg12 arg13 harg13) K := by
  simp only [cc1__bupdate_kernel_eq_skeleton]; unfold cc1__bupdate_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, ⟨%f13, %hf13, H13⟩, Hk⟩
  subst hf1 hf2 hf3 hf4 hf5 hf6 hf7 hf11 hf12 hf13
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H11]
  · iexists _; isplitr
    swap; · iexact H11
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H12]
  · iexists _; isplitr
    swap; · iexact H12
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  iexists _; isplitr
  swap; · iexact H13
  ipureintro
  sl_unfold_words
  rw [View.read_writes_eq_canon _ _ _ (fun y => ⟨_, List.mem_cons_self, View.mem_set_unit_zero hz3 inb_S10x768x50_S10x768x50_0_0_0 y⟩), View.canon_unit_zero hz3]
  simp only [View.readCov_unit_zero (S := S10x768x50) _ hz3, View.readAt_eq_ld, View.ld_unit_zero (S := S10x768x50) hz3, View.ld_unit_zero (S := S10x50x256) hz3, View.ld_unit_zero (S := S10x768x1) hz3]

set_option maxHeartbeats 8000000 in
/-- The LAST point: the accumulators at `x1 x2 x3` end at those plus the tile's three products, and the three outputs' buffers,
    whatever they held, end at the same three values. -/
theorem sound1_C (c : Dev nD) (E : Set ℕ) (i : grid1.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x50 .f32) (harg8 : arg8.IsWhole)
    (arg9 : Memref sig .tc .vmem S10x768x50 .f32) (harg9 : arg9.IsWhole) (arg10 : Memref sig .tc .vmem S10x768x50 .f32) (harg10 : arg10.IsWhole)
    (arg11 : Memref sig .tc .vmem S10x768x50 .f32) (harg11 : arg11.IsWhole) (arg12 : Memref sig .tc .vmem S10x768x50 .f32) (harg12 : arg12.IsWhole)
    (arg13 : Memref sig .tc .vmem S10x768x50 .f32) (harg13 : arg13.IsWhole)
    (hc0 : ¬cond1_0 i) (hc1 : cond1_1 i)
    (c1 c2 c3 : Vec F S10x768x50 .bf16) (tv ta tva : Vec F S10x50x256 .bf16) (fac : Vec F S10x768x1 .f32)
    (x1 x2 x3 : Vec F S10x768x50 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare x1 ∗ owns (c : Thread nD τ) arg12 fullShare x2 ∗ owns (c : Thread nD τ) arg13 fullShare x3
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
            ∗ owns (c : Thread nD τ) arg8 fullShare (k1_pay1 (k1_pay11 tv ta tva c1 c2 c3 fac x1))
            ∗ owns (c : Thread nD τ) arg9 fullShare (k1_pay2 (k1_pay8 ta) (k1_pay10 tv ta tva c1 c2 c3 fac) x2)
            ∗ owns (c : Thread nD τ) arg10 fullShare (k1_pay3 (k1_pay9 tva) (k1_pay10 tv ta tva c1 c2 c3 fac) x3)
            ∗ owns (c : Thread nD τ) arg11 fullShare (k1_pay1 (k1_pay11 tv ta tva c1 c2 c3 fac x1))
            ∗ owns (c : Thread nD τ) arg12 fullShare (k1_pay2 (k1_pay8 ta) (k1_pay10 tv ta tva c1 c2 c3 fac) x2)
            ∗ owns (c : Thread nD τ) arg13 fullShare (k1_pay3 (k1_pay9 tva) (k1_pay10 tv ta tva c1 c2 c3 fac) x3)) -∗ K ⟨⟩))
      ⊢ wp frame (wpE (defs₀ (F := F)) Variants.none c none) E (cc1__bupdate_kernel i arg1 harg1 arg2 harg2 arg3 harg3 arg4 harg4 arg5 harg5 arg6 harg6 arg7 harg7 arg8 harg8 arg9 harg9 arg10 harg10 arg11 harg11 arg12 harg12 arg13 harg13) K := by
  simp only [cc1__bupdate_kernel_eq_skeleton]; unfold cc1__bupdate_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, Hk⟩
  subst hf1 hf2 hf3 hf4 hf5 hf6 hf7 hf11 hf12 hf13
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H9]
  · iexists _; isplitr
    swap; · iexact H9
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H10]
  · iexists _; isplitr
    swap; · iexact H10
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H11]
  · iexists _; isplitr
    swap; · iexact H11
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H12]
  · iexists _; isplitr
    swap; · iexact H12
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  iexists _; isplitr
  swap; · iexact H13
  ipureintro
  sl_unfold_words
  rw [View.read_writes_eq_canon _ _ _ (fun y => ⟨_, List.mem_cons_self, View.mem_set_unit_zero hz3 inb_S10x768x50_S10x768x50_0_0_0 y⟩), View.canon_unit_zero hz3]
  simp only [View.readCov_unit_zero (S := S10x768x50) _ hz3, View.readAt_eq_ld, View.ld_unit_zero (S := S10x768x50) hz3, View.ld_unit_zero (S := S10x50x256) hz3, View.ld_unit_zero (S := S10x768x1) hz3]

end Cert.Kernel.Hand

end
-- ==== Proof.K.BupdDat1.lean ====
/-
  The logit-update kernel (pallas_call 1): the proof data of its region and the body obligation, at any region-entry contents
  `V`.  `acc1 V c n` is the triple of accumulators after point `n`: the tile's three products added to what the point before
  left (to zero at the first point).  The invariant carried from point to point is the three scratch buffers at `acc1` of the
  point before (at anything before the first point), beside the scoped buffers the kernel does not use.
-/
import proofs.«160248_j77816217469391_2_alg».proof.Proof.K.Bupd1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The three scratch accumulators, as whole memrefs. -/
abbrev scA1 : Memref sig .tc .vmem S10x768x50 .f32 := Memref.whole cc1_scratch0
abbrev scB1 : Memref sig .tc .vmem S10x768x50 .f32 := Memref.whole cc1_scratch1
abbrev scC1 : Memref sig .tc .vmem S10x768x50 .f32 := Memref.whole cc1_scratch2

/-- THE ACCUMULATION: the three accumulators after point `n`. -/
def acc1 (c : Dev nD) : (n : ℕ) → n < cfg1.N → Vec F S10x768x50 .f32 × Vec F S10x768x50 .f32 × Vec F S10x768x50 .f32
  | 0, hn => ((k1_pay1 (k1_pay11 (iblk1 V c 3 ⟨0, hn⟩) (iblk1 V c 4 ⟨0, hn⟩) (iblk1 V c 5 ⟨0, hn⟩) (iblk1 V c 0 ⟨0, hn⟩) (iblk1 V c 1 ⟨0, hn⟩) (iblk1 V c 2 ⟨0, hn⟩) (iblk1 V c 6 ⟨0, hn⟩) (k1_pay4 (F := F)))), (k1_pay2 (k1_pay8 (iblk1 V c 4 ⟨0, hn⟩)) (k1_pay10 (iblk1 V c 3 ⟨0, hn⟩) (iblk1 V c 4 ⟨0, hn⟩) (iblk1 V c 5 ⟨0, hn⟩) (iblk1 V c 0 ⟨0, hn⟩) (iblk1 V c 1 ⟨0, hn⟩) (iblk1 V c 2 ⟨0, hn⟩) (iblk1 V c 6 ⟨0, hn⟩)) (k1_pay5 (F := F))), (k1_pay3 (k1_pay9 (iblk1 V c 5 ⟨0, hn⟩)) (k1_pay10 (iblk1 V c 3 ⟨0, hn⟩) (iblk1 V c 4 ⟨0, hn⟩) (iblk1 V c 5 ⟨0, hn⟩) (iblk1 V c 0 ⟨0, hn⟩) (iblk1 V c 1 ⟨0, hn⟩) (iblk1 V c 2 ⟨0, hn⟩) (iblk1 V c 6 ⟨0, hn⟩)) (k1_pay6 (F := F))))
  | n + 1, hn => ((k1_pay1 (k1_pay11 (iblk1 V c 3 ⟨n + 1, hn⟩) (iblk1 V c 4 ⟨n + 1, hn⟩) (iblk1 V c 5 ⟨n + 1, hn⟩) (iblk1 V c 0 ⟨n + 1, hn⟩) (iblk1 V c 1 ⟨n + 1, hn⟩) (iblk1 V c 2 ⟨n + 1, hn⟩) (iblk1 V c 6 ⟨n + 1, hn⟩) (acc1 c n (Nat.lt_of_succ_lt hn)).1)), (k1_pay2 (k1_pay8 (iblk1 V c 4 ⟨n + 1, hn⟩)) (k1_pay10 (iblk1 V c 3 ⟨n + 1, hn⟩) (iblk1 V c 4 ⟨n + 1, hn⟩) (iblk1 V c 5 ⟨n + 1, hn⟩) (iblk1 V c 0 ⟨n + 1, hn⟩) (iblk1 V c 1 ⟨n + 1, hn⟩) (iblk1 V c 2 ⟨n + 1, hn⟩) (iblk1 V c 6 ⟨n + 1, hn⟩)) (acc1 c n (Nat.lt_of_succ_lt hn)).2.1), (k1_pay3 (k1_pay9 (iblk1 V c 5 ⟨n + 1, hn⟩)) (k1_pay10 (iblk1 V c 3 ⟨n + 1, hn⟩) (iblk1 V c 4 ⟨n + 1, hn⟩) (iblk1 V c 5 ⟨n + 1, hn⟩) (iblk1 V c 0 ⟨n + 1, hn⟩) (iblk1 V c 1 ⟨n + 1, hn⟩) (iblk1 V c 2 ⟨n + 1, hn⟩) (iblk1 V c 6 ⟨n + 1, hn⟩)) (acc1 c n (Nat.lt_of_succ_lt hn)).2.2))

theorem acc1_zero (c : Dev nD) (t : Fin cfg1.N) (h : t.val = 0) :
    acc1 V c t.val t.isLt = ((k1_pay1 (k1_pay11 (iblk1 V c 3 t) (iblk1 V c 4 t) (iblk1 V c 5 t) (iblk1 V c 0 t) (iblk1 V c 1 t) (iblk1 V c 2 t) (iblk1 V c 6 t) (k1_pay4 (F := F)))), (k1_pay2 (k1_pay8 (iblk1 V c 4 t)) (k1_pay10 (iblk1 V c 3 t) (iblk1 V c 4 t) (iblk1 V c 5 t) (iblk1 V c 0 t) (iblk1 V c 1 t) (iblk1 V c 2 t) (iblk1 V c 6 t)) (k1_pay5 (F := F))), (k1_pay3 (k1_pay9 (iblk1 V c 5 t)) (k1_pay10 (iblk1 V c 3 t) (iblk1 V c 4 t) (iblk1 V c 5 t) (iblk1 V c 0 t) (iblk1 V c 1 t) (iblk1 V c 2 t) (iblk1 V c 6 t)) (k1_pay6 (F := F)))) := by
  obtain ⟨n, hn⟩ := t
  cases n with
  | zero => rfl
  | succ n => exact absurd h (Nat.succ_ne_zero n)

theorem acc1_pos (c : Dev nD) (t : Fin cfg1.N) (h : t.val ≠ 0) :
    acc1 V c t.val t.isLt = ((k1_pay1 (k1_pay11 (iblk1 V c 3 t) (iblk1 V c 4 t) (iblk1 V c 5 t) (iblk1 V c 0 t) (iblk1 V c 1 t) (iblk1 V c 2 t) (iblk1 V c 6 t) (acc1 V c (t.val - 1) (Nat.lt_of_le_of_lt (Nat.sub_le _ _) t.isLt)).1)), (k1_pay2 (k1_pay8 (iblk1 V c 4 t)) (k1_pay10 (iblk1 V c 3 t) (iblk1 V c 4 t) (iblk1 V c 5 t) (iblk1 V c 0 t) (iblk1 V c 1 t) (iblk1 V c 2 t) (iblk1 V c 6 t)) (acc1 V c (t.val - 1) (Nat.lt_of_le_of_lt (Nat.sub_le _ _) t.isLt)).2.1), (k1_pay3 (k1_pay9 (iblk1 V c 5 t)) (k1_pay10 (iblk1 V c 3 t) (iblk1 V c 4 t) (iblk1 V c 5 t) (iblk1 V c 0 t) (iblk1 V c 1 t) (iblk1 V c 2 t) (iblk1 V c 6 t)) (acc1 V c (t.val - 1) (Nat.lt_of_le_of_lt (Nat.sub_le _ _) t.isLt)).2.2)) := by
  obtain ⟨n, hn⟩ := t
  cases n with
  | zero => exact absurd rfl h
  | succ n => rfl

/-- The invariant before position `n`. -/
def PhiS1 (c : Dev nD) : (n : ℕ) → n ≤ cfg1.N → sProp 𝕄
  | 0, _ => Pipeline.ΦA spec1 c
  | n + 1, hn => iprop(iprop(iprop(owns (c : Thread nD τ) scA1 fullShare (acc1 V c n hn).1 ∗ owns (c : Thread nD τ) scB1 fullShare (acc1 V c n hn).2.1 ∗ owns (c : Thread nD τ) scC1 fullShare (acc1 V c n hn).2.2) ∗ Pipeline.scopedRestBut (Ix := Unit) (Name := ℕ) (U := Pipeline.UD sig nD τ) (Lvl := ℕ) (Val := Elt F) spec1 c [cc1_scratch0, cc1_scratch1, cc1_scratch2]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scA1 fullShare (acc1 V c n hn).1 ∗ owns (c : Thread nD τ) scB1 fullShare (acc1 V c n hn).2.1 ∗ owns (c : Thread nD τ) scC1 fullShare (acc1 V c n hn).2.2) ∗ Pipeline.scopedRestBut (Ix := Unit) (Name := ℕ) (U := Pipeline.UD sig nD τ) (Lvl := ℕ) (Val := Elt F) spec1 c [cc1_scratch0, cc1_scratch1, cc1_scratch2]) ∗ (∃ r, prngReg c r)) := rfl
theorem PhiS1_pos (c : Dev nD) (n : ℕ) (h : n ≤ cfg1.N) (hz : n ≠ 0) :
    PhiS1 V c n h = iprop(iprop(iprop(owns (c : Thread nD τ) scA1 fullShare (acc1 V c (n - 1) (by omega)).1 ∗ owns (c : Thread nD τ) scB1 fullShare (acc1 V c (n - 1) (by omega)).2.1 ∗ owns (c : Thread nD τ) scC1 fullShare (acc1 V c (n - 1) (by omega)).2.2) ∗ Pipeline.scopedRestBut (Ix := Unit) (Name := ℕ) (U := Pipeline.UD sig nD τ) (Lvl := ℕ) (Val := Elt F) spec1 c [cc1_scratch0, cc1_scratch1, cc1_scratch2]) ∗ (∃ r, prngReg c r)) := by
  cases n with
  | zero => exact absurd rfl hz
  | succ n => rfl

/-- The plain invariant with the accumulators' buffers split out of the scoped rest. -/
theorem PhiA1_eq (c : Dev nD) :
    (Pipeline.ΦA spec1 c : sProp 𝕄)
      = iprop(iprop(iprop((∃ d, owns (c : Thread nD τ) scA1 fullShare d) ∗ (∃ d, owns (c : Thread nD τ) scB1 fullShare d) ∗ (∃ d, owns (c : Thread nD τ) scC1 fullShare d)) ∗ Pipeline.scopedRestBut (Ix := Unit) (Name := ℕ) (U := Pipeline.UD sig nD τ) (Lvl := ℕ) (Val := Elt F) spec1 c [cc1_scratch0, cc1_scratch1, cc1_scratch2]) ∗ (∃ r, prngReg c r)) := by
  unfold Pipeline.ΦA; rw [scopedRest1_split]; simp only [scA1, scB1, scC1, owns_whole]; try rfl

/-- The proof data. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (acc1 V c t.val t.isLt).1
    | ⟨8, _⟩ => (acc1 V c t.val t.isLt).2.1
    | ⟨9, _⟩ => (acc1 V c t.val t.isLt).2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (acc1 V c t.val t.isLt).1 := by dsimp only [dat1]
theorem after1_8 (c : Dev nD) (t : Fin cfg1.N) : (dat1 V c).after 8 t = (acc1 V c t.val t.isLt).2.1 := by dsimp only [dat1]
theorem after1_9 (c : Dev nD) (t : Fin cfg1.N) : (dat1 V c).after 9 t = (acc1 V c t.val t.isLt).2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 16000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 12 := lt_of_lt_of_eq t.isLt (show cfg1.N = 12 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  by_cases h1 : t.val % 12 = 11
  · -- the last point
    have h0 : ¬ t.val % 12 = 0 := by omega
    have hz : t.val ≠ 0 := by omega
    rw [show (dat1 V c).leavesExact 7 t = owns (c : Thread nD τ) (st1_7 t) fullShare ((dat1 V c).after 7 t) from by
      unfold Dat.leavesExact; rw [liveAt1_7 t ((hcond1_1 t).mpr h1)], after1_7]
    rw [show (dat1 V c).leavesExact 8 t = owns (c : Thread nD τ) (st1_8 t) fullShare ((dat1 V c).after 8 t) from by
      unfold Dat.leavesExact; rw [liveAt1_8 t ((hcond1_1 t).mpr h1)], after1_8]
    rw [show (dat1 V c).leavesExact 9 t = owns (c : Thread nD τ) (st1_9 t) fullShare ((dat1 V c).after 9 t) from by
      unfold Dat.leavesExact; rw [liveAt1_9 t ((hcond1_1 t).mpr h1)], after1_9]
    rw [acc1_pos V c t hz, PhiS1_castSucc V c t, PhiS1_pos V c _ _ hz]
    iintro ⟨⟨⟨⟨HS1, HS2, HS3⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound1_C c Set.univ (grid1.coords t) _ _ _ _ _ _ _ _ _ _ _ _ _ _ _ _ _ _ _ _ _ _ _ _ _ _ (fun h => h0 ((hcond1_0 t).mp h)) ((hcond1_1 t).mpr h1)
      (iblk1 V c 0 t) (iblk1 V c 1 t) (iblk1 V c 2 t) (iblk1 V c 3 t) (iblk1 V c 4 t) (iblk1 V c 5 t) (iblk1 V c 6 t) (acc1 V c (t.val - 1) (Nat.lt_of_le_of_lt (Nat.sub_le _ _) t.isLt)).1 (acc1 V c (t.val - 1) (Nat.lt_of_le_of_lt (Nat.sub_le _ _) t.isLt)).2.1 (acc1 V c (t.val - 1) (Nat.lt_of_le_of_lt (Nat.sub_le _ _) t.isLt)).2.2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS1]; · iexact HS1
    isplitl [HS2]; · iexact HS2
    isplitl [HS3]; · iexact HS3
    iintro ⟨H0, H1, H2, H3, H4, H5, H6, H7, H8, H9, HS1, HS2, HS3⟩
    isplitl [HS1 HS2 HS3 HR Hg]
    · isplitl [HS1 HS2 HS3 HR]
      · isplitl [HS1 HS2 HS3]
        · isplitl [HS1]; · iexact HS1
          isplitl [HS2]; · iexact HS2
          iexact HS3
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [Dat.leavesExact_idle (dat1 V c) 7 t (idleAt1_7 t (fun h => h1 ((hcond1_1 t).mp h))) (noFlush1_7 t (fun h => h1 ((hcond1_1 t).mp h)))]
    rw [Dat.leavesExact_idle (dat1 V c) 8 t (idleAt1_8 t (fun h => h1 ((hcond1_1 t).mp h))) (noFlush1_8 t (fun h => h1 ((hcond1_1 t).mp h)))]
    rw [Dat.leavesExact_idle (dat1 V c) 9 t (idleAt1_9 t (fun h => h1 ((hcond1_1 t).mp h))) (noFlush1_9 t (fun h => h1 ((hcond1_1 t).mp h)))]
    by_cases h0 : t.val % 12 = 0
    · -- the first point
      have hz : t.val = 0 := by omega
      rw [acc1_zero V c t hz, PhiS1_castSucc V c t, PhiS1_zero V c _ _ hz, PhiA1_eq]
      iintro ⟨⟨⟨⟨HS1, HS2, HS3⟩, HR⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
      iapply (sound1_A c Set.univ (grid1.coords t) _ _ _ _ _ _ _ _ _ _ _ _ _ _ _ _ _ _ _ _ _ _ _ _ _ _ ((hcond1_0 t).mpr h0) (fun h => h1 ((hcond1_1 t).mp h))
        (iblk1 V c 0 t) (iblk1 V c 1 t) (iblk1 V c 2 t) (iblk1 V c 3 t) (iblk1 V c 4 t) (iblk1 V c 5 t) (iblk1 V c 6 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS1]; · iexact HS1
      isplitl [HS2]; · iexact HS2
      isplitl [HS3]; · iexact HS3
      iintro ⟨H0, H1, H2, H3, H4, H5, H6, HS1, HS2, HS3⟩
      isplitl [HS1 HS2 HS3 HR Hg]
      · isplitl [HS1 HS2 HS3 HR]
        · isplitl [HS1 HS2 HS3]
          · isplitl [HS1]; · iexact HS1
            isplitl [HS2]; · iexact HS2
            iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      have hz : t.val ≠ 0 := by omega
      rw [acc1_pos V c t hz, PhiS1_castSucc V c t, PhiS1_pos V c _ _ hz]
      iintro ⟨⟨⟨⟨HS1, HS2, HS3⟩, HR⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
      iapply (sound1_B c Set.univ (grid1.coords t) _ _ _ _ _ _ _ _ _ _ _ _ _ _ _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) (iblk1 V c 4 t) (iblk1 V c 5 t) (iblk1 V c 6 t) (acc1 V c (t.val - 1) (Nat.lt_of_le_of_lt (Nat.sub_le _ _) t.isLt)).1 (acc1 V c (t.val - 1) (Nat.lt_of_le_of_lt (Nat.sub_le _ _) t.isLt)).2.1 (acc1 V c (t.val - 1) (Nat.lt_of_le_of_lt (Nat.sub_le _ _) t.isLt)).2.2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS1]; · iexact HS1
      isplitl [HS2]; · iexact HS2
      isplitl [HS3]; · iexact HS3
      iintro ⟨H0, H1, H2, H3, H4, H5, H6, HS1, HS2, HS3⟩
      isplitl [HS1 HS2 HS3 HR Hg]
      · isplitl [HS1 HS2 HS3 HR]
        · isplitl [HS1 HS2 HS3]
          · isplitl [HS1]; · iexact HS1
            isplitl [HS2]; · iexact HS2
            iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have hne : (Fin.last cfg1.N).val ≠ 0 := by rw [Fin.val_last]; have : cfg1.N = 12 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨⟨HS1, HS2, HS3⟩, HR⟩, Hg⟩
  isplitl [HS1 HS2 HS3 HR]
  · isplitl [HS1 HS2 HS3]
    · isplitl [HS1]; · iexists _; iexact HS1
      isplitl [HS2]; · iexists _; iexact HS2
      iexists _; iexact HS3
    iexact HR
  iexact Hg

end Cert.Kernel.Hand

end
-- ==== Proof.K.Sumsq2.lean ====
/-
  The sum-of-squares kernel (pallas_call 2) as a region: its body's runs, its proof data and its body obligation, at any
  region-entry contents `V`.

  The grid has twelve points, one per 256-column tile of visual / acoustic / va.  At point `t` the body forms the tile of
  s = c1·tv + c2·ta + c3·tva  (three batched products over the 50 positions, [10,768,256]), sums its squares along the 256
  columns, and adds that [10,768,1] column to a scratch accumulator it carries from point to point: at the first point it
  first zeroes the accumulator, and at the last point it copies the accumulator into the output block, which is written
  back only then.  So the accumulator after point `t` is  acc t = acc (t-1) + Σ_{columns of tile t} s², with acc (-1) = 0, and
  the output array ends at acc 11.  At the points before the last the output window is idle: the body does not touch its
  buffer, and the pipeline does not write it back there.
-/
import proofs.«160248_j77816217469391_2_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- "This is the first point" (the accumulator is zeroed), as the body computes it from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 12 = 0 :=
  (by decide +kernel : ∀ t : Fin grid2.N, cond2_0 (grid2.coords t) ↔ t.val % 12 = 0)
/-- "This is the last point" (the accumulator is copied out). -/
abbrev cond2_1 (i : grid2.Coords) : Prop := k2_cond2 i = 1#1
theorem hcond2_1 : ∀ t : Fin cfg2.N, cond2_1 (grid2.coords t) ↔ t.val % 12 = 11 :=
  (by decide +kernel : ∀ t : Fin grid2.N, cond2_1 (grid2.coords t) ↔ t.val % 12 = 11)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Before the last point the output window is idle and is not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
/-- At the last point it is live. -/
theorem liveAt2_6 : ∀ t : Fin cfg2.N, cond2_1 (grid2.coords t) → cfg2.idle 6 (grid2.coords t) = false := by decide +kernel

/-! ## The body's runs, case by case, with what each leaves named -/

set_option maxHeartbeats 4000000 in
/-- FIRST point (and not the last): the accumulator, whatever it held, ends at the tile's column sums added to zero. The output's
    buffer is not touched. -/
theorem sound2_A (c : Dev nD) (E : Set ℕ) (i : grid2.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : cond2_0 i) (hc1 : ¬cond2_1 i)
    (c1 c2 c3 : Vec F S10x768x50 .bf16) (tv ta tva : Vec F S10x50x256 .bf16) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ (∃ d, owns (c : Thread nD τ) arg8 fullShare d)
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg8 fullShare (k2_pay2 c1 tv c2 ta c3 tva (k2_pay1 (F := F)))) -∗ K ⟨⟩))
      ⊢ wp frame (wpE (defs₀ (F := F)) Variants.none c none) E (cc2__sumsq_kernel i arg1 harg1 arg2 harg2 arg3 harg3 arg4 harg4 arg5 harg5 arg6 harg6 arg7 harg7 arg8 harg8) K := by
  simp only [cc2__sumsq_kernel_eq_skeleton]; unfold cc2__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_cons_unit_zero hz3]
  simp only [View.readCov_unit_zero (S := S10x768x1) _ hz3]
  simp only [View.readAt_eq_ld, View.ld_unit_zero (S := S10x768x50) hz3, View.ld_unit_zero (S := S10x50x256) hz3, View.ld_unit_zero (S := S10x768x1) hz3]

set_option maxHeartbeats 4000000 in
/-- A point that is neither first nor last: the accumulator at `xs` ends at `xs` plus the tile's column sums. -/
theorem sound2_B (c : Dev nD) (E : Set ℕ) (i : grid2.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : ¬cond2_0 i) (hc1 : ¬cond2_1 i)
    (c1 c2 c3 : Vec F S10x768x50 .bf16) (tv ta tva : Vec F S10x50x256 .bf16) (xs : Vec F S10x768x1 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg8 fullShare xs
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg8 fullShare (k2_pay2 c1 tv c2 ta c3 tva xs)) -∗ K ⟨⟩))
      ⊢ wp frame (wpE (defs₀ (F := F)) Variants.none c none) E (cc2__sumsq_kernel i arg1 harg1 arg2 harg2 arg3 harg3 arg4 harg4 arg5 harg5 arg6 harg6 arg7 harg7 arg8 harg8) K := by
  simp only [cc2__sumsq_kernel_eq_skeleton]; unfold cc2__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, Hk⟩
  subst hf1 hf2 hf3 hf4 hf5 hf6 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_unit_zero hz3]
  simp only [View.readAt_eq_ld, View.ld_unit_zero (S := S10x768x50) hz3, View.ld_unit_zero (S := S10x50x256) hz3, View.ld_unit_zero (S := S10x768x1) hz3]

set_option maxHeartbeats 4000000 in
/-- The LAST point: the accumulator at `xs` ends at `xs` plus the tile's column sums, and the output's buffer, whatever it
    held, ends at the same value. -/
theorem sound2_C (c : Dev nD) (E : Set ℕ) (i : grid2.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : ¬cond2_0 i) (hc1 : cond2_1 i)
    (c1 c2 c3 : Vec F S10x768x50 .bf16) (tv ta tva : Vec F S10x50x256 .bf16) (xs : Vec F S10x768x1 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ (∃ d, owns (c : Thread nD τ) arg7 fullShare d) ∗ owns (c : Thread nD τ) arg8 fullShare xs
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg7 fullShare (k2_pay2 c1 tv c2 ta c3 tva xs)
            ∗ owns (c : Thread nD τ) arg8 fullShare (k2_pay2 c1 tv c2 ta c3 tva xs)) -∗ K ⟨⟩))
      ⊢ wp frame (wpE (defs₀ (F := F)) Variants.none c none) E (cc2__sumsq_kernel i arg1 harg1 arg2 harg2 arg3 harg3 arg4 harg4 arg5 harg5 arg6 harg6 arg7 harg7 arg8 harg8) K := by
  simp only [cc2__sumsq_kernel_eq_skeleton]; unfold cc2__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf1 hf2 hf3 hf4 hf5 hf6 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (fun y => ⟨_, List.mem_cons_self, View.mem_set_unit_zero hz3 inb_S10x768x1_S10x768x1_0_0_0 y⟩), View.canon_unit_zero hz3]
    simp only [View.readCov_unit_zero (S := S10x768x1) _ hz3]
    simp only [View.readAt_eq_ld, View.ld_unit_zero (S := S10x768x50) hz3, View.ld_unit_zero (S := S10x50x256) hz3, View.ld_unit_zero (S := S10x768x1) hz3]
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_unit_zero hz3]
  simp only [View.readAt_eq_ld, View.ld_unit_zero (S := S10x768x50) hz3, View.ld_unit_zero (S := S10x50x256) hz3, View.ld_unit_zero (S := S10x768x1) hz3]

end Cert.Kernel.Hand

end
-- ==== Proof.K.SumsqDat2.lean ====
/-
  The sum-of-squares kernel (pallas_call 2): the proof data of its region and the body obligation, at any region-entry
  contents `V`.  `acc2 V c n` is the accumulator after point `n`: the tile's column sums of squares added to what the point
  before left (to zero at the first point).  The invariant carried from point to point is the scratch buffer at `acc2` of the
  point before (at anything before the first point), beside the scoped buffers the kernel does not use.
-/
import proofs.«160248_j77816217469391_2_alg».proof.Proof.K.Sumsq2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The scratch accumulator, as a whole memref. -/
abbrev scM2 : Memref sig .tc .vmem S10x768x1 .f32 := Memref.whole cc2_scratch0

/-- THE ACCUMULATION: the accumulator after point `n`. -/
def acc2 (c : Dev nD) : (n : ℕ) → n < cfg2.N → Vec F S10x768x1 .f32
  | 0, hn => k2_pay2 (iblk2 V c 0 ⟨0, hn⟩) (iblk2 V c 3 ⟨0, hn⟩) (iblk2 V c 1 ⟨0, hn⟩) (iblk2 V c 4 ⟨0, hn⟩) (iblk2 V c 2 ⟨0, hn⟩) (iblk2 V c 5 ⟨0, hn⟩) (k2_pay1 (F := F))
  | n + 1, hn => k2_pay2 (iblk2 V c 0 ⟨n + 1, hn⟩) (iblk2 V c 3 ⟨n + 1, hn⟩) (iblk2 V c 1 ⟨n + 1, hn⟩) (iblk2 V c 4 ⟨n + 1, hn⟩) (iblk2 V c 2 ⟨n + 1, hn⟩) (iblk2 V c 5 ⟨n + 1, hn⟩) (acc2 c n (Nat.lt_of_succ_lt hn))

theorem acc2_zero (c : Dev nD) (t : Fin cfg2.N) (h : t.val = 0) :
    acc2 V c t.val t.isLt = k2_pay2 (iblk2 V c 0 t) (iblk2 V c 3 t) (iblk2 V c 1 t) (iblk2 V c 4 t) (iblk2 V c 2 t) (iblk2 V c 5 t) (k2_pay1 (F := F)) := by
  obtain ⟨n, hn⟩ := t
  cases n with
  | zero => rfl
  | succ n => exact absurd h (Nat.succ_ne_zero n)

theorem acc2_pos (c : Dev nD) (t : Fin cfg2.N) (h : t.val ≠ 0) :
    acc2 V c t.val t.isLt = k2_pay2 (iblk2 V c 0 t) (iblk2 V c 3 t) (iblk2 V c 1 t) (iblk2 V c 4 t) (iblk2 V c 2 t) (iblk2 V c 5 t) (acc2 V c (t.val - 1) (Nat.lt_of_le_of_lt (Nat.sub_le _ _) t.isLt)) := by
  obtain ⟨n, hn⟩ := t
  cases n with
  | zero => exact absurd rfl h
  | succ n => rfl

/-- The invariant before position `n`: before the first point the plain one (every scratch at anything); afterwards the
    accumulator at what the point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ Pipeline.scopedRestBut (Ix := Unit) (Name := ℕ) (U := Pipeline.UD sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (acc2 V c n hn) ∗ Pipeline.scopedRestBut (Ix := Unit) (Name := ℕ) (U := Pipeline.UD sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare (acc2 V c (n - 1) (by omega)) ∗ Pipeline.scopedRestBut (Ix := Unit) (Name := ℕ) (U := Pipeline.UD sig nD τ) (Lvl := ℕ) (Val := Elt F) spec2 c [cc2_scratch0]) ∗ (∃ r, prngReg c r)) := by
  cases n with
  | zero => exact absurd rfl hz
  | succ n => rfl

/-- The plain invariant with the accumulator's buffer split out of the scoped rest. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := Pipeline.UD sig nD τ) (Lvl := ℕ) (Val := Elt F) spec2 c [cc2_scratch0]) ∗ (∃ r, prngReg c r)) := by
  unfold Pipeline.ΦA; rw [scopedRest2_split]; simp only [scM2, owns_whole]; try rfl

/-- The proof data: the arrays as the region finds them; after the body each input's buffer at its block and the output's
    at the accumulator; the carried invariant; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
/-- The body at any point: the closed forms say which case the point is in; the invariant hands the body the accumulator at
    what the point before left (at anything at the first point) and takes it back at this point's value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 12 := lt_of_lt_of_eq t.isLt (show cfg2.N = 12 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  by_cases h1 : t.val % 12 = 11
  · -- the last point
    have h0 : ¬ t.val % 12 = 0 := by omega
    have hz : t.val ≠ 0 := by omega
    rw [show (dat2 V c).leavesExact 6 t = owns (c : Thread nD τ) (st2_6 t) fullShare ((dat2 V c).after 6 t) from by
      unfold Dat.leavesExact; rw [liveAt2_6 t ((hcond2_1 t).mpr h1)], after2_6]
    rw [acc2_pos V c t hz, PhiS2_castSucc V c t, PhiS2_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound2_C c Set.univ (grid2.coords t) _ _ _ _ _ _ _ _ _ _ _ _ _ _ _ _ (fun h => h0 ((hcond2_0 t).mp h)) ((hcond2_1 t).mpr h1)
      (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat2 V c) 6 t (idleAt2_6 t (fun h => h1 ((hcond2_1 t).mp h))) (noFlush2_6 t (fun h => h1 ((hcond2_1 t).mp h)))]
    by_cases h0 : t.val % 12 = 0
    · -- the first point
      have hz : t.val = 0 := by omega
      rw [acc2_zero V c t hz, PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (sound2_A c Set.univ (grid2.coords t) _ _ _ _ _ _ _ _ _ _ _ _ _ _ _ _ ((hcond2_0 t).mpr h0) (fun h => h1 ((hcond2_1 t).mp h))
        (iblk2 V c 0 t) (iblk2 V c 1 t) (iblk2 V c 2 t) (iblk2 V c 3 t) (iblk2 V c 4 t) (iblk2 V c 5 t) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hz : t.val ≠ 0 := by omega
      rw [acc2_pos V c t hz, PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (sound2_B c Set.univ (grid2.coords t) _ _ _ _ _ _ _ _ _ _ _ _ _ _ _ _ (fun h => h0 ((hcond2_0 t).mp h)) (fun h => h1 ((hcond2_1 t).mp h))
        (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the region is handed (the plain invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the plain one back: the accumulator's value is forgotten. -/
theorem hout2 (c : Dev nD) : (dat2 V c).Φ (Fin.last cfg2.N) ⊢ Pipeline.ΦA spec2 c := by
  have hne : (Fin.last cfg2.N).val ≠ 0 := by rw [Fin.val_last]; have : cfg2.N = 12 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨HS, HR⟩, Hg⟩
  isplitl [HS HR]
  · isplitl [HS]; · iexists _; iexact HS
    iexact HR
  iexact Hg

end Cert.Kernel.Hand

end
-- ==== Proof.K.Bupd3.lean ====
/-
  The logit-update kernel (pallas_call 3): its body's runs, case by case, with what each leaves named.

  The grid has twelve points, one per 256-column tile of visual / acoustic / va.  At point `t` the body forms the tile of the
  squashed capsules  a = factor · (c1·tv + c2·ta + c3·tva)  ([10,768,256]) and adds the three batched products of `a` with the
  tiles of visual, acoustic and va over the 256 columns (each [10,768,50]) to three scratch accumulators it carries from
  point to point: at the first point it first zeroes them, and at the last point it copies them into the three output
  blocks, which are written back only then.
-/
import proofs.«160248_j77816217469391_2_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- "This is the first point" (the accumulators are zeroed), as the body computes it from the grid coordinate. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 12 = 0 :=
  (by decide +kernel : ∀ t : Fin grid3.N, cond3_0 (grid3.coords t) ↔ t.val % 12 = 0)
/-- "This is the last point" (the accumulators are copied out). -/
abbrev cond3_1 (i : grid3.Coords) : Prop := k3_cond2 i = 1#1
theorem hcond3_1 : ∀ t : Fin cfg3.N, cond3_1 (grid3.coords t) ↔ t.val % 12 = 11 :=
  (by decide +kernel : ∀ t : Fin grid3.N, cond3_1 (grid3.coords t) ↔ t.val % 12 = 11)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
theorem idleAt3_7 : ∀ t : Fin cfg3.N, ¬cond3_1 (grid3.coords t) → cfg3.idle 7 (grid3.coords t) = true := by decide +kernel
theorem noFlush3_7 : ∀ t : Fin cfg3.N, ¬cond3_1 (grid3.coords t) → (cfg3.win 7).flush t = false := by decide +kernel
theorem liveAt3_7 : ∀ t : Fin cfg3.N, cond3_1 (grid3.coords t) → cfg3.idle 7 (grid3.coords t) = false := by decide +kernel
theorem idleAt3_8 : ∀ t : Fin cfg3.N, ¬cond3_1 (grid3.coords t) → cfg3.idle 8 (grid3.coords t) = true := by decide +kernel
theorem noFlush3_8 : ∀ t : Fin cfg3.N, ¬cond3_1 (grid3.coords t) → (cfg3.win 8).flush t = false := by decide +kernel
theorem liveAt3_8 : ∀ t : Fin cfg3.N, cond3_1 (grid3.coords t) → cfg3.idle 8 (grid3.coords t) = false := by decide +kernel
theorem idleAt3_9 : ∀ t : Fin cfg3.N, ¬cond3_1 (grid3.coords t) → cfg3.idle 9 (grid3.coords t) = true := by decide +kernel
theorem noFlush3_9 : ∀ t : Fin cfg3.N, ¬cond3_1 (grid3.coords t) → (cfg3.win 9).flush t = false := by decide +kernel
theorem liveAt3_9 : ∀ t : Fin cfg3.N, cond3_1 (grid3.coords t) → cfg3.idle 9 (grid3.coords t) = false := by decide +kernel

/-! ## The body's runs -/

set_option maxHeartbeats 8000000 in
/-- FIRST point (and not the last): the three accumulators, whatever they held, end at the tile's three products added to zero.
    The outputs' buffers are not touched. -/
theorem sound3_A (c : Dev nD) (E : Set ℕ) (i : grid3.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x50 .f32) (harg8 : arg8.IsWhole)
    (arg9 : Memref sig .tc .vmem S10x768x50 .f32) (harg9 : arg9.IsWhole) (arg10 : Memref sig .tc .vmem S10x768x50 .f32) (harg10 : arg10.IsWhole)
    (arg11 : Memref sig .tc .vmem S10x768x50 .f32) (harg11 : arg11.IsWhole) (arg12 : Memref sig .tc .vmem S10x768x50 .f32) (harg12 : arg12.IsWhole)
    (arg13 : Memref sig .tc .vmem S10x768x50 .f32) (harg13 : arg13.IsWhole)
    (hc0 : cond3_0 i) (hc1 : ¬cond3_1 i)
    (c1 c2 c3 : Vec F S10x768x50 .bf16) (tv ta tva : Vec F S10x50x256 .bf16) (fac : Vec F S10x768x1 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
            ∗ owns (c : Thread nD τ) arg11 fullShare (k3_pay1 (k3_pay11 tv ta tva c1 c2 c3 fac (k3_pay4 (F := F))))
            ∗ owns (c : Thread nD τ) arg12 fullShare (k3_pay2 (k3_pay8 ta) (k3_pay10 tv ta tva c1 c2 c3 fac) (k3_pay5 (F := F)))
            ∗ owns (c : Thread nD τ) arg13 fullShare (k3_pay3 (k3_pay9 tva) (k3_pay10 tv ta tva c1 c2 c3 fac) (k3_pay6 (F := F)))) -∗ K ⟨⟩))
      ⊢ wp frame (wpE (defs₀ (F := F)) Variants.none c none) E (cc3__bupdate_kernel i arg1 harg1 arg2 harg2 arg3 harg3 arg4 harg4 arg5 harg5 arg6 harg6 arg7 harg7 arg8 harg8 arg9 harg9 arg10 harg10 arg11 harg11 arg12 harg12 arg13 harg13) K := by
  simp only [cc3__bupdate_kernel_eq_skeleton]; unfold cc3__bupdate_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d11, %f11, -, H11⟩, ⟨%d12, %f12, -, H12⟩, ⟨%d13, %f13, -, H13⟩, Hk⟩
  subst hf1 hf2 hf3 hf4 hf5 hf6 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H11]
  · iexists _; isplitr
    swap; · iexact H11
    ipureintro
    sl_unfold_words
    rw [View.read_writes_eq_canon _ _ _ (fun y => ⟨_, List.mem_cons_self, View.mem_set_unit_zero hz3 inb_S10x768x50_S10x768x50_0_0_0 y⟩), View.canon_cons_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H12]
  · iexists _; isplitr
    swap; · iexact H12
    ipureintro
    sl_unfold_words
    rw [View.read_writes_eq_canon _ _ _ (fun y => ⟨_, List.mem_cons_self, View.mem_set_unit_zero hz3 inb_S10x768x50_S10x768x50_0_0_0 y⟩), View.canon_cons_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  iexists _; isplitr
  swap; · iexact H13
  ipureintro
  sl_unfold_words
  rw [View.read_writes_eq_canon _ _ _ (fun y => ⟨_, List.mem_cons_self, View.mem_set_unit_zero hz3 inb_S10x768x50_S10x768x50_0_0_0 y⟩), View.canon_cons_unit_zero hz3]
  simp only [View.readCov_unit_zero (S := S10x768x50) _ hz3, View.readAt_eq_ld, View.ld_unit_zero (S := S10x768x50) hz3, View.ld_unit_zero (S := S10x50x256) hz3, View.ld_unit_zero (S := S10x768x1) hz3]

set_option maxHeartbeats 8000000 in
/-- A point that is neither first nor last: the accumulators at `x1 x2 x3` end at those plus the tile's three products. -/
theorem sound3_B (c : Dev nD) (E : Set ℕ) (i : grid3.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x50 .f32) (harg8 : arg8.IsWhole)
    (arg9 : Memref sig .tc .vmem S10x768x50 .f32) (harg9 : arg9.IsWhole) (arg10 : Memref sig .tc .vmem S10x768x50 .f32) (harg10 : arg10.IsWhole)
    (arg11 : Memref sig .tc .vmem S10x768x50 .f32) (harg11 : arg11.IsWhole) (arg12 : Memref sig .tc .vmem S10x768x50 .f32) (harg12 : arg12.IsWhole)
    (arg13 : Memref sig .tc .vmem S10x768x50 .f32) (harg13 : arg13.IsWhole)
    (hc0 : ¬cond3_0 i) (hc1 : ¬cond3_1 i)
    (c1 c2 c3 : Vec F S10x768x50 .bf16) (tv ta tva : Vec F S10x50x256 .bf16) (fac : Vec F S10x768x1 .f32)
    (x1 x2 x3 : Vec F S10x768x50 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
        ∗ owns (c : Thread nD τ) arg11 fullShare x1 ∗ owns (c : Thread nD τ) arg12 fullShare x2 ∗ owns (c : Thread nD τ) arg13 fullShare x3
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
            ∗ owns (c : Thread nD τ) arg11 fullShare (k3_pay1 (k3_pay11 tv ta tva c1 c2 c3 fac x1))
            ∗ owns (c : Thread nD τ) arg12 fullShare (k3_pay2 (k3_pay8 ta) (k3_pay10 tv ta tva c1 c2 c3 fac) x2)
            ∗ owns (c : Thread nD τ) arg13 fullShare (k3_pay3 (k3_pay9 tva) (k3_pay10 tv ta tva c1 c2 c3 fac) x3)) -∗ K ⟨⟩))
      ⊢ wp frame (wpE (defs₀ (F := F)) Variants.none c none) E (cc3__bupdate_kernel i arg1 harg1 arg2 harg2 arg3 harg3 arg4 harg4 arg5 harg5 arg6 harg6 arg7 harg7 arg8 harg8 arg9 harg9 arg10 harg10 arg11 harg11 arg12 harg12 arg13 harg13) K := by
  simp only [cc3__bupdate_kernel_eq_skeleton]; unfold cc3__bupdate_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, ⟨%f13, %hf13, H13⟩, Hk⟩
  subst hf1 hf2 hf3 hf4 hf5 hf6 hf7 hf11 hf12 hf13
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H11]
  · iexists _; isplitr
    swap; · iexact H11
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H12]
  · iexists _; isplitr
    swap; · iexact H12
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  iexists _; isplitr
  swap; · iexact H13
  ipureintro
  sl_unfold_words
  rw [View.read_writes_eq_canon _ _ _ (fun y => ⟨_, List.mem_cons_self, View.mem_set_unit_zero hz3 inb_S10x768x50_S10x768x50_0_0_0 y⟩), View.canon_unit_zero hz3]
  simp only [View.readCov_unit_zero (S := S10x768x50) _ hz3, View.readAt_eq_ld, View.ld_unit_zero (S := S10x768x50) hz3, View.ld_unit_zero (S := S10x50x256) hz3, View.ld_unit_zero (S := S10x768x1) hz3]

set_option maxHeartbeats 8000000 in
/-- The LAST point: the accumulators at `x1 x2 x3` end at those plus the tile's three products, and the three outputs' buffers,
    whatever they held, end at the same three values. -/
theorem sound3_C (c : Dev nD) (E : Set ℕ) (i : grid3.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x50 .f32) (harg8 : arg8.IsWhole)
    (arg9 : Memref sig .tc .vmem S10x768x50 .f32) (harg9 : arg9.IsWhole) (arg10 : Memref sig .tc .vmem S10x768x50 .f32) (harg10 : arg10.IsWhole)
    (arg11 : Memref sig .tc .vmem S10x768x50 .f32) (harg11 : arg11.IsWhole) (arg12 : Memref sig .tc .vmem S10x768x50 .f32) (harg12 : arg12.IsWhole)
    (arg13 : Memref sig .tc .vmem S10x768x50 .f32) (harg13 : arg13.IsWhole)
    (hc0 : ¬cond3_0 i) (hc1 : cond3_1 i)
    (c1 c2 c3 : Vec F S10x768x50 .bf16) (tv ta tva : Vec F S10x50x256 .bf16) (fac : Vec F S10x768x1 .f32)
    (x1 x2 x3 : Vec F S10x768x50 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare x1 ∗ owns (c : Thread nD τ) arg12 fullShare x2 ∗ owns (c : Thread nD τ) arg13 fullShare x3
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
            ∗ owns (c : Thread nD τ) arg8 fullShare (k3_pay1 (k3_pay11 tv ta tva c1 c2 c3 fac x1))
            ∗ owns (c : Thread nD τ) arg9 fullShare (k3_pay2 (k3_pay8 ta) (k3_pay10 tv ta tva c1 c2 c3 fac) x2)
            ∗ owns (c : Thread nD τ) arg10 fullShare (k3_pay3 (k3_pay9 tva) (k3_pay10 tv ta tva c1 c2 c3 fac) x3)
            ∗ owns (c : Thread nD τ) arg11 fullShare (k3_pay1 (k3_pay11 tv ta tva c1 c2 c3 fac x1))
            ∗ owns (c : Thread nD τ) arg12 fullShare (k3_pay2 (k3_pay8 ta) (k3_pay10 tv ta tva c1 c2 c3 fac) x2)
            ∗ owns (c : Thread nD τ) arg13 fullShare (k3_pay3 (k3_pay9 tva) (k3_pay10 tv ta tva c1 c2 c3 fac) x3)) -∗ K ⟨⟩))
      ⊢ wp frame (wpE (defs₀ (F := F)) Variants.none c none) E (cc3__bupdate_kernel i arg1 harg1 arg2 harg2 arg3 harg3 arg4 harg4 arg5 harg5 arg6 harg6 arg7 harg7 arg8 harg8 arg9 harg9 arg10 harg10 arg11 harg11 arg12 harg12 arg13 harg13) K := by
  simp only [cc3__bupdate_kernel_eq_skeleton]; unfold cc3__bupdate_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, Hk⟩
  subst hf1 hf2 hf3 hf4 hf5 hf6 hf7 hf11 hf12 hf13
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H9]
  · iexists _; isplitr
    swap; · iexact H9
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H10]
  · iexists _; isplitr
    swap; · iexact H10
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H11]
  · iexists _; isplitr
    swap; · iexact H11
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H12]
  · iexists _; isplitr
    swap; · iexact H12
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  iexists _; isplitr
  swap; · iexact H13
  ipureintro
  sl_unfold_words
  rw [View.read_writes_eq_canon _ _ _ (fun y => ⟨_, List.mem_cons_self, View.mem_set_unit_zero hz3 inb_S10x768x50_S10x768x50_0_0_0 y⟩), View.canon_unit_zero hz3]
  simp only [View.readCov_unit_zero (S := S10x768x50) _ hz3, View.readAt_eq_ld, View.ld_unit_zero (S := S10x768x50) hz3, View.ld_unit_zero (S := S10x50x256) hz3, View.ld_unit_zero (S := S10x768x1) hz3]

end Cert.Kernel.Hand

end
-- ==== Proof.K.BupdDat3.lean ====
/-
  The logit-update kernel (pallas_call 3): the proof data of its region and the body obligation, at any region-entry contents
  `V`.  `acc3 V c n` is the triple of accumulators after point `n`: the tile's three products added to what the point before
  left (to zero at the first point).  The invariant carried from point to point is the three scratch buffers at `acc3` of the
  point before (at anything before the first point), beside the scoped buffers the kernel does not use.
-/
import proofs.«160248_j77816217469391_2_alg».proof.Proof.K.Bupd3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (Pipeline.UD sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- The three scratch accumulators, as whole memrefs. -/
abbrev scA3 : Memref sig .tc .vmem S10x768x50 .f32 := Memref.whole cc3_scratch0
abbrev scB3 : Memref sig .tc .vmem S10x768x50 .f32 := Memref.whole cc3_scratch1
abbrev scC3 : Memref sig .tc .vmem S10x768x50 .f32 := Memref.whole cc3_scratch2

/-- THE ACCUMULATION: the three accumulators after point `n`. -/
def acc3 (c : Dev nD) : (n : ℕ) → n < cfg3.N → Vec F S10x768x50 .f32 × Vec F S10x768x50 .f32 × Vec F S10x768x50 .f32
  | 0, hn => ((k3_pay1 (k3_pay11 (iblk3 V c 3 ⟨0, hn⟩) (iblk3 V c 4 ⟨0, hn⟩) (iblk3 V c 5 ⟨0, hn⟩) (iblk3 V c 0 ⟨0, hn⟩) (iblk3 V c 1 ⟨0, hn⟩) (iblk3 V c 2 ⟨0, hn⟩) (iblk3 V c 6 ⟨0, hn⟩) (k3_pay4 (F := F)))), (k3_pay2 (k3_pay8 (iblk3 V c 4 ⟨0, hn⟩)) (k3_pay10 (iblk3 V c 3 ⟨0, hn⟩) (iblk3 V c 4 ⟨0, hn⟩) (iblk3 V c 5 ⟨0, hn⟩) (iblk3 V c 0 ⟨0, hn⟩) (iblk3 V c 1 ⟨0, hn⟩) (iblk3 V c 2 ⟨0, hn⟩) (iblk3 V c 6 ⟨0, hn⟩)) (k3_pay5 (F := F))), (k3_pay3 (k3_pay9 (iblk3 V c 5 ⟨0, hn⟩)) (k3_pay10 (iblk3 V c 3 ⟨0, hn⟩) (iblk3 V c 4 ⟨0, hn⟩) (iblk3 V c 5 ⟨0, hn⟩) (iblk3 V c 0 ⟨0, hn⟩) (iblk3 V c 1 ⟨0, hn⟩) (iblk3 V c 2 ⟨0, hn⟩) (iblk3 V c 6 ⟨0, hn⟩)) (k3_pay6 (F := F))))
  | n + 1, hn => ((k3_pay1 (k3_pay11 (iblk3 V c 3 ⟨n + 1, hn⟩) (iblk3 V c 4 ⟨n + 1, hn⟩) (iblk3 V c 5 ⟨n + 1, hn⟩) (iblk3 V c 0 ⟨n + 1, hn⟩) (iblk3 V c 1 ⟨n + 1, hn⟩) (iblk3 V c 2 ⟨n + 1, hn⟩) (iblk3 V c 6 ⟨n + 1, hn⟩) (acc3 c n (Nat.lt_of_succ_lt hn)).1)), (k3_pay2 (k3_pay8 (iblk3 V c 4 ⟨n + 1, hn⟩)) (k3_pay10 (iblk3 V c 3 ⟨n + 1, hn⟩) (iblk3 V c 4 ⟨n + 1, hn⟩) (iblk3 V c 5 ⟨n + 1, hn⟩) (iblk3 V c 0 ⟨n + 1, hn⟩) (iblk3 V c 1 ⟨n + 1, hn⟩) (iblk3 V c 2 ⟨n + 1, hn⟩) (iblk3 V c 6 ⟨n + 1, hn⟩)) (acc3 c n (Nat.lt_of_succ_lt hn)).2.1), (k3_pay3 (k3_pay9 (iblk3 V c 5 ⟨n + 1, hn⟩)) (k3_pay10 (iblk3 V c 3 ⟨n + 1, hn⟩) (iblk3 V c 4 ⟨n + 1, hn⟩) (iblk3 V c 5 ⟨n + 1, hn⟩) (iblk3 V c 0 ⟨n + 1, hn⟩) (iblk3 V c 1 ⟨n + 1, hn⟩) (iblk3 V c 2 ⟨n + 1, hn⟩) (iblk3 V c 6 ⟨n + 1, hn⟩)) (acc3 c n (Nat.lt_of_succ_lt hn)).2.2))

theorem acc3_zero (c : Dev nD) (t : Fin cfg3.N) (h : t.val = 0) :
    acc3 V c t.val t.isLt = ((k3_pay1 (k3_pay11 (iblk3 V c 3 t) (iblk3 V c 4 t) (iblk3 V c 5 t) (iblk3 V c 0 t) (iblk3 V c 1 t) (iblk3 V c 2 t) (iblk3 V c 6 t) (k3_pay4 (F := F)))), (k3_pay2 (k3_pay8 (iblk3 V c 4 t)) (k3_pay10 (iblk3 V c 3 t) (iblk3 V c 4 t) (iblk3 V c 5 t) (iblk3 V c 0 t) (iblk3 V c 1 t) (iblk3 V c 2 t) (iblk3 V c 6 t)) (k3_pay5 (F := F))), (k3_pay3 (k3_pay9 (iblk3 V c 5 t)) (k3_pay10 (iblk3 V c 3 t) (iblk3 V c 4 t) (iblk3 V c 5 t) (iblk3 V c 0 t) (iblk3 V c 1 t) (iblk3 V c 2 t) (iblk3 V c 6 t)) (k3_pay6 (F := F)))) := by
  obtain ⟨n, hn⟩ := t
  cases n with
  | zero => rfl
  | succ n => exact absurd h (Nat.succ_ne_zero n)

theorem acc3_pos (c : Dev nD) (t : Fin cfg3.N) (h : t.val ≠ 0) :
    acc3 V c t.val t.isLt = ((k3_pay1 (k3_pay11 (iblk3 V c 3 t) (iblk3 V c 4 t) (iblk3 V c 5 t) (iblk3 V c 0 t) (iblk3 V c 1 t) (iblk3 V c 2 t) (iblk3 V c 6 t) (acc3 V c (t.val - 1) (Nat.lt_of_le_of_lt (Nat.sub_le _ _) t.isLt)).1)), (k3_pay2 (k3_pay8 (iblk3 V c 4 t)) (k3_pay10 (iblk3 V c 3 t) (iblk3 V c 4 t) (iblk3 V c 5 t) (iblk3 V c 0 t) (iblk3 V c 1 t) (iblk3 V c 2 t) (iblk3 V c 6 t)) (acc3 V c (t.val - 1) (Nat.lt_of_le_of_lt (Nat.sub_le _ _) t.isLt)).2.1), (k3_pay3 (k3_pay9 (iblk3 V c 5 t)) (k3_pay10 (iblk3 V c 3 t) (iblk3 V c 4 t) (iblk3 V c 5 t) (iblk3 V c 0 t) (iblk3 V c 1 t) (iblk3 V c 2 t) (iblk3 V c 6 t)) (acc3 V c (t.val - 1) (Nat.lt_of_le_of_lt (Nat.sub_le _ _) t.isLt)).2.2)) := by
  obtain ⟨n, hn⟩ := t
  cases n with
  | zero => exact absurd rfl h
  | succ n => rfl

/-- The invariant before position `n`. -/
def PhiS3 (c : Dev nD) : (n : ℕ) → n ≤ cfg3.N → sProp 𝕄
  | 0, _ => Pipeline.ΦA spec3 c
  | n + 1, hn => iprop(iprop(iprop(owns (c : Thread nD τ) scA3 fullShare (acc3 V c n hn).1 ∗ owns (c : Thread nD τ) scB3 fullShare (acc3 V c n hn).2.1 ∗ owns (c : Thread nD τ) scC3 fullShare (acc3 V c n hn).2.2) ∗ Pipeline.scopedRestBut (Ix := Unit) (Name := ℕ) (U := Pipeline.UD sig nD τ) (Lvl := ℕ) (Val := Elt F) spec3 c [cc3_scratch0, cc3_scratch1, cc3_scratch2]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) scA3 fullShare (acc3 V c n hn).1 ∗ owns (c : Thread nD τ) scB3 fullShare (acc3 V c n hn).2.1 ∗ owns (c : Thread nD τ) scC3 fullShare (acc3 V c n hn).2.2) ∗ Pipeline.scopedRestBut (Ix := Unit) (Name := ℕ) (U := Pipeline.UD sig nD τ) (Lvl := ℕ) (Val := Elt F) spec3 c [cc3_scratch0, cc3_scratch1, cc3_scratch2]) ∗ (∃ r, prngReg c r)) := rfl
theorem PhiS3_pos (c : Dev nD) (n : ℕ) (h : n ≤ cfg3.N) (hz : n ≠ 0) :
    PhiS3 V c n h = iprop(iprop(iprop(owns (c : Thread nD τ) scA3 fullShare (acc3 V c (n - 1) (by omega)).1 ∗ owns (c : Thread nD τ) scB3 fullShare (acc3 V c (n - 1) (by omega)).2.1 ∗ owns (c : Thread nD τ) scC3 fullShare (acc3 V c (n - 1) (by omega)).2.2) ∗ Pipeline.scopedRestBut (Ix := Unit) (Name := ℕ) (U := Pipeline.UD sig nD τ) (Lvl := ℕ) (Val := Elt F) spec3 c [cc3_scratch0, cc3_scratch1, cc3_scratch2]) ∗ (∃ r, prngReg c r)) := by
  cases n with
  | zero => exact absurd rfl hz
  | succ n => rfl

/-- The plain invariant with the accumulators' buffers split out of the scoped rest. -/
theorem PhiA3_eq (c : Dev nD) :
    (Pipeline.ΦA spec3 c : sProp 𝕄)
      = iprop(iprop(iprop((∃ d, owns (c : Thread nD τ) scA3 fullShare d) ∗ (∃ d, owns (c : Thread nD τ) scB3 fullShare d) ∗ (∃ d, owns (c : Thread nD τ) scC3 fullShare d)) ∗ Pipeline.scopedRestBut (Ix := Unit) (Name := ℕ) (U := Pipeline.UD sig nD τ) (Lvl := ℕ) (Val := Elt F) spec3 c [cc3_scratch0, cc3_scratch1, cc3_scratch2]) ∗ (∃ r, prngReg c r)) := by
  unfold Pipeline.ΦA; rw [scopedRest3_split]; simp only [scA3, scB3, scC3, owns_whole]; try rfl

/-- The proof data. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => (acc3 V c t.val t.isLt).1
    | ⟨8, _⟩ => (acc3 V c t.val t.isLt).2.1
    | ⟨9, _⟩ => (acc3 V c t.val t.isLt).2.2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = (acc3 V c t.val t.isLt).1 := by dsimp only [dat3]
theorem after3_8 (c : Dev nD) (t : Fin cfg3.N) : (dat3 V c).after 8 t = (acc3 V c t.val t.isLt).2.1 := by dsimp only [dat3]
theorem after3_9 (c : Dev nD) (t : Fin cfg3.N) : (dat3 V c).after 9 t = (acc3 V c t.val t.isLt).2.2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t)

set_option maxHeartbeats 16000000 in
/-- The body at any point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  have hN : t.val < 12 := lt_of_lt_of_eq t.isLt (show cfg3.N = 12 from N_3)
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  rw [show (dat3 V c).leavesExact 5 t = owns (c : Thread nD τ) (st3_5 t) fullShare ((dat3 V c).after 5 t) from by
    unfold Dat.leavesExact; rw [liveAt3_5 t], after3_5]
  rw [show (dat3 V c).leavesExact 6 t = owns (c : Thread nD τ) (st3_6 t) fullShare ((dat3 V c).after 6 t) from by
    unfold Dat.leavesExact; rw [liveAt3_6 t], after3_6]
  by_cases h1 : t.val % 12 = 11
  · -- the last point
    have h0 : ¬ t.val % 12 = 0 := by omega
    have hz : t.val ≠ 0 := by omega
    rw [show (dat3 V c).leavesExact 7 t = owns (c : Thread nD τ) (st3_7 t) fullShare ((dat3 V c).after 7 t) from by
      unfold Dat.leavesExact; rw [liveAt3_7 t ((hcond3_1 t).mpr h1)], after3_7]
    rw [show (dat3 V c).leavesExact 8 t = owns (c : Thread nD τ) (st3_8 t) fullShare ((dat3 V c).after 8 t) from by
      unfold Dat.leavesExact; rw [liveAt3_8 t ((hcond3_1 t).mpr h1)], after3_8]
    rw [show (dat3 V c).leavesExact 9 t = owns (c : Thread nD τ) (st3_9 t) fullShare ((dat3 V c).after 9 t) from by
      unfold Dat.leavesExact; rw [liveAt3_9 t ((hcond3_1 t).mpr h1)], after3_9]
    rw [acc3_pos V c t hz, PhiS3_castSucc V c t, PhiS3_pos V c _ _ hz]
    iintro ⟨⟨⟨⟨HS1, HS2, HS3⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound3_C c Set.univ (grid3.coords t) _ _ _ _ _ _ _ _ _ _ _ _ _ _ _ _ _ _ _ _ _ _ _ _ _ _ (fun h => h0 ((hcond3_0 t).mp h)) ((hcond3_1 t).mpr h1)
      (iblk3 V c 0 t) (iblk3 V c 1 t) (iblk3 V c 2 t) (iblk3 V c 3 t) (iblk3 V c 4 t) (iblk3 V c 5 t) (iblk3 V c 6 t) (acc3 V c (t.val - 1) (Nat.lt_of_le_of_lt (Nat.sub_le _ _) t.isLt)).1 (acc3 V c (t.val - 1) (Nat.lt_of_le_of_lt (Nat.sub_le _ _) t.isLt)).2.1 (acc3 V c (t.val - 1) (Nat.lt_of_le_of_lt (Nat.sub_le _ _) t.isLt)).2.2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS1]; · iexact HS1
    isplitl [HS2]; · iexact HS2
    isplitl [HS3]; · iexact HS3
    iintro ⟨H0, H1, H2, H3, H4, H5, H6, H7, H8, H9, HS1, HS2, HS3⟩
    isplitl [HS1 HS2 HS3 HR Hg]
    · isplitl [HS1 HS2 HS3 HR]
      · isplitl [HS1 HS2 HS3]
        · isplitl [HS1]; · iexact HS1
          isplitl [HS2]; · iexact HS2
          iexact HS3
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [Dat.leavesExact_idle (dat3 V c) 7 t (idleAt3_7 t (fun h => h1 ((hcond3_1 t).mp h))) (noFlush3_7 t (fun h => h1 ((hcond3_1 t).mp h)))]
    rw [Dat.leavesExact_idle (dat3 V c) 8 t (idleAt3_8 t (fun h => h1 ((hcond3_1 t).mp h))) (noFlush3_8 t (fun h => h1 ((hcond3_1 t).mp h)))]
    rw [Dat.leavesExact_idle (dat3 V c) 9 t (idleAt3_9 t (fun h => h1 ((hcond3_1 t).mp h))) (noFlush3_9 t (fun h => h1 ((hcond3_1 t).mp h)))]
    by_cases h0 : t.val % 12 = 0
    · -- the first point
      have hz : t.val = 0 := by omega
      rw [acc3_zero V c t hz, PhiS3_castSucc V c t, PhiS3_zero V c _ _ hz, PhiA3_eq]
      iintro ⟨⟨⟨⟨HS1, HS2, HS3⟩, HR⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
      iapply (sound3_A c Set.univ (grid3.coords t) _ _ _ _ _ _ _ _ _ _ _ _ _ _ _ _ _ _ _ _ _ _ _ _ _ _ ((hcond3_0 t).mpr h0) (fun h => h1 ((hcond3_1 t).mp h))
        (iblk3 V c 0 t) (iblk3 V c 1 t) (iblk3 V c 2 t) (iblk3 V c 3 t) (iblk3 V c 4 t) (iblk3 V c 5 t) (iblk3 V c 6 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS1]; · iexact HS1
      isplitl [HS2]; · iexact HS2
      isplitl [HS3]; · iexact HS3
      iintro ⟨H0, H1, H2, H3, H4, H5, H6, HS1, HS2, HS3⟩
      isplitl [HS1 HS2 HS3 HR Hg]
      · isplitl [HS1 HS2 HS3 HR]
        · isplitl [HS1 HS2 HS3]
          · isplitl [HS1]; · iexact HS1
            isplitl [HS2]; · iexact HS2
            iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      have hz : t.val ≠ 0 := by omega
      rw [acc3_pos V c t hz, PhiS3_castSucc V c t, PhiS3_pos V c _ _ hz]
      iintro ⟨⟨⟨⟨HS1, HS2, HS3⟩, HR⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
      iapply (sound3_B c Set.univ (grid3.coords t) _ _ _ _ _ _ _ _ _ _ _ _ _ _ _ _ _ _ _ _ _ _ _ _ _ _ (fun h => h0 ((hcond3_0 t).mp h)) (fun h => h1 ((hcond3_1 t).mp h))
        (iblk3 V c 0 t) (iblk3 V c 1 t) (iblk3 V c 2 t) (iblk3 V c 3 t) (iblk3 V c 4 t) (iblk3 V c 5 t) (iblk3 V c 6 t) (acc3 V c (t.val - 1) (Nat.lt_of_le_of_lt (Nat.sub_le _ _) t.isLt)).1 (acc3 V c (t.val - 1) (Nat.lt_of_le_of_lt (Nat.sub_le _ _) t.isLt)).2.1 (acc3 V c (t.val - 1) (Nat.lt_of_le_of_lt (Nat.sub_le _ _) t.isLt)).2.2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS1]; · iexact HS1
      isplitl [HS2]; · iexact HS2
      isplitl [HS3]; · iexact HS3
      iintro ⟨H0, H1, H2, H3, H4, H5, H6, HS1, HS2, HS3⟩
      isplitl [HS1 HS2 HS3 HR Hg]
      · isplitl [HS1 HS2 HS3 HR]
        · isplitl [HS1 HS2 HS3]
          · isplitl [HS1]; · iexact HS1
            isplitl [HS2]; · iexact HS2
            iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body obligation, at every point. -/
theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  have hne : (Fin.last cfg3.N).val ≠ 0 := by rw [Fin.val_last]; have : cfg3.N = 12 := N_3; omega
  rw [show (dat3 V c).Φ (Fin.last cfg3.N) = PhiS3 V c (Fin.last cfg3.N).val (Nat.le_of_lt_succ (Fin.last cfg3.N).isLt) from rfl,
    PhiS3_pos V c _ _ hne, PhiA3_eq]
  iintro ⟨⟨⟨HS1, HS2, HS3⟩, HR⟩, Hg⟩
  isplitl [HS1 HS2 HS3 HR]
  · isplitl [HS1 HS2 HS3]
    · isplitl [HS1]; · iexists _; iexact HS1
      isplitl [HS2]; · iexists _; iexact HS2
      iexists _; iexact HS3
    iexact HR
  iexact Hg

end Cert.Kernel.Hand

end
-- ==== Proof.K.Sumsq4.lean ====
/-
  The sum-of-squares kernel (pallas_call 4) as a region: its body's runs, its proof data and its body obligation, at any
  region-entry contents `V`.

  The grid has twelve points, one per 256-column tile of visual / acoustic / va.  At point `t` the body forms the tile of
  s = c1·tv + c2·ta + c3·tva  (three batched products over the 50 positions, [10,768,256]), sums its squares along the 256
  columns, and adds that [10,768,1] column to a scratch accumulator it carries from point to point: at the first point it
  first zeroes the accumulator, and at the last point it copies the accumulator into the output block, which is written
  back only then.  So the accumulator after point `t` is  acc t = acc (t-1) + Σ_{columns of tile t} s², with acc (-1) = 0, and
  the output array ends at acc 11.  At the points before the last the output window is idle: the body does not touch its
  buffer, and the pipeline does not write it back there.
-/
import proofs.«160248_j77816217469391_2_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- "This is the first point" (the accumulator is zeroed), as the body computes it from the grid coordinate. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 12 = 0 :=
  (by decide +kernel : ∀ t : Fin grid4.N, cond4_0 (grid4.coords t) ↔ t.val % 12 = 0)
/-- "This is the last point" (the accumulator is copied out). -/
abbrev cond4_1 (i : grid4.Coords) : Prop := k4_cond2 i = 1#1
theorem hcond4_1 : ∀ t : Fin cfg4.N, cond4_1 (grid4.coords t) ↔ t.val % 12 = 11 :=
  (by decide +kernel : ∀ t : Fin grid4.N, cond4_1 (grid4.coords t) ↔ t.val % 12 = 11)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- Before the last point the output window is idle and is not written back. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
/-- At the last point it is live. -/
theorem liveAt4_6 : ∀ t : Fin cfg4.N, cond4_1 (grid4.coords t) → cfg4.idle 6 (grid4.coords t) = false := by decide +kernel

/-! ## The body's runs, case by case, with what each leaves named -/

set_option maxHeartbeats 4000000 in
/-- FIRST point (and not the last): the accumulator, whatever it held, ends at the tile's column sums added to zero. The output's
    buffer is not touched. -/
theorem sound4_A (c : Dev nD) (E : Set ℕ) (i : grid4.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : cond4_0 i) (hc1 : ¬cond4_1 i)
    (c1 c2 c3 : Vec F S10x768x50 .bf16) (tv ta tva : Vec F S10x50x256 .bf16) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ (∃ d, owns (c : Thread nD τ) arg8 fullShare d)
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg8 fullShare (k4_pay2 c1 tv c2 ta c3 tva (k4_pay1 (F := F)))) -∗ K ⟨⟩))
      ⊢ wp frame (wpE (defs₀ (F := F)) Variants.none c none) E (cc4__sumsq_kernel i arg1 harg1 arg2 harg2 arg3 harg3 arg4 harg4 arg5 harg5 arg6 harg6 arg7 harg7 arg8 harg8) K := by
  simp only [cc4__sumsq_kernel_eq_skeleton]; unfold cc4__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_cons_unit_zero hz3]
  simp only [View.readCov_unit_zero (S := S10x768x1) _ hz3]
  simp only [View.readAt_eq_ld, View.ld_unit_zero (S := S10x768x50) hz3, View.ld_unit_zero (S := S10x50x256) hz3, View.ld_unit_zero (S := S10x768x1) hz3]

set_option maxHeartbeats 4000000 in
/-- A point that is neither first nor last: the accumulator at `xs` ends at `xs` plus the tile's column sums. -/
theorem sound4_B (c : Dev nD) (E : Set ℕ) (i : grid4.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : ¬cond4_0 i) (hc1 : ¬cond4_1 i)
    (c1 c2 c3 : Vec F S10x768x50 .bf16) (tv ta tva : Vec F S10x50x256 .bf16) (xs : Vec F S10x768x1 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg8 fullShare xs
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg8 fullShare (k4_pay2 c1 tv c2 ta c3 tva xs)) -∗ K ⟨⟩))
      ⊢ wp frame (wpE (defs₀ (F := F)) Variants.none c none) E (cc4__sumsq_kernel i arg1 harg1 arg2 harg2 arg3 harg3 arg4 harg4 arg5 harg5 arg6 harg6 arg7 harg7 arg8 harg8) K := by
  simp only [cc4__sumsq_kernel_eq_skeleton]; unfold cc4__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, Hk⟩
  subst hf1 hf2 hf3 hf4 hf5 hf6 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_unit_zero hz3]
  simp only [View.readAt_eq_ld, View.ld_unit_zero (S := S10x768x50) hz3, View.ld_unit_zero (S := S10x50x256) hz3, View.ld_unit_zero (S := S10x768x1) hz3]

set_option maxHeartbeats 4000000 in
/-- The LAST point: the accumulator at `xs` ends at `xs` plus the tile's column sums, and the output's buffer, whatever it
    held, ends at the same value. -/
theorem sound4_C (c : Dev nD) (E : Set ℕ) (i : grid4.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : ¬cond4_0 i) (hc1 : cond4_1 i)
    (c1 c2 c3 : Vec F S10x768x50 .bf16) (tv ta tva : Vec F S10x50x256 .bf16) (xs : Vec F S10x768x1 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ (∃ d, owns (c : Thread nD τ) arg7 fullShare d) ∗ owns (c : Thread nD τ) arg8 fullShare xs
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg7 fullShare (k4_pay2 c1 tv c2 ta c3 tva xs)
            ∗ owns (c : Thread nD τ) arg8 fullShare (k4_pay2 c1 tv c2 ta c3 tva xs)) -∗ K ⟨⟩))
      ⊢ wp frame (wpE (defs₀ (F := F)) Variants.none c none) E (cc4__sumsq_kernel i arg1 harg1 arg2 harg2 arg3 harg3 arg4 harg4 arg5 harg5 arg6 harg6 arg7 harg7 arg8 harg8) K := by
  simp only [cc4__sumsq_kernel_eq_skeleton]; unfold cc4__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf1 hf2 hf3 hf4 hf5 hf6 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (fun y => ⟨_, List.mem_cons_self, View.mem_set_unit_zero hz3 inb_S10x768x1_S10x768x1_0_0_0 y⟩), View.canon_unit_zero hz3]
    simp only [View.readCov_unit_zero (S := S10x768x1) _ hz3]
    simp only [View.readAt_eq_ld, View.ld_unit_zero (S := S10x768x50) hz3, View.ld_unit_zero (S := S10x50x256) hz3, View.ld_unit_zero (S := S10x768x1) hz3]
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_unit_zero hz3]
  simp only [View.readAt_eq_ld, View.ld_unit_zero (S := S10x768x50) hz3, View.ld_unit_zero (S := S10x50x256) hz3, View.ld_unit_zero (S := S10x768x1) hz3]

end Cert.Kernel.Hand

end
-- ==== Proof.K.SumsqDat4.lean ====
/-
  The sum-of-squares kernel (pallas_call 4): the proof data of its region and the body obligation, at any region-entry
  contents `V`.  `acc4 V c n` is the accumulator after point `n`: the tile's column sums of squares added to what the point
  before left (to zero at the first point).  The invariant carried from point to point is the scratch buffer at `acc4` of the
  point before (at anything before the first point), beside the scoped buffers the kernel does not use.
-/
import proofs.«160248_j77816217469391_2_alg».proof.Proof.K.Sumsq4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (Pipeline.UD sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The scratch accumulator, as a whole memref. -/
abbrev scM4 : Memref sig .tc .vmem S10x768x1 .f32 := Memref.whole cc4_scratch0

/-- THE ACCUMULATION: the accumulator after point `n`. -/
def acc4 (c : Dev nD) : (n : ℕ) → n < cfg4.N → Vec F S10x768x1 .f32
  | 0, hn => k4_pay2 (iblk4 V c 0 ⟨0, hn⟩) (iblk4 V c 3 ⟨0, hn⟩) (iblk4 V c 1 ⟨0, hn⟩) (iblk4 V c 4 ⟨0, hn⟩) (iblk4 V c 2 ⟨0, hn⟩) (iblk4 V c 5 ⟨0, hn⟩) (k4_pay1 (F := F))
  | n + 1, hn => k4_pay2 (iblk4 V c 0 ⟨n + 1, hn⟩) (iblk4 V c 3 ⟨n + 1, hn⟩) (iblk4 V c 1 ⟨n + 1, hn⟩) (iblk4 V c 4 ⟨n + 1, hn⟩) (iblk4 V c 2 ⟨n + 1, hn⟩) (iblk4 V c 5 ⟨n + 1, hn⟩) (acc4 c n (Nat.lt_of_succ_lt hn))

theorem acc4_zero (c : Dev nD) (t : Fin cfg4.N) (h : t.val = 0) :
    acc4 V c t.val t.isLt = k4_pay2 (iblk4 V c 0 t) (iblk4 V c 3 t) (iblk4 V c 1 t) (iblk4 V c 4 t) (iblk4 V c 2 t) (iblk4 V c 5 t) (k4_pay1 (F := F)) := by
  obtain ⟨n, hn⟩ := t
  cases n with
  | zero => rfl
  | succ n => exact absurd h (Nat.succ_ne_zero n)

theorem acc4_pos (c : Dev nD) (t : Fin cfg4.N) (h : t.val ≠ 0) :
    acc4 V c t.val t.isLt = k4_pay2 (iblk4 V c 0 t) (iblk4 V c 3 t) (iblk4 V c 1 t) (iblk4 V c 4 t) (iblk4 V c 2 t) (iblk4 V c 5 t) (acc4 V c (t.val - 1) (Nat.lt_of_le_of_lt (Nat.sub_le _ _) t.isLt)) := by
  obtain ⟨n, hn⟩ := t
  cases n with
  | zero => exact absurd rfl h
  | succ n => rfl

/-- The invariant before position `n`: before the first point the plain one (every scratch at anything); afterwards the
    accumulator at what the point before left, the other scoped buffers at anything, the generator register at some state. -/
def PhiS4 (c : Dev nD) : (n : ℕ) → n ≤ cfg4.N → sProp 𝕄
  | 0, _ => Pipeline.ΦA spec4 c
  | n + 1, hn => iprop(iprop(owns (c : Thread nD τ) scM4 fullShare (acc4 V c n hn) ∗ Pipeline.scopedRestBut (Ix := Unit) (Name := ℕ) (U := Pipeline.UD sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4 fullShare (acc4 V c n hn) ∗ Pipeline.scopedRestBut (Ix := Unit) (Name := ℕ) (U := Pipeline.UD sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4 fullShare (acc4 V c (n - 1) (by omega)) ∗ Pipeline.scopedRestBut (Ix := Unit) (Name := ℕ) (U := Pipeline.UD sig nD τ) (Lvl := ℕ) (Val := Elt F) spec4 c [cc4_scratch0]) ∗ (∃ r, prngReg c r)) := by
  cases n with
  | zero => exact absurd rfl hz
  | succ n => rfl

/-- The plain invariant with the accumulator's buffer split out of the scoped rest. -/
theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := Pipeline.UD sig nD τ) (Lvl := ℕ) (Val := Elt F) spec4 c [cc4_scratch0]) ∗ (∃ r, prngReg c r)) := by
  unfold Pipeline.ΦA; rw [scopedRest4_split]; simp only [scM4, owns_whole]; try rfl

/-- The proof data: the arrays as the region finds them; after the body each input's buffer at its block and the output's
    at the accumulator; the carried invariant; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = acc4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 8000000 in
/-- The body at any point: the closed forms say which case the point is in; the invariant hands the body the accumulator at
    what the point before left (at anything at the first point) and takes it back at this point's value. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 12 := lt_of_lt_of_eq t.isLt (show cfg4.N = 12 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  rw [show (dat4 V c).leavesExact 4 t = owns (c : Thread nD τ) (st4_4 t) fullShare ((dat4 V c).after 4 t) from by
    unfold Dat.leavesExact; rw [liveAt4_4 t], after4_4]
  rw [show (dat4 V c).leavesExact 5 t = owns (c : Thread nD τ) (st4_5 t) fullShare ((dat4 V c).after 5 t) from by
    unfold Dat.leavesExact; rw [liveAt4_5 t], after4_5]
  by_cases h1 : t.val % 12 = 11
  · -- the last point
    have h0 : ¬ t.val % 12 = 0 := by omega
    have hz : t.val ≠ 0 := by omega
    rw [show (dat4 V c).leavesExact 6 t = owns (c : Thread nD τ) (st4_6 t) fullShare ((dat4 V c).after 6 t) from by
      unfold Dat.leavesExact; rw [liveAt4_6 t ((hcond4_1 t).mpr h1)], after4_6]
    rw [acc4_pos V c t hz, PhiS4_castSucc V c t, PhiS4_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound4_C c Set.univ (grid4.coords t) _ _ _ _ _ _ _ _ _ _ _ _ _ _ _ _ (fun h => h0 ((hcond4_0 t).mp h)) ((hcond4_1 t).mpr h1)
      (iblk4 V c 0 t) (iblk4 V c 1 t) (iblk4 V c 2 t) (iblk4 V c 3 t) (iblk4 V c 4 t) (iblk4 V c 5 t) (acc4 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat4 V c) 6 t (idleAt4_6 t (fun h => h1 ((hcond4_1 t).mp h))) (noFlush4_6 t (fun h => h1 ((hcond4_1 t).mp h)))]
    by_cases h0 : t.val % 12 = 0
    · -- the first point
      have hz : t.val = 0 := by omega
      rw [acc4_zero V c t hz, PhiS4_castSucc V c t, PhiS4_zero V c _ _ hz, PhiA4_eq]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (sound4_A c Set.univ (grid4.coords t) _ _ _ _ _ _ _ _ _ _ _ _ _ _ _ _ ((hcond4_0 t).mpr h0) (fun h => h1 ((hcond4_1 t).mp h))
        (iblk4 V c 0 t) (iblk4 V c 1 t) (iblk4 V c 2 t) (iblk4 V c 3 t) (iblk4 V c 4 t) (iblk4 V c 5 t) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hz : t.val ≠ 0 := by omega
      rw [acc4_pos V c t hz, PhiS4_castSucc V c t, PhiS4_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (sound4_B c Set.univ (grid4.coords t) _ _ _ _ _ _ _ _ _ _ _ _ _ _ _ _ (fun h => h0 ((hcond4_0 t).mp h)) (fun h => h1 ((hcond4_1 t).mp h))
        (iblk4 V c 0 t) (iblk4 V c 1 t) (iblk4 V c 2 t) (iblk4 V c 3 t) (iblk4 V c 4 t) (iblk4 V c 5 t) (acc4 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the region is handed (the plain invariant) is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the plain one back: the accumulator's value is forgotten. -/
theorem hout4 (c : Dev nD) : (dat4 V c).Φ (Fin.last cfg4.N) ⊢ Pipeline.ΦA spec4 c := by
  have hne : (Fin.last cfg4.N).val ≠ 0 := by rw [Fin.val_last]; have : cfg4.N = 12 := N_4; omega
  rw [show (dat4 V c).Φ (Fin.last cfg4.N) = PhiS4 V c (Fin.last cfg4.N).val (Nat.le_of_lt_succ (Fin.last cfg4.N).isLt) from rfl,
    PhiS4_pos V c _ _ hne, PhiA4_eq]
  iintro ⟨⟨HS, HR⟩, Hg⟩
  isplitl [HS HR]
  · isplitl [HS]; · iexists _; iexact HS
    iexact HR
  iexact Hg

end Cert.Kernel.Hand

end
-- ==== Proof.K.Body5.lean ====
/-
  The output kernel's body at one grid point.

  At a point the body loads its eight input blocks whole — the three routing-weight blocks c1, c2, c3 (each [10,768,50]), the
  three 256-column tiles of visual / acoustic / va (each [10,50,256]), the squash factor [10,768,1] and W [10,50,768] —,
  forms  a = factor · (c1·tv + c2·ta + c3·tva)  (batched products over the 50 positions) and stores  W·a  (a batched product
  over the 768 capsules) into the whole output block [10,50,256].  It also loads the output block once and drops the value.
  So after the body the output's buffer holds that one payload of the eight input blocks, whatever it held before, and the
  inputs' buffers hold what they held.
-/
import proofs.«160248_j77816217469391_2_alg».proof.Proof.Gen.Kernel.Launch
import proofs.«160248_j77816217469391_2_alg».proof.Proof.Gen.Kernel.Skeleton
import proofs.«160248_j77816217469391_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The whole output block [10,50,256] as one rectangle. -/
abbrev rOut5 : Rect S10x50x256 := Rect.unit (s := S10x50x256) ![0, 0, 0] S10x50x256.size inb_S10x50x256_S10x50x256_0_0_0
abbrev rC5 : Rect S10x768x50 := Rect.unit (s := S10x768x50) ![0, 0, 0] S10x768x50.size inb_S10x768x50_S10x768x50_0_0_0
abbrev rT5 : Rect S10x50x256 := Rect.unit (s := S10x50x256) ![0, 0, 0] S10x50x256.size inb_S10x50x256_S10x50x256_0_0_0
abbrev rF5 : Rect S10x768x1 := Rect.unit (s := S10x768x1) ![0, 0, 0] S10x768x1.size inb_S10x768x1_S10x768x1_0_0_0
abbrev rW5 : Rect S10x50x768 := Rect.unit (s := S10x50x768) ![0, 0, 0] S10x50x768.size inb_S10x50x768_S10x50x768_0_0_0

/-- What the body leaves in the output block, from the eight input blocks: its one store as a piece. -/
def out5_8 (c1 c2 c3 : Vec F S10x768x50 .bf16) (tv ta tva : Vec F S10x50x256 .bf16) (fac : Vec F S10x768x1 .f32)
    (w : Vec F S10x50x768 .bf16) : Vec F S10x50x256 .f32 :=
  View.canon [⟨rOut5, k5_pay1 (View.ld c1 rC5) (View.ld tv rT5) (View.ld c2 rC5) (View.ld ta rT5) (View.ld c3 rC5) (View.ld tva rT5)
    (View.ld fac rF5) (View.ld w rW5)⟩]

/-- The one store covers the whole block. -/
theorem cover5_8 (p0 : Vec F S10x50x256 .f32) (y : S10x50x256.Idx) :
    ∃ pc ∈ ([⟨rOut5, p0⟩] : List (View.Piece (Elt F) S10x50x256 .f32)), y ∈ pc.1.set :=
  View.cover_of_tiled [⟨rOut5, p0⟩] S10x50x256.size (by rfl) y

set_option maxHeartbeats 4000000 in
/-- The body on whole staging memrefs: the inputs' at read contents, the output's at anything, runs to the continuation
    holding the inputs' as they were and the output's at `out5_8` of them. -/
theorem sound_kernel5 (c : Dev nD) (E : Set ℕ) (i : grid5.Coords)
    (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x50x768 .bf16) (harg8 : arg8.IsWhole)
    (arg9 : Memref sig .tc .vmem S10x50x256 .f32) (harg9 : arg9.IsWhole)
    (c1 c2 c3 : Vec F S10x768x50 .bf16) (tv ta tva : Vec F S10x50x256 .bf16) (fac : Vec F S10x768x1 .f32) (w : Vec F S10x50x768 .bf16)
    (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac ∗ owns (c : Thread nD τ) arg8 fullShare w
        ∗ (∃ d, owns (c : Thread nD τ) arg9 fullShare d)
        ∗ (iprop(owns (c : Thread nD τ) arg1 fullShare c1 ∗ owns (c : Thread nD τ) arg2 fullShare c2 ∗ owns (c : Thread nD τ) arg3 fullShare c3
            ∗ owns (c : Thread nD τ) arg4 fullShare tv ∗ owns (c : Thread nD τ) arg5 fullShare ta ∗ owns (c : Thread nD τ) arg6 fullShare tva
            ∗ owns (c : Thread nD τ) arg7 fullShare fac ∗ owns (c : Thread nD τ) arg8 fullShare w
            ∗ owns (c : Thread nD τ) arg9 fullShare (out5_8 c1 c2 c3 tv ta tva fac w)) -∗ K ⟨⟩))
      ⊢ wp frame (wpE (defs₀ (F := F)) Variants.none c none) E
          (cc5__output_kernel i arg1 harg1 arg2 harg2 arg3 harg3 arg4 harg4 arg5 harg5 arg6 harg6 arg7 harg7 arg8 harg8 arg9 harg9) K := by
  simp only [cc5__output_kernel_eq_skeleton]; unfold cc5__output_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover5_8 _)

end Cert.Kernel.Hand

end
-- ==== Proof.K.Region5.lean ====
/-
  The output kernel's region: its proof data and its body obligation, at any region-entry contents `V`.

  The region has nine windows: the three routing-weight arrays, the factor and W are whole-array blocks (one block, the
  same at all twelve points); visual / acoustic / va are cut into twelve 256-column tiles, tile `t` at point `t`; the output
  [10,50,3072] is cut the same way and tile `t` is written back after point `t`.  After the body at point `t` every input
  buffer still holds its block and the output buffer holds `out5_8` of the eight input blocks at `t`.  Nothing is carried
  from one point to the next, so the invariant is the plain one: the scoped buffers no window stages, at anything.
-/
import proofs.«160248_j77816217469391_2_alg».proof.Proof.K.Body5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input window's current buffer holds its block at every point, fetched there or not (an unfetched window's
    block index has not moved), for any proof data over `V`'s arrays whose body leaves the block in place. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (Pipeline.UD sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (Pipeline.UD sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (Pipeline.UD sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- The proof data: the arrays as the region finds them; after the body each input's buffer at its block and the output's
    at `out5_8` of the input blocks; the plain invariant; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 3 t) (iblk5 V c 4 t) (iblk5 V c 5 t) (iblk5 V c 6 t) (iblk5 V c 7 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t
    = out5_8 (iblk5 V c 0 t) (iblk5 V c 1 t) (iblk5 V c 2 t) (iblk5 V c 3 t) (iblk5 V c 4 t) (iblk5 V c 5 t) (iblk5 V c 6 t) (iblk5 V c 7 t) := by
  dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t))

set_option maxHeartbeats 4000000 in
/-- The body at any point: the inputs' buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel5 c Set.univ (grid5.coords t) _ _ _ _ _ _ _ _ _ _ _ _ _ _ _ _ _ _
    (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Run.lean ====
/-
  The kernel program's run: @main as twelve segments — six stretches of host operations alternating with the six kernel
  regions — composed in order.  `W0` is the launch memory; each host stretch folds its operations over the contents before
  it; each region leaves its arrays at what its pipeline wrote back and every other buffer as it found it.  The run ends
  with every unscoped buffer at `W12`.
-/
import proofs.«160248_j77816217469391_2_alg».proof.Proof.K.SumsqDat0
import proofs.«160248_j77816217469391_2_alg».proof.Proof.K.BupdDat1
import proofs.«160248_j77816217469391_2_alg».proof.Proof.K.SumsqDat2
import proofs.«160248_j77816217469391_2_alg».proof.Proof.K.BupdDat3
import proofs.«160248_j77816217469391_2_alg».proof.Proof.K.SumsqDat4
import proofs.«160248_j77816217469391_2_alg».proof.Proof.K.Region5
import proofs.«160248_j77816217469391_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4 (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After host stretch 5 (region 5's entry). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-! ## The proof data family and the thread state -/

abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- REGION 0 over the thread state: entered from every unscoped buffer at `W1`, left at `W2`. Its arrays are split out of
    the unscoped buffers and put back at the exit contents; the generator register goes into the region's invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split out of
    the unscoped buffers and put back at the exit contents; the generator register goes into the region's invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are split out of
    the unscoped buffers and put back at the exit contents; the generator register goes into the region's invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays are split out of
    the unscoped buffers and put back at the exit contents; the generator register goes into the region's invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. Its arrays are split out of
    the unscoped buffers and put back at the exit contents; the generator register goes into the region's invariant and comes
    back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V9 m ρ) c)
    unfold Pipeline.ΦA
    iintro ⟨Hp, -, Hr⟩
    isplitl [Hr]; · iexact Hr
    iexact Hp
  hout c := by
    rw [Pipeline.ownSems0_none]
    refine BIBase.Entails.trans (hout4 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W11`, left at `W12`. Its arrays are split out of
    the unscoped buffers and put back at the exit contents; the generator register goes into the region's invariant and comes
    back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ) ]

theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates, nothing
    faulting, and every final state has every unscoped buffer at `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

end Cert.Kernel.Hand

end
-- ==== Proof.K.Frame.lean ====
/-
  The kernel program's frame: the run ends with every unscoped buffer at `W12`, and at an argument's buffer `W12` is the launch
  memory — no host operation writes an argument, and no region has an argument among its windows' arrays (the regions read
  the bf16 copies the first host stretch makes).
-/
import proofs.«160248_j77816217469391_2_alg».proof.Proof.K.Run

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- Argument 0 reaches the end as launched: no host stretch writes it and no region stages it. -/
theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- Argument 1 reaches the end as launched: no host stretch writes it and no region stages it. -/
theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- Argument 2 reaches the end as launched: no host stretch writes it and no region stages it. -/
theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- Argument 3 reaches the end as launched: no host stretch writes it and no region stages it. -/
theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- THE FRAME: every weakly fair execution of @main terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c)⟩) (run_all m ρ)

end Cert.Kernel.Hand

end
-- ==== Proof.KI.Common.lean ====
/-
  Shared openings for the kernel-side modules: the zero offset of a whole-block rectangle.
-/
import proofs.«160248_j77816217469391_2_alg».proof.Proof.Gen.KernelIdeal.Launch
import proofs.«160248_j77816217469391_2_alg».proof.Proof.Gen.KernelIdeal.Skeleton
import proofs.«160248_j77816217469391_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The zero offset of a rank-3 rectangle. -/
theorem hz3 : (![0, 0, 0] : Fin 3 → Nat) = fun _ => 0 := funext fun a => by fin_cases a <;> rfl

end Cert.KernelIdeal.Hand

end
-- ==== Proof.KI.Sumsq0.lean ====
/-
  The sum-of-squares kernel (pallas_call 0) as a region: its body's runs, its proof data and its body obligation, at any
  region-entry contents `V`.

  The grid has twelve points, one per 256-column tile of visual / acoustic / va.  At point `t` the body forms the tile of
  s = c1·tv + c2·ta + c3·tva  (three batched products over the 50 positions, [10,768,256]), sums its squares along the 256
  columns, and adds that [10,768,1] column to a scratch accumulator it carries from point to point: at the first point it
  first zeroes the accumulator, and at the last point it copies the accumulator into the output block, which is written
  back only then.  So the accumulator after point `t` is  acc t = acc (t-1) + Σ_{columns of tile t} s², with acc (-1) = 0, and
  the output array ends at acc 11.  At the points before the last the output window is idle: the body does not touch its
  buffer, and the pipeline does not write it back there.
-/
import proofs.«160248_j77816217469391_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- "This is the first point" (the accumulator is zeroed), as the body computes it from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)
/-- "This is the last point" (the accumulator is copied out). -/
abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Before the last point the output window is idle and is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last point it is live. -/
theorem liveAt0_6 : ∀ t : Fin cfg0.N, cond0_1 (grid0.coords t) → cfg0.idle 6 (grid0.coords t) = false := by decide +kernel

/-! ## The body's runs, case by case, with what each leaves named -/

set_option maxHeartbeats 4000000 in
/-- FIRST point (and not the last): the accumulator, whatever it held, ends at the tile's column sums added to zero. The output's
    buffer is not touched. -/
theorem sound0_A (c : Dev nD) (E : Set ℕ) (i : grid0.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : cond0_0 i) (hc1 : ¬cond0_1 i)
    (c1 c2 c3 : Vec F S10x768x50 .bf16) (tv ta tva : Vec F S10x50x256 .bf16) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ (∃ d, owns (c : Thread nD τ) arg8 fullShare d)
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg8 fullShare (k0_pay2 c1 tv c2 ta c3 tva (k0_pay1 (F := F)))) -∗ K ⟨⟩))
      ⊢ wp frame (wpE (defs₀ (F := F)) Variants.none c none) E (cc0__sumsq_kernel i arg1 harg1 arg2 harg2 arg3 harg3 arg4 harg4 arg5 harg5 arg6 harg6 arg7 harg7 arg8 harg8) K := by
  simp only [cc0__sumsq_kernel_eq_skeleton]; unfold cc0__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_cons_unit_zero hz3]
  simp only [View.readCov_unit_zero (S := S10x768x1) _ hz3]
  simp only [View.readAt_eq_ld, View.ld_unit_zero (S := S10x768x50) hz3, View.ld_unit_zero (S := S10x50x256) hz3, View.ld_unit_zero (S := S10x768x1) hz3]

set_option maxHeartbeats 4000000 in
/-- A point that is neither first nor last: the accumulator at `xs` ends at `xs` plus the tile's column sums. -/
theorem sound0_B (c : Dev nD) (E : Set ℕ) (i : grid0.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : ¬cond0_0 i) (hc1 : ¬cond0_1 i)
    (c1 c2 c3 : Vec F S10x768x50 .bf16) (tv ta tva : Vec F S10x50x256 .bf16) (xs : Vec F S10x768x1 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg8 fullShare xs
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg8 fullShare (k0_pay2 c1 tv c2 ta c3 tva xs)) -∗ K ⟨⟩))
      ⊢ wp frame (wpE (defs₀ (F := F)) Variants.none c none) E (cc0__sumsq_kernel i arg1 harg1 arg2 harg2 arg3 harg3 arg4 harg4 arg5 harg5 arg6 harg6 arg7 harg7 arg8 harg8) K := by
  simp only [cc0__sumsq_kernel_eq_skeleton]; unfold cc0__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, Hk⟩
  subst hf1 hf2 hf3 hf4 hf5 hf6 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_unit_zero hz3]
  simp only [View.readAt_eq_ld, View.ld_unit_zero (S := S10x768x50) hz3, View.ld_unit_zero (S := S10x50x256) hz3, View.ld_unit_zero (S := S10x768x1) hz3]

set_option maxHeartbeats 4000000 in
/-- The LAST point: the accumulator at `xs` ends at `xs` plus the tile's column sums, and the output's buffer, whatever it
    held, ends at the same value. -/
theorem sound0_C (c : Dev nD) (E : Set ℕ) (i : grid0.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : ¬cond0_0 i) (hc1 : cond0_1 i)
    (c1 c2 c3 : Vec F S10x768x50 .bf16) (tv ta tva : Vec F S10x50x256 .bf16) (xs : Vec F S10x768x1 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ (∃ d, owns (c : Thread nD τ) arg7 fullShare d) ∗ owns (c : Thread nD τ) arg8 fullShare xs
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg7 fullShare (k0_pay2 c1 tv c2 ta c3 tva xs)
            ∗ owns (c : Thread nD τ) arg8 fullShare (k0_pay2 c1 tv c2 ta c3 tva xs)) -∗ K ⟨⟩))
      ⊢ wp frame (wpE (defs₀ (F := F)) Variants.none c none) E (cc0__sumsq_kernel i arg1 harg1 arg2 harg2 arg3 harg3 arg4 harg4 arg5 harg5 arg6 harg6 arg7 harg7 arg8 harg8) K := by
  simp only [cc0__sumsq_kernel_eq_skeleton]; unfold cc0__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf1 hf2 hf3 hf4 hf5 hf6 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (fun y => ⟨_, List.mem_cons_self, View.mem_set_unit_zero hz3 inb_S10x768x1_S10x768x1_0_0_0 y⟩), View.canon_unit_zero hz3]
    simp only [View.readCov_unit_zero (S := S10x768x1) _ hz3]
    simp only [View.readAt_eq_ld, View.ld_unit_zero (S := S10x768x50) hz3, View.ld_unit_zero (S := S10x50x256) hz3, View.ld_unit_zero (S := S10x768x1) hz3]
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_unit_zero hz3]
  simp only [View.readAt_eq_ld, View.ld_unit_zero (S := S10x768x50) hz3, View.ld_unit_zero (S := S10x50x256) hz3, View.ld_unit_zero (S := S10x768x1) hz3]

end Cert.KernelIdeal.Hand

end
-- ==== Proof.KI.SumsqDat0.lean ====
/-
  The sum-of-squares kernel (pallas_call 0): the proof data of its region and the body obligation, at any region-entry
  contents `V`.  `acc0 V c n` is the accumulator after point `n`: the tile's column sums of squares added to what the point
  before left (to zero at the first point).  The invariant carried from point to point is the scratch buffer at `acc0` of the
  point before (at anything before the first point), beside the scoped buffers the kernel does not use.
-/
import proofs.«160248_j77816217469391_2_alg».proof.Proof.KI.Sumsq0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The scratch accumulator, as a whole memref. -/
abbrev scM0 : Memref sig .tc .vmem S10x768x1 .f32 := Memref.whole cc0_scratch0

/-- THE ACCUMULATION: the accumulator after point `n`. -/
def acc0 (c : Dev nD) : (n : ℕ) → n < cfg0.N → Vec F S10x768x1 .f32
  | 0, hn => k0_pay2 (iblk0 V c 0 ⟨0, hn⟩) (iblk0 V c 3 ⟨0, hn⟩) (iblk0 V c 1 ⟨0, hn⟩) (iblk0 V c 4 ⟨0, hn⟩) (iblk0 V c 2 ⟨0, hn⟩) (iblk0 V c 5 ⟨0, hn⟩) (k0_pay1 (F := F))
  | n + 1, hn => k0_pay2 (iblk0 V c 0 ⟨n + 1, hn⟩) (iblk0 V c 3 ⟨n + 1, hn⟩) (iblk0 V c 1 ⟨n + 1, hn⟩) (iblk0 V c 4 ⟨n + 1, hn⟩) (iblk0 V c 2 ⟨n + 1, hn⟩) (iblk0 V c 5 ⟨n + 1, hn⟩) (acc0 c n (Nat.lt_of_succ_lt hn))

theorem acc0_zero (c : Dev nD) (t : Fin cfg0.N) (h : t.val = 0) :
    acc0 V c t.val t.isLt = k0_pay2 (iblk0 V c 0 t) (iblk0 V c 3 t) (iblk0 V c 1 t) (iblk0 V c 4 t) (iblk0 V c 2 t) (iblk0 V c 5 t) (k0_pay1 (F := F)) := by
  obtain ⟨n, hn⟩ := t
  cases n with
  | zero => rfl
  | succ n => exact absurd h (Nat.succ_ne_zero n)

theorem acc0_pos (c : Dev nD) (t : Fin cfg0.N) (h : t.val ≠ 0) :
    acc0 V c t.val t.isLt = k0_pay2 (iblk0 V c 0 t) (iblk0 V c 3 t) (iblk0 V c 1 t) (iblk0 V c 4 t) (iblk0 V c 2 t) (iblk0 V c 5 t) (acc0 V c (t.val - 1) (Nat.lt_of_le_of_lt (Nat.sub_le _ _) t.isLt)) := by
  obtain ⟨n, hn⟩ := t
  cases n with
  | zero => exact absurd rfl h
  | succ n => rfl

/-- The invariant before position `n`: before the first point the plain one (every scratch at anything); afterwards the
    accumulator at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ Pipeline.scopedRestBut (Ix := Unit) (Name := ℕ) (U := Pipeline.UD sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ Pipeline.scopedRestBut (Ix := Unit) (Name := ℕ) (U := Pipeline.UD sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ Pipeline.scopedRestBut (Ix := Unit) (Name := ℕ) (U := Pipeline.UD sig nD τ) (Lvl := ℕ) (Val := Elt F) spec0 c [cc0_scratch0]) ∗ (∃ r, prngReg c r)) := by
  cases n with
  | zero => exact absurd rfl hz
  | succ n => rfl

/-- The plain invariant with the accumulator's buffer split out of the scoped rest. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := Pipeline.UD sig nD τ) (Lvl := ℕ) (Val := Elt F) spec0 c [cc0_scratch0]) ∗ (∃ r, prngReg c r)) := by
  unfold Pipeline.ΦA; rw [scopedRest0_split]; simp only [scM0, owns_whole]; try rfl

/-- The proof data: the arrays as the region finds them; after the body each input's buffer at its block and the output's
    at the accumulator; the carried invariant; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the closed forms say which case the point is in; the invariant hands the body the accumulator at
    what the point before left (at anything at the first point) and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 12 := lt_of_lt_of_eq t.isLt (show cfg0.N = 12 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  by_cases h1 : t.val % 12 = 11
  · -- the last point
    have h0 : ¬ t.val % 12 = 0 := by omega
    have hz : t.val ≠ 0 := by omega
    rw [show (dat0 V c).leavesExact 6 t = owns (c : Thread nD τ) (st0_6 t) fullShare ((dat0 V c).after 6 t) from by
      unfold Dat.leavesExact; rw [liveAt0_6 t ((hcond0_1 t).mpr h1)], after0_6]
    rw [acc0_pos V c t hz, PhiS0_castSucc V c t, PhiS0_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound0_C c Set.univ (grid0.coords t) _ _ _ _ _ _ _ _ _ _ _ _ _ _ _ _ (fun h => h0 ((hcond0_0 t).mp h)) ((hcond0_1 t).mpr h1)
      (iblk0 V c 0 t) (iblk0 V c 1 t) (iblk0 V c 2 t) (iblk0 V c 3 t) (iblk0 V c 4 t) (iblk0 V c 5 t) (acc0 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat0 V c) 6 t (idleAt0_6 t (fun h => h1 ((hcond0_1 t).mp h))) (noFlush0_6 t (fun h => h1 ((hcond0_1 t).mp h)))]
    by_cases h0 : t.val % 12 = 0
    · -- the first point
      have hz : t.val = 0 := by omega
      rw [acc0_zero V c t hz, PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (sound0_A c Set.univ (grid0.coords t) _ _ _ _ _ _ _ _ _ _ _ _ _ _ _ _ ((hcond0_0 t).mpr h0) (fun h => h1 ((hcond0_1 t).mp h))
        (iblk0 V c 0 t) (iblk0 V c 1 t) (iblk0 V c 2 t) (iblk0 V c 3 t) (iblk0 V c 4 t) (iblk0 V c 5 t) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hz : t.val ≠ 0 := by omega
      rw [acc0_pos V c t hz, PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (sound0_B c Set.univ (grid0.coords t) _ _ _ _ _ _ _ _ _ _ _ _ _ _ _ _ (fun h => h0 ((hcond0_0 t).mp h)) (fun h => h1 ((hcond0_1 t).mp h))
        (iblk0 V c 0 t) (iblk0 V c 1 t) (iblk0 V c 2 t) (iblk0 V c 3 t) (iblk0 V c 4 t) (iblk0 V c 5 t) (acc0 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is handed (the plain invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the plain one back: the accumulator's value is forgotten. -/
theorem hout0 (c : Dev nD) : (dat0 V c).Φ (Fin.last cfg0.N) ⊢ Pipeline.ΦA spec0 c := by
  have hne : (Fin.last cfg0.N).val ≠ 0 := by rw [Fin.val_last]; have : cfg0.N = 12 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS, HR⟩, Hg⟩
  isplitl [HS HR]
  · isplitl [HS]; · iexists _; iexact HS
    iexact HR
  iexact Hg

end Cert.KernelIdeal.Hand

end
-- ==== Proof.KI.Bupd1.lean ====
/-
  The logit-update kernel (pallas_call 1): its body's runs, case by case, with what each leaves named.

  The grid has twelve points, one per 256-column tile of visual / acoustic / va.  At point `t` the body forms the tile of the
  squashed capsules  a = factor · (c1·tv + c2·ta + c3·tva)  ([10,768,256]) and adds the three batched products of `a` with the
  tiles of visual, acoustic and va over the 256 columns (each [10,768,50]) to three scratch accumulators it carries from
  point to point: at the first point it first zeroes them, and at the last point it copies them into the three output
  blocks, which are written back only then.
-/
import proofs.«160248_j77816217469391_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- "This is the first point" (the accumulators are zeroed), as the body computes it from the grid coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 12 = 0 :=
  (by decide +kernel : ∀ t : Fin grid1.N, cond1_0 (grid1.coords t) ↔ t.val % 12 = 0)
/-- "This is the last point" (the accumulators are copied out). -/
abbrev cond1_1 (i : grid1.Coords) : Prop := k1_cond2 i = 1#1
theorem hcond1_1 : ∀ t : Fin cfg1.N, cond1_1 (grid1.coords t) ↔ t.val % 12 = 11 :=
  (by decide +kernel : ∀ t : Fin grid1.N, cond1_1 (grid1.coords t) ↔ t.val % 12 = 11)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel
theorem idleAt1_9 : ∀ t : Fin cfg1.N, ¬cond1_1 (grid1.coords t) → cfg1.idle 9 (grid1.coords t) = true := by decide +kernel
theorem noFlush1_9 : ∀ t : Fin cfg1.N, ¬cond1_1 (grid1.coords t) → (cfg1.win 9).flush t = false := by decide +kernel
theorem liveAt1_9 : ∀ t : Fin cfg1.N, cond1_1 (grid1.coords t) → cfg1.idle 9 (grid1.coords t) = false := by decide +kernel

/-! ## The body's runs -/

set_option maxHeartbeats 8000000 in
/-- FIRST point (and not the last): the three accumulators, whatever they held, end at the tile's three products added to zero.
    The outputs' buffers are not touched. -/
theorem sound1_A (c : Dev nD) (E : Set ℕ) (i : grid1.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x50 .f32) (harg8 : arg8.IsWhole)
    (arg9 : Memref sig .tc .vmem S10x768x50 .f32) (harg9 : arg9.IsWhole) (arg10 : Memref sig .tc .vmem S10x768x50 .f32) (harg10 : arg10.IsWhole)
    (arg11 : Memref sig .tc .vmem S10x768x50 .f32) (harg11 : arg11.IsWhole) (arg12 : Memref sig .tc .vmem S10x768x50 .f32) (harg12 : arg12.IsWhole)
    (arg13 : Memref sig .tc .vmem S10x768x50 .f32) (harg13 : arg13.IsWhole)
    (hc0 : cond1_0 i) (hc1 : ¬cond1_1 i)
    (c1 c2 c3 : Vec F S10x768x50 .bf16) (tv ta tva : Vec F S10x50x256 .bf16) (fac : Vec F S10x768x1 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
            ∗ owns (c : Thread nD τ) arg11 fullShare (k1_pay1 (k1_pay11 tv ta tva c1 c2 c3 fac (k1_pay4 (F := F))))
            ∗ owns (c : Thread nD τ) arg12 fullShare (k1_pay2 (k1_pay8 ta) (k1_pay10 tv ta tva c1 c2 c3 fac) (k1_pay5 (F := F)))
            ∗ owns (c : Thread nD τ) arg13 fullShare (k1_pay3 (k1_pay9 tva) (k1_pay10 tv ta tva c1 c2 c3 fac) (k1_pay6 (F := F)))) -∗ K ⟨⟩))
      ⊢ wp frame (wpE (defs₀ (F := F)) Variants.none c none) E (cc1__bupdate_kernel i arg1 harg1 arg2 harg2 arg3 harg3 arg4 harg4 arg5 harg5 arg6 harg6 arg7 harg7 arg8 harg8 arg9 harg9 arg10 harg10 arg11 harg11 arg12 harg12 arg13 harg13) K := by
  simp only [cc1__bupdate_kernel_eq_skeleton]; unfold cc1__bupdate_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d11, %f11, -, H11⟩, ⟨%d12, %f12, -, H12⟩, ⟨%d13, %f13, -, H13⟩, Hk⟩
  subst hf1 hf2 hf3 hf4 hf5 hf6 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H11]
  · iexists _; isplitr
    swap; · iexact H11
    ipureintro
    sl_unfold_words
    rw [View.read_writes_eq_canon _ _ _ (fun y => ⟨_, List.mem_cons_self, View.mem_set_unit_zero hz3 inb_S10x768x50_S10x768x50_0_0_0 y⟩), View.canon_cons_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H12]
  · iexists _; isplitr
    swap; · iexact H12
    ipureintro
    sl_unfold_words
    rw [View.read_writes_eq_canon _ _ _ (fun y => ⟨_, List.mem_cons_self, View.mem_set_unit_zero hz3 inb_S10x768x50_S10x768x50_0_0_0 y⟩), View.canon_cons_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  iexists _; isplitr
  swap; · iexact H13
  ipureintro
  sl_unfold_words
  rw [View.read_writes_eq_canon _ _ _ (fun y => ⟨_, List.mem_cons_self, View.mem_set_unit_zero hz3 inb_S10x768x50_S10x768x50_0_0_0 y⟩), View.canon_cons_unit_zero hz3]
  simp only [View.readCov_unit_zero (S := S10x768x50) _ hz3, View.readAt_eq_ld, View.ld_unit_zero (S := S10x768x50) hz3, View.ld_unit_zero (S := S10x50x256) hz3, View.ld_unit_zero (S := S10x768x1) hz3]

set_option maxHeartbeats 8000000 in
/-- A point that is neither first nor last: the accumulators at `x1 x2 x3` end at those plus the tile's three products. -/
theorem sound1_B (c : Dev nD) (E : Set ℕ) (i : grid1.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x50 .f32) (harg8 : arg8.IsWhole)
    (arg9 : Memref sig .tc .vmem S10x768x50 .f32) (harg9 : arg9.IsWhole) (arg10 : Memref sig .tc .vmem S10x768x50 .f32) (harg10 : arg10.IsWhole)
    (arg11 : Memref sig .tc .vmem S10x768x50 .f32) (harg11 : arg11.IsWhole) (arg12 : Memref sig .tc .vmem S10x768x50 .f32) (harg12 : arg12.IsWhole)
    (arg13 : Memref sig .tc .vmem S10x768x50 .f32) (harg13 : arg13.IsWhole)
    (hc0 : ¬cond1_0 i) (hc1 : ¬cond1_1 i)
    (c1 c2 c3 : Vec F S10x768x50 .bf16) (tv ta tva : Vec F S10x50x256 .bf16) (fac : Vec F S10x768x1 .f32)
    (x1 x2 x3 : Vec F S10x768x50 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
        ∗ owns (c : Thread nD τ) arg11 fullShare x1 ∗ owns (c : Thread nD τ) arg12 fullShare x2 ∗ owns (c : Thread nD τ) arg13 fullShare x3
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
            ∗ owns (c : Thread nD τ) arg11 fullShare (k1_pay1 (k1_pay11 tv ta tva c1 c2 c3 fac x1))
            ∗ owns (c : Thread nD τ) arg12 fullShare (k1_pay2 (k1_pay8 ta) (k1_pay10 tv ta tva c1 c2 c3 fac) x2)
            ∗ owns (c : Thread nD τ) arg13 fullShare (k1_pay3 (k1_pay9 tva) (k1_pay10 tv ta tva c1 c2 c3 fac) x3)) -∗ K ⟨⟩))
      ⊢ wp frame (wpE (defs₀ (F := F)) Variants.none c none) E (cc1__bupdate_kernel i arg1 harg1 arg2 harg2 arg3 harg3 arg4 harg4 arg5 harg5 arg6 harg6 arg7 harg7 arg8 harg8 arg9 harg9 arg10 harg10 arg11 harg11 arg12 harg12 arg13 harg13) K := by
  simp only [cc1__bupdate_kernel_eq_skeleton]; unfold cc1__bupdate_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, ⟨%f13, %hf13, H13⟩, Hk⟩
  subst hf1 hf2 hf3 hf4 hf5 hf6 hf7 hf11 hf12 hf13
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H11]
  · iexists _; isplitr
    swap; · iexact H11
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H12]
  · iexists _; isplitr
    swap; · iexact H12
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  iexists _; isplitr
  swap; · iexact H13
  ipureintro
  sl_unfold_words
  rw [View.read_writes_eq_canon _ _ _ (fun y => ⟨_, List.mem_cons_self, View.mem_set_unit_zero hz3 inb_S10x768x50_S10x768x50_0_0_0 y⟩), View.canon_unit_zero hz3]
  simp only [View.readCov_unit_zero (S := S10x768x50) _ hz3, View.readAt_eq_ld, View.ld_unit_zero (S := S10x768x50) hz3, View.ld_unit_zero (S := S10x50x256) hz3, View.ld_unit_zero (S := S10x768x1) hz3]

set_option maxHeartbeats 8000000 in
/-- The LAST point: the accumulators at `x1 x2 x3` end at those plus the tile's three products, and the three outputs' buffers,
    whatever they held, end at the same three values. -/
theorem sound1_C (c : Dev nD) (E : Set ℕ) (i : grid1.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x50 .f32) (harg8 : arg8.IsWhole)
    (arg9 : Memref sig .tc .vmem S10x768x50 .f32) (harg9 : arg9.IsWhole) (arg10 : Memref sig .tc .vmem S10x768x50 .f32) (harg10 : arg10.IsWhole)
    (arg11 : Memref sig .tc .vmem S10x768x50 .f32) (harg11 : arg11.IsWhole) (arg12 : Memref sig .tc .vmem S10x768x50 .f32) (harg12 : arg12.IsWhole)
    (arg13 : Memref sig .tc .vmem S10x768x50 .f32) (harg13 : arg13.IsWhole)
    (hc0 : ¬cond1_0 i) (hc1 : cond1_1 i)
    (c1 c2 c3 : Vec F S10x768x50 .bf16) (tv ta tva : Vec F S10x50x256 .bf16) (fac : Vec F S10x768x1 .f32)
    (x1 x2 x3 : Vec F S10x768x50 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare x1 ∗ owns (c : Thread nD τ) arg12 fullShare x2 ∗ owns (c : Thread nD τ) arg13 fullShare x3
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
            ∗ owns (c : Thread nD τ) arg8 fullShare (k1_pay1 (k1_pay11 tv ta tva c1 c2 c3 fac x1))
            ∗ owns (c : Thread nD τ) arg9 fullShare (k1_pay2 (k1_pay8 ta) (k1_pay10 tv ta tva c1 c2 c3 fac) x2)
            ∗ owns (c : Thread nD τ) arg10 fullShare (k1_pay3 (k1_pay9 tva) (k1_pay10 tv ta tva c1 c2 c3 fac) x3)
            ∗ owns (c : Thread nD τ) arg11 fullShare (k1_pay1 (k1_pay11 tv ta tva c1 c2 c3 fac x1))
            ∗ owns (c : Thread nD τ) arg12 fullShare (k1_pay2 (k1_pay8 ta) (k1_pay10 tv ta tva c1 c2 c3 fac) x2)
            ∗ owns (c : Thread nD τ) arg13 fullShare (k1_pay3 (k1_pay9 tva) (k1_pay10 tv ta tva c1 c2 c3 fac) x3)) -∗ K ⟨⟩))
      ⊢ wp frame (wpE (defs₀ (F := F)) Variants.none c none) E (cc1__bupdate_kernel i arg1 harg1 arg2 harg2 arg3 harg3 arg4 harg4 arg5 harg5 arg6 harg6 arg7 harg7 arg8 harg8 arg9 harg9 arg10 harg10 arg11 harg11 arg12 harg12 arg13 harg13) K := by
  simp only [cc1__bupdate_kernel_eq_skeleton]; unfold cc1__bupdate_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, Hk⟩
  subst hf1 hf2 hf3 hf4 hf5 hf6 hf7 hf11 hf12 hf13
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H9]
  · iexists _; isplitr
    swap; · iexact H9
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H10]
  · iexists _; isplitr
    swap; · iexact H10
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H11]
  · iexists _; isplitr
    swap; · iexact H11
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H12]
  · iexists _; isplitr
    swap; · iexact H12
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  iexists _; isplitr
  swap; · iexact H13
  ipureintro
  sl_unfold_words
  rw [View.read_writes_eq_canon _ _ _ (fun y => ⟨_, List.mem_cons_self, View.mem_set_unit_zero hz3 inb_S10x768x50_S10x768x50_0_0_0 y⟩), View.canon_unit_zero hz3]
  simp only [View.readCov_unit_zero (S := S10x768x50) _ hz3, View.readAt_eq_ld, View.ld_unit_zero (S := S10x768x50) hz3, View.ld_unit_zero (S := S10x50x256) hz3, View.ld_unit_zero (S := S10x768x1) hz3]

end Cert.KernelIdeal.Hand

end
-- ==== Proof.KI.BupdDat1.lean ====
/-
  The logit-update kernel (pallas_call 1): the proof data of its region and the body obligation, at any region-entry contents
  `V`.  `acc1 V c n` is the triple of accumulators after point `n`: the tile's three products added to what the point before
  left (to zero at the first point).  The invariant carried from point to point is the three scratch buffers at `acc1` of the
  point before (at anything before the first point), beside the scoped buffers the kernel does not use.
-/
import proofs.«160248_j77816217469391_2_alg».proof.Proof.KI.Bupd1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The three scratch accumulators, as whole memrefs. -/
abbrev scA1 : Memref sig .tc .vmem S10x768x50 .f32 := Memref.whole cc1_scratch0
abbrev scB1 : Memref sig .tc .vmem S10x768x50 .f32 := Memref.whole cc1_scratch1
abbrev scC1 : Memref sig .tc .vmem S10x768x50 .f32 := Memref.whole cc1_scratch2

/-- THE ACCUMULATION: the three accumulators after point `n`. -/
def acc1 (c : Dev nD) : (n : ℕ) → n < cfg1.N → Vec F S10x768x50 .f32 × Vec F S10x768x50 .f32 × Vec F S10x768x50 .f32
  | 0, hn => ((k1_pay1 (k1_pay11 (iblk1 V c 3 ⟨0, hn⟩) (iblk1 V c 4 ⟨0, hn⟩) (iblk1 V c 5 ⟨0, hn⟩) (iblk1 V c 0 ⟨0, hn⟩) (iblk1 V c 1 ⟨0, hn⟩) (iblk1 V c 2 ⟨0, hn⟩) (iblk1 V c 6 ⟨0, hn⟩) (k1_pay4 (F := F)))), (k1_pay2 (k1_pay8 (iblk1 V c 4 ⟨0, hn⟩)) (k1_pay10 (iblk1 V c 3 ⟨0, hn⟩) (iblk1 V c 4 ⟨0, hn⟩) (iblk1 V c 5 ⟨0, hn⟩) (iblk1 V c 0 ⟨0, hn⟩) (iblk1 V c 1 ⟨0, hn⟩) (iblk1 V c 2 ⟨0, hn⟩) (iblk1 V c 6 ⟨0, hn⟩)) (k1_pay5 (F := F))), (k1_pay3 (k1_pay9 (iblk1 V c 5 ⟨0, hn⟩)) (k1_pay10 (iblk1 V c 3 ⟨0, hn⟩) (iblk1 V c 4 ⟨0, hn⟩) (iblk1 V c 5 ⟨0, hn⟩) (iblk1 V c 0 ⟨0, hn⟩) (iblk1 V c 1 ⟨0, hn⟩) (iblk1 V c 2 ⟨0, hn⟩) (iblk1 V c 6 ⟨0, hn⟩)) (k1_pay6 (F := F))))
  | n + 1, hn => ((k1_pay1 (k1_pay11 (iblk1 V c 3 ⟨n + 1, hn⟩) (iblk1 V c 4 ⟨n + 1, hn⟩) (iblk1 V c 5 ⟨n + 1, hn⟩) (iblk1 V c 0 ⟨n + 1, hn⟩) (iblk1 V c 1 ⟨n + 1, hn⟩) (iblk1 V c 2 ⟨n + 1, hn⟩) (iblk1 V c 6 ⟨n + 1, hn⟩) (acc1 c n (Nat.lt_of_succ_lt hn)).1)), (k1_pay2 (k1_pay8 (iblk1 V c 4 ⟨n + 1, hn⟩)) (k1_pay10 (iblk1 V c 3 ⟨n + 1, hn⟩) (iblk1 V c 4 ⟨n + 1, hn⟩) (iblk1 V c 5 ⟨n + 1, hn⟩) (iblk1 V c 0 ⟨n + 1, hn⟩) (iblk1 V c 1 ⟨n + 1, hn⟩) (iblk1 V c 2 ⟨n + 1, hn⟩) (iblk1 V c 6 ⟨n + 1, hn⟩)) (acc1 c n (Nat.lt_of_succ_lt hn)).2.1), (k1_pay3 (k1_pay9 (iblk1 V c 5 ⟨n + 1, hn⟩)) (k1_pay10 (iblk1 V c 3 ⟨n + 1, hn⟩) (iblk1 V c 4 ⟨n + 1, hn⟩) (iblk1 V c 5 ⟨n + 1, hn⟩) (iblk1 V c 0 ⟨n + 1, hn⟩) (iblk1 V c 1 ⟨n + 1, hn⟩) (iblk1 V c 2 ⟨n + 1, hn⟩) (iblk1 V c 6 ⟨n + 1, hn⟩)) (acc1 c n (Nat.lt_of_succ_lt hn)).2.2))

theorem acc1_zero (c : Dev nD) (t : Fin cfg1.N) (h : t.val = 0) :
    acc1 V c t.val t.isLt = ((k1_pay1 (k1_pay11 (iblk1 V c 3 t) (iblk1 V c 4 t) (iblk1 V c 5 t) (iblk1 V c 0 t) (iblk1 V c 1 t) (iblk1 V c 2 t) (iblk1 V c 6 t) (k1_pay4 (F := F)))), (k1_pay2 (k1_pay8 (iblk1 V c 4 t)) (k1_pay10 (iblk1 V c 3 t) (iblk1 V c 4 t) (iblk1 V c 5 t) (iblk1 V c 0 t) (iblk1 V c 1 t) (iblk1 V c 2 t) (iblk1 V c 6 t)) (k1_pay5 (F := F))), (k1_pay3 (k1_pay9 (iblk1 V c 5 t)) (k1_pay10 (iblk1 V c 3 t) (iblk1 V c 4 t) (iblk1 V c 5 t) (iblk1 V c 0 t) (iblk1 V c 1 t) (iblk1 V c 2 t) (iblk1 V c 6 t)) (k1_pay6 (F := F)))) := by
  obtain ⟨n, hn⟩ := t
  cases n with
  | zero => rfl
  | succ n => exact absurd h (Nat.succ_ne_zero n)

theorem acc1_pos (c : Dev nD) (t : Fin cfg1.N) (h : t.val ≠ 0) :
    acc1 V c t.val t.isLt = ((k1_pay1 (k1_pay11 (iblk1 V c 3 t) (iblk1 V c 4 t) (iblk1 V c 5 t) (iblk1 V c 0 t) (iblk1 V c 1 t) (iblk1 V c 2 t) (iblk1 V c 6 t) (acc1 V c (t.val - 1) (Nat.lt_of_le_of_lt (Nat.sub_le _ _) t.isLt)).1)), (k1_pay2 (k1_pay8 (iblk1 V c 4 t)) (k1_pay10 (iblk1 V c 3 t) (iblk1 V c 4 t) (iblk1 V c 5 t) (iblk1 V c 0 t) (iblk1 V c 1 t) (iblk1 V c 2 t) (iblk1 V c 6 t)) (acc1 V c (t.val - 1) (Nat.lt_of_le_of_lt (Nat.sub_le _ _) t.isLt)).2.1), (k1_pay3 (k1_pay9 (iblk1 V c 5 t)) (k1_pay10 (iblk1 V c 3 t) (iblk1 V c 4 t) (iblk1 V c 5 t) (iblk1 V c 0 t) (iblk1 V c 1 t) (iblk1 V c 2 t) (iblk1 V c 6 t)) (acc1 V c (t.val - 1) (Nat.lt_of_le_of_lt (Nat.sub_le _ _) t.isLt)).2.2)) := by
  obtain ⟨n, hn⟩ := t
  cases n with
  | zero => exact absurd rfl h
  | succ n => rfl

/-- The invariant before position `n`. -/
def PhiS1 (c : Dev nD) : (n : ℕ) → n ≤ cfg1.N → sProp 𝕄
  | 0, _ => Pipeline.ΦA spec1 c
  | n + 1, hn => iprop(iprop(iprop(owns (c : Thread nD τ) scA1 fullShare (acc1 V c n hn).1 ∗ owns (c : Thread nD τ) scB1 fullShare (acc1 V c n hn).2.1 ∗ owns (c : Thread nD τ) scC1 fullShare (acc1 V c n hn).2.2) ∗ Pipeline.scopedRestBut (Ix := Unit) (Name := ℕ) (U := Pipeline.UD sig nD τ) (Lvl := ℕ) (Val := Elt F) spec1 c [cc1_scratch0, cc1_scratch1, cc1_scratch2]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scA1 fullShare (acc1 V c n hn).1 ∗ owns (c : Thread nD τ) scB1 fullShare (acc1 V c n hn).2.1 ∗ owns (c : Thread nD τ) scC1 fullShare (acc1 V c n hn).2.2) ∗ Pipeline.scopedRestBut (Ix := Unit) (Name := ℕ) (U := Pipeline.UD sig nD τ) (Lvl := ℕ) (Val := Elt F) spec1 c [cc1_scratch0, cc1_scratch1, cc1_scratch2]) ∗ (∃ r, prngReg c r)) := rfl
theorem PhiS1_pos (c : Dev nD) (n : ℕ) (h : n ≤ cfg1.N) (hz : n ≠ 0) :
    PhiS1 V c n h = iprop(iprop(iprop(owns (c : Thread nD τ) scA1 fullShare (acc1 V c (n - 1) (by omega)).1 ∗ owns (c : Thread nD τ) scB1 fullShare (acc1 V c (n - 1) (by omega)).2.1 ∗ owns (c : Thread nD τ) scC1 fullShare (acc1 V c (n - 1) (by omega)).2.2) ∗ Pipeline.scopedRestBut (Ix := Unit) (Name := ℕ) (U := Pipeline.UD sig nD τ) (Lvl := ℕ) (Val := Elt F) spec1 c [cc1_scratch0, cc1_scratch1, cc1_scratch2]) ∗ (∃ r, prngReg c r)) := by
  cases n with
  | zero => exact absurd rfl hz
  | succ n => rfl

/-- The plain invariant with the accumulators' buffers split out of the scoped rest. -/
theorem PhiA1_eq (c : Dev nD) :
    (Pipeline.ΦA spec1 c : sProp 𝕄)
      = iprop(iprop(iprop((∃ d, owns (c : Thread nD τ) scA1 fullShare d) ∗ (∃ d, owns (c : Thread nD τ) scB1 fullShare d) ∗ (∃ d, owns (c : Thread nD τ) scC1 fullShare d)) ∗ Pipeline.scopedRestBut (Ix := Unit) (Name := ℕ) (U := Pipeline.UD sig nD τ) (Lvl := ℕ) (Val := Elt F) spec1 c [cc1_scratch0, cc1_scratch1, cc1_scratch2]) ∗ (∃ r, prngReg c r)) := by
  unfold Pipeline.ΦA; rw [scopedRest1_split]; simp only [scA1, scB1, scC1, owns_whole]; try rfl

/-- The proof data. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (acc1 V c t.val t.isLt).1
    | ⟨8, _⟩ => (acc1 V c t.val t.isLt).2.1
    | ⟨9, _⟩ => (acc1 V c t.val t.isLt).2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (acc1 V c t.val t.isLt).1 := by dsimp only [dat1]
theorem after1_8 (c : Dev nD) (t : Fin cfg1.N) : (dat1 V c).after 8 t = (acc1 V c t.val t.isLt).2.1 := by dsimp only [dat1]
theorem after1_9 (c : Dev nD) (t : Fin cfg1.N) : (dat1 V c).after 9 t = (acc1 V c t.val t.isLt).2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 16000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 12 := lt_of_lt_of_eq t.isLt (show cfg1.N = 12 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  by_cases h1 : t.val % 12 = 11
  · -- the last point
    have h0 : ¬ t.val % 12 = 0 := by omega
    have hz : t.val ≠ 0 := by omega
    rw [show (dat1 V c).leavesExact 7 t = owns (c : Thread nD τ) (st1_7 t) fullShare ((dat1 V c).after 7 t) from by
      unfold Dat.leavesExact; rw [liveAt1_7 t ((hcond1_1 t).mpr h1)], after1_7]
    rw [show (dat1 V c).leavesExact 8 t = owns (c : Thread nD τ) (st1_8 t) fullShare ((dat1 V c).after 8 t) from by
      unfold Dat.leavesExact; rw [liveAt1_8 t ((hcond1_1 t).mpr h1)], after1_8]
    rw [show (dat1 V c).leavesExact 9 t = owns (c : Thread nD τ) (st1_9 t) fullShare ((dat1 V c).after 9 t) from by
      unfold Dat.leavesExact; rw [liveAt1_9 t ((hcond1_1 t).mpr h1)], after1_9]
    rw [acc1_pos V c t hz, PhiS1_castSucc V c t, PhiS1_pos V c _ _ hz]
    iintro ⟨⟨⟨⟨HS1, HS2, HS3⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound1_C c Set.univ (grid1.coords t) _ _ _ _ _ _ _ _ _ _ _ _ _ _ _ _ _ _ _ _ _ _ _ _ _ _ (fun h => h0 ((hcond1_0 t).mp h)) ((hcond1_1 t).mpr h1)
      (iblk1 V c 0 t) (iblk1 V c 1 t) (iblk1 V c 2 t) (iblk1 V c 3 t) (iblk1 V c 4 t) (iblk1 V c 5 t) (iblk1 V c 6 t) (acc1 V c (t.val - 1) (Nat.lt_of_le_of_lt (Nat.sub_le _ _) t.isLt)).1 (acc1 V c (t.val - 1) (Nat.lt_of_le_of_lt (Nat.sub_le _ _) t.isLt)).2.1 (acc1 V c (t.val - 1) (Nat.lt_of_le_of_lt (Nat.sub_le _ _) t.isLt)).2.2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS1]; · iexact HS1
    isplitl [HS2]; · iexact HS2
    isplitl [HS3]; · iexact HS3
    iintro ⟨H0, H1, H2, H3, H4, H5, H6, H7, H8, H9, HS1, HS2, HS3⟩
    isplitl [HS1 HS2 HS3 HR Hg]
    · isplitl [HS1 HS2 HS3 HR]
      · isplitl [HS1 HS2 HS3]
        · isplitl [HS1]; · iexact HS1
          isplitl [HS2]; · iexact HS2
          iexact HS3
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [Dat.leavesExact_idle (dat1 V c) 7 t (idleAt1_7 t (fun h => h1 ((hcond1_1 t).mp h))) (noFlush1_7 t (fun h => h1 ((hcond1_1 t).mp h)))]
    rw [Dat.leavesExact_idle (dat1 V c) 8 t (idleAt1_8 t (fun h => h1 ((hcond1_1 t).mp h))) (noFlush1_8 t (fun h => h1 ((hcond1_1 t).mp h)))]
    rw [Dat.leavesExact_idle (dat1 V c) 9 t (idleAt1_9 t (fun h => h1 ((hcond1_1 t).mp h))) (noFlush1_9 t (fun h => h1 ((hcond1_1 t).mp h)))]
    by_cases h0 : t.val % 12 = 0
    · -- the first point
      have hz : t.val = 0 := by omega
      rw [acc1_zero V c t hz, PhiS1_castSucc V c t, PhiS1_zero V c _ _ hz, PhiA1_eq]
      iintro ⟨⟨⟨⟨HS1, HS2, HS3⟩, HR⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
      iapply (sound1_A c Set.univ (grid1.coords t) _ _ _ _ _ _ _ _ _ _ _ _ _ _ _ _ _ _ _ _ _ _ _ _ _ _ ((hcond1_0 t).mpr h0) (fun h => h1 ((hcond1_1 t).mp h))
        (iblk1 V c 0 t) (iblk1 V c 1 t) (iblk1 V c 2 t) (iblk1 V c 3 t) (iblk1 V c 4 t) (iblk1 V c 5 t) (iblk1 V c 6 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS1]; · iexact HS1
      isplitl [HS2]; · iexact HS2
      isplitl [HS3]; · iexact HS3
      iintro ⟨H0, H1, H2, H3, H4, H5, H6, HS1, HS2, HS3⟩
      isplitl [HS1 HS2 HS3 HR Hg]
      · isplitl [HS1 HS2 HS3 HR]
        · isplitl [HS1 HS2 HS3]
          · isplitl [HS1]; · iexact HS1
            isplitl [HS2]; · iexact HS2
            iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      have hz : t.val ≠ 0 := by omega
      rw [acc1_pos V c t hz, PhiS1_castSucc V c t, PhiS1_pos V c _ _ hz]
      iintro ⟨⟨⟨⟨HS1, HS2, HS3⟩, HR⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
      iapply (sound1_B c Set.univ (grid1.coords t) _ _ _ _ _ _ _ _ _ _ _ _ _ _ _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) (iblk1 V c 4 t) (iblk1 V c 5 t) (iblk1 V c 6 t) (acc1 V c (t.val - 1) (Nat.lt_of_le_of_lt (Nat.sub_le _ _) t.isLt)).1 (acc1 V c (t.val - 1) (Nat.lt_of_le_of_lt (Nat.sub_le _ _) t.isLt)).2.1 (acc1 V c (t.val - 1) (Nat.lt_of_le_of_lt (Nat.sub_le _ _) t.isLt)).2.2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS1]; · iexact HS1
      isplitl [HS2]; · iexact HS2
      isplitl [HS3]; · iexact HS3
      iintro ⟨H0, H1, H2, H3, H4, H5, H6, HS1, HS2, HS3⟩
      isplitl [HS1 HS2 HS3 HR Hg]
      · isplitl [HS1 HS2 HS3 HR]
        · isplitl [HS1 HS2 HS3]
          · isplitl [HS1]; · iexact HS1
            isplitl [HS2]; · iexact HS2
            iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have hne : (Fin.last cfg1.N).val ≠ 0 := by rw [Fin.val_last]; have : cfg1.N = 12 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨⟨HS1, HS2, HS3⟩, HR⟩, Hg⟩
  isplitl [HS1 HS2 HS3 HR]
  · isplitl [HS1 HS2 HS3]
    · isplitl [HS1]; · iexists _; iexact HS1
      isplitl [HS2]; · iexists _; iexact HS2
      iexists _; iexact HS3
    iexact HR
  iexact Hg

end Cert.KernelIdeal.Hand

end
-- ==== Proof.KI.Sumsq2.lean ====
/-
  The sum-of-squares kernel (pallas_call 2) as a region: its body's runs, its proof data and its body obligation, at any
  region-entry contents `V`.

  The grid has twelve points, one per 256-column tile of visual / acoustic / va.  At point `t` the body forms the tile of
  s = c1·tv + c2·ta + c3·tva  (three batched products over the 50 positions, [10,768,256]), sums its squares along the 256
  columns, and adds that [10,768,1] column to a scratch accumulator it carries from point to point: at the first point it
  first zeroes the accumulator, and at the last point it copies the accumulator into the output block, which is written
  back only then.  So the accumulator after point `t` is  acc t = acc (t-1) + Σ_{columns of tile t} s², with acc (-1) = 0, and
  the output array ends at acc 11.  At the points before the last the output window is idle: the body does not touch its
  buffer, and the pipeline does not write it back there.
-/
import proofs.«160248_j77816217469391_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- "This is the first point" (the accumulator is zeroed), as the body computes it from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 12 = 0 :=
  (by decide +kernel : ∀ t : Fin grid2.N, cond2_0 (grid2.coords t) ↔ t.val % 12 = 0)
/-- "This is the last point" (the accumulator is copied out). -/
abbrev cond2_1 (i : grid2.Coords) : Prop := k2_cond2 i = 1#1
theorem hcond2_1 : ∀ t : Fin cfg2.N, cond2_1 (grid2.coords t) ↔ t.val % 12 = 11 :=
  (by decide +kernel : ∀ t : Fin grid2.N, cond2_1 (grid2.coords t) ↔ t.val % 12 = 11)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Before the last point the output window is idle and is not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
/-- At the last point it is live. -/
theorem liveAt2_6 : ∀ t : Fin cfg2.N, cond2_1 (grid2.coords t) → cfg2.idle 6 (grid2.coords t) = false := by decide +kernel

/-! ## The body's runs, case by case, with what each leaves named -/

set_option maxHeartbeats 4000000 in
/-- FIRST point (and not the last): the accumulator, whatever it held, ends at the tile's column sums added to zero. The output's
    buffer is not touched. -/
theorem sound2_A (c : Dev nD) (E : Set ℕ) (i : grid2.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : cond2_0 i) (hc1 : ¬cond2_1 i)
    (c1 c2 c3 : Vec F S10x768x50 .bf16) (tv ta tva : Vec F S10x50x256 .bf16) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ (∃ d, owns (c : Thread nD τ) arg8 fullShare d)
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg8 fullShare (k2_pay2 c1 tv c2 ta c3 tva (k2_pay1 (F := F)))) -∗ K ⟨⟩))
      ⊢ wp frame (wpE (defs₀ (F := F)) Variants.none c none) E (cc2__sumsq_kernel i arg1 harg1 arg2 harg2 arg3 harg3 arg4 harg4 arg5 harg5 arg6 harg6 arg7 harg7 arg8 harg8) K := by
  simp only [cc2__sumsq_kernel_eq_skeleton]; unfold cc2__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_cons_unit_zero hz3]
  simp only [View.readCov_unit_zero (S := S10x768x1) _ hz3]
  simp only [View.readAt_eq_ld, View.ld_unit_zero (S := S10x768x50) hz3, View.ld_unit_zero (S := S10x50x256) hz3, View.ld_unit_zero (S := S10x768x1) hz3]

set_option maxHeartbeats 4000000 in
/-- A point that is neither first nor last: the accumulator at `xs` ends at `xs` plus the tile's column sums. -/
theorem sound2_B (c : Dev nD) (E : Set ℕ) (i : grid2.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : ¬cond2_0 i) (hc1 : ¬cond2_1 i)
    (c1 c2 c3 : Vec F S10x768x50 .bf16) (tv ta tva : Vec F S10x50x256 .bf16) (xs : Vec F S10x768x1 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg8 fullShare xs
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg8 fullShare (k2_pay2 c1 tv c2 ta c3 tva xs)) -∗ K ⟨⟩))
      ⊢ wp frame (wpE (defs₀ (F := F)) Variants.none c none) E (cc2__sumsq_kernel i arg1 harg1 arg2 harg2 arg3 harg3 arg4 harg4 arg5 harg5 arg6 harg6 arg7 harg7 arg8 harg8) K := by
  simp only [cc2__sumsq_kernel_eq_skeleton]; unfold cc2__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, Hk⟩
  subst hf1 hf2 hf3 hf4 hf5 hf6 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_unit_zero hz3]
  simp only [View.readAt_eq_ld, View.ld_unit_zero (S := S10x768x50) hz3, View.ld_unit_zero (S := S10x50x256) hz3, View.ld_unit_zero (S := S10x768x1) hz3]

set_option maxHeartbeats 4000000 in
/-- The LAST point: the accumulator at `xs` ends at `xs` plus the tile's column sums, and the output's buffer, whatever it
    held, ends at the same value. -/
theorem sound2_C (c : Dev nD) (E : Set ℕ) (i : grid2.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : ¬cond2_0 i) (hc1 : cond2_1 i)
    (c1 c2 c3 : Vec F S10x768x50 .bf16) (tv ta tva : Vec F S10x50x256 .bf16) (xs : Vec F S10x768x1 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ (∃ d, owns (c : Thread nD τ) arg7 fullShare d) ∗ owns (c : Thread nD τ) arg8 fullShare xs
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg7 fullShare (k2_pay2 c1 tv c2 ta c3 tva xs)
            ∗ owns (c : Thread nD τ) arg8 fullShare (k2_pay2 c1 tv c2 ta c3 tva xs)) -∗ K ⟨⟩))
      ⊢ wp frame (wpE (defs₀ (F := F)) Variants.none c none) E (cc2__sumsq_kernel i arg1 harg1 arg2 harg2 arg3 harg3 arg4 harg4 arg5 harg5 arg6 harg6 arg7 harg7 arg8 harg8) K := by
  simp only [cc2__sumsq_kernel_eq_skeleton]; unfold cc2__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf1 hf2 hf3 hf4 hf5 hf6 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (fun y => ⟨_, List.mem_cons_self, View.mem_set_unit_zero hz3 inb_S10x768x1_S10x768x1_0_0_0 y⟩), View.canon_unit_zero hz3]
    simp only [View.readCov_unit_zero (S := S10x768x1) _ hz3]
    simp only [View.readAt_eq_ld, View.ld_unit_zero (S := S10x768x50) hz3, View.ld_unit_zero (S := S10x50x256) hz3, View.ld_unit_zero (S := S10x768x1) hz3]
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_unit_zero hz3]
  simp only [View.readAt_eq_ld, View.ld_unit_zero (S := S10x768x50) hz3, View.ld_unit_zero (S := S10x50x256) hz3, View.ld_unit_zero (S := S10x768x1) hz3]

end Cert.KernelIdeal.Hand

end
-- ==== Proof.KI.SumsqDat2.lean ====
/-
  The sum-of-squares kernel (pallas_call 2): the proof data of its region and the body obligation, at any region-entry
  contents `V`.  `acc2 V c n` is the accumulator after point `n`: the tile's column sums of squares added to what the point
  before left (to zero at the first point).  The invariant carried from point to point is the scratch buffer at `acc2` of the
  point before (at anything before the first point), beside the scoped buffers the kernel does not use.
-/
import proofs.«160248_j77816217469391_2_alg».proof.Proof.KI.Sumsq2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The scratch accumulator, as a whole memref. -/
abbrev scM2 : Memref sig .tc .vmem S10x768x1 .f32 := Memref.whole cc2_scratch0

/-- THE ACCUMULATION: the accumulator after point `n`. -/
def acc2 (c : Dev nD) : (n : ℕ) → n < cfg2.N → Vec F S10x768x1 .f32
  | 0, hn => k2_pay2 (iblk2 V c 0 ⟨0, hn⟩) (iblk2 V c 3 ⟨0, hn⟩) (iblk2 V c 1 ⟨0, hn⟩) (iblk2 V c 4 ⟨0, hn⟩) (iblk2 V c 2 ⟨0, hn⟩) (iblk2 V c 5 ⟨0, hn⟩) (k2_pay1 (F := F))
  | n + 1, hn => k2_pay2 (iblk2 V c 0 ⟨n + 1, hn⟩) (iblk2 V c 3 ⟨n + 1, hn⟩) (iblk2 V c 1 ⟨n + 1, hn⟩) (iblk2 V c 4 ⟨n + 1, hn⟩) (iblk2 V c 2 ⟨n + 1, hn⟩) (iblk2 V c 5 ⟨n + 1, hn⟩) (acc2 c n (Nat.lt_of_succ_lt hn))

theorem acc2_zero (c : Dev nD) (t : Fin cfg2.N) (h : t.val = 0) :
    acc2 V c t.val t.isLt = k2_pay2 (iblk2 V c 0 t) (iblk2 V c 3 t) (iblk2 V c 1 t) (iblk2 V c 4 t) (iblk2 V c 2 t) (iblk2 V c 5 t) (k2_pay1 (F := F)) := by
  obtain ⟨n, hn⟩ := t
  cases n with
  | zero => rfl
  | succ n => exact absurd h (Nat.succ_ne_zero n)

theorem acc2_pos (c : Dev nD) (t : Fin cfg2.N) (h : t.val ≠ 0) :
    acc2 V c t.val t.isLt = k2_pay2 (iblk2 V c 0 t) (iblk2 V c 3 t) (iblk2 V c 1 t) (iblk2 V c 4 t) (iblk2 V c 2 t) (iblk2 V c 5 t) (acc2 V c (t.val - 1) (Nat.lt_of_le_of_lt (Nat.sub_le _ _) t.isLt)) := by
  obtain ⟨n, hn⟩ := t
  cases n with
  | zero => exact absurd rfl h
  | succ n => rfl

/-- The invariant before position `n`: before the first point the plain one (every scratch at anything); afterwards the
    accumulator at what the point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ Pipeline.scopedRestBut (Ix := Unit) (Name := ℕ) (U := Pipeline.UD sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (acc2 V c n hn) ∗ Pipeline.scopedRestBut (Ix := Unit) (Name := ℕ) (U := Pipeline.UD sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare (acc2 V c (n - 1) (by omega)) ∗ Pipeline.scopedRestBut (Ix := Unit) (Name := ℕ) (U := Pipeline.UD sig nD τ) (Lvl := ℕ) (Val := Elt F) spec2 c [cc2_scratch0]) ∗ (∃ r, prngReg c r)) := by
  cases n with
  | zero => exact absurd rfl hz
  | succ n => rfl

/-- The plain invariant with the accumulator's buffer split out of the scoped rest. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := Pipeline.UD sig nD τ) (Lvl := ℕ) (Val := Elt F) spec2 c [cc2_scratch0]) ∗ (∃ r, prngReg c r)) := by
  unfold Pipeline.ΦA; rw [scopedRest2_split]; simp only [scM2, owns_whole]; try rfl

/-- The proof data: the arrays as the region finds them; after the body each input's buffer at its block and the output's
    at the accumulator; the carried invariant; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
/-- The body at any point: the closed forms say which case the point is in; the invariant hands the body the accumulator at
    what the point before left (at anything at the first point) and takes it back at this point's value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 12 := lt_of_lt_of_eq t.isLt (show cfg2.N = 12 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  by_cases h1 : t.val % 12 = 11
  · -- the last point
    have h0 : ¬ t.val % 12 = 0 := by omega
    have hz : t.val ≠ 0 := by omega
    rw [show (dat2 V c).leavesExact 6 t = owns (c : Thread nD τ) (st2_6 t) fullShare ((dat2 V c).after 6 t) from by
      unfold Dat.leavesExact; rw [liveAt2_6 t ((hcond2_1 t).mpr h1)], after2_6]
    rw [acc2_pos V c t hz, PhiS2_castSucc V c t, PhiS2_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound2_C c Set.univ (grid2.coords t) _ _ _ _ _ _ _ _ _ _ _ _ _ _ _ _ (fun h => h0 ((hcond2_0 t).mp h)) ((hcond2_1 t).mpr h1)
      (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat2 V c) 6 t (idleAt2_6 t (fun h => h1 ((hcond2_1 t).mp h))) (noFlush2_6 t (fun h => h1 ((hcond2_1 t).mp h)))]
    by_cases h0 : t.val % 12 = 0
    · -- the first point
      have hz : t.val = 0 := by omega
      rw [acc2_zero V c t hz, PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (sound2_A c Set.univ (grid2.coords t) _ _ _ _ _ _ _ _ _ _ _ _ _ _ _ _ ((hcond2_0 t).mpr h0) (fun h => h1 ((hcond2_1 t).mp h))
        (iblk2 V c 0 t) (iblk2 V c 1 t) (iblk2 V c 2 t) (iblk2 V c 3 t) (iblk2 V c 4 t) (iblk2 V c 5 t) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hz : t.val ≠ 0 := by omega
      rw [acc2_pos V c t hz, PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (sound2_B c Set.univ (grid2.coords t) _ _ _ _ _ _ _ _ _ _ _ _ _ _ _ _ (fun h => h0 ((hcond2_0 t).mp h)) (fun h => h1 ((hcond2_1 t).mp h))
        (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the region is handed (the plain invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the plain one back: the accumulator's value is forgotten. -/
theorem hout2 (c : Dev nD) : (dat2 V c).Φ (Fin.last cfg2.N) ⊢ Pipeline.ΦA spec2 c := by
  have hne : (Fin.last cfg2.N).val ≠ 0 := by rw [Fin.val_last]; have : cfg2.N = 12 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨HS, HR⟩, Hg⟩
  isplitl [HS HR]
  · isplitl [HS]; · iexists _; iexact HS
    iexact HR
  iexact Hg

end Cert.KernelIdeal.Hand

end
-- ==== Proof.KI.Bupd3.lean ====
/-
  The logit-update kernel (pallas_call 3): its body's runs, case by case, with what each leaves named.

  The grid has twelve points, one per 256-column tile of visual / acoustic / va.  At point `t` the body forms the tile of the
  squashed capsules  a = factor · (c1·tv + c2·ta + c3·tva)  ([10,768,256]) and adds the three batched products of `a` with the
  tiles of visual, acoustic and va over the 256 columns (each [10,768,50]) to three scratch accumulators it carries from
  point to point: at the first point it first zeroes them, and at the last point it copies them into the three output
  blocks, which are written back only then.
-/
import proofs.«160248_j77816217469391_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- "This is the first point" (the accumulators are zeroed), as the body computes it from the grid coordinate. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 12 = 0 :=
  (by decide +kernel : ∀ t : Fin grid3.N, cond3_0 (grid3.coords t) ↔ t.val % 12 = 0)
/-- "This is the last point" (the accumulators are copied out). -/
abbrev cond3_1 (i : grid3.Coords) : Prop := k3_cond2 i = 1#1
theorem hcond3_1 : ∀ t : Fin cfg3.N, cond3_1 (grid3.coords t) ↔ t.val % 12 = 11 :=
  (by decide +kernel : ∀ t : Fin grid3.N, cond3_1 (grid3.coords t) ↔ t.val % 12 = 11)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
theorem idleAt3_7 : ∀ t : Fin cfg3.N, ¬cond3_1 (grid3.coords t) → cfg3.idle 7 (grid3.coords t) = true := by decide +kernel
theorem noFlush3_7 : ∀ t : Fin cfg3.N, ¬cond3_1 (grid3.coords t) → (cfg3.win 7).flush t = false := by decide +kernel
theorem liveAt3_7 : ∀ t : Fin cfg3.N, cond3_1 (grid3.coords t) → cfg3.idle 7 (grid3.coords t) = false := by decide +kernel
theorem idleAt3_8 : ∀ t : Fin cfg3.N, ¬cond3_1 (grid3.coords t) → cfg3.idle 8 (grid3.coords t) = true := by decide +kernel
theorem noFlush3_8 : ∀ t : Fin cfg3.N, ¬cond3_1 (grid3.coords t) → (cfg3.win 8).flush t = false := by decide +kernel
theorem liveAt3_8 : ∀ t : Fin cfg3.N, cond3_1 (grid3.coords t) → cfg3.idle 8 (grid3.coords t) = false := by decide +kernel
theorem idleAt3_9 : ∀ t : Fin cfg3.N, ¬cond3_1 (grid3.coords t) → cfg3.idle 9 (grid3.coords t) = true := by decide +kernel
theorem noFlush3_9 : ∀ t : Fin cfg3.N, ¬cond3_1 (grid3.coords t) → (cfg3.win 9).flush t = false := by decide +kernel
theorem liveAt3_9 : ∀ t : Fin cfg3.N, cond3_1 (grid3.coords t) → cfg3.idle 9 (grid3.coords t) = false := by decide +kernel

/-! ## The body's runs -/

set_option maxHeartbeats 8000000 in
/-- FIRST point (and not the last): the three accumulators, whatever they held, end at the tile's three products added to zero.
    The outputs' buffers are not touched. -/
theorem sound3_A (c : Dev nD) (E : Set ℕ) (i : grid3.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x50 .f32) (harg8 : arg8.IsWhole)
    (arg9 : Memref sig .tc .vmem S10x768x50 .f32) (harg9 : arg9.IsWhole) (arg10 : Memref sig .tc .vmem S10x768x50 .f32) (harg10 : arg10.IsWhole)
    (arg11 : Memref sig .tc .vmem S10x768x50 .f32) (harg11 : arg11.IsWhole) (arg12 : Memref sig .tc .vmem S10x768x50 .f32) (harg12 : arg12.IsWhole)
    (arg13 : Memref sig .tc .vmem S10x768x50 .f32) (harg13 : arg13.IsWhole)
    (hc0 : cond3_0 i) (hc1 : ¬cond3_1 i)
    (c1 c2 c3 : Vec F S10x768x50 .bf16) (tv ta tva : Vec F S10x50x256 .bf16) (fac : Vec F S10x768x1 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
            ∗ owns (c : Thread nD τ) arg11 fullShare (k3_pay1 (k3_pay11 tv ta tva c1 c2 c3 fac (k3_pay4 (F := F))))
            ∗ owns (c : Thread nD τ) arg12 fullShare (k3_pay2 (k3_pay8 ta) (k3_pay10 tv ta tva c1 c2 c3 fac) (k3_pay5 (F := F)))
            ∗ owns (c : Thread nD τ) arg13 fullShare (k3_pay3 (k3_pay9 tva) (k3_pay10 tv ta tva c1 c2 c3 fac) (k3_pay6 (F := F)))) -∗ K ⟨⟩))
      ⊢ wp frame (wpE (defs₀ (F := F)) Variants.none c none) E (cc3__bupdate_kernel i arg1 harg1 arg2 harg2 arg3 harg3 arg4 harg4 arg5 harg5 arg6 harg6 arg7 harg7 arg8 harg8 arg9 harg9 arg10 harg10 arg11 harg11 arg12 harg12 arg13 harg13) K := by
  simp only [cc3__bupdate_kernel_eq_skeleton]; unfold cc3__bupdate_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d11, %f11, -, H11⟩, ⟨%d12, %f12, -, H12⟩, ⟨%d13, %f13, -, H13⟩, Hk⟩
  subst hf1 hf2 hf3 hf4 hf5 hf6 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H11]
  · iexists _; isplitr
    swap; · iexact H11
    ipureintro
    sl_unfold_words
    rw [View.read_writes_eq_canon _ _ _ (fun y => ⟨_, List.mem_cons_self, View.mem_set_unit_zero hz3 inb_S10x768x50_S10x768x50_0_0_0 y⟩), View.canon_cons_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H12]
  · iexists _; isplitr
    swap; · iexact H12
    ipureintro
    sl_unfold_words
    rw [View.read_writes_eq_canon _ _ _ (fun y => ⟨_, List.mem_cons_self, View.mem_set_unit_zero hz3 inb_S10x768x50_S10x768x50_0_0_0 y⟩), View.canon_cons_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  iexists _; isplitr
  swap; · iexact H13
  ipureintro
  sl_unfold_words
  rw [View.read_writes_eq_canon _ _ _ (fun y => ⟨_, List.mem_cons_self, View.mem_set_unit_zero hz3 inb_S10x768x50_S10x768x50_0_0_0 y⟩), View.canon_cons_unit_zero hz3]
  simp only [View.readCov_unit_zero (S := S10x768x50) _ hz3, View.readAt_eq_ld, View.ld_unit_zero (S := S10x768x50) hz3, View.ld_unit_zero (S := S10x50x256) hz3, View.ld_unit_zero (S := S10x768x1) hz3]

set_option maxHeartbeats 8000000 in
/-- A point that is neither first nor last: the accumulators at `x1 x2 x3` end at those plus the tile's three products. -/
theorem sound3_B (c : Dev nD) (E : Set ℕ) (i : grid3.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x50 .f32) (harg8 : arg8.IsWhole)
    (arg9 : Memref sig .tc .vmem S10x768x50 .f32) (harg9 : arg9.IsWhole) (arg10 : Memref sig .tc .vmem S10x768x50 .f32) (harg10 : arg10.IsWhole)
    (arg11 : Memref sig .tc .vmem S10x768x50 .f32) (harg11 : arg11.IsWhole) (arg12 : Memref sig .tc .vmem S10x768x50 .f32) (harg12 : arg12.IsWhole)
    (arg13 : Memref sig .tc .vmem S10x768x50 .f32) (harg13 : arg13.IsWhole)
    (hc0 : ¬cond3_0 i) (hc1 : ¬cond3_1 i)
    (c1 c2 c3 : Vec F S10x768x50 .bf16) (tv ta tva : Vec F S10x50x256 .bf16) (fac : Vec F S10x768x1 .f32)
    (x1 x2 x3 : Vec F S10x768x50 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
        ∗ owns (c : Thread nD τ) arg11 fullShare x1 ∗ owns (c : Thread nD τ) arg12 fullShare x2 ∗ owns (c : Thread nD τ) arg13 fullShare x3
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
            ∗ owns (c : Thread nD τ) arg11 fullShare (k3_pay1 (k3_pay11 tv ta tva c1 c2 c3 fac x1))
            ∗ owns (c : Thread nD τ) arg12 fullShare (k3_pay2 (k3_pay8 ta) (k3_pay10 tv ta tva c1 c2 c3 fac) x2)
            ∗ owns (c : Thread nD τ) arg13 fullShare (k3_pay3 (k3_pay9 tva) (k3_pay10 tv ta tva c1 c2 c3 fac) x3)) -∗ K ⟨⟩))
      ⊢ wp frame (wpE (defs₀ (F := F)) Variants.none c none) E (cc3__bupdate_kernel i arg1 harg1 arg2 harg2 arg3 harg3 arg4 harg4 arg5 harg5 arg6 harg6 arg7 harg7 arg8 harg8 arg9 harg9 arg10 harg10 arg11 harg11 arg12 harg12 arg13 harg13) K := by
  simp only [cc3__bupdate_kernel_eq_skeleton]; unfold cc3__bupdate_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, ⟨%f13, %hf13, H13⟩, Hk⟩
  subst hf1 hf2 hf3 hf4 hf5 hf6 hf7 hf11 hf12 hf13
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H11]
  · iexists _; isplitr
    swap; · iexact H11
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H12]
  · iexists _; isplitr
    swap; · iexact H12
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  iexists _; isplitr
  swap; · iexact H13
  ipureintro
  sl_unfold_words
  rw [View.read_writes_eq_canon _ _ _ (fun y => ⟨_, List.mem_cons_self, View.mem_set_unit_zero hz3 inb_S10x768x50_S10x768x50_0_0_0 y⟩), View.canon_unit_zero hz3]
  simp only [View.readCov_unit_zero (S := S10x768x50) _ hz3, View.readAt_eq_ld, View.ld_unit_zero (S := S10x768x50) hz3, View.ld_unit_zero (S := S10x50x256) hz3, View.ld_unit_zero (S := S10x768x1) hz3]

set_option maxHeartbeats 8000000 in
/-- The LAST point: the accumulators at `x1 x2 x3` end at those plus the tile's three products, and the three outputs' buffers,
    whatever they held, end at the same three values. -/
theorem sound3_C (c : Dev nD) (E : Set ℕ) (i : grid3.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x50 .f32) (harg8 : arg8.IsWhole)
    (arg9 : Memref sig .tc .vmem S10x768x50 .f32) (harg9 : arg9.IsWhole) (arg10 : Memref sig .tc .vmem S10x768x50 .f32) (harg10 : arg10.IsWhole)
    (arg11 : Memref sig .tc .vmem S10x768x50 .f32) (harg11 : arg11.IsWhole) (arg12 : Memref sig .tc .vmem S10x768x50 .f32) (harg12 : arg12.IsWhole)
    (arg13 : Memref sig .tc .vmem S10x768x50 .f32) (harg13 : arg13.IsWhole)
    (hc0 : ¬cond3_0 i) (hc1 : cond3_1 i)
    (c1 c2 c3 : Vec F S10x768x50 .bf16) (tv ta tva : Vec F S10x50x256 .bf16) (fac : Vec F S10x768x1 .f32)
    (x1 x2 x3 : Vec F S10x768x50 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare x1 ∗ owns (c : Thread nD τ) arg12 fullShare x2 ∗ owns (c : Thread nD τ) arg13 fullShare x3
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac
            ∗ owns (c : Thread nD τ) arg8 fullShare (k3_pay1 (k3_pay11 tv ta tva c1 c2 c3 fac x1))
            ∗ owns (c : Thread nD τ) arg9 fullShare (k3_pay2 (k3_pay8 ta) (k3_pay10 tv ta tva c1 c2 c3 fac) x2)
            ∗ owns (c : Thread nD τ) arg10 fullShare (k3_pay3 (k3_pay9 tva) (k3_pay10 tv ta tva c1 c2 c3 fac) x3)
            ∗ owns (c : Thread nD τ) arg11 fullShare (k3_pay1 (k3_pay11 tv ta tva c1 c2 c3 fac x1))
            ∗ owns (c : Thread nD τ) arg12 fullShare (k3_pay2 (k3_pay8 ta) (k3_pay10 tv ta tva c1 c2 c3 fac) x2)
            ∗ owns (c : Thread nD τ) arg13 fullShare (k3_pay3 (k3_pay9 tva) (k3_pay10 tv ta tva c1 c2 c3 fac) x3)) -∗ K ⟨⟩))
      ⊢ wp frame (wpE (defs₀ (F := F)) Variants.none c none) E (cc3__bupdate_kernel i arg1 harg1 arg2 harg2 arg3 harg3 arg4 harg4 arg5 harg5 arg6 harg6 arg7 harg7 arg8 harg8 arg9 harg9 arg10 harg10 arg11 harg11 arg12 harg12 arg13 harg13) K := by
  simp only [cc3__bupdate_kernel_eq_skeleton]; unfold cc3__bupdate_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, Hk⟩
  subst hf1 hf2 hf3 hf4 hf5 hf6 hf7 hf11 hf12 hf13
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H9]
  · iexists _; isplitr
    swap; · iexact H9
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H10]
  · iexists _; isplitr
    swap; · iexact H10
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H11]
  · iexists _; isplitr
    swap; · iexact H11
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  isplitl [H12]
  · iexists _; isplitr
    swap; · iexact H12
    ipureintro
    sl_unfold_words
    rw [View.read_writes_eq_canon _ _ _ (fun y => ⟨_, List.mem_cons_self, View.mem_set_unit_zero hz3 inb_S10x768x50_S10x768x50_0_0_0 y⟩), View.canon_unit_zero hz3]
    simp only [View.readCov_unit_zero (S := S10x768x50) _ hz3, View.readAt_eq_ld, View.ld_unit_zero (S := S10x768x50) hz3, View.ld_unit_zero (S := S10x50x256) hz3, View.ld_unit_zero (S := S10x768x1) hz3]
  iexists _; isplitr
  swap; · iexact H13
  ipureintro
  sl_unfold_words
  rw [View.read_writes_eq_canon _ _ _ (fun y => ⟨_, List.mem_cons_self, View.mem_set_unit_zero hz3 inb_S10x768x50_S10x768x50_0_0_0 y⟩), View.canon_unit_zero hz3]
  simp only [View.readCov_unit_zero (S := S10x768x50) _ hz3, View.readAt_eq_ld, View.ld_unit_zero (S := S10x768x50) hz3, View.ld_unit_zero (S := S10x50x256) hz3, View.ld_unit_zero (S := S10x768x1) hz3]

end Cert.KernelIdeal.Hand

end
-- ==== Proof.KI.BupdDat3.lean ====
/-
  The logit-update kernel (pallas_call 3): the proof data of its region and the body obligation, at any region-entry contents
  `V`.  `acc3 V c n` is the triple of accumulators after point `n`: the tile's three products added to what the point before
  left (to zero at the first point).  The invariant carried from point to point is the three scratch buffers at `acc3` of the
  point before (at anything before the first point), beside the scoped buffers the kernel does not use.
-/
import proofs.«160248_j77816217469391_2_alg».proof.Proof.KI.Bupd3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (Pipeline.UD sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- The three scratch accumulators, as whole memrefs. -/
abbrev scA3 : Memref sig .tc .vmem S10x768x50 .f32 := Memref.whole cc3_scratch0
abbrev scB3 : Memref sig .tc .vmem S10x768x50 .f32 := Memref.whole cc3_scratch1
abbrev scC3 : Memref sig .tc .vmem S10x768x50 .f32 := Memref.whole cc3_scratch2

/-- THE ACCUMULATION: the three accumulators after point `n`. -/
def acc3 (c : Dev nD) : (n : ℕ) → n < cfg3.N → Vec F S10x768x50 .f32 × Vec F S10x768x50 .f32 × Vec F S10x768x50 .f32
  | 0, hn => ((k3_pay1 (k3_pay11 (iblk3 V c 3 ⟨0, hn⟩) (iblk3 V c 4 ⟨0, hn⟩) (iblk3 V c 5 ⟨0, hn⟩) (iblk3 V c 0 ⟨0, hn⟩) (iblk3 V c 1 ⟨0, hn⟩) (iblk3 V c 2 ⟨0, hn⟩) (iblk3 V c 6 ⟨0, hn⟩) (k3_pay4 (F := F)))), (k3_pay2 (k3_pay8 (iblk3 V c 4 ⟨0, hn⟩)) (k3_pay10 (iblk3 V c 3 ⟨0, hn⟩) (iblk3 V c 4 ⟨0, hn⟩) (iblk3 V c 5 ⟨0, hn⟩) (iblk3 V c 0 ⟨0, hn⟩) (iblk3 V c 1 ⟨0, hn⟩) (iblk3 V c 2 ⟨0, hn⟩) (iblk3 V c 6 ⟨0, hn⟩)) (k3_pay5 (F := F))), (k3_pay3 (k3_pay9 (iblk3 V c 5 ⟨0, hn⟩)) (k3_pay10 (iblk3 V c 3 ⟨0, hn⟩) (iblk3 V c 4 ⟨0, hn⟩) (iblk3 V c 5 ⟨0, hn⟩) (iblk3 V c 0 ⟨0, hn⟩) (iblk3 V c 1 ⟨0, hn⟩) (iblk3 V c 2 ⟨0, hn⟩) (iblk3 V c 6 ⟨0, hn⟩)) (k3_pay6 (F := F))))
  | n + 1, hn => ((k3_pay1 (k3_pay11 (iblk3 V c 3 ⟨n + 1, hn⟩) (iblk3 V c 4 ⟨n + 1, hn⟩) (iblk3 V c 5 ⟨n + 1, hn⟩) (iblk3 V c 0 ⟨n + 1, hn⟩) (iblk3 V c 1 ⟨n + 1, hn⟩) (iblk3 V c 2 ⟨n + 1, hn⟩) (iblk3 V c 6 ⟨n + 1, hn⟩) (acc3 c n (Nat.lt_of_succ_lt hn)).1)), (k3_pay2 (k3_pay8 (iblk3 V c 4 ⟨n + 1, hn⟩)) (k3_pay10 (iblk3 V c 3 ⟨n + 1, hn⟩) (iblk3 V c 4 ⟨n + 1, hn⟩) (iblk3 V c 5 ⟨n + 1, hn⟩) (iblk3 V c 0 ⟨n + 1, hn⟩) (iblk3 V c 1 ⟨n + 1, hn⟩) (iblk3 V c 2 ⟨n + 1, hn⟩) (iblk3 V c 6 ⟨n + 1, hn⟩)) (acc3 c n (Nat.lt_of_succ_lt hn)).2.1), (k3_pay3 (k3_pay9 (iblk3 V c 5 ⟨n + 1, hn⟩)) (k3_pay10 (iblk3 V c 3 ⟨n + 1, hn⟩) (iblk3 V c 4 ⟨n + 1, hn⟩) (iblk3 V c 5 ⟨n + 1, hn⟩) (iblk3 V c 0 ⟨n + 1, hn⟩) (iblk3 V c 1 ⟨n + 1, hn⟩) (iblk3 V c 2 ⟨n + 1, hn⟩) (iblk3 V c 6 ⟨n + 1, hn⟩)) (acc3 c n (Nat.lt_of_succ_lt hn)).2.2))

theorem acc3_zero (c : Dev nD) (t : Fin cfg3.N) (h : t.val = 0) :
    acc3 V c t.val t.isLt = ((k3_pay1 (k3_pay11 (iblk3 V c 3 t) (iblk3 V c 4 t) (iblk3 V c 5 t) (iblk3 V c 0 t) (iblk3 V c 1 t) (iblk3 V c 2 t) (iblk3 V c 6 t) (k3_pay4 (F := F)))), (k3_pay2 (k3_pay8 (iblk3 V c 4 t)) (k3_pay10 (iblk3 V c 3 t) (iblk3 V c 4 t) (iblk3 V c 5 t) (iblk3 V c 0 t) (iblk3 V c 1 t) (iblk3 V c 2 t) (iblk3 V c 6 t)) (k3_pay5 (F := F))), (k3_pay3 (k3_pay9 (iblk3 V c 5 t)) (k3_pay10 (iblk3 V c 3 t) (iblk3 V c 4 t) (iblk3 V c 5 t) (iblk3 V c 0 t) (iblk3 V c 1 t) (iblk3 V c 2 t) (iblk3 V c 6 t)) (k3_pay6 (F := F)))) := by
  obtain ⟨n, hn⟩ := t
  cases n with
  | zero => rfl
  | succ n => exact absurd h (Nat.succ_ne_zero n)

theorem acc3_pos (c : Dev nD) (t : Fin cfg3.N) (h : t.val ≠ 0) :
    acc3 V c t.val t.isLt = ((k3_pay1 (k3_pay11 (iblk3 V c 3 t) (iblk3 V c 4 t) (iblk3 V c 5 t) (iblk3 V c 0 t) (iblk3 V c 1 t) (iblk3 V c 2 t) (iblk3 V c 6 t) (acc3 V c (t.val - 1) (Nat.lt_of_le_of_lt (Nat.sub_le _ _) t.isLt)).1)), (k3_pay2 (k3_pay8 (iblk3 V c 4 t)) (k3_pay10 (iblk3 V c 3 t) (iblk3 V c 4 t) (iblk3 V c 5 t) (iblk3 V c 0 t) (iblk3 V c 1 t) (iblk3 V c 2 t) (iblk3 V c 6 t)) (acc3 V c (t.val - 1) (Nat.lt_of_le_of_lt (Nat.sub_le _ _) t.isLt)).2.1), (k3_pay3 (k3_pay9 (iblk3 V c 5 t)) (k3_pay10 (iblk3 V c 3 t) (iblk3 V c 4 t) (iblk3 V c 5 t) (iblk3 V c 0 t) (iblk3 V c 1 t) (iblk3 V c 2 t) (iblk3 V c 6 t)) (acc3 V c (t.val - 1) (Nat.lt_of_le_of_lt (Nat.sub_le _ _) t.isLt)).2.2)) := by
  obtain ⟨n, hn⟩ := t
  cases n with
  | zero => exact absurd rfl h
  | succ n => rfl

/-- The invariant before position `n`. -/
def PhiS3 (c : Dev nD) : (n : ℕ) → n ≤ cfg3.N → sProp 𝕄
  | 0, _ => Pipeline.ΦA spec3 c
  | n + 1, hn => iprop(iprop(iprop(owns (c : Thread nD τ) scA3 fullShare (acc3 V c n hn).1 ∗ owns (c : Thread nD τ) scB3 fullShare (acc3 V c n hn).2.1 ∗ owns (c : Thread nD τ) scC3 fullShare (acc3 V c n hn).2.2) ∗ Pipeline.scopedRestBut (Ix := Unit) (Name := ℕ) (U := Pipeline.UD sig nD τ) (Lvl := ℕ) (Val := Elt F) spec3 c [cc3_scratch0, cc3_scratch1, cc3_scratch2]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) scA3 fullShare (acc3 V c n hn).1 ∗ owns (c : Thread nD τ) scB3 fullShare (acc3 V c n hn).2.1 ∗ owns (c : Thread nD τ) scC3 fullShare (acc3 V c n hn).2.2) ∗ Pipeline.scopedRestBut (Ix := Unit) (Name := ℕ) (U := Pipeline.UD sig nD τ) (Lvl := ℕ) (Val := Elt F) spec3 c [cc3_scratch0, cc3_scratch1, cc3_scratch2]) ∗ (∃ r, prngReg c r)) := rfl
theorem PhiS3_pos (c : Dev nD) (n : ℕ) (h : n ≤ cfg3.N) (hz : n ≠ 0) :
    PhiS3 V c n h = iprop(iprop(iprop(owns (c : Thread nD τ) scA3 fullShare (acc3 V c (n - 1) (by omega)).1 ∗ owns (c : Thread nD τ) scB3 fullShare (acc3 V c (n - 1) (by omega)).2.1 ∗ owns (c : Thread nD τ) scC3 fullShare (acc3 V c (n - 1) (by omega)).2.2) ∗ Pipeline.scopedRestBut (Ix := Unit) (Name := ℕ) (U := Pipeline.UD sig nD τ) (Lvl := ℕ) (Val := Elt F) spec3 c [cc3_scratch0, cc3_scratch1, cc3_scratch2]) ∗ (∃ r, prngReg c r)) := by
  cases n with
  | zero => exact absurd rfl hz
  | succ n => rfl

/-- The plain invariant with the accumulators' buffers split out of the scoped rest. -/
theorem PhiA3_eq (c : Dev nD) :
    (Pipeline.ΦA spec3 c : sProp 𝕄)
      = iprop(iprop(iprop((∃ d, owns (c : Thread nD τ) scA3 fullShare d) ∗ (∃ d, owns (c : Thread nD τ) scB3 fullShare d) ∗ (∃ d, owns (c : Thread nD τ) scC3 fullShare d)) ∗ Pipeline.scopedRestBut (Ix := Unit) (Name := ℕ) (U := Pipeline.UD sig nD τ) (Lvl := ℕ) (Val := Elt F) spec3 c [cc3_scratch0, cc3_scratch1, cc3_scratch2]) ∗ (∃ r, prngReg c r)) := by
  unfold Pipeline.ΦA; rw [scopedRest3_split]; simp only [scA3, scB3, scC3, owns_whole]; try rfl

/-- The proof data. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => (acc3 V c t.val t.isLt).1
    | ⟨8, _⟩ => (acc3 V c t.val t.isLt).2.1
    | ⟨9, _⟩ => (acc3 V c t.val t.isLt).2.2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = (acc3 V c t.val t.isLt).1 := by dsimp only [dat3]
theorem after3_8 (c : Dev nD) (t : Fin cfg3.N) : (dat3 V c).after 8 t = (acc3 V c t.val t.isLt).2.1 := by dsimp only [dat3]
theorem after3_9 (c : Dev nD) (t : Fin cfg3.N) : (dat3 V c).after 9 t = (acc3 V c t.val t.isLt).2.2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t)

set_option maxHeartbeats 16000000 in
/-- The body at any point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  have hN : t.val < 12 := lt_of_lt_of_eq t.isLt (show cfg3.N = 12 from N_3)
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  rw [show (dat3 V c).leavesExact 5 t = owns (c : Thread nD τ) (st3_5 t) fullShare ((dat3 V c).after 5 t) from by
    unfold Dat.leavesExact; rw [liveAt3_5 t], after3_5]
  rw [show (dat3 V c).leavesExact 6 t = owns (c : Thread nD τ) (st3_6 t) fullShare ((dat3 V c).after 6 t) from by
    unfold Dat.leavesExact; rw [liveAt3_6 t], after3_6]
  by_cases h1 : t.val % 12 = 11
  · -- the last point
    have h0 : ¬ t.val % 12 = 0 := by omega
    have hz : t.val ≠ 0 := by omega
    rw [show (dat3 V c).leavesExact 7 t = owns (c : Thread nD τ) (st3_7 t) fullShare ((dat3 V c).after 7 t) from by
      unfold Dat.leavesExact; rw [liveAt3_7 t ((hcond3_1 t).mpr h1)], after3_7]
    rw [show (dat3 V c).leavesExact 8 t = owns (c : Thread nD τ) (st3_8 t) fullShare ((dat3 V c).after 8 t) from by
      unfold Dat.leavesExact; rw [liveAt3_8 t ((hcond3_1 t).mpr h1)], after3_8]
    rw [show (dat3 V c).leavesExact 9 t = owns (c : Thread nD τ) (st3_9 t) fullShare ((dat3 V c).after 9 t) from by
      unfold Dat.leavesExact; rw [liveAt3_9 t ((hcond3_1 t).mpr h1)], after3_9]
    rw [acc3_pos V c t hz, PhiS3_castSucc V c t, PhiS3_pos V c _ _ hz]
    iintro ⟨⟨⟨⟨HS1, HS2, HS3⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound3_C c Set.univ (grid3.coords t) _ _ _ _ _ _ _ _ _ _ _ _ _ _ _ _ _ _ _ _ _ _ _ _ _ _ (fun h => h0 ((hcond3_0 t).mp h)) ((hcond3_1 t).mpr h1)
      (iblk3 V c 0 t) (iblk3 V c 1 t) (iblk3 V c 2 t) (iblk3 V c 3 t) (iblk3 V c 4 t) (iblk3 V c 5 t) (iblk3 V c 6 t) (acc3 V c (t.val - 1) (Nat.lt_of_le_of_lt (Nat.sub_le _ _) t.isLt)).1 (acc3 V c (t.val - 1) (Nat.lt_of_le_of_lt (Nat.sub_le _ _) t.isLt)).2.1 (acc3 V c (t.val - 1) (Nat.lt_of_le_of_lt (Nat.sub_le _ _) t.isLt)).2.2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS1]; · iexact HS1
    isplitl [HS2]; · iexact HS2
    isplitl [HS3]; · iexact HS3
    iintro ⟨H0, H1, H2, H3, H4, H5, H6, H7, H8, H9, HS1, HS2, HS3⟩
    isplitl [HS1 HS2 HS3 HR Hg]
    · isplitl [HS1 HS2 HS3 HR]
      · isplitl [HS1 HS2 HS3]
        · isplitl [HS1]; · iexact HS1
          isplitl [HS2]; · iexact HS2
          iexact HS3
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [Dat.leavesExact_idle (dat3 V c) 7 t (idleAt3_7 t (fun h => h1 ((hcond3_1 t).mp h))) (noFlush3_7 t (fun h => h1 ((hcond3_1 t).mp h)))]
    rw [Dat.leavesExact_idle (dat3 V c) 8 t (idleAt3_8 t (fun h => h1 ((hcond3_1 t).mp h))) (noFlush3_8 t (fun h => h1 ((hcond3_1 t).mp h)))]
    rw [Dat.leavesExact_idle (dat3 V c) 9 t (idleAt3_9 t (fun h => h1 ((hcond3_1 t).mp h))) (noFlush3_9 t (fun h => h1 ((hcond3_1 t).mp h)))]
    by_cases h0 : t.val % 12 = 0
    · -- the first point
      have hz : t.val = 0 := by omega
      rw [acc3_zero V c t hz, PhiS3_castSucc V c t, PhiS3_zero V c _ _ hz, PhiA3_eq]
      iintro ⟨⟨⟨⟨HS1, HS2, HS3⟩, HR⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
      iapply (sound3_A c Set.univ (grid3.coords t) _ _ _ _ _ _ _ _ _ _ _ _ _ _ _ _ _ _ _ _ _ _ _ _ _ _ ((hcond3_0 t).mpr h0) (fun h => h1 ((hcond3_1 t).mp h))
        (iblk3 V c 0 t) (iblk3 V c 1 t) (iblk3 V c 2 t) (iblk3 V c 3 t) (iblk3 V c 4 t) (iblk3 V c 5 t) (iblk3 V c 6 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS1]; · iexact HS1
      isplitl [HS2]; · iexact HS2
      isplitl [HS3]; · iexact HS3
      iintro ⟨H0, H1, H2, H3, H4, H5, H6, HS1, HS2, HS3⟩
      isplitl [HS1 HS2 HS3 HR Hg]
      · isplitl [HS1 HS2 HS3 HR]
        · isplitl [HS1 HS2 HS3]
          · isplitl [HS1]; · iexact HS1
            isplitl [HS2]; · iexact HS2
            iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      have hz : t.val ≠ 0 := by omega
      rw [acc3_pos V c t hz, PhiS3_castSucc V c t, PhiS3_pos V c _ _ hz]
      iintro ⟨⟨⟨⟨HS1, HS2, HS3⟩, HR⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
      iapply (sound3_B c Set.univ (grid3.coords t) _ _ _ _ _ _ _ _ _ _ _ _ _ _ _ _ _ _ _ _ _ _ _ _ _ _ (fun h => h0 ((hcond3_0 t).mp h)) (fun h => h1 ((hcond3_1 t).mp h))
        (iblk3 V c 0 t) (iblk3 V c 1 t) (iblk3 V c 2 t) (iblk3 V c 3 t) (iblk3 V c 4 t) (iblk3 V c 5 t) (iblk3 V c 6 t) (acc3 V c (t.val - 1) (Nat.lt_of_le_of_lt (Nat.sub_le _ _) t.isLt)).1 (acc3 V c (t.val - 1) (Nat.lt_of_le_of_lt (Nat.sub_le _ _) t.isLt)).2.1 (acc3 V c (t.val - 1) (Nat.lt_of_le_of_lt (Nat.sub_le _ _) t.isLt)).2.2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS1]; · iexact HS1
      isplitl [HS2]; · iexact HS2
      isplitl [HS3]; · iexact HS3
      iintro ⟨H0, H1, H2, H3, H4, H5, H6, HS1, HS2, HS3⟩
      isplitl [HS1 HS2 HS3 HR Hg]
      · isplitl [HS1 HS2 HS3 HR]
        · isplitl [HS1 HS2 HS3]
          · isplitl [HS1]; · iexact HS1
            isplitl [HS2]; · iexact HS2
            iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body obligation, at every point. -/
theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  have hne : (Fin.last cfg3.N).val ≠ 0 := by rw [Fin.val_last]; have : cfg3.N = 12 := N_3; omega
  rw [show (dat3 V c).Φ (Fin.last cfg3.N) = PhiS3 V c (Fin.last cfg3.N).val (Nat.le_of_lt_succ (Fin.last cfg3.N).isLt) from rfl,
    PhiS3_pos V c _ _ hne, PhiA3_eq]
  iintro ⟨⟨⟨HS1, HS2, HS3⟩, HR⟩, Hg⟩
  isplitl [HS1 HS2 HS3 HR]
  · isplitl [HS1 HS2 HS3]
    · isplitl [HS1]; · iexists _; iexact HS1
      isplitl [HS2]; · iexists _; iexact HS2
      iexists _; iexact HS3
    iexact HR
  iexact Hg

end Cert.KernelIdeal.Hand

end
-- ==== Proof.KI.Sumsq4.lean ====
/-
  The sum-of-squares kernel (pallas_call 4) as a region: its body's runs, its proof data and its body obligation, at any
  region-entry contents `V`.

  The grid has twelve points, one per 256-column tile of visual / acoustic / va.  At point `t` the body forms the tile of
  s = c1·tv + c2·ta + c3·tva  (three batched products over the 50 positions, [10,768,256]), sums its squares along the 256
  columns, and adds that [10,768,1] column to a scratch accumulator it carries from point to point: at the first point it
  first zeroes the accumulator, and at the last point it copies the accumulator into the output block, which is written
  back only then.  So the accumulator after point `t` is  acc t = acc (t-1) + Σ_{columns of tile t} s², with acc (-1) = 0, and
  the output array ends at acc 11.  At the points before the last the output window is idle: the body does not touch its
  buffer, and the pipeline does not write it back there.
-/
import proofs.«160248_j77816217469391_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- "This is the first point" (the accumulator is zeroed), as the body computes it from the grid coordinate. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 12 = 0 :=
  (by decide +kernel : ∀ t : Fin grid4.N, cond4_0 (grid4.coords t) ↔ t.val % 12 = 0)
/-- "This is the last point" (the accumulator is copied out). -/
abbrev cond4_1 (i : grid4.Coords) : Prop := k4_cond2 i = 1#1
theorem hcond4_1 : ∀ t : Fin cfg4.N, cond4_1 (grid4.coords t) ↔ t.val % 12 = 11 :=
  (by decide +kernel : ∀ t : Fin grid4.N, cond4_1 (grid4.coords t) ↔ t.val % 12 = 11)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- Before the last point the output window is idle and is not written back. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
/-- At the last point it is live. -/
theorem liveAt4_6 : ∀ t : Fin cfg4.N, cond4_1 (grid4.coords t) → cfg4.idle 6 (grid4.coords t) = false := by decide +kernel

/-! ## The body's runs, case by case, with what each leaves named -/

set_option maxHeartbeats 4000000 in
/-- FIRST point (and not the last): the accumulator, whatever it held, ends at the tile's column sums added to zero. The output's
    buffer is not touched. -/
theorem sound4_A (c : Dev nD) (E : Set ℕ) (i : grid4.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : cond4_0 i) (hc1 : ¬cond4_1 i)
    (c1 c2 c3 : Vec F S10x768x50 .bf16) (tv ta tva : Vec F S10x50x256 .bf16) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ (∃ d, owns (c : Thread nD τ) arg8 fullShare d)
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg8 fullShare (k4_pay2 c1 tv c2 ta c3 tva (k4_pay1 (F := F)))) -∗ K ⟨⟩))
      ⊢ wp frame (wpE (defs₀ (F := F)) Variants.none c none) E (cc4__sumsq_kernel i arg1 harg1 arg2 harg2 arg3 harg3 arg4 harg4 arg5 harg5 arg6 harg6 arg7 harg7 arg8 harg8) K := by
  simp only [cc4__sumsq_kernel_eq_skeleton]; unfold cc4__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_cons_unit_zero hz3]
  simp only [View.readCov_unit_zero (S := S10x768x1) _ hz3]
  simp only [View.readAt_eq_ld, View.ld_unit_zero (S := S10x768x50) hz3, View.ld_unit_zero (S := S10x50x256) hz3, View.ld_unit_zero (S := S10x768x1) hz3]

set_option maxHeartbeats 4000000 in
/-- A point that is neither first nor last: the accumulator at `xs` ends at `xs` plus the tile's column sums. -/
theorem sound4_B (c : Dev nD) (E : Set ℕ) (i : grid4.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : ¬cond4_0 i) (hc1 : ¬cond4_1 i)
    (c1 c2 c3 : Vec F S10x768x50 .bf16) (tv ta tva : Vec F S10x50x256 .bf16) (xs : Vec F S10x768x1 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg8 fullShare xs
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg8 fullShare (k4_pay2 c1 tv c2 ta c3 tva xs)) -∗ K ⟨⟩))
      ⊢ wp frame (wpE (defs₀ (F := F)) Variants.none c none) E (cc4__sumsq_kernel i arg1 harg1 arg2 harg2 arg3 harg3 arg4 harg4 arg5 harg5 arg6 harg6 arg7 harg7 arg8 harg8) K := by
  simp only [cc4__sumsq_kernel_eq_skeleton]; unfold cc4__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, Hk⟩
  subst hf1 hf2 hf3 hf4 hf5 hf6 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_unit_zero hz3]
  simp only [View.readAt_eq_ld, View.ld_unit_zero (S := S10x768x50) hz3, View.ld_unit_zero (S := S10x50x256) hz3, View.ld_unit_zero (S := S10x768x1) hz3]

set_option maxHeartbeats 4000000 in
/-- The LAST point: the accumulator at `xs` ends at `xs` plus the tile's column sums, and the output's buffer, whatever it
    held, ends at the same value. -/
theorem sound4_C (c : Dev nD) (E : Set ℕ) (i : grid4.Coords) (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x768x1 .f32) (harg8 : arg8.IsWhole)
    (hc0 : ¬cond4_0 i) (hc1 : cond4_1 i)
    (c1 c2 c3 : Vec F S10x768x50 .bf16) (tv ta tva : Vec F S10x50x256 .bf16) (xs : Vec F S10x768x1 .f32) (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ (∃ d, owns (c : Thread nD τ) arg7 fullShare d) ∗ owns (c : Thread nD τ) arg8 fullShare xs
        ∗ (iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
            ∗ owns (c : Thread nD τ) arg7 fullShare (k4_pay2 c1 tv c2 ta c3 tva xs)
            ∗ owns (c : Thread nD τ) arg8 fullShare (k4_pay2 c1 tv c2 ta c3 tva xs)) -∗ K ⟨⟩))
      ⊢ wp frame (wpE (defs₀ (F := F)) Variants.none c none) E (cc4__sumsq_kernel i arg1 harg1 arg2 harg2 arg3 harg3 arg4 harg4 arg5 harg5 arg6 harg6 arg7 harg7 arg8 harg8) K := by
  simp only [cc4__sumsq_kernel_eq_skeleton]; unfold cc4__sumsq_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf1 hf2 hf3 hf4 hf5 hf6 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (fun y => ⟨_, List.mem_cons_self, View.mem_set_unit_zero hz3 inb_S10x768x1_S10x768x1_0_0_0 y⟩), View.canon_unit_zero hz3]
    simp only [View.readCov_unit_zero (S := S10x768x1) _ hz3]
    simp only [View.readAt_eq_ld, View.ld_unit_zero (S := S10x768x50) hz3, View.ld_unit_zero (S := S10x50x256) hz3, View.ld_unit_zero (S := S10x768x1) hz3]
  iexists _; isplitr
  swap; · iexact H8
  ipureintro
  sl_unfold_words
  rw [View.read_writes_eq_canon _ _ _ (fun y => ⟨_, List.mem_cons_self, View.mem_set_unit_zero hz3 inb_S10x768x1_S10x768x1_0_0_0 y⟩), View.canon_unit_zero hz3]
  simp only [View.readAt_eq_ld, View.ld_unit_zero (S := S10x768x50) hz3, View.ld_unit_zero (S := S10x50x256) hz3, View.ld_unit_zero (S := S10x768x1) hz3]

end Cert.KernelIdeal.Hand

end
-- ==== Proof.KI.SumsqDat4.lean ====
/-
  The sum-of-squares kernel (pallas_call 4): the proof data of its region and the body obligation, at any region-entry
  contents `V`.  `acc4 V c n` is the accumulator after point `n`: the tile's column sums of squares added to what the point
  before left (to zero at the first point).  The invariant carried from point to point is the scratch buffer at `acc4` of the
  point before (at anything before the first point), beside the scoped buffers the kernel does not use.
-/
import proofs.«160248_j77816217469391_2_alg».proof.Proof.KI.Sumsq4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (Pipeline.UD sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The scratch accumulator, as a whole memref. -/
abbrev scM4 : Memref sig .tc .vmem S10x768x1 .f32 := Memref.whole cc4_scratch0

/-- THE ACCUMULATION: the accumulator after point `n`. -/
def acc4 (c : Dev nD) : (n : ℕ) → n < cfg4.N → Vec F S10x768x1 .f32
  | 0, hn => k4_pay2 (iblk4 V c 0 ⟨0, hn⟩) (iblk4 V c 3 ⟨0, hn⟩) (iblk4 V c 1 ⟨0, hn⟩) (iblk4 V c 4 ⟨0, hn⟩) (iblk4 V c 2 ⟨0, hn⟩) (iblk4 V c 5 ⟨0, hn⟩) (k4_pay1 (F := F))
  | n + 1, hn => k4_pay2 (iblk4 V c 0 ⟨n + 1, hn⟩) (iblk4 V c 3 ⟨n + 1, hn⟩) (iblk4 V c 1 ⟨n + 1, hn⟩) (iblk4 V c 4 ⟨n + 1, hn⟩) (iblk4 V c 2 ⟨n + 1, hn⟩) (iblk4 V c 5 ⟨n + 1, hn⟩) (acc4 c n (Nat.lt_of_succ_lt hn))

theorem acc4_zero (c : Dev nD) (t : Fin cfg4.N) (h : t.val = 0) :
    acc4 V c t.val t.isLt = k4_pay2 (iblk4 V c 0 t) (iblk4 V c 3 t) (iblk4 V c 1 t) (iblk4 V c 4 t) (iblk4 V c 2 t) (iblk4 V c 5 t) (k4_pay1 (F := F)) := by
  obtain ⟨n, hn⟩ := t
  cases n with
  | zero => rfl
  | succ n => exact absurd h (Nat.succ_ne_zero n)

theorem acc4_pos (c : Dev nD) (t : Fin cfg4.N) (h : t.val ≠ 0) :
    acc4 V c t.val t.isLt = k4_pay2 (iblk4 V c 0 t) (iblk4 V c 3 t) (iblk4 V c 1 t) (iblk4 V c 4 t) (iblk4 V c 2 t) (iblk4 V c 5 t) (acc4 V c (t.val - 1) (Nat.lt_of_le_of_lt (Nat.sub_le _ _) t.isLt)) := by
  obtain ⟨n, hn⟩ := t
  cases n with
  | zero => exact absurd rfl h
  | succ n => rfl

/-- The invariant before position `n`: before the first point the plain one (every scratch at anything); afterwards the
    accumulator at what the point before left, the other scoped buffers at anything, the generator register at some state. -/
def PhiS4 (c : Dev nD) : (n : ℕ) → n ≤ cfg4.N → sProp 𝕄
  | 0, _ => Pipeline.ΦA spec4 c
  | n + 1, hn => iprop(iprop(owns (c : Thread nD τ) scM4 fullShare (acc4 V c n hn) ∗ Pipeline.scopedRestBut (Ix := Unit) (Name := ℕ) (U := Pipeline.UD sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4 fullShare (acc4 V c n hn) ∗ Pipeline.scopedRestBut (Ix := Unit) (Name := ℕ) (U := Pipeline.UD sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4 fullShare (acc4 V c (n - 1) (by omega)) ∗ Pipeline.scopedRestBut (Ix := Unit) (Name := ℕ) (U := Pipeline.UD sig nD τ) (Lvl := ℕ) (Val := Elt F) spec4 c [cc4_scratch0]) ∗ (∃ r, prngReg c r)) := by
  cases n with
  | zero => exact absurd rfl hz
  | succ n => rfl

/-- The plain invariant with the accumulator's buffer split out of the scoped rest. -/
theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := Pipeline.UD sig nD τ) (Lvl := ℕ) (Val := Elt F) spec4 c [cc4_scratch0]) ∗ (∃ r, prngReg c r)) := by
  unfold Pipeline.ΦA; rw [scopedRest4_split]; simp only [scM4, owns_whole]; try rfl

/-- The proof data: the arrays as the region finds them; after the body each input's buffer at its block and the output's
    at the accumulator; the carried invariant; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = acc4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 8000000 in
/-- The body at any point: the closed forms say which case the point is in; the invariant hands the body the accumulator at
    what the point before left (at anything at the first point) and takes it back at this point's value. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 12 := lt_of_lt_of_eq t.isLt (show cfg4.N = 12 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  rw [show (dat4 V c).leavesExact 4 t = owns (c : Thread nD τ) (st4_4 t) fullShare ((dat4 V c).after 4 t) from by
    unfold Dat.leavesExact; rw [liveAt4_4 t], after4_4]
  rw [show (dat4 V c).leavesExact 5 t = owns (c : Thread nD τ) (st4_5 t) fullShare ((dat4 V c).after 5 t) from by
    unfold Dat.leavesExact; rw [liveAt4_5 t], after4_5]
  by_cases h1 : t.val % 12 = 11
  · -- the last point
    have h0 : ¬ t.val % 12 = 0 := by omega
    have hz : t.val ≠ 0 := by omega
    rw [show (dat4 V c).leavesExact 6 t = owns (c : Thread nD τ) (st4_6 t) fullShare ((dat4 V c).after 6 t) from by
      unfold Dat.leavesExact; rw [liveAt4_6 t ((hcond4_1 t).mpr h1)], after4_6]
    rw [acc4_pos V c t hz, PhiS4_castSucc V c t, PhiS4_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound4_C c Set.univ (grid4.coords t) _ _ _ _ _ _ _ _ _ _ _ _ _ _ _ _ (fun h => h0 ((hcond4_0 t).mp h)) ((hcond4_1 t).mpr h1)
      (iblk4 V c 0 t) (iblk4 V c 1 t) (iblk4 V c 2 t) (iblk4 V c 3 t) (iblk4 V c 4 t) (iblk4 V c 5 t) (acc4 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat4 V c) 6 t (idleAt4_6 t (fun h => h1 ((hcond4_1 t).mp h))) (noFlush4_6 t (fun h => h1 ((hcond4_1 t).mp h)))]
    by_cases h0 : t.val % 12 = 0
    · -- the first point
      have hz : t.val = 0 := by omega
      rw [acc4_zero V c t hz, PhiS4_castSucc V c t, PhiS4_zero V c _ _ hz, PhiA4_eq]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (sound4_A c Set.univ (grid4.coords t) _ _ _ _ _ _ _ _ _ _ _ _ _ _ _ _ ((hcond4_0 t).mpr h0) (fun h => h1 ((hcond4_1 t).mp h))
        (iblk4 V c 0 t) (iblk4 V c 1 t) (iblk4 V c 2 t) (iblk4 V c 3 t) (iblk4 V c 4 t) (iblk4 V c 5 t) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hz : t.val ≠ 0 := by omega
      rw [acc4_pos V c t hz, PhiS4_castSucc V c t, PhiS4_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (sound4_B c Set.univ (grid4.coords t) _ _ _ _ _ _ _ _ _ _ _ _ _ _ _ _ (fun h => h0 ((hcond4_0 t).mp h)) (fun h => h1 ((hcond4_1 t).mp h))
        (iblk4 V c 0 t) (iblk4 V c 1 t) (iblk4 V c 2 t) (iblk4 V c 3 t) (iblk4 V c 4 t) (iblk4 V c 5 t) (acc4 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the region is handed (the plain invariant) is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the plain one back: the accumulator's value is forgotten. -/
theorem hout4 (c : Dev nD) : (dat4 V c).Φ (Fin.last cfg4.N) ⊢ Pipeline.ΦA spec4 c := by
  have hne : (Fin.last cfg4.N).val ≠ 0 := by rw [Fin.val_last]; have : cfg4.N = 12 := N_4; omega
  rw [show (dat4 V c).Φ (Fin.last cfg4.N) = PhiS4 V c (Fin.last cfg4.N).val (Nat.le_of_lt_succ (Fin.last cfg4.N).isLt) from rfl,
    PhiS4_pos V c _ _ hne, PhiA4_eq]
  iintro ⟨⟨HS, HR⟩, Hg⟩
  isplitl [HS HR]
  · isplitl [HS]; · iexists _; iexact HS
    iexact HR
  iexact Hg

end Cert.KernelIdeal.Hand

end
-- ==== Proof.KI.Body5.lean ====
/-
  The output kernel's body at one grid point.

  At a point the body loads its eight input blocks whole — the three routing-weight blocks c1, c2, c3 (each [10,768,50]), the
  three 256-column tiles of visual / acoustic / va (each [10,50,256]), the squash factor [10,768,1] and W [10,50,768] —,
  forms  a = factor · (c1·tv + c2·ta + c3·tva)  (batched products over the 50 positions) and stores  W·a  (a batched product
  over the 768 capsules) into the whole output block [10,50,256].  It also loads the output block once and drops the value.
  So after the body the output's buffer holds that one payload of the eight input blocks, whatever it held before, and the
  inputs' buffers hold what they held.
-/
import proofs.«160248_j77816217469391_2_alg».proof.Proof.Gen.KernelIdeal.Launch
import proofs.«160248_j77816217469391_2_alg».proof.Proof.Gen.KernelIdeal.Skeleton
import proofs.«160248_j77816217469391_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The whole output block [10,50,256] as one rectangle. -/
abbrev rOut5 : Rect S10x50x256 := Rect.unit (s := S10x50x256) ![0, 0, 0] S10x50x256.size inb_S10x50x256_S10x50x256_0_0_0
abbrev rC5 : Rect S10x768x50 := Rect.unit (s := S10x768x50) ![0, 0, 0] S10x768x50.size inb_S10x768x50_S10x768x50_0_0_0
abbrev rT5 : Rect S10x50x256 := Rect.unit (s := S10x50x256) ![0, 0, 0] S10x50x256.size inb_S10x50x256_S10x50x256_0_0_0
abbrev rF5 : Rect S10x768x1 := Rect.unit (s := S10x768x1) ![0, 0, 0] S10x768x1.size inb_S10x768x1_S10x768x1_0_0_0
abbrev rW5 : Rect S10x50x768 := Rect.unit (s := S10x50x768) ![0, 0, 0] S10x50x768.size inb_S10x50x768_S10x50x768_0_0_0

/-- What the body leaves in the output block, from the eight input blocks: its one store as a piece. -/
def out5_8 (c1 c2 c3 : Vec F S10x768x50 .bf16) (tv ta tva : Vec F S10x50x256 .bf16) (fac : Vec F S10x768x1 .f32)
    (w : Vec F S10x50x768 .bf16) : Vec F S10x50x256 .f32 :=
  View.canon [⟨rOut5, k5_pay1 (View.ld c1 rC5) (View.ld tv rT5) (View.ld c2 rC5) (View.ld ta rT5) (View.ld c3 rC5) (View.ld tva rT5)
    (View.ld fac rF5) (View.ld w rW5)⟩]

/-- The one store covers the whole block. -/
theorem cover5_8 (p0 : Vec F S10x50x256 .f32) (y : S10x50x256.Idx) :
    ∃ pc ∈ ([⟨rOut5, p0⟩] : List (View.Piece (Elt F) S10x50x256 .f32)), y ∈ pc.1.set :=
  View.cover_of_tiled [⟨rOut5, p0⟩] S10x50x256.size (by rfl) y

set_option maxHeartbeats 4000000 in
/-- The body on whole staging memrefs: the inputs' at read contents, the output's at anything, runs to the continuation
    holding the inputs' as they were and the output's at `out5_8` of them. -/
theorem sound_kernel5 (c : Dev nD) (E : Set ℕ) (i : grid5.Coords)
    (arg1 : Memref sig .tc .vmem S10x768x50 .bf16) (harg1 : arg1.IsWhole) (arg2 : Memref sig .tc .vmem S10x768x50 .bf16) (harg2 : arg2.IsWhole)
    (arg3 : Memref sig .tc .vmem S10x768x50 .bf16) (harg3 : arg3.IsWhole) (arg4 : Memref sig .tc .vmem S10x50x256 .bf16) (harg4 : arg4.IsWhole)
    (arg5 : Memref sig .tc .vmem S10x50x256 .bf16) (harg5 : arg5.IsWhole) (arg6 : Memref sig .tc .vmem S10x50x256 .bf16) (harg6 : arg6.IsWhole)
    (arg7 : Memref sig .tc .vmem S10x768x1 .f32) (harg7 : arg7.IsWhole) (arg8 : Memref sig .tc .vmem S10x50x768 .bf16) (harg8 : arg8.IsWhole)
    (arg9 : Memref sig .tc .vmem S10x50x256 .f32) (harg9 : arg9.IsWhole)
    (c1 c2 c3 : Vec F S10x768x50 .bf16) (tv ta tva : Vec F S10x50x256 .bf16) (fac : Vec F S10x768x1 .f32) (w : Vec F S10x50x768 .bf16)
    (K : PUnit → sProp 𝕄) :
    iprop(owns (c : Thread nD τ) arg1 fullShare c1 ∗ owns (c : Thread nD τ) arg2 fullShare c2 ∗ owns (c : Thread nD τ) arg3 fullShare c3
        ∗ owns (c : Thread nD τ) arg4 fullShare tv ∗ owns (c : Thread nD τ) arg5 fullShare ta ∗ owns (c : Thread nD τ) arg6 fullShare tva
        ∗ owns (c : Thread nD τ) arg7 fullShare fac ∗ owns (c : Thread nD τ) arg8 fullShare w
        ∗ (∃ d, owns (c : Thread nD τ) arg9 fullShare d)
        ∗ (iprop(owns (c : Thread nD τ) arg1 fullShare c1 ∗ owns (c : Thread nD τ) arg2 fullShare c2 ∗ owns (c : Thread nD τ) arg3 fullShare c3
            ∗ owns (c : Thread nD τ) arg4 fullShare tv ∗ owns (c : Thread nD τ) arg5 fullShare ta ∗ owns (c : Thread nD τ) arg6 fullShare tva
            ∗ owns (c : Thread nD τ) arg7 fullShare fac ∗ owns (c : Thread nD τ) arg8 fullShare w
            ∗ owns (c : Thread nD τ) arg9 fullShare (out5_8 c1 c2 c3 tv ta tva fac w)) -∗ K ⟨⟩))
      ⊢ wp frame (wpE (defs₀ (F := F)) Variants.none c none) E
          (cc5__output_kernel i arg1 harg1 arg2 harg2 arg3 harg3 arg4 harg4 arg5 harg5 arg6 harg6 arg7 harg7 arg8 harg8 arg9 harg9) K := by
  simp only [cc5__output_kernel_eq_skeleton]; unfold cc5__output_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover5_8 _)

end Cert.KernelIdeal.Hand

end
-- ==== Proof.KI.Region5.lean ====
/-
  The output kernel's region: its proof data and its body obligation, at any region-entry contents `V`.

  The region has nine windows: the three routing-weight arrays, the factor and W are whole-array blocks (one block, the
  same at all twelve points); visual / acoustic / va are cut into twelve 256-column tiles, tile `t` at point `t`; the output
  [10,50,3072] is cut the same way and tile `t` is written back after point `t`.  After the body at point `t` every input
  buffer still holds its block and the output buffer holds `out5_8` of the eight input blocks at `t`.  Nothing is carried
  from one point to the next, so the invariant is the plain one: the scoped buffers no window stages, at anything.
-/
import proofs.«160248_j77816217469391_2_alg».proof.Proof.KI.Body5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input window's current buffer holds its block at every point, fetched there or not (an unfetched window's
    block index has not moved), for any proof data over `V`'s arrays whose body leaves the block in place. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (Pipeline.UD sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (Pipeline.UD sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (Pipeline.UD sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- The proof data: the arrays as the region finds them; after the body each input's buffer at its block and the output's
    at `out5_8` of the input blocks; the plain invariant; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 3 t) (iblk5 V c 4 t) (iblk5 V c 5 t) (iblk5 V c 6 t) (iblk5 V c 7 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t
    = out5_8 (iblk5 V c 0 t) (iblk5 V c 1 t) (iblk5 V c 2 t) (iblk5 V c 3 t) (iblk5 V c 4 t) (iblk5 V c 5 t) (iblk5 V c 6 t) (iblk5 V c 7 t) := by
  dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t))

set_option maxHeartbeats 4000000 in
/-- The body at any point: the inputs' buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel5 c Set.univ (grid5.coords t) _ _ _ _ _ _ _ _ _ _ _ _ _ _ _ _ _ _
    (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Run.lean ====
/-
  The kernel program's run: @main as twelve segments — six stretches of host operations alternating with the six kernel
  regions — composed in order.  `W0` is the launch memory; each host stretch folds its operations over the contents before
  it; each region leaves its arrays at what its pipeline wrote back and every other buffer as it found it.  The run ends
  with every unscoped buffer at `W12`.
-/
import proofs.«160248_j77816217469391_2_alg».proof.Proof.KI.SumsqDat0
import proofs.«160248_j77816217469391_2_alg».proof.Proof.KI.BupdDat1
import proofs.«160248_j77816217469391_2_alg».proof.Proof.KI.SumsqDat2
import proofs.«160248_j77816217469391_2_alg».proof.Proof.KI.BupdDat3
import proofs.«160248_j77816217469391_2_alg».proof.Proof.KI.SumsqDat4
import proofs.«160248_j77816217469391_2_alg».proof.Proof.KI.Region5
import proofs.«160248_j77816217469391_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4 (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After host stretch 5 (region 5's entry). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-! ## The proof data family and the thread state -/

abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- REGION 0 over the thread state: entered from every unscoped buffer at `W1`, left at `W2`. Its arrays are split out of
    the unscoped buffers and put back at the exit contents; the generator register goes into the region's invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split out of
    the unscoped buffers and put back at the exit contents; the generator register goes into the region's invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are split out of
    the unscoped buffers and put back at the exit contents; the generator register goes into the region's invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays are split out of
    the unscoped buffers and put back at the exit contents; the generator register goes into the region's invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. Its arrays are split out of
    the unscoped buffers and put back at the exit contents; the generator register goes into the region's invariant and comes
    back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V9 m ρ) c)
    unfold Pipeline.ΦA
    iintro ⟨Hp, -, Hr⟩
    isplitl [Hr]; · iexact Hr
    iexact Hp
  hout c := by
    rw [Pipeline.ownSems0_none]
    refine BIBase.Entails.trans (hout4 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W11`, left at `W12`. Its arrays are split out of
    the unscoped buffers and put back at the exit contents; the generator register goes into the region's invariant and comes
    back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ) ]

theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates, nothing
    faulting, and every final state has every unscoped buffer at `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

end Cert.KernelIdeal.Hand

end
-- ==== Proof.KI.Frame.lean ====
/-
  The kernel program's frame: the run ends with every unscoped buffer at `W12`, and at an argument's buffer `W12` is the launch
  memory — no host operation writes an argument, and no region has an argument among its windows' arrays (the regions read
  the bf16 copies the first host stretch makes).
-/
import proofs.«160248_j77816217469391_2_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- Argument 0 reaches the end as launched: no host stretch writes it and no region stages it. -/
theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- Argument 1 reaches the end as launched: no host stretch writes it and no region stages it. -/
theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- Argument 2 reaches the end as launched: no host stretch writes it and no region stages it. -/
theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- Argument 3 reaches the end as launched: no host stretch writes it and no region stages it. -/
theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- THE FRAME: every weakly fair execution of @main terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c)⟩) (run_all m ρ)

end Cert.KernelIdeal.Hand

end
-- ==== Proof.RefFrame.lean ====
/-
  The reference program's frame.  The reference is a host program with no kernel launch: every weakly fair execution runs
  its 142 operations in order to the end, each buffer ending at the fold of the operations' results over the launch
  contents.  No operation writes an argument array, so at an argument's buffer that fold is the launch contents.
-/
import proofs.«160248_j77816217469391_2_alg».proof.Defs
import proofs.«160248_j77816217469391_2_alg».proof.Proof.RefRun

noncomputable section

namespace Cert.Proof.RefFrame

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- The reference's run: every weakly fair execution terminates with every buffer at the fold of the operations. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

set_option maxRecDepth 16384 in
set_option maxHeartbeats 8000000 in
/-- No operation of the reference writes an argument: the fold at an argument's buffer is its launch contents. -/
theorem args_kept (m : (ℓ : Loc nD τ sig) → Buf (Elt F) ℓ) (c : Dev nD) :
    after (ops (F := F)) (launchContents m c) (Proc.devRef .tc main_arg0) = m ((c.tc : Thread nD τ).loc main_arg0)
    ∧ after (ops (F := F)) (launchContents m c) (Proc.devRef .tc main_arg1) = m ((c.tc : Thread nD τ).loc main_arg1)
    ∧ after (ops (F := F)) (launchContents m c) (Proc.devRef .tc main_arg2) = m ((c.tc : Thread nD τ).loc main_arg2)
    ∧ after (ops (F := F)) (launchContents m c) (Proc.devRef .tc main_arg3) = m ((c.tc : Thread nD τ).loc main_arg3) := by
  refine ⟨?_, ?_, ?_, ?_⟩ <;> (after_results_simp <;> rfl)

/-- Every weakly fair execution of the reference terminates without a fault and leaves its four argument arrays unchanged. -/
theorem frame_ReferenceIdeal [hR : Cert.ReferenceIdeal.Facts] [hP : Cert.Pre_finite_inputs.Facts] : Cert.frame_ReferenceIdeal :=
  fun m ρ _ =>
    (θ_run Cert.ReferenceIdeal.defs _ _).mono
      (fun _ h c => ⟨(h c _).trans (Cert.Proof.RefFrame.args_kept m c).1, (h c _).trans (Cert.Proof.RefFrame.args_kept m c).2.1,
        (h c _).trans (Cert.Proof.RefFrame.args_kept m c).2.2.1, (h c _).trans (Cert.Proof.RefFrame.args_kept m c).2.2.2⟩)
      (Cert.Proof.RefFrame.run_fold (F := Idealize.ShloMosaic.Ideal) m ρ)

end Cert.Proof.RefFrame

end
-- ==== Proof.KI.SumsqVal0.lean ====
/-
  The sum-of-squares region 0: what its result array ends holding.  The output window's one block is the whole [10,768,1] array
  and is written back once, after the last point; so the array ends at the accumulator after point 11.
-/
import proofs.«160248_j77816217469391_2_alg».proof.Proof.KI.SumsqDat0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (V : (c : Dev nD) → (b : Ref sig .tc) → Buf (Elt F) ((c : Thread nD τ).loc b))

/-- The accumulator after the last point, as contents of the result array. -/
abbrev result0 (c : Dev nD) : Buf (Elt F) ((c : Thread nD τ).loc main_v25) :=
  acc0 V c 11 (by rw [show cfg0.N = 12 from N_0]; decide)

/-- The one write-back, after point 11, writes it: the block at zero offsets of the [10,768,1] array is the array. -/
theorem flushed_eq0 (c : Dev nD) (t : Fin cfg0.N) (hf : (cfg0.win 6).flush t = true) :
    (dat0 V c).flushed 6 t = ((cfg0.win 6).blk t).view.read (Elt F) (result0 V c) := by
  have hN : cfg0.N = 12 := N_0
  have h11 : t.val = 11 := by have := (flush0_6 t).mp hf; have := t.isLt; omega
  obtain rfl : t = t0_11 := Fin.ext h11
  show (cfg0.win 6).cut (grid0.coords t0_11) ((dat0 V c).after 6 t0_11) = _
  rw [after0_6]
  have hz' : (fun a => win0_6.index t0_11 a * main_v25.ty.shape.size a) = fun _ => 0 := funext fun a => by fin_cases a <;> decide
  exact (Memref.read_access_unit_zero (Elt F) main_v25 hz' (fun a => by rw [congrFun hz' a]; simp) (result0 V c)).symm

/-- So the result array ends holding the accumulator after point 11. -/
theorem final0 (c : Dev nD) : (dat0 V c).arrAt 6 cfg0.N = result0 V c :=
  (dat0 V c).arrAt_eq_of_cover 6 (result0 V c) (flushed_eq0 V c) fun i =>
    ⟨t0_11, (flush0_6 t0_11).mpr rfl, by
      show i ∈ ((View.whole main_v25).slice (win0_6.rect t0_11)).set
      rw [View.set_slice_whole, Rect.mem_set_unit]
      intro a
      have h0 : (i 0 : Nat) < 10 := (i 0).isLt
      have h1 : (i 1 : Nat) < 768 := (i 1).isLt
      have h2 : (i 2 : Nat) < 1 := (i 2).isLt
      match a with
      | ⟨0, _⟩ => show win0_6.index t0_11 0 * win0_6.size 0 ≤ (i 0 : Nat) ∧ (i 0 : Nat) < win0_6.index t0_11 0 * win0_6.size 0 + win0_6.xsize (grid0.coords t0_11) 0
                  rw [show win0_6.index t0_11 0 * win0_6.size 0 = 0 from by decide +kernel, show win0_6.xsize (grid0.coords t0_11) 0 = 10 from by decide +kernel]; omega
      | ⟨1, _⟩ => show win0_6.index t0_11 1 * win0_6.size 1 ≤ (i 1 : Nat) ∧ (i 1 : Nat) < win0_6.index t0_11 1 * win0_6.size 1 + win0_6.xsize (grid0.coords t0_11) 1
                  rw [show win0_6.index t0_11 1 * win0_6.size 1 = 0 from by decide +kernel, show win0_6.xsize (grid0.coords t0_11) 1 = 768 from by decide +kernel]; omega
      | ⟨2, _⟩ => show win0_6.index t0_11 2 * win0_6.size 2 ≤ (i 2 : Nat) ∧ (i 2 : Nat) < win0_6.index t0_11 2 * win0_6.size 2 + win0_6.xsize (grid0.coords t0_11) 2
                  rw [show win0_6.index t0_11 2 * win0_6.size 2 = 0 from by decide +kernel, show win0_6.xsize (grid0.coords t0_11) 2 = 1 from by decide +kernel]; omega⟩

end Cert.KernelIdeal.Hand

end
-- ==== Proof.KI.BlocksSumsq0.lean ====
/-
  Region 0's windows read at an index.  The three routing-weight windows' one block is the whole [10,768,50] array, the same at
  every point; the three tiled windows' block at point `t` is columns 256·t … 256·t + 255 of the [10,50,3072] array.
-/
import proofs.«160248_j77816217469391_2_alg».proof.Proof.KI.SumsqVal0
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem

variable {F : FTy → Type} [FloatOps F]
variable (V : (c : Dev nD) → (b : Ref sig .tc) → Buf (Elt F) ((c : Thread nD τ).loc b))

theorem idxW0 : ∀ t : Fin cfg0.N,
    (win0_0.index t 0 = 0 ∧ win0_0.index t 1 = 0 ∧ win0_0.index t 2 = 0)
    ∧ (win0_1.index t 0 = 0 ∧ win0_1.index t 1 = 0 ∧ win0_1.index t 2 = 0)
    ∧ (win0_2.index t 0 = 0 ∧ win0_2.index t 1 = 0 ∧ win0_2.index t 2 = 0)
    ∧ (win0_3.index t 0 = 0 ∧ win0_3.index t 1 = 0 ∧ win0_3.index t 2 = t.val)
    ∧ (win0_4.index t 0 = 0 ∧ win0_4.index t 1 = 0 ∧ win0_4.index t 2 = t.val)
    ∧ (win0_5.index t 0 = 0 ∧ win0_5.index t 1 = 0 ∧ win0_5.index t 2 = t.val) :=
  (by decide +kernel : ∀ t : Fin grid0.N, _)

theorem iblk0_w0 (c : Dev nD) (t : Fin cfg0.N) : (iblk0 V c 0 t : Vec F S10x768x50 .bf16) = V c main_v22 := by
  obtain ⟨h0, h1, h2⟩ := (idxW0 t).1
  funext j
  unfold iblk0
  rw [View.read_apply]
  show V c main_v22 _ = V c main_v22 _
  congr 1
  funext a
  apply Fin.ext
  match a with
  | ⟨0, _⟩ => show win0_0.index t 0 * 10 + 1 * (j 0).val = (j 0).val; rw [h0]; omega
  | ⟨1, _⟩ => show win0_0.index t 1 * 768 + 1 * (j 1).val = (j 1).val; rw [h1]; omega
  | ⟨2, _⟩ => show win0_0.index t 2 * 50 + 1 * (j 2).val = (j 2).val; rw [h2]; omega

theorem iblk0_w1 (c : Dev nD) (t : Fin cfg0.N) : (iblk0 V c 1 t : Vec F S10x768x50 .bf16) = V c main_v23 := by
  obtain ⟨h0, h1, h2⟩ := (idxW0 t).2.1
  funext j
  unfold iblk0
  rw [View.read_apply]
  show V c main_v23 _ = V c main_v23 _
  congr 1
  funext a
  apply Fin.ext
  match a with
  | ⟨0, _⟩ => show win0_1.index t 0 * 10 + 1 * (j 0).val = (j 0).val; rw [h0]; omega
  | ⟨1, _⟩ => show win0_1.index t 1 * 768 + 1 * (j 1).val = (j 1).val; rw [h1]; omega
  | ⟨2, _⟩ => show win0_1.index t 2 * 50 + 1 * (j 2).val = (j 2).val; rw [h2]; omega

theorem iblk0_w2 (c : Dev nD) (t : Fin cfg0.N) : (iblk0 V c 2 t : Vec F S10x768x50 .bf16) = V c main_v24 := by
  obtain ⟨h0, h1, h2⟩ := (idxW0 t).2.2.1
  funext j
  unfold iblk0
  rw [View.read_apply]
  show V c main_v24 _ = V c main_v24 _
  congr 1
  funext a
  apply Fin.ext
  match a with
  | ⟨0, _⟩ => show win0_2.index t 0 * 10 + 1 * (j 0).val = (j 0).val; rw [h0]; omega
  | ⟨1, _⟩ => show win0_2.index t 1 * 768 + 1 * (j 1).val = (j 1).val; rw [h1]; omega
  | ⟨2, _⟩ => show win0_2.index t 2 * 50 + 1 * (j 2).val = (j 2).val; rw [h2]; omega

theorem iblk0_w3 (c : Dev nD) (t : Fin cfg0.N) (b : Fin 10) (k : Fin 50) (j : Fin 256) (d : Fin 3072) (hd : d.val = 256 * t.val + j.val) :
    (iblk0 V c 3 t : Vec F S10x50x256 .bf16) (ix3 b k j) = V c main_v0 (ix3 b k d) := by
  obtain ⟨h0, h1, h2⟩ := (idxW0 t).2.2.2.1
  unfold iblk0
  rw [View.read_apply]
  show V c main_v0 _ = V c main_v0 _
  congr 1
  funext a
  apply Fin.ext
  match a with
  | ⟨0, _⟩ => show win0_3.index t 0 * 10 + 1 * b.val = b.val; rw [h0]; omega
  | ⟨1, _⟩ => show win0_3.index t 1 * 50 + 1 * k.val = k.val; rw [h1]; omega
  | ⟨2, _⟩ => show win0_3.index t 2 * 256 + 1 * j.val = d.val; rw [h2, hd]; omega

theorem iblk0_w4 (c : Dev nD) (t : Fin cfg0.N) (b : Fin 10) (k : Fin 50) (j : Fin 256) (d : Fin 3072) (hd : d.val = 256 * t.val + j.val) :
    (iblk0 V c 4 t : Vec F S10x50x256 .bf16) (ix3 b k j) = V c main_v1 (ix3 b k d) := by
  obtain ⟨h0, h1, h2⟩ := (idxW0 t).2.2.2.2.1
  unfold iblk0
  rw [View.read_apply]
  show V c main_v1 _ = V c main_v1 _
  congr 1
  funext a
  apply Fin.ext
  match a with
  | ⟨0, _⟩ => show win0_4.index t 0 * 10 + 1 * b.val = b.val; rw [h0]; omega
  | ⟨1, _⟩ => show win0_4.index t 1 * 50 + 1 * k.val = k.val; rw [h1]; omega
  | ⟨2, _⟩ => show win0_4.index t 2 * 256 + 1 * j.val = d.val; rw [h2, hd]; omega

theorem iblk0_w5 (c : Dev nD) (t : Fin cfg0.N) (b : Fin 10) (k : Fin 50) (j : Fin 256) (d : Fin 3072) (hd : d.val = 256 * t.val + j.val) :
    (iblk0 V c 5 t : Vec F S10x50x256 .bf16) (ix3 b k j) = V c main_v2 (ix3 b k d) := by
  obtain ⟨h0, h1, h2⟩ := (idxW0 t).2.2.2.2.2
  unfold iblk0
  rw [View.read_apply]
  show V c main_v2 _ = V c main_v2 _
  congr 1
  funext a
  apply Fin.ext
  match a with
  | ⟨0, _⟩ => show win0_5.index t 0 * 10 + 1 * b.val = b.val; rw [h0]; omega
  | ⟨1, _⟩ => show win0_5.index t 1 * 50 + 1 * k.val = k.val; rw [h1]; omega
  | ⟨2, _⟩ => show win0_5.index t 2 * 256 + 1 * j.val = d.val; rw [h2, hd]; omega

end Cert.KernelIdeal.Hand

end
-- ==== Proof.KI.Dots.lean ====
/-
  The kernel's three batched products read at an index, at the ideal values.  Each is a product of rank-3 arrays with the
  leading axis a batch axis: [10,768,50]·[10,50,256] (the capsule sums s, over the 50 positions), [10,768,256]·[10,50,256]ᵀ
  (the logit updates, over the 256 columns of a tile) and [10,50,768]·[10,768,256] (W times the capsules, over the 768
  capsules).  Into a zero accumulator each entry is the plain sum of the products along the contracted axis.
-/
import proofs.«160248_j77816217469391_2_alg».proof.KernelIdeal
import Idealize.ShloMosaic.PureOps.Ideal.Laws
import Idealize.ShloMosaic.Lib.ValueIdx

set_option maxRecDepth 16384

noncomputable section

namespace Cert.KernelIdeal.Hand

open Cert.KernelIdeal Idealize.ShloMosaic Idealize.ShloMosaic.ValueIdx
open scoped BigOperators

variable [hK : Cert.KernelIdeal.Facts]

theorem ext3 {n : Fin 3 → ℕ} {x y : (a : Fin 3) → Fin (n a)} (h0 : (x 0 : ℕ) = y 0) (h1 : (x 1 : ℕ) = y 1) (h2 : (x 2 : ℕ) = y 2) : x = y :=
  funext fun a => Fin.ext <| match a with | ⟨0, _⟩ => h0 | ⟨1, _⟩ => h1 | ⟨2, _⟩ => h2

abbrev KD1 := dot_S10x768x50_S10x50x256_S10x768x256_2_1_1_2_0_0
theorem KD1_rank : KD1.contr.rank = 1 := rfl
theorem KD1_size : KD1.contr.size ⟨0, by rw [KD1_rank]; exact Nat.one_pos⟩ = 50 := rfl
theorem KD1_lhs0 (j : S10x768x256.Idx) (k : KD1.contr.Idx) : (KD1.lhsIdx j k 0 : ℕ) = j 0 := by
  simp [DotDims.lhsIdx, KD1, dot_S10x768x50_S10x50x256_S10x768x256_2_1_1_2_0_0]; rfl
theorem KD1_lhs1 (j : S10x768x256.Idx) (k : KD1.contr.Idx) : (KD1.lhsIdx j k 1 : ℕ) = j 1 := by
  simp [DotDims.lhsIdx, KD1, dot_S10x768x50_S10x50x256_S10x768x256_2_1_1_2_0_0]; rfl
theorem KD1_lhs2 (j : S10x768x256.Idx) (k : KD1.contr.Idx) : (KD1.lhsIdx j k 2 : ℕ) = k ⟨0, by rw [KD1_rank]; exact Nat.one_pos⟩ := by
  simp [DotDims.lhsIdx, KD1, dot_S10x768x50_S10x50x256_S10x768x256_2_1_1_2_0_0]; rfl
theorem KD1_rhs0 (j : S10x768x256.Idx) (k : KD1.contr.Idx) : (KD1.rhsIdx j k 0 : ℕ) = j 0 := by
  simp [DotDims.rhsIdx, KD1, dot_S10x768x50_S10x50x256_S10x768x256_2_1_1_2_0_0]; rfl
theorem KD1_rhs1 (j : S10x768x256.Idx) (k : KD1.contr.Idx) : (KD1.rhsIdx j k 1 : ℕ) = k ⟨0, by rw [KD1_rank]; exact Nat.one_pos⟩ := by
  simp [DotDims.rhsIdx, KD1, dot_S10x768x50_S10x50x256_S10x768x256_2_1_1_2_0_0]; rfl
theorem KD1_rhs2 (j : S10x768x256.Idx) (k : KD1.contr.Idx) : (KD1.rhsIdx j k 2 : ℕ) = j 2 := by
  simp [DotDims.rhsIdx, KD1, dot_S10x768x50_S10x50x256_S10x768x256_2_1_1_2_0_0]; rfl

abbrev KD2 := dot_S10x768x256_S10x50x256_S10x768x50_2_2_1_1_0_0
theorem KD2_rank : KD2.contr.rank = 1 := rfl
theorem KD2_size : KD2.contr.size ⟨0, by rw [KD2_rank]; exact Nat.one_pos⟩ = 256 := rfl
theorem KD2_lhs0 (j : S10x768x50.Idx) (k : KD2.contr.Idx) : (KD2.lhsIdx j k 0 : ℕ) = j 0 := by
  simp [DotDims.lhsIdx, KD2, dot_S10x768x256_S10x50x256_S10x768x50_2_2_1_1_0_0]; rfl
theorem KD2_lhs1 (j : S10x768x50.Idx) (k : KD2.contr.Idx) : (KD2.lhsIdx j k 1 : ℕ) = j 1 := by
  simp [DotDims.lhsIdx, KD2, dot_S10x768x256_S10x50x256_S10x768x50_2_2_1_1_0_0]; rfl
theorem KD2_lhs2 (j : S10x768x50.Idx) (k : KD2.contr.Idx) : (KD2.lhsIdx j k 2 : ℕ) = k ⟨0, by rw [KD2_rank]; exact Nat.one_pos⟩ := by
  simp [DotDims.lhsIdx, KD2, dot_S10x768x256_S10x50x256_S10x768x50_2_2_1_1_0_0]; rfl
theorem KD2_rhs0 (j : S10x768x50.Idx) (k : KD2.contr.Idx) : (KD2.rhsIdx j k 0 : ℕ) = j 0 := by
  simp [DotDims.rhsIdx, KD2, dot_S10x768x256_S10x50x256_S10x768x50_2_2_1_1_0_0]; rfl
theorem KD2_rhs1 (j : S10x768x50.Idx) (k : KD2.contr.Idx) : (KD2.rhsIdx j k 1 : ℕ) = j 2 := by
  simp [DotDims.rhsIdx, KD2, dot_S10x768x256_S10x50x256_S10x768x50_2_2_1_1_0_0]; rfl
theorem KD2_rhs2 (j : S10x768x50.Idx) (k : KD2.contr.Idx) : (KD2.rhsIdx j k 2 : ℕ) = k ⟨0, by rw [KD2_rank]; exact Nat.one_pos⟩ := by
  simp [DotDims.rhsIdx, KD2, dot_S10x768x256_S10x50x256_S10x768x50_2_2_1_1_0_0]; rfl

abbrev KD3 := dot_S10x50x768_S10x768x256_S10x50x256_2_1_1_2_0_0
theorem KD3_rank : KD3.contr.rank = 1 := rfl
theorem KD3_size : KD3.contr.size ⟨0, by rw [KD3_rank]; exact Nat.one_pos⟩ = 768 := rfl
theorem KD3_lhs0 (j : S10x50x256.Idx) (k : KD3.contr.Idx) : (KD3.lhsIdx j k 0 : ℕ) = j 0 := by
  simp [DotDims.lhsIdx, KD3, dot_S10x50x768_S10x768x256_S10x50x256_2_1_1_2_0_0]; rfl
theorem KD3_lhs1 (j : S10x50x256.Idx) (k : KD3.contr.Idx) : (KD3.lhsIdx j k 1 : ℕ) = j 1 := by
  simp [DotDims.lhsIdx, KD3, dot_S10x50x768_S10x768x256_S10x50x256_2_1_1_2_0_0]; rfl
theorem KD3_lhs2 (j : S10x50x256.Idx) (k : KD3.contr.Idx) : (KD3.lhsIdx j k 2 : ℕ) = k ⟨0, by rw [KD3_rank]; exact Nat.one_pos⟩ := by
  simp [DotDims.lhsIdx, KD3, dot_S10x50x768_S10x768x256_S10x50x256_2_1_1_2_0_0]; rfl
theorem KD3_rhs0 (j : S10x50x256.Idx) (k : KD3.contr.Idx) : (KD3.rhsIdx j k 0 : ℕ) = j 0 := by
  simp [DotDims.rhsIdx, KD3, dot_S10x50x768_S10x768x256_S10x50x256_2_1_1_2_0_0]; rfl
theorem KD3_rhs1 (j : S10x50x256.Idx) (k : KD3.contr.Idx) : (KD3.rhsIdx j k 1 : ℕ) = k ⟨0, by rw [KD3_rank]; exact Nat.one_pos⟩ := by
  simp [DotDims.rhsIdx, KD3, dot_S10x50x768_S10x768x256_S10x50x256_2_1_1_2_0_0]; rfl
theorem KD3_rhs2 (j : S10x50x256.Idx) (k : KD3.contr.Idx) : (KD3.rhsIdx j k 2 : ℕ) = j 2 := by
  simp [DotDims.rhsIdx, KD3, dot_S10x50x768_S10x768x256_S10x50x256_2_1_1_2_0_0]; rfl

/-- c·x over the 50 positions, tile-wide: entry (b, p, j). -/
theorem matmul_KD1_apply (L : FVec Ideal S10x768x50 .bf16) (R : FVec Ideal S10x50x256 .bf16) (b : Fin 10) (p : Fin 768) (j : Fin 256) :
    matmul KD1 none L R (constant S10x768x256 .f32 0x00000000#32) (ix3 b p j)
      = ∑ k : Fin 50, L (ix3 b p k) * R (ix3 b k j) := by
  rw [show matmul KD1 none L R (constant S10x768x256 .f32 0x00000000#32) (ix3 b p j) = _ from Ideal.matmul_constant_zero_apply KD1 none L R (ix3 b p j)]
  rw [← Equiv.sum_comp (contrEquiv1 KD1 50 KD1_rank KD1_size).symm]
  refine Finset.sum_congr rfl fun k _ => ?_
  congr 2
  · exact ext3 (KD1_lhs0 _ _) (KD1_lhs1 _ _) ((KD1_lhs2 _ _).trans (contrEquiv1_symm_val KD1 50 KD1_rank KD1_size k))
  · exact ext3 (KD1_rhs0 _ _) ((KD1_rhs1 _ _).trans (contrEquiv1_symm_val KD1 50 KD1_rank KD1_size k)) (KD1_rhs2 _ _)

/-- a·xᵀ over the 256 columns of a tile: entry (b, p, s). -/
theorem matmul_KD2_apply (L : FVec Ideal S10x768x256 .bf16) (R : FVec Ideal S10x50x256 .bf16) (b : Fin 10) (p : Fin 768) (s : Fin 50) :
    matmul KD2 none L R (constant S10x768x50 .f32 0x00000000#32) (ix3 b p s)
      = ∑ k : Fin 256, L (ix3 b p k) * R (ix3 b s k) := by
  rw [show matmul KD2 none L R (constant S10x768x50 .f32 0x00000000#32) (ix3 b p s) = _ from Ideal.matmul_constant_zero_apply KD2 none L R (ix3 b p s)]
  rw [← Equiv.sum_comp (contrEquiv1 KD2 256 KD2_rank KD2_size).symm]
  refine Finset.sum_congr rfl fun k _ => ?_
  congr 2
  · exact ext3 (KD2_lhs0 _ _) (KD2_lhs1 _ _) ((KD2_lhs2 _ _).trans (contrEquiv1_symm_val KD2 256 KD2_rank KD2_size k))
  · exact ext3 (KD2_rhs0 _ _) (KD2_rhs1 _ _) ((KD2_rhs2 _ _).trans (contrEquiv1_symm_val KD2 256 KD2_rank KD2_size k))

/-- W·a over the 768 capsules, tile-wide: entry (b, s, j). -/
theorem matmul_KD3_apply (L : FVec Ideal S10x50x768 .bf16) (R : FVec Ideal S10x768x256 .bf16) (b : Fin 10) (s : Fin 50) (j : Fin 256) :
    matmul KD3 none L R (constant S10x50x256 .f32 0x00000000#32) (ix3 b s j)
      = ∑ k : Fin 768, L (ix3 b s k) * R (ix3 b k j) := by
  rw [show matmul KD3 none L R (constant S10x50x256 .f32 0x00000000#32) (ix3 b s j) = _ from Ideal.matmul_constant_zero_apply KD3 none L R (ix3 b s j)]
  rw [← Equiv.sum_comp (contrEquiv1 KD3 768 KD3_rank KD3_size).symm]
  refine Finset.sum_congr rfl fun k _ => ?_
  congr 2
  · exact ext3 (KD3_lhs0 _ _) (KD3_lhs1 _ _) ((KD3_lhs2 _ _).trans (contrEquiv1_symm_val KD3 768 KD3_rank KD3_size k))
  · exact ext3 (KD3_rhs0 _ _) ((KD3_rhs1 _ _).trans (contrEquiv1_symm_val KD3 768 KD3_rank KD3_size k)) (KD3_rhs2 _ _)

end Cert.KernelIdeal.Hand

end
-- ==== Proof.KI.Tile.lean ====
/-
  The capsule sums, entry by entry:  s(b,p,·) = Σₖ c1(b,p,k)·x0(b,k,·) + Σₖ c2(b,p,k)·x1(b,k,·) + Σₖ c3(b,p,k)·x2(b,k,·), the 50
  positions k summed in each of the three products, the three products added left to right — over one 256-column tile
  (`sTile`) and over the whole 3072-column arrays (`sCol`).
-/
import proofs.«160248_j77816217469391_2_alg».proof.Proof.KI.Dots

noncomputable section

namespace Cert.KernelIdeal.Hand

open Cert.KernelIdeal Idealize.ShloMosaic Idealize.ShloMosaic.ValueIdx
open scoped BigOperators

def sTile (c1 c2 c3 : S10x768x50.Idx → EReal) (tv ta tva : S10x50x256.Idx → EReal) (b : Fin 10) (p : Fin 768) (j : Fin 256) : EReal :=
  (∑ k : Fin 50, c1 (ix3 b p k) * tv (ix3 b k j)) + (∑ k : Fin 50, c2 (ix3 b p k) * ta (ix3 b k j)) + (∑ k : Fin 50, c3 (ix3 b p k) * tva (ix3 b k j))

def sCol (c1 c2 c3 : S10x768x50.Idx → EReal) (x0 x1 x2 : S10x50x3072.Idx → EReal) (b : Fin 10) (p : Fin 768) (d : Fin 3072) : EReal :=
  (∑ k : Fin 50, c1 (ix3 b p k) * x0 (ix3 b k d)) + (∑ k : Fin 50, c2 (ix3 b p k) * x1 (ix3 b k d)) + (∑ k : Fin 50, c3 (ix3 b p k) * x2 (ix3 b k d))

theorem sTile_def (c1 c2 c3 : S10x768x50.Idx → EReal) (tv ta tva : S10x50x256.Idx → EReal) (b : Fin 10) (p : Fin 768) (j : Fin 256) :
    sTile c1 c2 c3 tv ta tva b p j
      = (∑ k : Fin 50, c1 (ix3 b p k) * tv (ix3 b k j)) + (∑ k : Fin 50, c2 (ix3 b p k) * ta (ix3 b k j)) + (∑ k : Fin 50, c3 (ix3 b p k) * tva (ix3 b k j)) := by
  unfold sTile; rfl

theorem sCol_def (c1 c2 c3 : S10x768x50.Idx → EReal) (x0 x1 x2 : S10x50x3072.Idx → EReal) (b : Fin 10) (p : Fin 768) (d : Fin 3072) :
    sCol c1 c2 c3 x0 x1 x2 b p d
      = (∑ k : Fin 50, c1 (ix3 b p k) * x0 (ix3 b k d)) + (∑ k : Fin 50, c2 (ix3 b p k) * x1 (ix3 b k d)) + (∑ k : Fin 50, c3 (ix3 b p k) * x2 (ix3 b k d)) := by
  unfold sCol; rfl

end Cert.KernelIdeal.Hand

end
-- ==== Proof.KI.ColsSumsq0.lean ====
/-
  Region 0: a tile's capsule sums are the whole arrays' capsule sums at the tile's columns.
-/
import proofs.«160248_j77816217469391_2_alg».proof.Proof.KI.BlocksSumsq0
import proofs.«160248_j77816217469391_2_alg».proof.Proof.KI.Tile

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem
open scoped BigOperators

variable (V : (c : Dev nD) → (b : Ref sig .tc) → Buf (Elt Ideal) ((c : Thread nD τ).loc b))

theorem sTile_eq_sCol0 (c : Dev nD) (t : Fin cfg0.N) (b : Fin 10) (p : Fin 768) (j : Fin 256) (d : Fin 3072) (hd : d.val = 256 * t.val + j.val) :
    sTile (iblk0 V c 0 t) (iblk0 V c 1 t) (iblk0 V c 2 t) (iblk0 V c 3 t) (iblk0 V c 4 t) (iblk0 V c 5 t) b p j
      = sCol (V c main_v22) (V c main_v23) (V c main_v24) (V c main_v0) (V c main_v1) (V c main_v2) b p d := by
  unfold sTile sCol
  rw [iblk0_w0 V c t, iblk0_w1 V c t, iblk0_w2 V c t]
  simp only [fun b k => iblk0_w3 V c t b k j d hd, fun b k => iblk0_w4 V c t b k j d hd, fun b k => iblk0_w5 V c t b k j d hd]

end Cert.KernelIdeal.Hand

end
-- ==== Proof.KI.PaySumsq0.lean ====
/-
  The sum-of-squares payload (pallas_call 0) read at an index, at the ideal values: the accumulator's entry (b, p) plus the
  sum over the tile's 256 columns of the squared capsule sums  s(b,p,j) = Σₖ c1(b,p,k)·tv(b,k,j) + Σₖ c2·ta + Σₖ c3·tva.
-/
import proofs.«160248_j77816217469391_2_alg».proof.Proof.KI.Tile
import proofs.«160248_j77816217469391_2_alg».proof.Proof.Gen.KernelIdeal.Skeleton
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx
open scoped BigOperators

variable [hK : Cert.KernelIdeal.Facts]

theorem k0_pay2_apply (c1 : Vec Ideal S10x768x50 .bf16) (tv : Vec Ideal S10x50x256 .bf16) (c2 : Vec Ideal S10x768x50 .bf16) (ta : Vec Ideal S10x50x256 .bf16)
    (c3 : Vec Ideal S10x768x50 .bf16) (tva : Vec Ideal S10x50x256 .bf16) (xs : Vec Ideal S10x768x1 .f32) (b : Fin 10) (p : Fin 768) (z : Fin 1) :
    k0_pay2 (F := Ideal) c1 tv c2 ta c3 tva xs (ix3 b p z)
      = xs (ix3 b p z) + ∑ j : Fin 256, sTile c1 c2 c3 tv ta tva b p j * sTile c1 c2 c3 tv ta tva b p j := by
  unfold k0_pay2
  simp only [shapeCast_self]
  rw [addf_apply]
  congr 1
  refine (shapeCast_apply _ _ (ix3 b p z) (ix2 b p) ?_).trans ?_
  · rw [Shape.rowMajor_val_two, Shape.rowMajor_val_three]
    have hz : z.val = 0 := by omega
    show b.val * 768 + p.val = (b.val * 768 + p.val) * 1 + z.val
    omega
  refine (Ideal.multiReduction_add_single _ _ reduces_S10x768x256_S10x768 _ _ (ix2 b p)).trans ?_
  refine Finset.sum_congr rfl fun (j : Fin 256) _ => ?_
  have hl : (reduces_S10x768x256_S10x768 : S10x768x256.Reduces [2] S10x768).lift (ix2 b p) j = ix3 b p j := ext3 rfl rfl rfl
  rw [hl]
  simp only [mulf_apply, addf_apply, matmul_KD1_apply]
  rfl

end Cert.KernelIdeal.Hand

end
-- ==== Proof.LibTileSum.lean ====
/-
  A sum over the 3072 columns of an array, taken tile by tile.

  3072 = 12 · 256: column `d` is column `j` of tile `t` with `d = 256·t + j`.  In a commutative monoid (the extended reals under
  addition are one) the sum over all columns is the sum over the twelve tiles of the sums over each tile's 256 columns; and a
  running total that starts at `z` and adds one tile's sum per step ends, after the last tile, at `z` plus the whole sum.
-/
import Mathlib

namespace Cert.Lib.TileSum

open scoped BigOperators

/-- Column `j` of tile `t`. -/
def col (t : Fin 12) (j : Fin 256) : Fin 3072 := ⟨256 * t.val + j.val, by have := t.isLt; have := j.isLt; omega⟩

@[simp] theorem col_val (t : Fin 12) (j : Fin 256) : (col t j).val = 256 * t.val + j.val := rfl

/-- The sum over the 3072 columns is the sum over the tiles of the sums over a tile's columns. -/
theorem sum_cols {M : Type*} [AddCommMonoid M] (f : Fin 3072 → M) :
    ∑ d : Fin 3072, f d = ∑ t : Fin 12, ∑ j : Fin 256, f (col t j) := by
  have e : Fin 12 × Fin 256 ≃ Fin 3072 := finProdFinEquiv (m := 12) (n := 256)
  rw [← Equiv.sum_comp (finProdFinEquiv (m := 12) (n := 256)) f, Fintype.sum_prod_type]
  refine Finset.sum_congr rfl fun t _ => Finset.sum_congr rfl fun j _ => congrArg f (Fin.ext ?_)
  show j.val + 256 * t.val = 256 * t.val + j.val
  omega

/-- A running total: `z` after no tile, one tile's sum added per step. -/
def run {M : Type*} [AddCommMonoid M] (z : M) (g : ℕ → M) : ℕ → M
  | 0 => z + g 0
  | n + 1 => run z g n + g (n + 1)

theorem run_eq {M : Type*} [AddCommMonoid M] (z : M) (g : ℕ → M) (n : ℕ) :
    run z g n = z + ∑ s ∈ Finset.range (n + 1), g s := by
  induction n with
  | zero => simp [run]
  | succ n ih => rw [run, ih, Finset.sum_range_succ _ (n + 1), add_assoc]

/-- After the twelfth tile the running total is `z` plus the sum over all twelve. -/
theorem run_last {M : Type*} [AddCommMonoid M] (z : M) (g : ℕ → M) :
    run z g 11 = z + ∑ t : Fin 12, g t.val := by
  rw [run_eq, Finset.sum_range]

end Cert.Lib.TileSum
-- ==== Proof.KI.ValSumsq0.lean ====
/-
  Region 0's result at the ideal values, entry by entry: the sum over all 3072 columns of the squared capsule sums
  s(b,p,d) = Σₖ c1(b,p,k)·x0(b,k,d) + Σₖ c2(b,p,k)·x1(b,k,d) + Σₖ c3(b,p,k)·x2(b,k,d), added to zero.
  Each point adds its tile's 256 columns to the running total, so after the twelfth point the total is the whole sum.
-/
import proofs.«160248_j77816217469391_2_alg».proof.Proof.KI.ColsSumsq0
import proofs.«160248_j77816217469391_2_alg».proof.Proof.KI.PaySumsq0
import proofs.«160248_j77816217469391_2_alg».proof.Proof.LibTileSum

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem
open Cert.Lib.TileSum
open scoped BigOperators

variable [hK : Cert.KernelIdeal.Facts]
variable (V : (c : Dev nD) → (b : Ref sig .tc) → Buf (Elt Ideal) ((c : Thread nD τ).loc b))

set_option maxHeartbeats 2000000 in
/-- One point's step: the accumulator's entry grows by the tile's sum of squares, the tile's columns read off the whole arrays. -/
theorem step0_apply (c : Dev nD) (t : Fin cfg0.N) (h12 : t.val < 12) (xs : Vec Ideal S10x768x1 .f32) (b : Fin 10) (p : Fin 768) (z : Fin 1) :
    k0_pay2 (F := Ideal) (iblk0 V c 0 t) (iblk0 V c 3 t) (iblk0 V c 1 t) (iblk0 V c 4 t) (iblk0 V c 2 t) (iblk0 V c 5 t) xs (ix3 b p z)
      = xs (ix3 b p z) + ∑ j : Fin 256,
          sCol (V c main_v22) (V c main_v23) (V c main_v24) (V c main_v0) (V c main_v1) (V c main_v2) b p (col ⟨t.val, h12⟩ j)
          * sCol (V c main_v22) (V c main_v23) (V c main_v24) (V c main_v0) (V c main_v1) (V c main_v2) b p (col ⟨t.val, h12⟩ j) := by
  refine (k0_pay2_apply _ _ _ _ _ _ xs b p z).trans ?_
  refine congrArg (xs (ix3 b p z) + ·) ?_
  refine Finset.sum_congr rfl fun j _ => ?_
  rw [sTile_eq_sCol0 V c t b p j (col ⟨t.val, h12⟩ j) rfl]

theorem zero0_apply (b : Fin 10) (p : Fin 768) (z : Fin 1) : k0_pay1 (F := Ideal) (ix3 b p z) = 0 := by
  unfold k0_pay1
  simp only [shapeCast_self]
  exact Ideal.ofBits_zero_f32

set_option maxHeartbeats 2000000 in
/-- The accumulator after point `n` at entry (b, p): the running total of the tiles' sums of squares. -/
theorem acc0_apply (c : Dev nD) (b : Fin 10) (p : Fin 768) (z : Fin 1) (n : ℕ) : ∀ (hn : n < cfg0.N),
    acc0 V c n hn (ix3 b p z) = run (0 : EReal) (fun s => if h : s < 12 then ∑ j : Fin 256,
          sCol (V c main_v22) (V c main_v23) (V c main_v24) (V c main_v0) (V c main_v1) (V c main_v2) b p (col ⟨s, h⟩ j)
          * sCol (V c main_v22) (V c main_v23) (V c main_v24) (V c main_v0) (V c main_v1) (V c main_v2) b p (col ⟨s, h⟩ j) else 0) n := by
  induction n with
  | zero =>
    intro hn
    have h12 : (0 : ℕ) < 12 := by decide
    rw [acc0_zero V c ⟨0, hn⟩ rfl, step0_apply V c ⟨0, hn⟩ h12, zero0_apply, run, dif_pos h12]
  | succ n ih =>
    intro hn
    have h12 : n + 1 < 12 := lt_of_lt_of_eq hn (show cfg0.N = 12 from N_0)
    rw [acc0_pos V c ⟨n + 1, hn⟩ (Nat.succ_ne_zero n), step0_apply V c ⟨n + 1, hn⟩ h12, run, dif_pos h12]
    congr 1
    exact ih _

/-- The result array at entry (b, p): zero plus the sum over all 3072 columns. -/
theorem result0_apply (c : Dev nD) (b : Fin 10) (p : Fin 768) (z : Fin 1) :
    result0 V c (ix3 b p z)
      = 0 + ∑ d : Fin 3072, sCol (V c main_v22) (V c main_v23) (V c main_v24) (V c main_v0) (V c main_v1) (V c main_v2) b p d
          * sCol (V c main_v22) (V c main_v23) (V c main_v24) (V c main_v0) (V c main_v1) (V c main_v2) b p d := by
  rw [show result0 V c (ix3 b p z) = acc0 V c 11 (by rw [show cfg0.N = 12 from N_0]; decide) (ix3 b p z) from rfl,
    acc0_apply, run_last, sum_cols]
  refine congrArg ((0 : EReal) + ·) ?_
  refine Finset.sum_congr rfl fun t _ => ?_
  exact (dif_pos t.isLt).trans rfl

end Cert.KernelIdeal.Hand

end
-- ==== Proof.KI.Caps.lean ====
/-
  Capsule routing, entry by entry, on the extended reals.  With routing weights c1, c2, c3 ([10,768,50]) and the three
  modalities x0, x1, x2 ([10,50,3072]):
    s(b,p,d)   = Σₖ c1(b,p,k)·x0(b,k,d) + Σₖ c2(b,p,k)·x1(b,k,d) + Σₖ c3(b,p,k)·x2(b,k,d)          the capsule sums (`sCol`)
    q(b,p)     = 0 + Σ_d s(b,p,d)²                                                                 their squared lengths (`capsQ`)
    f(b,p)     = (q / (1 + q)) / (√q + ε)                                                           the squash factor (`capsFac`)
    Δ(b,p,k)   = Σ_d (f(b,p)·s(b,p,d)) · x(b,k,d)                                                   a logit update (`capsB`)
    out(b,k,d) = Σ_p W(b,k,p) · (f(b,p)·s(b,p,d))                                                   the result (`capsOut`)
-/
import proofs.«160248_j77816217469391_2_alg».proof.Proof.KI.Tile

noncomputable section

namespace Cert.KernelIdeal.Hand

open Cert.KernelIdeal Idealize.ShloMosaic Idealize.ShloMosaic.ValueIdx
open scoped BigOperators

def capsQ (c1 c2 c3 : S10x768x50.Idx → EReal) (x0 x1 x2 : S10x50x3072.Idx → EReal) : S10x768x1.Idx → EReal :=
  fun i => 0 + ∑ d : Fin 3072, sCol c1 c2 c3 x0 x1 x2 (i 0) (i 1) d * sCol c1 c2 c3 x0 x1 x2 (i 0) (i 1) d

def capsFac (q : S10x768x1.Idx → EReal) : S10x768x1.Idx → EReal :=
  fun i => Ideal.div (Ideal.div (q i) (Ideal.ofBits .f32 0x3F800000#32 + q i)) (Ideal.sqrt (q i) + Ideal.ofBits .f32 0x322BCC77#32)

/-- One column's term of a logit update. -/
def bTerm (f : S10x768x1.Idx → EReal) (c1 c2 c3 : S10x768x50.Idx → EReal) (x0 x1 x2 : S10x50x3072.Idx → EReal)
    (x : S10x50x3072.Idx → EReal) (b : Fin 10) (p : Fin 768) (s : Fin 50) (d : Fin 3072) : EReal :=
  (f (ix3 b p 0) * sCol c1 c2 c3 x0 x1 x2 b p d) * x (ix3 b s d)

def capsB (f : S10x768x1.Idx → EReal) (c1 c2 c3 : S10x768x50.Idx → EReal) (x0 x1 x2 : S10x50x3072.Idx → EReal)
    (x : S10x50x3072.Idx → EReal) : S10x768x50.Idx → EReal :=
  fun i => ∑ d : Fin 3072, bTerm f c1 c2 c3 x0 x1 x2 x (i 0) (i 1) (i 2) d

def capsOut (w : S10x50x768.Idx → EReal) (f : S10x768x1.Idx → EReal) (c1 c2 c3 : S10x768x50.Idx → EReal)
    (x0 x1 x2 : S10x50x3072.Idx → EReal) : S10x50x3072.Idx → EReal :=
  fun i => ∑ p : Fin 768, w (ix3 (i 0) (i 1) p) * (f (ix3 (i 0) p 0) * sCol c1 c2 c3 x0 x1 x2 (i 0) p (i 2))

theorem bTerm_def (f : S10x768x1.Idx → EReal) (c1 c2 c3 : S10x768x50.Idx → EReal) (x0 x1 x2 x : S10x50x3072.Idx → EReal)
    (b : Fin 10) (p : Fin 768) (s : Fin 50) (d : Fin 3072) :
    bTerm f c1 c2 c3 x0 x1 x2 x b p s d = (f (ix3 b p 0) * sCol c1 c2 c3 x0 x1 x2 b p d) * x (ix3 b s d) := by
  unfold bTerm; rfl

theorem capsFac_def (q : S10x768x1.Idx → EReal) (i : S10x768x1.Idx) :
    capsFac q i = Ideal.div (Ideal.div (q i) (Ideal.ofBits .f32 0x3F800000#32 + q i)) (Ideal.sqrt (q i) + Ideal.ofBits .f32 0x322BCC77#32) := by
  unfold capsFac; rfl

end Cert.KernelIdeal.Hand

end
-- ==== Proof.KI.EqSumsq0.lean ====
/-
  Region 0's result array is the squared lengths of the capsule sums of its operands.
-/
import proofs.«160248_j77816217469391_2_alg».proof.Proof.KI.ValSumsq0
import proofs.«160248_j77816217469391_2_alg».proof.Proof.KI.Caps

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem

variable [hK : Cert.KernelIdeal.Facts]
variable (V : (c : Dev nD) → (b : Ref sig .tc) → Buf (Elt Ideal) ((c : Thread nD τ).loc b))

theorem region0_eq (c : Dev nD) :
    (dat0 V c).arrAt 6 cfg0.N = capsQ (V c main_v22) (V c main_v23) (V c main_v24) (V c main_v0) (V c main_v1) (V c main_v2) := by
  rw [final0]
  funext i
  obtain ⟨b, p, z, rfl⟩ : ∃ (b : Fin 10) (p : Fin 768) (z : Fin 1), i = ix3 b p z := ⟨i 0, i 1, i 2, eq_ix3 i⟩
  exact (result0_apply V c b p z).trans rfl

end Cert.KernelIdeal.Hand

end
-- ==== Proof.KI.SumsqVal2.lean ====
/-
  The sum-of-squares region 2: what its result array ends holding.  The output window's one block is the whole [10,768,1] array
  and is written back once, after the last point; so the array ends at the accumulator after point 11.
-/
import proofs.«160248_j77816217469391_2_alg».proof.Proof.KI.SumsqDat2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (V : (c : Dev nD) → (b : Ref sig .tc) → Buf (Elt F) ((c : Thread nD τ).loc b))

/-- The accumulator after the last point, as contents of the result array. -/
abbrev result2 (c : Dev nD) : Buf (Elt F) ((c : Thread nD τ).loc main_v58) :=
  acc2 V c 11 (by rw [show cfg2.N = 12 from N_2]; decide)

/-- The one write-back, after point 11, writes it: the block at zero offsets of the [10,768,1] array is the array. -/
theorem flushed_eq2 (c : Dev nD) (t : Fin cfg2.N) (hf : (cfg2.win 6).flush t = true) :
    (dat2 V c).flushed 6 t = ((cfg2.win 6).blk t).view.read (Elt F) (result2 V c) := by
  have hN : cfg2.N = 12 := N_2
  have h11 : t.val = 11 := by have := (flush2_6 t).mp hf; have := t.isLt; omega
  obtain rfl : t = t2_11 := Fin.ext h11
  show (cfg2.win 6).cut (grid2.coords t2_11) ((dat2 V c).after 6 t2_11) = _
  rw [after2_6]
  have hz' : (fun a => win2_6.index t2_11 a * main_v58.ty.shape.size a) = fun _ => 0 := funext fun a => by fin_cases a <;> decide
  exact (Memref.read_access_unit_zero (Elt F) main_v58 hz' (fun a => by rw [congrFun hz' a]; simp) (result2 V c)).symm

/-- So the result array ends holding the accumulator after point 11. -/
theorem final2 (c : Dev nD) : (dat2 V c).arrAt 6 cfg2.N = result2 V c :=
  (dat2 V c).arrAt_eq_of_cover 6 (result2 V c) (flushed_eq2 V c) fun i =>
    ⟨t2_11, (flush2_6 t2_11).mpr rfl, by
      show i ∈ ((View.whole main_v58).slice (win2_6.rect t2_11)).set
      rw [View.set_slice_whole, Rect.mem_set_unit]
      intro a
      have h0 : (i 0 : Nat) < 10 := (i 0).isLt
      have h1 : (i 1 : Nat) < 768 := (i 1).isLt
      have h2 : (i 2 : Nat) < 1 := (i 2).isLt
      match a with
      | ⟨0, _⟩ => show win2_6.index t2_11 0 * win2_6.size 0 ≤ (i 0 : Nat) ∧ (i 0 : Nat) < win2_6.index t2_11 0 * win2_6.size 0 + win2_6.xsize (grid2.coords t2_11) 0
                  rw [show win2_6.index t2_11 0 * win2_6.size 0 = 0 from by decide +kernel, show win2_6.xsize (grid2.coords t2_11) 0 = 10 from by decide +kernel]; omega
      | ⟨1, _⟩ => show win2_6.index t2_11 1 * win2_6.size 1 ≤ (i 1 : Nat) ∧ (i 1 : Nat) < win2_6.index t2_11 1 * win2_6.size 1 + win2_6.xsize (grid2.coords t2_11) 1
                  rw [show win2_6.index t2_11 1 * win2_6.size 1 = 0 from by decide +kernel, show win2_6.xsize (grid2.coords t2_11) 1 = 768 from by decide +kernel]; omega
      | ⟨2, _⟩ => show win2_6.index t2_11 2 * win2_6.size 2 ≤ (i 2 : Nat) ∧ (i 2 : Nat) < win2_6.index t2_11 2 * win2_6.size 2 + win2_6.xsize (grid2.coords t2_11) 2
                  rw [show win2_6.index t2_11 2 * win2_6.size 2 = 0 from by decide +kernel, show win2_6.xsize (grid2.coords t2_11) 2 = 1 from by decide +kernel]; omega⟩

end Cert.KernelIdeal.Hand

end
-- ==== Proof.KI.BlocksSumsq2.lean ====
/-
  Region 2's windows read at an index.  The three routing-weight windows' one block is the whole [10,768,50] array, the same at
  every point; the three tiled windows' block at point `t` is columns 256·t … 256·t + 255 of the [10,50,3072] array.
-/
import proofs.«160248_j77816217469391_2_alg».proof.Proof.KI.SumsqVal2
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem

variable {F : FTy → Type} [FloatOps F]
variable (V : (c : Dev nD) → (b : Ref sig .tc) → Buf (Elt F) ((c : Thread nD τ).loc b))

theorem idxW2 : ∀ t : Fin cfg2.N,
    (win2_0.index t 0 = 0 ∧ win2_0.index t 1 = 0 ∧ win2_0.index t 2 = 0)
    ∧ (win2_1.index t 0 = 0 ∧ win2_1.index t 1 = 0 ∧ win2_1.index t 2 = 0)
    ∧ (win2_2.index t 0 = 0 ∧ win2_2.index t 1 = 0 ∧ win2_2.index t 2 = 0)
    ∧ (win2_3.index t 0 = 0 ∧ win2_3.index t 1 = 0 ∧ win2_3.index t 2 = t.val)
    ∧ (win2_4.index t 0 = 0 ∧ win2_4.index t 1 = 0 ∧ win2_4.index t 2 = t.val)
    ∧ (win2_5.index t 0 = 0 ∧ win2_5.index t 1 = 0 ∧ win2_5.index t 2 = t.val) :=
  (by decide +kernel : ∀ t : Fin grid2.N, _)

theorem iblk2_w0 (c : Dev nD) (t : Fin cfg2.N) : (iblk2 V c 0 t : Vec F S10x768x50 .bf16) = V c main_v55 := by
  obtain ⟨h0, h1, h2⟩ := (idxW2 t).1
  funext j
  unfold iblk2
  rw [View.read_apply]
  show V c main_v55 _ = V c main_v55 _
  congr 1
  funext a
  apply Fin.ext
  match a with
  | ⟨0, _⟩ => show win2_0.index t 0 * 10 + 1 * (j 0).val = (j 0).val; rw [h0]; omega
  | ⟨1, _⟩ => show win2_0.index t 1 * 768 + 1 * (j 1).val = (j 1).val; rw [h1]; omega
  | ⟨2, _⟩ => show win2_0.index t 2 * 50 + 1 * (j 2).val = (j 2).val; rw [h2]; omega

theorem iblk2_w1 (c : Dev nD) (t : Fin cfg2.N) : (iblk2 V c 1 t : Vec F S10x768x50 .bf16) = V c main_v56 := by
  obtain ⟨h0, h1, h2⟩ := (idxW2 t).2.1
  funext j
  unfold iblk2
  rw [View.read_apply]
  show V c main_v56 _ = V c main_v56 _
  congr 1
  funext a
  apply Fin.ext
  match a with
  | ⟨0, _⟩ => show win2_1.index t 0 * 10 + 1 * (j 0).val = (j 0).val; rw [h0]; omega
  | ⟨1, _⟩ => show win2_1.index t 1 * 768 + 1 * (j 1).val = (j 1).val; rw [h1]; omega
  | ⟨2, _⟩ => show win2_1.index t 2 * 50 + 1 * (j 2).val = (j 2).val; rw [h2]; omega

theorem iblk2_w2 (c : Dev nD) (t : Fin cfg2.N) : (iblk2 V c 2 t : Vec F S10x768x50 .bf16) = V c main_v57 := by
  obtain ⟨h0, h1, h2⟩ := (idxW2 t).2.2.1
  funext j
  unfold iblk2
  rw [View.read_apply]
  show V c main_v57 _ = V c main_v57 _
  congr 1
  funext a
  apply Fin.ext
  match a with
  | ⟨0, _⟩ => show win2_2.index t 0 * 10 + 1 * (j 0).val = (j 0).val; rw [h0]; omega
  | ⟨1, _⟩ => show win2_2.index t 1 * 768 + 1 * (j 1).val = (j 1).val; rw [h1]; omega
  | ⟨2, _⟩ => show win2_2.index t 2 * 50 + 1 * (j 2).val = (j 2).val; rw [h2]; omega

theorem iblk2_w3 (c : Dev nD) (t : Fin cfg2.N) (b : Fin 10) (k : Fin 50) (j : Fin 256) (d : Fin 3072) (hd : d.val = 256 * t.val + j.val) :
    (iblk2 V c 3 t : Vec F S10x50x256 .bf16) (ix3 b k j) = V c main_v0 (ix3 b k d) := by
  obtain ⟨h0, h1, h2⟩ := (idxW2 t).2.2.2.1
  unfold iblk2
  rw [View.read_apply]
  show V c main_v0 _ = V c main_v0 _
  congr 1
  funext a
  apply Fin.ext
  match a with
  | ⟨0, _⟩ => show win2_3.index t 0 * 10 + 1 * b.val = b.val; rw [h0]; omega
  | ⟨1, _⟩ => show win2_3.index t 1 * 50 + 1 * k.val = k.val; rw [h1]; omega
  | ⟨2, _⟩ => show win2_3.index t 2 * 256 + 1 * j.val = d.val; rw [h2, hd]; omega

theorem iblk2_w4 (c : Dev nD) (t : Fin cfg2.N) (b : Fin 10) (k : Fin 50) (j : Fin 256) (d : Fin 3072) (hd : d.val = 256 * t.val + j.val) :
    (iblk2 V c 4 t : Vec F S10x50x256 .bf16) (ix3 b k j) = V c main_v1 (ix3 b k d) := by
  obtain ⟨h0, h1, h2⟩ := (idxW2 t).2.2.2.2.1
  unfold iblk2
  rw [View.read_apply]
  show V c main_v1 _ = V c main_v1 _
  congr 1
  funext a
  apply Fin.ext
  match a with
  | ⟨0, _⟩ => show win2_4.index t 0 * 10 + 1 * b.val = b.val; rw [h0]; omega
  | ⟨1, _⟩ => show win2_4.index t 1 * 50 + 1 * k.val = k.val; rw [h1]; omega
  | ⟨2, _⟩ => show win2_4.index t 2 * 256 + 1 * j.val = d.val; rw [h2, hd]; omega

theorem iblk2_w5 (c : Dev nD) (t : Fin cfg2.N) (b : Fin 10) (k : Fin 50) (j : Fin 256) (d : Fin 3072) (hd : d.val = 256 * t.val + j.val) :
    (iblk2 V c 5 t : Vec F S10x50x256 .bf16) (ix3 b k j) = V c main_v2 (ix3 b k d) := by
  obtain ⟨h0, h1, h2⟩ := (idxW2 t).2.2.2.2.2
  unfold iblk2
  rw [View.read_apply]
  show V c main_v2 _ = V c main_v2 _
  congr 1
  funext a
  apply Fin.ext
  match a with
  | ⟨0, _⟩ => show win2_5.index t 0 * 10 + 1 * b.val = b.val; rw [h0]; omega
  | ⟨1, _⟩ => show win2_5.index t 1 * 50 + 1 * k.val = k.val; rw [h1]; omega
  | ⟨2, _⟩ => show win2_5.index t 2 * 256 + 1 * j.val = d.val; rw [h2, hd]; omega

end Cert.KernelIdeal.Hand

end
-- ==== Proof.KI.ColsSumsq2.lean ====
/-
  Region 2: a tile's capsule sums are the whole arrays' capsule sums at the tile's columns.
-/
import proofs.«160248_j77816217469391_2_alg».proof.Proof.KI.BlocksSumsq2
import proofs.«160248_j77816217469391_2_alg».proof.Proof.KI.Tile

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem
open scoped BigOperators

variable (V : (c : Dev nD) → (b : Ref sig .tc) → Buf (Elt Ideal) ((c : Thread nD τ).loc b))

theorem sTile_eq_sCol2 (c : Dev nD) (t : Fin cfg2.N) (b : Fin 10) (p : Fin 768) (j : Fin 256) (d : Fin 3072) (hd : d.val = 256 * t.val + j.val) :
    sTile (iblk2 V c 0 t) (iblk2 V c 1 t) (iblk2 V c 2 t) (iblk2 V c 3 t) (iblk2 V c 4 t) (iblk2 V c 5 t) b p j
      = sCol (V c main_v55) (V c main_v56) (V c main_v57) (V c main_v0) (V c main_v1) (V c main_v2) b p d := by
  unfold sTile sCol
  rw [iblk2_w0 V c t, iblk2_w1 V c t, iblk2_w2 V c t]
  simp only [fun b k => iblk2_w3 V c t b k j d hd, fun b k => iblk2_w4 V c t b k j d hd, fun b k => iblk2_w5 V c t b k j d hd]

end Cert.KernelIdeal.Hand

end
-- ==== Proof.KI.PaySumsq2.lean ====
/-
  The sum-of-squares payload (pallas_call 2) read at an index, at the ideal values: the accumulator's entry (b, p) plus the
  sum over the tile's 256 columns of the squared capsule sums  s(b,p,j) = Σₖ c1(b,p,k)·tv(b,k,j) + Σₖ c2·ta + Σₖ c3·tva.
-/
import proofs.«160248_j77816217469391_2_alg».proof.Proof.KI.Tile
import proofs.«160248_j77816217469391_2_alg».proof.Proof.Gen.KernelIdeal.Skeleton
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx
open scoped BigOperators

variable [hK : Cert.KernelIdeal.Facts]

theorem k2_pay2_apply (c1 : Vec Ideal S10x768x50 .bf16) (tv : Vec Ideal S10x50x256 .bf16) (c2 : Vec Ideal S10x768x50 .bf16) (ta : Vec Ideal S10x50x256 .bf16)
    (c3 : Vec Ideal S10x768x50 .bf16) (tva : Vec Ideal S10x50x256 .bf16) (xs : Vec Ideal S10x768x1 .f32) (b : Fin 10) (p : Fin 768) (z : Fin 1) :
    k2_pay2 (F := Ideal) c1 tv c2 ta c3 tva xs (ix3 b p z)
      = xs (ix3 b p z) + ∑ j : Fin 256, sTile c1 c2 c3 tv ta tva b p j * sTile c1 c2 c3 tv ta tva b p j := by
  unfold k2_pay2
  simp only [shapeCast_self]
  rw [addf_apply]
  congr 1
  refine (shapeCast_apply _ _ (ix3 b p z) (ix2 b p) ?_).trans ?_
  · rw [Shape.rowMajor_val_two, Shape.rowMajor_val_three]
    have hz : z.val = 0 := by omega
    show b.val * 768 + p.val = (b.val * 768 + p.val) * 1 + z.val
    omega
  refine (Ideal.multiReduction_add_single _ _ reduces_S10x768x256_S10x768 _ _ (ix2 b p)).trans ?_
  refine Finset.sum_congr rfl fun (j : Fin 256) _ => ?_
  have hl : (reduces_S10x768x256_S10x768 : S10x768x256.Reduces [2] S10x768).lift (ix2 b p) j = ix3 b p j := ext3 rfl rfl rfl
  rw [hl]
  simp only [mulf_apply, addf_apply, matmul_KD1_apply]
  rfl

end Cert.KernelIdeal.Hand

end
-- ==== Proof.KI.ValSumsq2.lean ====
/-
  Region 2's result at the ideal values, entry by entry: the sum over all 3072 columns of the squared capsule sums
  s(b,p,d) = Σₖ c1(b,p,k)·x0(b,k,d) + Σₖ c2(b,p,k)·x1(b,k,d) + Σₖ c3(b,p,k)·x2(b,k,d), added to zero.
  Each point adds its tile's 256 columns to the running total, so after the twelfth point the total is the whole sum.
-/
import proofs.«160248_j77816217469391_2_alg».proof.Proof.KI.ColsSumsq2
import proofs.«160248_j77816217469391_2_alg».proof.Proof.KI.PaySumsq2
import proofs.«160248_j77816217469391_2_alg».proof.Proof.LibTileSum

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem
open Cert.Lib.TileSum
open scoped BigOperators

variable [hK : Cert.KernelIdeal.Facts]
variable (V : (c : Dev nD) → (b : Ref sig .tc) → Buf (Elt Ideal) ((c : Thread nD τ).loc b))

set_option maxHeartbeats 2000000 in
/-- One point's step: the accumulator's entry grows by the tile's sum of squares, the tile's columns read off the whole arrays. -/
theorem step2_apply (c : Dev nD) (t : Fin cfg2.N) (h12 : t.val < 12) (xs : Vec Ideal S10x768x1 .f32) (b : Fin 10) (p : Fin 768) (z : Fin 1) :
    k2_pay2 (F := Ideal) (iblk2 V c 0 t) (iblk2 V c 3 t) (iblk2 V c 1 t) (iblk2 V c 4 t) (iblk2 V c 2 t) (iblk2 V c 5 t) xs (ix3 b p z)
      = xs (ix3 b p z) + ∑ j : Fin 256,
          sCol (V c main_v55) (V c main_v56) (V c main_v57) (V c main_v0) (V c main_v1) (V c main_v2) b p (col ⟨t.val, h12⟩ j)
          * sCol (V c main_v55) (V c main_v56) (V c main_v57) (V c main_v0) (V c main_v1) (V c main_v2) b p (col ⟨t.val, h12⟩ j) := by
  refine (k2_pay2_apply _ _ _ _ _ _ xs b p z).trans ?_
  refine congrArg (xs (ix3 b p z) + ·) ?_
  refine Finset.sum_congr rfl fun j _ => ?_
  rw [sTile_eq_sCol2 V c t b p j (col ⟨t.val, h12⟩ j) rfl]

theorem zero2_apply (b : Fin 10) (p : Fin 768) (z : Fin 1) : k2_pay1 (F := Ideal) (ix3 b p z) = 0 := by
  unfold k2_pay1
  simp only [shapeCast_self]
  exact Ideal.ofBits_zero_f32

set_option maxHeartbeats 2000000 in
/-- The accumulator after point `n` at entry (b, p): the running total of the tiles' sums of squares. -/
theorem acc2_apply (c : Dev nD) (b : Fin 10) (p : Fin 768) (z : Fin 1) (n : ℕ) : ∀ (hn : n < cfg2.N),
    acc2 V c n hn (ix3 b p z) = run (0 : EReal) (fun s => if h : s < 12 then ∑ j : Fin 256,
          sCol (V c main_v55) (V c main_v56) (V c main_v57) (V c main_v0) (V c main_v1) (V c main_v2) b p (col ⟨s, h⟩ j)
          * sCol (V c main_v55) (V c main_v56) (V c main_v57) (V c main_v0) (V c main_v1) (V c main_v2) b p (col ⟨s, h⟩ j) else 0) n := by
  induction n with
  | zero =>
    intro hn
    have h12 : (0 : ℕ) < 12 := by decide
    rw [acc2_zero V c ⟨0, hn⟩ rfl, step2_apply V c ⟨0, hn⟩ h12, zero2_apply, run, dif_pos h12]
  | succ n ih =>
    intro hn
    have h12 : n + 1 < 12 := lt_of_lt_of_eq hn (show cfg2.N = 12 from N_2)
    rw [acc2_pos V c ⟨n + 1, hn⟩ (Nat.succ_ne_zero n), step2_apply V c ⟨n + 1, hn⟩ h12, run, dif_pos h12]
    congr 1
    exact ih _

/-- The result array at entry (b, p): zero plus the sum over all 3072 columns. -/
theorem result2_apply (c : Dev nD) (b : Fin 10) (p : Fin 768) (z : Fin 1) :
    result2 V c (ix3 b p z)
      = 0 + ∑ d : Fin 3072, sCol (V c main_v55) (V c main_v56) (V c main_v57) (V c main_v0) (V c main_v1) (V c main_v2) b p d
          * sCol (V c main_v55) (V c main_v56) (V c main_v57) (V c main_v0) (V c main_v1) (V c main_v2) b p d := by
  rw [show result2 V c (ix3 b p z) = acc2 V c 11 (by rw [show cfg2.N = 12 from N_2]; decide) (ix3 b p z) from rfl,
    acc2_apply, run_last, sum_cols]
  refine congrArg ((0 : EReal) + ·) ?_
  refine Finset.sum_congr rfl fun t _ => ?_
  exact (dif_pos t.isLt).trans rfl

end Cert.KernelIdeal.Hand

end
-- ==== Proof.KI.EqSumsq2.lean ====
/-
  Region 2's result array is the squared lengths of the capsule sums of its operands.
-/
import proofs.«160248_j77816217469391_2_alg».proof.Proof.KI.ValSumsq2
import proofs.«160248_j77816217469391_2_alg».proof.Proof.KI.Caps

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem

variable [hK : Cert.KernelIdeal.Facts]
variable (V : (c : Dev nD) → (b : Ref sig .tc) → Buf (Elt Ideal) ((c : Thread nD τ).loc b))

theorem region2_eq (c : Dev nD) :
    (dat2 V c).arrAt 6 cfg2.N = capsQ (V c main_v55) (V c main_v56) (V c main_v57) (V c main_v0) (V c main_v1) (V c main_v2) := by
  rw [final2]
  funext i
  obtain ⟨b, p, z, rfl⟩ : ∃ (b : Fin 10) (p : Fin 768) (z : Fin 1), i = ix3 b p z := ⟨i 0, i 1, i 2, eq_ix3 i⟩
  exact (result2_apply V c b p z).trans rfl

end Cert.KernelIdeal.Hand

end
-- ==== Proof.KI.SumsqVal4.lean ====
/-
  The sum-of-squares region 4: what its result array ends holding.  The output window's one block is the whole [10,768,1] array
  and is written back once, after the last point; so the array ends at the accumulator after point 11.
-/
import proofs.«160248_j77816217469391_2_alg».proof.Proof.KI.SumsqDat4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (V : (c : Dev nD) → (b : Ref sig .tc) → Buf (Elt F) ((c : Thread nD τ).loc b))

/-- The accumulator after the last point, as contents of the result array. -/
abbrev result4 (c : Dev nD) : Buf (Elt F) ((c : Thread nD τ).loc main_v91) :=
  acc4 V c 11 (by rw [show cfg4.N = 12 from N_4]; decide)

/-- The one write-back, after point 11, writes it: the block at zero offsets of the [10,768,1] array is the array. -/
theorem flushed_eq4 (c : Dev nD) (t : Fin cfg4.N) (hf : (cfg4.win 6).flush t = true) :
    (dat4 V c).flushed 6 t = ((cfg4.win 6).blk t).view.read (Elt F) (result4 V c) := by
  have hN : cfg4.N = 12 := N_4
  have h11 : t.val = 11 := by have := (flush4_6 t).mp hf; have := t.isLt; omega
  obtain rfl : t = t4_11 := Fin.ext h11
  show (cfg4.win 6).cut (grid4.coords t4_11) ((dat4 V c).after 6 t4_11) = _
  rw [after4_6]
  have hz' : (fun a => win4_6.index t4_11 a * main_v91.ty.shape.size a) = fun _ => 0 := funext fun a => by fin_cases a <;> decide
  exact (Memref.read_access_unit_zero (Elt F) main_v91 hz' (fun a => by rw [congrFun hz' a]; simp) (result4 V c)).symm

/-- So the result array ends holding the accumulator after point 11. -/
theorem final4 (c : Dev nD) : (dat4 V c).arrAt 6 cfg4.N = result4 V c :=
  (dat4 V c).arrAt_eq_of_cover 6 (result4 V c) (flushed_eq4 V c) fun i =>
    ⟨t4_11, (flush4_6 t4_11).mpr rfl, by
      show i ∈ ((View.whole main_v91).slice (win4_6.rect t4_11)).set
      rw [View.set_slice_whole, Rect.mem_set_unit]
      intro a
      have h0 : (i 0 : Nat) < 10 := (i 0).isLt
      have h1 : (i 1 : Nat) < 768 := (i 1).isLt
      have h2 : (i 2 : Nat) < 1 := (i 2).isLt
      match a with
      | ⟨0, _⟩ => show win4_6.index t4_11 0 * win4_6.size 0 ≤ (i 0 : Nat) ∧ (i 0 : Nat) < win4_6.index t4_11 0 * win4_6.size 0 + win4_6.xsize (grid4.coords t4_11) 0
                  rw [show win4_6.index t4_11 0 * win4_6.size 0 = 0 from by decide +kernel, show win4_6.xsize (grid4.coords t4_11) 0 = 10 from by decide +kernel]; omega
      | ⟨1, _⟩ => show win4_6.index t4_11 1 * win4_6.size 1 ≤ (i 1 : Nat) ∧ (i 1 : Nat) < win4_6.index t4_11 1 * win4_6.size 1 + win4_6.xsize (grid4.coords t4_11) 1
                  rw [show win4_6.index t4_11 1 * win4_6.size 1 = 0 from by decide +kernel, show win4_6.xsize (grid4.coords t4_11) 1 = 768 from by decide +kernel]; omega
      | ⟨2, _⟩ => show win4_6.index t4_11 2 * win4_6.size 2 ≤ (i 2 : Nat) ∧ (i 2 : Nat) < win4_6.index t4_11 2 * win4_6.size 2 + win4_6.xsize (grid4.coords t4_11) 2
                  rw [show win4_6.index t4_11 2 * win4_6.size 2 = 0 from by decide +kernel, show win4_6.xsize (grid4.coords t4_11) 2 = 1 from by decide +kernel]; omega⟩

end Cert.KernelIdeal.Hand

end
-- ==== Proof.KI.BlocksSumsq4.lean ====
/-
  Region 4's windows read at an index.  The three routing-weight windows' one block is the whole [10,768,50] array, the same at
  every point; the three tiled windows' block at point `t` is columns 256·t … 256·t + 255 of the [10,50,3072] array.
-/
import proofs.«160248_j77816217469391_2_alg».proof.Proof.KI.SumsqVal4
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem

variable {F : FTy → Type} [FloatOps F]
variable (V : (c : Dev nD) → (b : Ref sig .tc) → Buf (Elt F) ((c : Thread nD τ).loc b))

theorem idxW4 : ∀ t : Fin cfg4.N,
    (win4_0.index t 0 = 0 ∧ win4_0.index t 1 = 0 ∧ win4_0.index t 2 = 0)
    ∧ (win4_1.index t 0 = 0 ∧ win4_1.index t 1 = 0 ∧ win4_1.index t 2 = 0)
    ∧ (win4_2.index t 0 = 0 ∧ win4_2.index t 1 = 0 ∧ win4_2.index t 2 = 0)
    ∧ (win4_3.index t 0 = 0 ∧ win4_3.index t 1 = 0 ∧ win4_3.index t 2 = t.val)
    ∧ (win4_4.index t 0 = 0 ∧ win4_4.index t 1 = 0 ∧ win4_4.index t 2 = t.val)
    ∧ (win4_5.index t 0 = 0 ∧ win4_5.index t 1 = 0 ∧ win4_5.index t 2 = t.val) :=
  (by decide +kernel : ∀ t : Fin grid4.N, _)

theorem iblk4_w0 (c : Dev nD) (t : Fin cfg4.N) : (iblk4 V c 0 t : Vec F S10x768x50 .bf16) = V c main_v88 := by
  obtain ⟨h0, h1, h2⟩ := (idxW4 t).1
  funext j
  unfold iblk4
  rw [View.read_apply]
  show V c main_v88 _ = V c main_v88 _
  congr 1
  funext a
  apply Fin.ext
  match a with
  | ⟨0, _⟩ => show win4_0.index t 0 * 10 + 1 * (j 0).val = (j 0).val; rw [h0]; omega
  | ⟨1, _⟩ => show win4_0.index t 1 * 768 + 1 * (j 1).val = (j 1).val; rw [h1]; omega
  | ⟨2, _⟩ => show win4_0.index t 2 * 50 + 1 * (j 2).val = (j 2).val; rw [h2]; omega

theorem iblk4_w1 (c : Dev nD) (t : Fin cfg4.N) : (iblk4 V c 1 t : Vec F S10x768x50 .bf16) = V c main_v89 := by
  obtain ⟨h0, h1, h2⟩ := (idxW4 t).2.1
  funext j
  unfold iblk4
  rw [View.read_apply]
  show V c main_v89 _ = V c main_v89 _
  congr 1
  funext a
  apply Fin.ext
  match a with
  | ⟨0, _⟩ => show win4_1.index t 0 * 10 + 1 * (j 0).val = (j 0).val; rw [h0]; omega
  | ⟨1, _⟩ => show win4_1.index t 1 * 768 + 1 * (j 1).val = (j 1).val; rw [h1]; omega
  | ⟨2, _⟩ => show win4_1.index t 2 * 50 + 1 * (j 2).val = (j 2).val; rw [h2]; omega

theorem iblk4_w2 (c : Dev nD) (t : Fin cfg4.N) : (iblk4 V c 2 t : Vec F S10x768x50 .bf16) = V c main_v90 := by
  obtain ⟨h0, h1, h2⟩ := (idxW4 t).2.2.1
  funext j
  unfold iblk4
  rw [View.read_apply]
  show V c main_v90 _ = V c main_v90 _
  congr 1
  funext a
  apply Fin.ext
  match a with
  | ⟨0, _⟩ => show win4_2.index t 0 * 10 + 1 * (j 0).val = (j 0).val; rw [h0]; omega
  | ⟨1, _⟩ => show win4_2.index t 1 * 768 + 1 * (j 1).val = (j 1).val; rw [h1]; omega
  | ⟨2, _⟩ => show win4_2.index t 2 * 50 + 1 * (j 2).val = (j 2).val; rw [h2]; omega

theorem iblk4_w3 (c : Dev nD) (t : Fin cfg4.N) (b : Fin 10) (k : Fin 50) (j : Fin 256) (d : Fin 3072) (hd : d.val = 256 * t.val + j.val) :
    (iblk4 V c 3 t : Vec F S10x50x256 .bf16) (ix3 b k j) = V c main_v0 (ix3 b k d) := by
  obtain ⟨h0, h1, h2⟩ := (idxW4 t).2.2.2.1
  unfold iblk4
  rw [View.read_apply]
  show V c main_v0 _ = V c main_v0 _
  congr 1
  funext a
  apply Fin.ext
  match a with
  | ⟨0, _⟩ => show win4_3.index t 0 * 10 + 1 * b.val = b.val; rw [h0]; omega
  | ⟨1, _⟩ => show win4_3.index t 1 * 50 + 1 * k.val = k.val; rw [h1]; omega
  | ⟨2, _⟩ => show win4_3.index t 2 * 256 + 1 * j.val = d.val; rw [h2, hd]; omega

theorem iblk4_w4 (c : Dev nD) (t : Fin cfg4.N) (b : Fin 10) (k : Fin 50) (j : Fin 256) (d : Fin 3072) (hd : d.val = 256 * t.val + j.val) :
    (iblk4 V c 4 t : Vec F S10x50x256 .bf16) (ix3 b k j) = V c main_v1 (ix3 b k d) := by
  obtain ⟨h0, h1, h2⟩ := (idxW4 t).2.2.2.2.1
  unfold iblk4
  rw [View.read_apply]
  show V c main_v1 _ = V c main_v1 _
  congr 1
  funext a
  apply Fin.ext
  match a with
  | ⟨0, _⟩ => show win4_4.index t 0 * 10 + 1 * b.val = b.val; rw [h0]; omega
  | ⟨1, _⟩ => show win4_4.index t 1 * 50 + 1 * k.val = k.val; rw [h1]; omega
  | ⟨2, _⟩ => show win4_4.index t 2 * 256 + 1 * j.val = d.val; rw [h2, hd]; omega

theorem iblk4_w5 (c : Dev nD) (t : Fin cfg4.N) (b : Fin 10) (k : Fin 50) (j : Fin 256) (d : Fin 3072) (hd : d.val = 256 * t.val + j.val) :
    (iblk4 V c 5 t : Vec F S10x50x256 .bf16) (ix3 b k j) = V c main_v2 (ix3 b k d) := by
  obtain ⟨h0, h1, h2⟩ := (idxW4 t).2.2.2.2.2
  unfold iblk4
  rw [View.read_apply]
  show V c main_v2 _ = V c main_v2 _
  congr 1
  funext a
  apply Fin.ext
  match a with
  | ⟨0, _⟩ => show win4_5.index t 0 * 10 + 1 * b.val = b.val; rw [h0]; omega
  | ⟨1, _⟩ => show win4_5.index t 1 * 50 + 1 * k.val = k.val; rw [h1]; omega
  | ⟨2, _⟩ => show win4_5.index t 2 * 256 + 1 * j.val = d.val; rw [h2, hd]; omega

end Cert.KernelIdeal.Hand

end
-- ==== Proof.KI.ColsSumsq4.lean ====
/-
  Region 4: a tile's capsule sums are the whole arrays' capsule sums at the tile's columns.
-/
import proofs.«160248_j77816217469391_2_alg».proof.Proof.KI.BlocksSumsq4
import proofs.«160248_j77816217469391_2_alg».proof.Proof.KI.Tile

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem
open scoped BigOperators

variable (V : (c : Dev nD) → (b : Ref sig .tc) → Buf (Elt Ideal) ((c : Thread nD τ).loc b))

theorem sTile_eq_sCol4 (c : Dev nD) (t : Fin cfg4.N) (b : Fin 10) (p : Fin 768) (j : Fin 256) (d : Fin 3072) (hd : d.val = 256 * t.val + j.val) :
    sTile (iblk4 V c 0 t) (iblk4 V c 1 t) (iblk4 V c 2 t) (iblk4 V c 3 t) (iblk4 V c 4 t) (iblk4 V c 5 t) b p j
      = sCol (V c main_v88) (V c main_v89) (V c main_v90) (V c main_v0) (V c main_v1) (V c main_v2) b p d := by
  unfold sTile sCol
  rw [iblk4_w0 V c t, iblk4_w1 V c t, iblk4_w2 V c t]
  simp only [fun b k => iblk4_w3 V c t b k j d hd, fun b k => iblk4_w4 V c t b k j d hd, fun b k => iblk4_w5 V c t b k j d hd]

end Cert.KernelIdeal.Hand

end
-- ==== Proof.KI.PaySumsq4.lean ====
/-
  The sum-of-squares payload (pallas_call 4) read at an index, at the ideal values: the accumulator's entry (b, p) plus the
  sum over the tile's 256 columns of the squared capsule sums  s(b,p,j) = Σₖ c1(b,p,k)·tv(b,k,j) + Σₖ c2·ta + Σₖ c3·tva.
-/
import proofs.«160248_j77816217469391_2_alg».proof.Proof.KI.Tile
import proofs.«160248_j77816217469391_2_alg».proof.Proof.Gen.KernelIdeal.Skeleton
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx
open scoped BigOperators

variable [hK : Cert.KernelIdeal.Facts]

theorem k4_pay2_apply (c1 : Vec Ideal S10x768x50 .bf16) (tv : Vec Ideal S10x50x256 .bf16) (c2 : Vec Ideal S10x768x50 .bf16) (ta : Vec Ideal S10x50x256 .bf16)
    (c3 : Vec Ideal S10x768x50 .bf16) (tva : Vec Ideal S10x50x256 .bf16) (xs : Vec Ideal S10x768x1 .f32) (b : Fin 10) (p : Fin 768) (z : Fin 1) :
    k4_pay2 (F := Ideal) c1 tv c2 ta c3 tva xs (ix3 b p z)
      = xs (ix3 b p z) + ∑ j : Fin 256, sTile c1 c2 c3 tv ta tva b p j * sTile c1 c2 c3 tv ta tva b p j := by
  unfold k4_pay2
  simp only [shapeCast_self]
  rw [addf_apply]
  congr 1
  refine (shapeCast_apply _ _ (ix3 b p z) (ix2 b p) ?_).trans ?_
  · rw [Shape.rowMajor_val_two, Shape.rowMajor_val_three]
    have hz : z.val = 0 := by omega
    show b.val * 768 + p.val = (b.val * 768 + p.val) * 1 + z.val
    omega
  refine (Ideal.multiReduction_add_single _ _ reduces_S10x768x256_S10x768 _ _ (ix2 b p)).trans ?_
  refine Finset.sum_congr rfl fun (j : Fin 256) _ => ?_
  have hl : (reduces_S10x768x256_S10x768 : S10x768x256.Reduces [2] S10x768).lift (ix2 b p) j = ix3 b p j := ext3 rfl rfl rfl
  rw [hl]
  simp only [mulf_apply, addf_apply, matmul_KD1_apply]
  rfl

end Cert.KernelIdeal.Hand

end
-- ==== Proof.KI.ValSumsq4.lean ====
/-
  Region 4's result at the ideal values, entry by entry: the sum over all 3072 columns of the squared capsule sums
  s(b,p,d) = Σₖ c1(b,p,k)·x0(b,k,d) + Σₖ c2(b,p,k)·x1(b,k,d) + Σₖ c3(b,p,k)·x2(b,k,d), added to zero.
  Each point adds its tile's 256 columns to the running total, so after the twelfth point the total is the whole sum.
-/
import proofs.«160248_j77816217469391_2_alg».proof.Proof.KI.ColsSumsq4
import proofs.«160248_j77816217469391_2_alg».proof.Proof.KI.PaySumsq4
import proofs.«160248_j77816217469391_2_alg».proof.Proof.LibTileSum

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem
open Cert.Lib.TileSum
open scoped BigOperators

variable [hK : Cert.KernelIdeal.Facts]
variable (V : (c : Dev nD) → (b : Ref sig .tc) → Buf (Elt Ideal) ((c : Thread nD τ).loc b))

set_option maxHeartbeats 2000000 in
/-- One point's step: the accumulator's entry grows by the tile's sum of squares, the tile's columns read off the whole arrays. -/
theorem step4_apply (c : Dev nD) (t : Fin cfg4.N) (h12 : t.val < 12) (xs : Vec Ideal S10x768x1 .f32) (b : Fin 10) (p : Fin 768) (z : Fin 1) :
    k4_pay2 (F := Ideal) (iblk4 V c 0 t) (iblk4 V c 3 t) (iblk4 V c 1 t) (iblk4 V c 4 t) (iblk4 V c 2 t) (iblk4 V c 5 t) xs (ix3 b p z)
      = xs (ix3 b p z) + ∑ j : Fin 256,
          sCol (V c main_v88) (V c main_v89) (V c main_v90) (V c main_v0) (V c main_v1) (V c main_v2) b p (col ⟨t.val, h12⟩ j)
          * sCol (V c main_v88) (V c main_v89) (V c main_v90) (V c main_v0) (V c main_v1) (V c main_v2) b p (col ⟨t.val, h12⟩ j) := by
  refine (k4_pay2_apply _ _ _ _ _ _ xs b p z).trans ?_
  refine congrArg (xs (ix3 b p z) + ·) ?_
  refine Finset.sum_congr rfl fun j _ => ?_
  rw [sTile_eq_sCol4 V c t b p j (col ⟨t.val, h12⟩ j) rfl]

theorem zero4_apply (b : Fin 10) (p : Fin 768) (z : Fin 1) : k4_pay1 (F := Ideal) (ix3 b p z) = 0 := by
  unfold k4_pay1
  simp only [shapeCast_self]
  exact Ideal.ofBits_zero_f32

set_option maxHeartbeats 2000000 in
/-- The accumulator after point `n` at entry (b, p): the running total of the tiles' sums of squares. -/
theorem acc4_apply (c : Dev nD) (b : Fin 10) (p : Fin 768) (z : Fin 1) (n : ℕ) : ∀ (hn : n < cfg4.N),
    acc4 V c n hn (ix3 b p z) = run (0 : EReal) (fun s => if h : s < 12 then ∑ j : Fin 256,
          sCol (V c main_v88) (V c main_v89) (V c main_v90) (V c main_v0) (V c main_v1) (V c main_v2) b p (col ⟨s, h⟩ j)
          * sCol (V c main_v88) (V c main_v89) (V c main_v90) (V c main_v0) (V c main_v1) (V c main_v2) b p (col ⟨s, h⟩ j) else 0) n := by
  induction n with
  | zero =>
    intro hn
    have h12 : (0 : ℕ) < 12 := by decide
    rw [acc4_zero V c ⟨0, hn⟩ rfl, step4_apply V c ⟨0, hn⟩ h12, zero4_apply, run, dif_pos h12]
  | succ n ih =>
    intro hn
    have h12 : n + 1 < 12 := lt_of_lt_of_eq hn (show cfg4.N = 12 from N_4)
    rw [acc4_pos V c ⟨n + 1, hn⟩ (Nat.succ_ne_zero n), step4_apply V c ⟨n + 1, hn⟩ h12, run, dif_pos h12]
    congr 1
    exact ih _

/-- The result array at entry (b, p): zero plus the sum over all 3072 columns. -/
theorem result4_apply (c : Dev nD) (b : Fin 10) (p : Fin 768) (z : Fin 1) :
    result4 V c (ix3 b p z)
      = 0 + ∑ d : Fin 3072, sCol (V c main_v88) (V c main_v89) (V c main_v90) (V c main_v0) (V c main_v1) (V c main_v2) b p d
          * sCol (V c main_v88) (V c main_v89) (V c main_v90) (V c main_v0) (V c main_v1) (V c main_v2) b p d := by
  rw [show result4 V c (ix3 b p z) = acc4 V c 11 (by rw [show cfg4.N = 12 from N_4]; decide) (ix3 b p z) from rfl,
    acc4_apply, run_last, sum_cols]
  refine congrArg ((0 : EReal) + ·) ?_
  refine Finset.sum_congr rfl fun t _ => ?_
  exact (dif_pos t.isLt).trans rfl

end Cert.KernelIdeal.Hand

end
-- ==== Proof.KI.EqSumsq4.lean ====
/-
  Region 4's result array is the squared lengths of the capsule sums of its operands.
-/
import proofs.«160248_j77816217469391_2_alg».proof.Proof.KI.ValSumsq4
import proofs.«160248_j77816217469391_2_alg».proof.Proof.KI.Caps

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem

variable [hK : Cert.KernelIdeal.Facts]
variable (V : (c : Dev nD) → (b : Ref sig .tc) → Buf (Elt Ideal) ((c : Thread nD τ).loc b))

theorem region4_eq (c : Dev nD) :
    (dat4 V c).arrAt 6 cfg4.N = capsQ (V c main_v88) (V c main_v89) (V c main_v90) (V c main_v0) (V c main_v1) (V c main_v2) := by
  rw [final4]
  funext i
  obtain ⟨b, p, z, rfl⟩ : ∃ (b : Fin 10) (p : Fin 768) (z : Fin 1), i = ix3 b p z := ⟨i 0, i 1, i 2, eq_ix3 i⟩
  exact (result4_apply V c b p z).trans rfl

end Cert.KernelIdeal.Hand

end
-- ==== Proof.KI.BupdVal1.lean ====
/-
  The logit-update region 1: what its three result arrays end holding.  Each output window's one block is the whole [10,768,50]
  array and is written back once, after the last point; so each array ends at its accumulator after point 11.
-/
import proofs.«160248_j77816217469391_2_alg».proof.Proof.KI.BupdDat1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (V : (c : Dev nD) → (b : Ref sig .tc) → Buf (Elt F) ((c : Thread nD τ).loc b))

theorem flush1_789 : ∀ t : Fin cfg1.N, ((cfg1.win 7).flush t = true ↔ t.val % 12 = 11) ∧ ((cfg1.win 8).flush t = true ↔ t.val % 12 = 11) ∧ ((cfg1.win 9).flush t = true ↔ t.val % 12 = 11) :=
  (by decide +kernel : ∀ t : Fin grid1.N, _)

abbrev result1_7 (c : Dev nD) : Buf (Elt F) ((c : Thread nD τ).loc main_v36_0) :=
  (acc1 V c 11 (by rw [show cfg1.N = 12 from N_1]; decide)).1

theorem flushed_eq1_7 (c : Dev nD) (t : Fin cfg1.N) (hf : (cfg1.win 7).flush t = true) :
    (dat1 V c).flushed 7 t = ((cfg1.win 7).blk t).view.read (Elt F) (result1_7 V c) := by
  have hN : cfg1.N = 12 := N_1
  have h11 : t.val = 11 := by have := (flush1_789 t).1.mp hf; have := t.isLt; omega
  obtain rfl : t = t1_11 := Fin.ext h11
  show (cfg1.win 7).cut (grid1.coords t1_11) ((dat1 V c).after 7 t1_11) = _
  rw [after1_7]
  have hz' : (fun a => win1_7.index t1_11 a * main_v36_0.ty.shape.size a) = fun _ => 0 := funext fun a => by fin_cases a <;> decide
  exact (Memref.read_access_unit_zero (Elt F) main_v36_0 hz' (fun a => by rw [congrFun hz' a]; simp) (result1_7 V c)).symm

theorem final1_7 (c : Dev nD) : (dat1 V c).arrAt 7 cfg1.N = result1_7 V c :=
  (dat1 V c).arrAt_eq_of_cover 7 (result1_7 V c) (flushed_eq1_7 V c) fun i =>
    ⟨t1_11, (flush1_789 t1_11).1.mpr rfl, by
      show i ∈ ((View.whole main_v36_0).slice (win1_7.rect t1_11)).set
      rw [View.set_slice_whole, Rect.mem_set_unit]
      intro a
      have h0 : (i 0 : Nat) < 10 := (i 0).isLt
      have h1 : (i 1 : Nat) < 768 := (i 1).isLt
      have h2 : (i 2 : Nat) < 50 := (i 2).isLt
      match a with
      | ⟨0, _⟩ => show win1_7.index t1_11 0 * win1_7.size 0 ≤ (i 0 : Nat) ∧ (i 0 : Nat) < win1_7.index t1_11 0 * win1_7.size 0 + win1_7.xsize (grid1.coords t1_11) 0
                  rw [show win1_7.index t1_11 0 * win1_7.size 0 = 0 from by decide +kernel, show win1_7.xsize (grid1.coords t1_11) 0 = 10 from by decide +kernel]; omega
      | ⟨1, _⟩ => show win1_7.index t1_11 1 * win1_7.size 1 ≤ (i 1 : Nat) ∧ (i 1 : Nat) < win1_7.index t1_11 1 * win1_7.size 1 + win1_7.xsize (grid1.coords t1_11) 1
                  rw [show win1_7.index t1_11 1 * win1_7.size 1 = 0 from by decide +kernel, show win1_7.xsize (grid1.coords t1_11) 1 = 768 from by decide +kernel]; omega
      | ⟨2, _⟩ => show win1_7.index t1_11 2 * win1_7.size 2 ≤ (i 2 : Nat) ∧ (i 2 : Nat) < win1_7.index t1_11 2 * win1_7.size 2 + win1_7.xsize (grid1.coords t1_11) 2
                  rw [show win1_7.index t1_11 2 * win1_7.size 2 = 0 from by decide +kernel, show win1_7.xsize (grid1.coords t1_11) 2 = 50 from by decide +kernel]; omega⟩

abbrev result1_8 (c : Dev nD) : Buf (Elt F) ((c : Thread nD τ).loc main_v36_1) :=
  (acc1 V c 11 (by rw [show cfg1.N = 12 from N_1]; decide)).2.1

theorem flushed_eq1_8 (c : Dev nD) (t : Fin cfg1.N) (hf : (cfg1.win 8).flush t = true) :
    (dat1 V c).flushed 8 t = ((cfg1.win 8).blk t).view.read (Elt F) (result1_8 V c) := by
  have hN : cfg1.N = 12 := N_1
  have h11 : t.val = 11 := by have := (flush1_789 t).2.1.mp hf; have := t.isLt; omega
  obtain rfl : t = t1_11 := Fin.ext h11
  show (cfg1.win 8).cut (grid1.coords t1_11) ((dat1 V c).after 8 t1_11) = _
  rw [after1_8]
  have hz' : (fun a => win1_8.index t1_11 a * main_v36_1.ty.shape.size a) = fun _ => 0 := funext fun a => by fin_cases a <;> decide
  exact (Memref.read_access_unit_zero (Elt F) main_v36_1 hz' (fun a => by rw [congrFun hz' a]; simp) (result1_8 V c)).symm

theorem final1_8 (c : Dev nD) : (dat1 V c).arrAt 8 cfg1.N = result1_8 V c :=
  (dat1 V c).arrAt_eq_of_cover 8 (result1_8 V c) (flushed_eq1_8 V c) fun i =>
    ⟨t1_11, (flush1_789 t1_11).2.1.mpr rfl, by
      show i ∈ ((View.whole main_v36_1).slice (win1_8.rect t1_11)).set
      rw [View.set_slice_whole, Rect.mem_set_unit]
      intro a
      have h0 : (i 0 : Nat) < 10 := (i 0).isLt
      have h1 : (i 1 : Nat) < 768 := (i 1).isLt
      have h2 : (i 2 : Nat) < 50 := (i 2).isLt
      match a with
      | ⟨0, _⟩ => show win1_8.index t1_11 0 * win1_8.size 0 ≤ (i 0 : Nat) ∧ (i 0 : Nat) < win1_8.index t1_11 0 * win1_8.size 0 + win1_8.xsize (grid1.coords t1_11) 0
                  rw [show win1_8.index t1_11 0 * win1_8.size 0 = 0 from by decide +kernel, show win1_8.xsize (grid1.coords t1_11) 0 = 10 from by decide +kernel]; omega
      | ⟨1, _⟩ => show win1_8.index t1_11 1 * win1_8.size 1 ≤ (i 1 : Nat) ∧ (i 1 : Nat) < win1_8.index t1_11 1 * win1_8.size 1 + win1_8.xsize (grid1.coords t1_11) 1
                  rw [show win1_8.index t1_11 1 * win1_8.size 1 = 0 from by decide +kernel, show win1_8.xsize (grid1.coords t1_11) 1 = 768 from by decide +kernel]; omega
      | ⟨2, _⟩ => show win1_8.index t1_11 2 * win1_8.size 2 ≤ (i 2 : Nat) ∧ (i 2 : Nat) < win1_8.index t1_11 2 * win1_8.size 2 + win1_8.xsize (grid1.coords t1_11) 2
                  rw [show win1_8.index t1_11 2 * win1_8.size 2 = 0 from by decide +kernel, show win1_8.xsize (grid1.coords t1_11) 2 = 50 from by decide +kernel]; omega⟩

abbrev result1_9 (c : Dev nD) : Buf (Elt F) ((c : Thread nD τ).loc main_v36_2) :=
  (acc1 V c 11 (by rw [show cfg1.N = 12 from N_1]; decide)).2.2

theorem flushed_eq1_9 (c : Dev nD) (t : Fin cfg1.N) (hf : (cfg1.win 9).flush t = true) :
    (dat1 V c).flushed 9 t = ((cfg1.win 9).blk t).view.read (Elt F) (result1_9 V c) := by
  have hN : cfg1.N = 12 := N_1
  have h11 : t.val = 11 := by have := (flush1_789 t).2.2.mp hf; have := t.isLt; omega
  obtain rfl : t = t1_11 := Fin.ext h11
  show (cfg1.win 9).cut (grid1.coords t1_11) ((dat1 V c).after 9 t1_11) = _
  rw [after1_9]
  have hz' : (fun a => win1_9.index t1_11 a * main_v36_2.ty.shape.size a) = fun _ => 0 := funext fun a => by fin_cases a <;> decide
  exact (Memref.read_access_unit_zero (Elt F) main_v36_2 hz' (fun a => by rw [congrFun hz' a]; simp) (result1_9 V c)).symm

theorem final1_9 (c : Dev nD) : (dat1 V c).arrAt 9 cfg1.N = result1_9 V c :=
  (dat1 V c).arrAt_eq_of_cover 9 (result1_9 V c) (flushed_eq1_9 V c) fun i =>
    ⟨t1_11, (flush1_789 t1_11).2.2.mpr rfl, by
      show i ∈ ((View.whole main_v36_2).slice (win1_9.rect t1_11)).set
      rw [View.set_slice_whole, Rect.mem_set_unit]
      intro a
      have h0 : (i 0 : Nat) < 10 := (i 0).isLt
      have h1 : (i 1 : Nat) < 768 := (i 1).isLt
      have h2 : (i 2 : Nat) < 50 := (i 2).isLt
      match a with
      | ⟨0, _⟩ => show win1_9.index t1_11 0 * win1_9.size 0 ≤ (i 0 : Nat) ∧ (i 0 : Nat) < win1_9.index t1_11 0 * win1_9.size 0 + win1_9.xsize (grid1.coords t1_11) 0
                  rw [show win1_9.index t1_11 0 * win1_9.size 0 = 0 from by decide +kernel, show win1_9.xsize (grid1.coords t1_11) 0 = 10 from by decide +kernel]; omega
      | ⟨1, _⟩ => show win1_9.index t1_11 1 * win1_9.size 1 ≤ (i 1 : Nat) ∧ (i 1 : Nat) < win1_9.index t1_11 1 * win1_9.size 1 + win1_9.xsize (grid1.coords t1_11) 1
                  rw [show win1_9.index t1_11 1 * win1_9.size 1 = 0 from by decide +kernel, show win1_9.xsize (grid1.coords t1_11) 1 = 768 from by decide +kernel]; omega
      | ⟨2, _⟩ => show win1_9.index t1_11 2 * win1_9.size 2 ≤ (i 2 : Nat) ∧ (i 2 : Nat) < win1_9.index t1_11 2 * win1_9.size 2 + win1_9.xsize (grid1.coords t1_11) 2
                  rw [show win1_9.index t1_11 2 * win1_9.size 2 = 0 from by decide +kernel, show win1_9.xsize (grid1.coords t1_11) 2 = 50 from by decide +kernel]; omega⟩

end Cert.KernelIdeal.Hand

end
-- ==== Proof.KI.BlocksBupd1.lean ====
/-
  Region 1's windows read at an index.  The three routing-weight windows' and the factor window's one block is the whole array,
  the same at every point; the three tiled windows' block at point `t` is columns 256·t … 256·t + 255 of the [10,50,3072] array.
-/
import proofs.«160248_j77816217469391_2_alg».proof.Proof.KI.BupdVal1
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem

variable {F : FTy → Type} [FloatOps F]
variable (V : (c : Dev nD) → (b : Ref sig .tc) → Buf (Elt F) ((c : Thread nD τ).loc b))

theorem idxW1 : ∀ t : Fin cfg1.N,
    (win1_0.index t 0 = 0 ∧ win1_0.index t 1 = 0 ∧ win1_0.index t 2 = 0)
    ∧ (win1_1.index t 0 = 0 ∧ win1_1.index t 1 = 0 ∧ win1_1.index t 2 = 0)
    ∧ (win1_2.index t 0 = 0 ∧ win1_2.index t 1 = 0 ∧ win1_2.index t 2 = 0)
    ∧ (win1_3.index t 0 = 0 ∧ win1_3.index t 1 = 0 ∧ win1_3.index t 2 = t.val)
    ∧ (win1_4.index t 0 = 0 ∧ win1_4.index t 1 = 0 ∧ win1_4.index t 2 = t.val)
    ∧ (win1_5.index t 0 = 0 ∧ win1_5.index t 1 = 0 ∧ win1_5.index t 2 = t.val)
    ∧ (win1_6.index t 0 = 0 ∧ win1_6.index t 1 = 0 ∧ win1_6.index t 2 = 0) :=
  (by decide +kernel : ∀ t : Fin grid1.N, _)

theorem iblk1_w0 (c : Dev nD) (t : Fin cfg1.N) : (iblk1 V c 0 t : Vec F S10x768x50 .bf16) = V c main_v33 := by
  obtain ⟨h0, h1, h2⟩ := (idxW1 t).1
  funext j
  unfold iblk1
  rw [View.read_apply]
  show V c main_v33 _ = V c main_v33 _
  congr 1
  funext a
  apply Fin.ext
  match a with
  | ⟨0, _⟩ => show win1_0.index t 0 * 10 + 1 * (j 0).val = (j 0).val; rw [h0]; omega
  | ⟨1, _⟩ => show win1_0.index t 1 * 768 + 1 * (j 1).val = (j 1).val; rw [h1]; omega
  | ⟨2, _⟩ => show win1_0.index t 2 * 50 + 1 * (j 2).val = (j 2).val; rw [h2]; omega

theorem iblk1_w1 (c : Dev nD) (t : Fin cfg1.N) : (iblk1 V c 1 t : Vec F S10x768x50 .bf16) = V c main_v34 := by
  obtain ⟨h0, h1, h2⟩ := (idxW1 t).2.1
  funext j
  unfold iblk1
  rw [View.read_apply]
  show V c main_v34 _ = V c main_v34 _
  congr 1
  funext a
  apply Fin.ext
  match a with
  | ⟨0, _⟩ => show win1_1.index t 0 * 10 + 1 * (j 0).val = (j 0).val; rw [h0]; omega
  | ⟨1, _⟩ => show win1_1.index t 1 * 768 + 1 * (j 1).val = (j 1).val; rw [h1]; omega
  | ⟨2, _⟩ => show win1_1.index t 2 * 50 + 1 * (j 2).val = (j 2).val; rw [h2]; omega

theorem iblk1_w2 (c : Dev nD) (t : Fin cfg1.N) : (iblk1 V c 2 t : Vec F S10x768x50 .bf16) = V c main_v35 := by
  obtain ⟨h0, h1, h2⟩ := (idxW1 t).2.2.1
  funext j
  unfold iblk1
  rw [View.read_apply]
  show V c main_v35 _ = V c main_v35 _
  congr 1
  funext a
  apply Fin.ext
  match a with
  | ⟨0, _⟩ => show win1_2.index t 0 * 10 + 1 * (j 0).val = (j 0).val; rw [h0]; omega
  | ⟨1, _⟩ => show win1_2.index t 1 * 768 + 1 * (j 1).val = (j 1).val; rw [h1]; omega
  | ⟨2, _⟩ => show win1_2.index t 2 * 50 + 1 * (j 2).val = (j 2).val; rw [h2]; omega

theorem iblk1_w6 (c : Dev nD) (t : Fin cfg1.N) : (iblk1 V c 6 t : Vec F S10x768x1 .f32) = V c main_v32 := by
  obtain ⟨h0, h1, h2⟩ := (idxW1 t).2.2.2.2.2.2
  funext j
  unfold iblk1
  rw [View.read_apply]
  show V c main_v32 _ = V c main_v32 _
  congr 1
  funext a
  apply Fin.ext
  match a with
  | ⟨0, _⟩ => show win1_6.index t 0 * 10 + 1 * (j 0).val = (j 0).val; rw [h0]; omega
  | ⟨1, _⟩ => show win1_6.index t 1 * 768 + 1 * (j 1).val = (j 1).val; rw [h1]; omega
  | ⟨2, _⟩ => show win1_6.index t 2 * 1 + 1 * (j 2).val = (j 2).val; rw [h2]; omega

theorem iblk1_w3 (c : Dev nD) (t : Fin cfg1.N) (b : Fin 10) (k : Fin 50) (j : Fin 256) (d : Fin 3072) (hd : d.val = 256 * t.val + j.val) :
    (iblk1 V c 3 t : Vec F S10x50x256 .bf16) (ix3 b k j) = V c main_v0 (ix3 b k d) := by
  obtain ⟨h0, h1, h2⟩ := (idxW1 t).2.2.2.1
  unfold iblk1
  rw [View.read_apply]
  show V c main_v0 _ = V c main_v0 _
  congr 1
  funext a
  apply Fin.ext
  match a with
  | ⟨0, _⟩ => show win1_3.index t 0 * 10 + 1 * b.val = b.val; rw [h0]; omega
  | ⟨1, _⟩ => show win1_3.index t 1 * 50 + 1 * k.val = k.val; rw [h1]; omega
  | ⟨2, _⟩ => show win1_3.index t 2 * 256 + 1 * j.val = d.val; rw [h2, hd]; omega

theorem iblk1_w4 (c : Dev nD) (t : Fin cfg1.N) (b : Fin 10) (k : Fin 50) (j : Fin 256) (d : Fin 3072) (hd : d.val = 256 * t.val + j.val) :
    (iblk1 V c 4 t : Vec F S10x50x256 .bf16) (ix3 b k j) = V c main_v1 (ix3 b k d) := by
  obtain ⟨h0, h1, h2⟩ := (idxW1 t).2.2.2.2.1
  unfold iblk1
  rw [View.read_apply]
  show V c main_v1 _ = V c main_v1 _
  congr 1
  funext a
  apply Fin.ext
  match a with
  | ⟨0, _⟩ => show win1_4.index t 0 * 10 + 1 * b.val = b.val; rw [h0]; omega
  | ⟨1, _⟩ => show win1_4.index t 1 * 50 + 1 * k.val = k.val; rw [h1]; omega
  | ⟨2, _⟩ => show win1_4.index t 2 * 256 + 1 * j.val = d.val; rw [h2, hd]; omega

theorem iblk1_w5 (c : Dev nD) (t : Fin cfg1.N) (b : Fin 10) (k : Fin 50) (j : Fin 256) (d : Fin 3072) (hd : d.val = 256 * t.val + j.val) :
    (iblk1 V c 5 t : Vec F S10x50x256 .bf16) (ix3 b k j) = V c main_v2 (ix3 b k d) := by
  obtain ⟨h0, h1, h2⟩ := (idxW1 t).2.2.2.2.2.1
  unfold iblk1
  rw [View.read_apply]
  show V c main_v2 _ = V c main_v2 _
  congr 1
  funext a
  apply Fin.ext
  match a with
  | ⟨0, _⟩ => show win1_5.index t 0 * 10 + 1 * b.val = b.val; rw [h0]; omega
  | ⟨1, _⟩ => show win1_5.index t 1 * 50 + 1 * k.val = k.val; rw [h1]; omega
  | ⟨2, _⟩ => show win1_5.index t 2 * 256 + 1 * j.val = d.val; rw [h2, hd]; omega

end Cert.KernelIdeal.Hand

end
-- ==== Proof.KI.PayBupd1.lean ====
/-
  The logit-update payloads (pallas_call 1) read at an index, at the ideal values.  The squashed-capsule tile is
  a(b,p,j) = factor(b,p) · s(b,p,j); each accumulator's entry (b,p,s) grows by Σⱼ a(b,p,j) · x(b,s,j) over the tile's 256 columns,
  x the tile of visual, acoustic or va.
-/
import proofs.«160248_j77816217469391_2_alg».proof.Proof.KI.Tile
import proofs.«160248_j77816217469391_2_alg».proof.Proof.Gen.KernelIdeal.Skeleton
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx
open scoped BigOperators

variable [hK : Cert.KernelIdeal.Facts]

/-- The squashed-capsule tile at an index. -/
theorem k1_pay10_apply (tv ta tva : Vec Ideal S10x50x256 .bf16) (c1 c2 c3 : Vec Ideal S10x768x50 .bf16) (fac : Vec Ideal S10x768x1 .f32)
    (b : Fin 10) (p : Fin 768) (j : Fin 256) :
    k1_pay10 (F := Ideal) tv ta tva c1 c2 c3 fac (ix3 b p j) = fac (ix3 b p 0) * sTile c1 c2 c3 tv ta tva b p j := by
  unfold k1_pay10 k1_pay7 k1_pay8 k1_pay9
  simp only [shapeCast_self]
  rw [truncf_apply, mulf_apply]
  congr 1
  · exact broadcastTo_apply _ _ (ix3 b p j) (ix3 b p 0) (fun a => by
      match a with
      | ⟨0, _⟩ => rfl
      | ⟨1, _⟩ => rfl
      | ⟨2, _⟩ => rfl)
  · simp only [addf_apply, matmul_KD1_apply]
    rfl

theorem k1_pay11_apply (tv ta tva : Vec Ideal S10x50x256 .bf16) (c1 c2 c3 : Vec Ideal S10x768x50 .bf16) (fac : Vec Ideal S10x768x1 .f32)
    (x : Vec Ideal S10x768x50 .f32) (b : Fin 10) (p : Fin 768) (s : Fin 50) :
    k1_pay1 (F := Ideal) (k1_pay11 tv ta tva c1 c2 c3 fac x) (ix3 b p s)
      = x (ix3 b p s) + ∑ j : Fin 256, (fac (ix3 b p 0) * sTile c1 c2 c3 tv ta tva b p j) * tv (ix3 b s j) := by
  unfold k1_pay1 k1_pay11 k1_pay7
  simp only [shapeCast_self]
  rw [addf_apply, matmul_KD2_apply]
  simp only [k1_pay10_apply]

theorem k1_pay2_apply (tv ta tva : Vec Ideal S10x50x256 .bf16) (c1 c2 c3 : Vec Ideal S10x768x50 .bf16) (fac : Vec Ideal S10x768x1 .f32)
    (x : Vec Ideal S10x768x50 .f32) (b : Fin 10) (p : Fin 768) (s : Fin 50) :
    k1_pay2 (F := Ideal) (k1_pay8 ta) (k1_pay10 tv ta tva c1 c2 c3 fac) x (ix3 b p s)
      = x (ix3 b p s) + ∑ j : Fin 256, (fac (ix3 b p 0) * sTile c1 c2 c3 tv ta tva b p j) * ta (ix3 b s j) := by
  unfold k1_pay2 k1_pay8
  simp only [shapeCast_self]
  rw [addf_apply, matmul_KD2_apply]
  simp only [k1_pay10_apply]

theorem k1_pay3_apply (tv ta tva : Vec Ideal S10x50x256 .bf16) (c1 c2 c3 : Vec Ideal S10x768x50 .bf16) (fac : Vec Ideal S10x768x1 .f32)
    (x : Vec Ideal S10x768x50 .f32) (b : Fin 10) (p : Fin 768) (s : Fin 50) :
    k1_pay3 (F := Ideal) (k1_pay9 tva) (k1_pay10 tv ta tva c1 c2 c3 fac) x (ix3 b p s)
      = x (ix3 b p s) + ∑ j : Fin 256, (fac (ix3 b p 0) * sTile c1 c2 c3 tv ta tva b p j) * tva (ix3 b s j) := by
  unfold k1_pay3 k1_pay9
  simp only [shapeCast_self]
  rw [addf_apply, matmul_KD2_apply]
  simp only [k1_pay10_apply]

/-- The zero blocks the first point stores. -/
theorem k1_pay456_apply (b : Fin 10) (p : Fin 768) (s : Fin 50) :
    k1_pay4 (F := Ideal) (ix3 b p s) = 0 ∧ k1_pay5 (F := Ideal) (ix3 b p s) = 0 ∧ k1_pay6 (F := Ideal) (ix3 b p s) = 0 := by
  unfold k1_pay4 k1_pay5 k1_pay6
  simp only [shapeCast_self]
  exact ⟨Ideal.ofBits_zero_f32, Ideal.ofBits_zero_f32, Ideal.ofBits_zero_f32⟩

end Cert.KernelIdeal.Hand

end
-- ==== Proof.KI.ValBupd1.lean ====
/-
  Region 1's three result arrays at the ideal values, entry by entry: zero plus the sum over all 3072 columns of
  (factor(b,p)·s(b,p,d)) · x(b,k,d), x the visual, acoustic or va array.  Each point adds its tile's 256 columns.
-/
import proofs.«160248_j77816217469391_2_alg».proof.Proof.KI.BlocksBupd1
import proofs.«160248_j77816217469391_2_alg».proof.Proof.KI.PayBupd1
import proofs.«160248_j77816217469391_2_alg».proof.Proof.KI.Caps
import proofs.«160248_j77816217469391_2_alg».proof.Proof.LibTileSum

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem
open Cert.Lib.TileSum
open scoped BigOperators

variable [hK : Cert.KernelIdeal.Facts]
variable (V : (c : Dev nD) → (b : Ref sig .tc) → Buf (Elt Ideal) ((c : Thread nD τ).loc b))

theorem sTile_eq_sCol1 (c : Dev nD) (t : Fin cfg1.N) (b : Fin 10) (p : Fin 768) (j : Fin 256) (d : Fin 3072) (hd : d.val = 256 * t.val + j.val) :
    sTile (iblk1 V c 0 t) (iblk1 V c 1 t) (iblk1 V c 2 t) (iblk1 V c 3 t) (iblk1 V c 4 t) (iblk1 V c 5 t) b p j
      = sCol (V c main_v33) (V c main_v34) (V c main_v35) (V c main_v0) (V c main_v1) (V c main_v2) b p d := by
  unfold sTile sCol
  rw [iblk1_w0 V c t, iblk1_w1 V c t, iblk1_w2 V c t]
  simp only [fun b k => iblk1_w3 V c t b k j d hd, fun b k => iblk1_w4 V c t b k j d hd, fun b k => iblk1_w5 V c t b k j d hd]

set_option maxHeartbeats 2000000 in
theorem step1_A (c : Dev nD) (t : Fin cfg1.N) (h12 : t.val < 12) (x : Vec Ideal S10x768x50 .f32) (b : Fin 10) (p : Fin 768) (s : Fin 50) :
    k1_pay1 (F := Ideal) (k1_pay11 (iblk1 V c 3 t) (iblk1 V c 4 t) (iblk1 V c 5 t) (iblk1 V c 0 t) (iblk1 V c 1 t) (iblk1 V c 2 t) (iblk1 V c 6 t) x) (ix3 b p s)
      = x (ix3 b p s) + ∑ j : Fin 256, bTerm (V c main_v32) (V c main_v33) (V c main_v34) (V c main_v35) (V c main_v0) (V c main_v1) (V c main_v2) (V c main_v0) b p s (col ⟨t.val, h12⟩ j) := by
  refine (k1_pay11_apply _ _ _ _ _ _ _ x b p s).trans ?_
  refine congrArg (x (ix3 b p s) + ·) ?_
  refine Finset.sum_congr rfl fun j _ => ?_
  unfold bTerm
  rw [sTile_eq_sCol1 V c t b p j (col ⟨t.val, h12⟩ j) rfl, iblk1_w6 V c t, iblk1_w3 V c t b s j (col ⟨t.val, h12⟩ j) rfl]

set_option maxHeartbeats 2000000 in
theorem step1_B (c : Dev nD) (t : Fin cfg1.N) (h12 : t.val < 12) (x : Vec Ideal S10x768x50 .f32) (b : Fin 10) (p : Fin 768) (s : Fin 50) :
    k1_pay2 (F := Ideal) (k1_pay8 (iblk1 V c 4 t)) (k1_pay10 (iblk1 V c 3 t) (iblk1 V c 4 t) (iblk1 V c 5 t) (iblk1 V c 0 t) (iblk1 V c 1 t) (iblk1 V c 2 t) (iblk1 V c 6 t)) x (ix3 b p s)
      = x (ix3 b p s) + ∑ j : Fin 256, bTerm (V c main_v32) (V c main_v33) (V c main_v34) (V c main_v35) (V c main_v0) (V c main_v1) (V c main_v2) (V c main_v1) b p s (col ⟨t.val, h12⟩ j) := by
  refine (k1_pay2_apply _ _ _ _ _ _ _ x b p s).trans ?_
  refine congrArg (x (ix3 b p s) + ·) ?_
  refine Finset.sum_congr rfl fun j _ => ?_
  unfold bTerm
  rw [sTile_eq_sCol1 V c t b p j (col ⟨t.val, h12⟩ j) rfl, iblk1_w6 V c t, iblk1_w4 V c t b s j (col ⟨t.val, h12⟩ j) rfl]

set_option maxHeartbeats 2000000 in
theorem step1_C (c : Dev nD) (t : Fin cfg1.N) (h12 : t.val < 12) (x : Vec Ideal S10x768x50 .f32) (b : Fin 10) (p : Fin 768) (s : Fin 50) :
    k1_pay3 (F := Ideal) (k1_pay9 (iblk1 V c 5 t)) (k1_pay10 (iblk1 V c 3 t) (iblk1 V c 4 t) (iblk1 V c 5 t) (iblk1 V c 0 t) (iblk1 V c 1 t) (iblk1 V c 2 t) (iblk1 V c 6 t)) x (ix3 b p s)
      = x (ix3 b p s) + ∑ j : Fin 256, bTerm (V c main_v32) (V c main_v33) (V c main_v34) (V c main_v35) (V c main_v0) (V c main_v1) (V c main_v2) (V c main_v2) b p s (col ⟨t.val, h12⟩ j) := by
  refine (k1_pay3_apply _ _ _ _ _ _ _ x b p s).trans ?_
  refine congrArg (x (ix3 b p s) + ·) ?_
  refine Finset.sum_congr rfl fun j _ => ?_
  unfold bTerm
  rw [sTile_eq_sCol1 V c t b p j (col ⟨t.val, h12⟩ j) rfl, iblk1_w6 V c t, iblk1_w5 V c t b s j (col ⟨t.val, h12⟩ j) rfl]

set_option maxHeartbeats 4000000 in
/-- The three accumulators after point `n` at entry (b, p, s): the running totals. -/
theorem acc1_apply (c : Dev nD) (b : Fin 10) (p : Fin 768) (s : Fin 50) (n : ℕ) : ∀ (hn : n < cfg1.N),
    (acc1 V c n hn).1 (ix3 b p s) = run (0 : EReal) (fun u => if h : u < 12 then ∑ j : Fin 256, bTerm (V c main_v32) (V c main_v33) (V c main_v34) (V c main_v35) (V c main_v0) (V c main_v1) (V c main_v2) (V c main_v0) b p s (col ⟨u, h⟩ j) else 0) n
    ∧ (acc1 V c n hn).2.1 (ix3 b p s) = run (0 : EReal) (fun u => if h : u < 12 then ∑ j : Fin 256, bTerm (V c main_v32) (V c main_v33) (V c main_v34) (V c main_v35) (V c main_v0) (V c main_v1) (V c main_v2) (V c main_v1) b p s (col ⟨u, h⟩ j) else 0) n
    ∧ (acc1 V c n hn).2.2 (ix3 b p s) = run (0 : EReal) (fun u => if h : u < 12 then ∑ j : Fin 256, bTerm (V c main_v32) (V c main_v33) (V c main_v34) (V c main_v35) (V c main_v0) (V c main_v1) (V c main_v2) (V c main_v2) b p s (col ⟨u, h⟩ j) else 0) n := by
  induction n with
  | zero =>
    intro hn
    have h12 : (0 : ℕ) < 12 := by decide
    rw [acc1_zero V c ⟨0, hn⟩ rfl]
    refine ⟨?_, ?_, ?_⟩
    · refine (step1_A V c ⟨0, hn⟩ h12 _ b p s).trans ?_
      rw [(k1_pay456_apply b p s).1, run, dif_pos h12]
    · refine (step1_B V c ⟨0, hn⟩ h12 _ b p s).trans ?_
      rw [(k1_pay456_apply b p s).2.1, run, dif_pos h12]
    · refine (step1_C V c ⟨0, hn⟩ h12 _ b p s).trans ?_
      rw [(k1_pay456_apply b p s).2.2, run, dif_pos h12]
  | succ n ih =>
    intro hn
    have h12 : n + 1 < 12 := lt_of_lt_of_eq hn (show cfg1.N = 12 from N_1)
    obtain ⟨i1, i2, i3⟩ := ih (Nat.lt_of_succ_lt hn)
    rw [acc1_pos V c ⟨n + 1, hn⟩ (Nat.succ_ne_zero n)]
    refine ⟨?_, ?_, ?_⟩
    · refine (step1_A V c ⟨n + 1, hn⟩ h12 _ b p s).trans ?_
      rw [run, dif_pos h12]
      exact congrArg (· + _) i1
    · refine (step1_B V c ⟨n + 1, hn⟩ h12 _ b p s).trans ?_
      rw [run, dif_pos h12]
      exact congrArg (· + _) i2
    · refine (step1_C V c ⟨n + 1, hn⟩ h12 _ b p s).trans ?_
      rw [run, dif_pos h12]
      exact congrArg (· + _) i3

/-- Result array 0: the logit update against main_v0. -/
theorem region1_eq_7 (c : Dev nD) :
    (dat1 V c).arrAt 7 cfg1.N = capsB (V c main_v32) (V c main_v33) (V c main_v34) (V c main_v35) (V c main_v0) (V c main_v1) (V c main_v2) (V c main_v0) := by
  rw [final1_7]
  funext i
  obtain ⟨b, p, s, rfl⟩ : ∃ (b : Fin 10) (p : Fin 768) (s : Fin 50), i = ix3 b p s := ⟨i 0, i 1, i 2, eq_ix3 i⟩
  refine ((acc1_apply V c b p s 11 _).1).trans ?_
  rw [run_last, zero_add]
  show (∑ t : Fin 12, _) = ∑ d : Fin 3072, bTerm (V c main_v32) (V c main_v33) (V c main_v34) (V c main_v35) (V c main_v0) (V c main_v1) (V c main_v2) (V c main_v0) b p s d
  rw [sum_cols]
  refine Finset.sum_congr rfl fun t _ => ?_
  exact (dif_pos t.isLt).trans rfl

/-- Result array 1: the logit update against main_v1. -/
theorem region1_eq_8 (c : Dev nD) :
    (dat1 V c).arrAt 8 cfg1.N = capsB (V c main_v32) (V c main_v33) (V c main_v34) (V c main_v35) (V c main_v0) (V c main_v1) (V c main_v2) (V c main_v1) := by
  rw [final1_8]
  funext i
  obtain ⟨b, p, s, rfl⟩ : ∃ (b : Fin 10) (p : Fin 768) (s : Fin 50), i = ix3 b p s := ⟨i 0, i 1, i 2, eq_ix3 i⟩
  refine ((acc1_apply V c b p s 11 _).2.1).trans ?_
  rw [run_last, zero_add]
  show (∑ t : Fin 12, _) = ∑ d : Fin 3072, bTerm (V c main_v32) (V c main_v33) (V c main_v34) (V c main_v35) (V c main_v0) (V c main_v1) (V c main_v2) (V c main_v1) b p s d
  rw [sum_cols]
  refine Finset.sum_congr rfl fun t _ => ?_
  exact (dif_pos t.isLt).trans rfl

/-- Result array 2: the logit update against main_v2. -/
theorem region1_eq_9 (c : Dev nD) :
    (dat1 V c).arrAt 9 cfg1.N = capsB (V c main_v32) (V c main_v33) (V c main_v34) (V c main_v35) (V c main_v0) (V c main_v1) (V c main_v2) (V c main_v2) := by
  rw [final1_9]
  funext i
  obtain ⟨b, p, s, rfl⟩ : ∃ (b : Fin 10) (p : Fin 768) (s : Fin 50), i = ix3 b p s := ⟨i 0, i 1, i 2, eq_ix3 i⟩
  refine ((acc1_apply V c b p s 11 _).2.2).trans ?_
  rw [run_last, zero_add]
  show (∑ t : Fin 12, _) = ∑ d : Fin 3072, bTerm (V c main_v32) (V c main_v33) (V c main_v34) (V c main_v35) (V c main_v0) (V c main_v1) (V c main_v2) (V c main_v2) b p s d
  rw [sum_cols]
  refine Finset.sum_congr rfl fun t _ => ?_
  exact (dif_pos t.isLt).trans rfl

end Cert.KernelIdeal.Hand

end
-- ==== Proof.KI.BupdVal3.lean ====
/-
  The logit-update region 3: what its three result arrays end holding.  Each output window's one block is the whole [10,768,50]
  array and is written back once, after the last point; so each array ends at its accumulator after point 11.
-/
import proofs.«160248_j77816217469391_2_alg».proof.Proof.KI.BupdDat3
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (V : (c : Dev nD) → (b : Ref sig .tc) → Buf (Elt F) ((c : Thread nD τ).loc b))

theorem flush3_789 : ∀ t : Fin cfg3.N, ((cfg3.win 7).flush t = true ↔ t.val % 12 = 11) ∧ ((cfg3.win 8).flush t = true ↔ t.val % 12 = 11) ∧ ((cfg3.win 9).flush t = true ↔ t.val % 12 = 11) :=
  (by decide +kernel : ∀ t : Fin grid3.N, _)

abbrev result3_7 (c : Dev nD) : Buf (Elt F) ((c : Thread nD τ).loc main_v69_0) :=
  (acc3 V c 11 (by rw [show cfg3.N = 12 from N_3]; decide)).1

theorem flushed_eq3_7 (c : Dev nD) (t : Fin cfg3.N) (hf : (cfg3.win 7).flush t = true) :
    (dat3 V c).flushed 7 t = ((cfg3.win 7).blk t).view.read (Elt F) (result3_7 V c) := by
  have hN : cfg3.N = 12 := N_3
  have h11 : t.val = 11 := by have := (flush3_789 t).1.mp hf; have := t.isLt; omega
  obtain rfl : t = t3_11 := Fin.ext h11
  show (cfg3.win 7).cut (grid3.coords t3_11) ((dat3 V c).after 7 t3_11) = _
  rw [after3_7]
  have hz' : (fun a => win3_7.index t3_11 a * main_v69_0.ty.shape.size a) = fun _ => 0 := funext fun a => by fin_cases a <;> decide
  exact (Memref.read_access_unit_zero (Elt F) main_v69_0 hz' (fun a => by rw [congrFun hz' a]; simp) (result3_7 V c)).symm

theorem final3_7 (c : Dev nD) : (dat3 V c).arrAt 7 cfg3.N = result3_7 V c :=
  (dat3 V c).arrAt_eq_of_cover 7 (result3_7 V c) (flushed_eq3_7 V c) fun i =>
    ⟨t3_11, (flush3_789 t3_11).1.mpr rfl, by
      show i ∈ ((View.whole main_v69_0).slice (win3_7.rect t3_11)).set
      rw [View.set_slice_whole, Rect.mem_set_unit]
      intro a
      have h0 : (i 0 : Nat) < 10 := (i 0).isLt
      have h1 : (i 1 : Nat) < 768 := (i 1).isLt
      have h2 : (i 2 : Nat) < 50 := (i 2).isLt
      match a with
      | ⟨0, _⟩ => show win3_7.index t3_11 0 * win3_7.size 0 ≤ (i 0 : Nat) ∧ (i 0 : Nat) < win3_7.index t3_11 0 * win3_7.size 0 + win3_7.xsize (grid3.coords t3_11) 0
                  rw [show win3_7.index t3_11 0 * win3_7.size 0 = 0 from by decide +kernel, show win3_7.xsize (grid3.coords t3_11) 0 = 10 from by decide +kernel]; omega
      | ⟨1, _⟩ => show win3_7.index t3_11 1 * win3_7.size 1 ≤ (i 1 : Nat) ∧ (i 1 : Nat) < win3_7.index t3_11 1 * win3_7.size 1 + win3_7.xsize (grid3.coords t3_11) 1
                  rw [show win3_7.index t3_11 1 * win3_7.size 1 = 0 from by decide +kernel, show win3_7.xsize (grid3.coords t3_11) 1 = 768 from by decide +kernel]; omega
      | ⟨2, _⟩ => show win3_7.index t3_11 2 * win3_7.size 2 ≤ (i 2 : Nat) ∧ (i 2 : Nat) < win3_7.index t3_11 2 * win3_7.size 2 + win3_7.xsize (grid3.coords t3_11) 2
                  rw [show win3_7.index t3_11 2 * win3_7.size 2 = 0 from by decide +kernel, show win3_7.xsize (grid3.coords t3_11) 2 = 50 from by decide +kernel]; omega⟩

abbrev result3_8 (c : Dev nD) : Buf (Elt F) ((c : Thread nD τ).loc main_v69_1) :=
  (acc3 V c 11 (by rw [show cfg3.N = 12 from N_3]; decide)).2.1

theorem flushed_eq3_8 (c : Dev nD) (t : Fin cfg3.N) (hf : (cfg3.win 8).flush t = true) :
    (dat3 V c).flushed 8 t = ((cfg3.win 8).blk t).view.read (Elt F) (result3_8 V c) := by
  have hN : cfg3.N = 12 := N_3
  have h11 : t.val = 11 := by have := (flush3_789 t).2.1.mp hf; have := t.isLt; omega
  obtain rfl : t = t3_11 := Fin.ext h11
  show (cfg3.win 8).cut (grid3.coords t3_11) ((dat3 V c).after 8 t3_11) = _
  rw [after3_8]
  have hz' : (fun a => win3_8.index t3_11 a * main_v69_1.ty.shape.size a) = fun _ => 0 := funext fun a => by fin_cases a <;> decide
  exact (Memref.read_access_unit_zero (Elt F) main_v69_1 hz' (fun a => by rw [congrFun hz' a]; simp) (result3_8 V c)).symm

theorem final3_8 (c : Dev nD) : (dat3 V c).arrAt 8 cfg3.N = result3_8 V c :=
  (dat3 V c).arrAt_eq_of_cover 8 (result3_8 V c) (flushed_eq3_8 V c) fun i =>
    ⟨t3_11, (flush3_789 t3_11).2.1.mpr rfl, by
      show i ∈ ((View.whole main_v69_1).slice (win3_8.rect t3_11)).set
      rw [View.set_slice_whole, Rect.mem_set_unit]
      intro a
      have h0 : (i 0 : Nat) < 10 := (i 0).isLt
      have h1 : (i 1 : Nat) < 768 := (i 1).isLt
      have h2 : (i 2 : Nat) < 50 := (i 2).isLt
      match a with
      | ⟨0, _⟩ => show win3_8.index t3_11 0 * win3_8.size 0 ≤ (i 0 : Nat) ∧ (i 0 : Nat) < win3_8.index t3_11 0 * win3_8.size 0 + win3_8.xsize (grid3.coords t3_11) 0
                  rw [show win3_8.index t3_11 0 * win3_8.size 0 = 0 from by decide +kernel, show win3_8.xsize (grid3.coords t3_11) 0 = 10 from by decide +kernel]; omega
      | ⟨1, _⟩ => show win3_8.index t3_11 1 * win3_8.size 1 ≤ (i 1 : Nat) ∧ (i 1 : Nat) < win3_8.index t3_11 1 * win3_8.size 1 + win3_8.xsize (grid3.coords t3_11) 1
                  rw [show win3_8.index t3_11 1 * win3_8.size 1 = 0 from by decide +kernel, show win3_8.xsize (grid3.coords t3_11) 1 = 768 from by decide +kernel]; omega
      | ⟨2, _⟩ => show win3_8.index t3_11 2 * win3_8.size 2 ≤ (i 2 : Nat) ∧ (i 2 : Nat) < win3_8.index t3_11 2 * win3_8.size 2 + win3_8.xsize (grid3.coords t3_11) 2
                  rw [show win3_8.index t3_11 2 * win3_8.size 2 = 0 from by decide +kernel, show win3_8.xsize (grid3.coords t3_11) 2 = 50 from by decide +kernel]; omega⟩

abbrev result3_9 (c : Dev nD) : Buf (Elt F) ((c : Thread nD τ).loc main_v69_2) :=
  (acc3 V c 11 (by rw [show cfg3.N = 12 from N_3]; decide)).2.2

theorem flushed_eq3_9 (c : Dev nD) (t : Fin cfg3.N) (hf : (cfg3.win 9).flush t = true) :
    (dat3 V c).flushed 9 t = ((cfg3.win 9).blk t).view.read (Elt F) (result3_9 V c) := by
  have hN : cfg3.N = 12 := N_3
  have h11 : t.val = 11 := by have := (flush3_789 t).2.2.mp hf; have := t.isLt; omega
  obtain rfl : t = t3_11 := Fin.ext h11
  show (cfg3.win 9).cut (grid3.coords t3_11) ((dat3 V c).after 9 t3_11) = _
  rw [after3_9]
  have hz' : (fun a => win3_9.index t3_11 a * main_v69_2.ty.shape.size a) = fun _ => 0 := funext fun a => by fin_cases a <;> decide
  exact (Memref.read_access_unit_zero (Elt F) main_v69_2 hz' (fun a => by rw [congrFun hz' a]; simp) (result3_9 V c)).symm

theorem final3_9 (c : Dev nD) : (dat3 V c).arrAt 9 cfg3.N = result3_9 V c :=
  (dat3 V c).arrAt_eq_of_cover 9 (result3_9 V c) (flushed_eq3_9 V c) fun i =>
    ⟨t3_11, (flush3_789 t3_11).2.2.mpr rfl, by
      show i ∈ ((View.whole main_v69_2).slice (win3_9.rect t3_11)).set
      rw [View.set_slice_whole, Rect.mem_set_unit]
      intro a
      have h0 : (i 0 : Nat) < 10 := (i 0).isLt
      have h1 : (i 1 : Nat) < 768 := (i 1).isLt
      have h2 : (i 2 : Nat) < 50 := (i 2).isLt
      match a with
      | ⟨0, _⟩ => show win3_9.index t3_11 0 * win3_9.size 0 ≤ (i 0 : Nat) ∧ (i 0 : Nat) < win3_9.index t3_11 0 * win3_9.size 0 + win3_9.xsize (grid3.coords t3_11) 0
                  rw [show win3_9.index t3_11 0 * win3_9.size 0 = 0 from by decide +kernel, show win3_9.xsize (grid3.coords t3_11) 0 = 10 from by decide +kernel]; omega
      | ⟨1, _⟩ => show win3_9.index t3_11 1 * win3_9.size 1 ≤ (i 1 : Nat) ∧ (i 1 : Nat) < win3_9.index t3_11 1 * win3_9.size 1 + win3_9.xsize (grid3.coords t3_11) 1
                  rw [show win3_9.index t3_11 1 * win3_9.size 1 = 0 from by decide +kernel, show win3_9.xsize (grid3.coords t3_11) 1 = 768 from by decide +kernel]; omega
      | ⟨2, _⟩ => show win3_9.index t3_11 2 * win3_9.size 2 ≤ (i 2 : Nat) ∧ (i 2 : Nat) < win3_9.index t3_11 2 * win3_9.size 2 + win3_9.xsize (grid3.coords t3_11) 2
                  rw [show win3_9.index t3_11 2 * win3_9.size 2 = 0 from by decide +kernel, show win3_9.xsize (grid3.coords t3_11) 2 = 50 from by decide +kernel]; omega⟩

end Cert.KernelIdeal.Hand

end
-- ==== Proof.KI.BlocksBupd3.lean ====
/-
  Region 3's windows read at an index.  The three routing-weight windows' and the factor window's one block is the whole array,
  the same at every point; the three tiled windows' block at point `t` is columns 256·t … 256·t + 255 of the [10,50,3072] array.
-/
import proofs.«160248_j77816217469391_2_alg».proof.Proof.KI.BupdVal3
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem

variable {F : FTy → Type} [FloatOps F]
variable (V : (c : Dev nD) → (b : Ref sig .tc) → Buf (Elt F) ((c : Thread nD τ).loc b))

theorem idxW3 : ∀ t : Fin cfg3.N,
    (win3_0.index t 0 = 0 ∧ win3_0.index t 1 = 0 ∧ win3_0.index t 2 = 0)
    ∧ (win3_1.index t 0 = 0 ∧ win3_1.index t 1 = 0 ∧ win3_1.index t 2 = 0)
    ∧ (win3_2.index t 0 = 0 ∧ win3_2.index t 1 = 0 ∧ win3_2.index t 2 = 0)
    ∧ (win3_3.index t 0 = 0 ∧ win3_3.index t 1 = 0 ∧ win3_3.index t 2 = t.val)
    ∧ (win3_4.index t 0 = 0 ∧ win3_4.index t 1 = 0 ∧ win3_4.index t 2 = t.val)
    ∧ (win3_5.index t 0 = 0 ∧ win3_5.index t 1 = 0 ∧ win3_5.index t 2 = t.val)
    ∧ (win3_6.index t 0 = 0 ∧ win3_6.index t 1 = 0 ∧ win3_6.index t 2 = 0) :=
  (by decide +kernel : ∀ t : Fin grid3.N, _)

theorem iblk3_w0 (c : Dev nD) (t : Fin cfg3.N) : (iblk3 V c 0 t : Vec F S10x768x50 .bf16) = V c main_v66 := by
  obtain ⟨h0, h1, h2⟩ := (idxW3 t).1
  funext j
  unfold iblk3
  rw [View.read_apply]
  show V c main_v66 _ = V c main_v66 _
  congr 1
  funext a
  apply Fin.ext
  match a with
  | ⟨0, _⟩ => show win3_0.index t 0 * 10 + 1 * (j 0).val = (j 0).val; rw [h0]; omega
  | ⟨1, _⟩ => show win3_0.index t 1 * 768 + 1 * (j 1).val = (j 1).val; rw [h1]; omega
  | ⟨2, _⟩ => show win3_0.index t 2 * 50 + 1 * (j 2).val = (j 2).val; rw [h2]; omega

theorem iblk3_w1 (c : Dev nD) (t : Fin cfg3.N) : (iblk3 V c 1 t : Vec F S10x768x50 .bf16) = V c main_v67 := by
  obtain ⟨h0, h1, h2⟩ := (idxW3 t).2.1
  funext j
  unfold iblk3
  rw [View.read_apply]
  show V c main_v67 _ = V c main_v67 _
  congr 1
  funext a
  apply Fin.ext
  match a with
  | ⟨0, _⟩ => show win3_1.index t 0 * 10 + 1 * (j 0).val = (j 0).val; rw [h0]; omega
  | ⟨1, _⟩ => show win3_1.index t 1 * 768 + 1 * (j 1).val = (j 1).val; rw [h1]; omega
  | ⟨2, _⟩ => show win3_1.index t 2 * 50 + 1 * (j 2).val = (j 2).val; rw [h2]; omega

theorem iblk3_w2 (c : Dev nD) (t : Fin cfg3.N) : (iblk3 V c 2 t : Vec F S10x768x50 .bf16) = V c main_v68 := by
  obtain ⟨h0, h1, h2⟩ := (idxW3 t).2.2.1
  funext j
  unfold iblk3
  rw [View.read_apply]
  show V c main_v68 _ = V c main_v68 _
  congr 1
  funext a
  apply Fin.ext
  match a with
  | ⟨0, _⟩ => show win3_2.index t 0 * 10 + 1 * (j 0).val = (j 0).val; rw [h0]; omega
  | ⟨1, _⟩ => show win3_2.index t 1 * 768 + 1 * (j 1).val = (j 1).val; rw [h1]; omega
  | ⟨2, _⟩ => show win3_2.index t 2 * 50 + 1 * (j 2).val = (j 2).val; rw [h2]; omega

theorem iblk3_w6 (c : Dev nD) (t : Fin cfg3.N) : (iblk3 V c 6 t : Vec F S10x768x1 .f32) = V c main_v65 := by
  obtain ⟨h0, h1, h2⟩ := (idxW3 t).2.2.2.2.2.2
  funext j
  unfold iblk3
  rw [View.read_apply]
  show V c main_v65 _ = V c main_v65 _
  congr 1
  funext a
  apply Fin.ext
  match a with
  | ⟨0, _⟩ => show win3_6.index t 0 * 10 + 1 * (j 0).val = (j 0).val; rw [h0]; omega
  | ⟨1, _⟩ => show win3_6.index t 1 * 768 + 1 * (j 1).val = (j 1).val; rw [h1]; omega
  | ⟨2, _⟩ => show win3_6.index t 2 * 1 + 1 * (j 2).val = (j 2).val; rw [h2]; omega

theorem iblk3_w3 (c : Dev nD) (t : Fin cfg3.N) (b : Fin 10) (k : Fin 50) (j : Fin 256) (d : Fin 3072) (hd : d.val = 256 * t.val + j.val) :
    (iblk3 V c 3 t : Vec F S10x50x256 .bf16) (ix3 b k j) = V c main_v0 (ix3 b k d) := by
  obtain ⟨h0, h1, h2⟩ := (idxW3 t).2.2.2.1
  unfold iblk3
  rw [View.read_apply]
  show V c main_v0 _ = V c main_v0 _
  congr 1
  funext a
  apply Fin.ext
  match a with
  | ⟨0, _⟩ => show win3_3.index t 0 * 10 + 1 * b.val = b.val; rw [h0]; omega
  | ⟨1, _⟩ => show win3_3.index t 1 * 50 + 1 * k.val = k.val; rw [h1]; omega
  | ⟨2, _⟩ => show win3_3.index t 2 * 256 + 1 * j.val = d.val; rw [h2, hd]; omega

theorem iblk3_w4 (c : Dev nD) (t : Fin cfg3.N) (b : Fin 10) (k : Fin 50) (j : Fin 256) (d : Fin 3072) (hd : d.val = 256 * t.val + j.val) :
    (iblk3 V c 4 t : Vec F S10x50x256 .bf16) (ix3 b k j) = V c main_v1 (ix3 b k d) := by
  obtain ⟨h0, h1, h2⟩ := (idxW3 t).2.2.2.2.1
  unfold iblk3
  rw [View.read_apply]
  show V c main_v1 _ = V c main_v1 _
  congr 1
  funext a
  apply Fin.ext
  match a with
  | ⟨0, _⟩ => show win3_4.index t 0 * 10 + 1 * b.val = b.val; rw [h0]; omega
  | ⟨1, _⟩ => show win3_4.index t 1 * 50 + 1 * k.val = k.val; rw [h1]; omega
  | ⟨2, _⟩ => show win3_4.index t 2 * 256 + 1 * j.val = d.val; rw [h2, hd]; omega

theorem iblk3_w5 (c : Dev nD) (t : Fin cfg3.N) (b : Fin 10) (k : Fin 50) (j : Fin 256) (d : Fin 3072) (hd : d.val = 256 * t.val + j.val) :
    (iblk3 V c 5 t : Vec F S10x50x256 .bf16) (ix3 b k j) = V c main_v2 (ix3 b k d) := by
  obtain ⟨h0, h1, h2⟩ := (idxW3 t).2.2.2.2.2.1
  unfold iblk3
  rw [View.read_apply]
  show V c main_v2 _ = V c main_v2 _
  congr 1
  funext a
  apply Fin.ext
  match a with
  | ⟨0, _⟩ => show win3_5.index t 0 * 10 + 1 * b.val = b.val; rw [h0]; omega
  | ⟨1, _⟩ => show win3_5.index t 1 * 50 + 1 * k.val = k.val; rw [h1]; omega
  | ⟨2, _⟩ => show win3_5.index t 2 * 256 + 1 * j.val = d.val; rw [h2, hd]; omega

end Cert.KernelIdeal.Hand

end
-- ==== Proof.KI.PayBupd3.lean ====
/-
  The logit-update payloads (pallas_call 3) read at an index, at the ideal values.  The squashed-capsule tile is
  a(b,p,j) = factor(b,p) · s(b,p,j); each accumulator's entry (b,p,s) grows by Σⱼ a(b,p,j) · x(b,s,j) over the tile's 256 columns,
  x the tile of visual, acoustic or va.
-/
import proofs.«160248_j77816217469391_2_alg».proof.Proof.KI.Tile
import proofs.«160248_j77816217469391_2_alg».proof.Proof.Gen.KernelIdeal.Skeleton
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx
open scoped BigOperators

variable [hK : Cert.KernelIdeal.Facts]

/-- The squashed-capsule tile at an index. -/
theorem k3_pay10_apply (tv ta tva : Vec Ideal S10x50x256 .bf16) (c1 c2 c3 : Vec Ideal S10x768x50 .bf16) (fac : Vec Ideal S10x768x1 .f32)
    (b : Fin 10) (p : Fin 768) (j : Fin 256) :
    k3_pay10 (F := Ideal) tv ta tva c1 c2 c3 fac (ix3 b p j) = fac (ix3 b p 0) * sTile c1 c2 c3 tv ta tva b p j := by
  unfold k3_pay10 k3_pay7 k3_pay8 k3_pay9
  simp only [shapeCast_self]
  rw [truncf_apply, mulf_apply]
  congr 1
  · exact broadcastTo_apply _ _ (ix3 b p j) (ix3 b p 0) (fun a => by
      match a with
      | ⟨0, _⟩ => rfl
      | ⟨1, _⟩ => rfl
      | ⟨2, _⟩ => rfl)
  · simp only [addf_apply, matmul_KD1_apply]
    rfl

theorem k3_pay11_apply (tv ta tva : Vec Ideal S10x50x256 .bf16) (c1 c2 c3 : Vec Ideal S10x768x50 .bf16) (fac : Vec Ideal S10x768x1 .f32)
    (x : Vec Ideal S10x768x50 .f32) (b : Fin 10) (p : Fin 768) (s : Fin 50) :
    k3_pay1 (F := Ideal) (k3_pay11 tv ta tva c1 c2 c3 fac x) (ix3 b p s)
      = x (ix3 b p s) + ∑ j : Fin 256, (fac (ix3 b p 0) * sTile c1 c2 c3 tv ta tva b p j) * tv (ix3 b s j) := by
  unfold k3_pay1 k3_pay11 k3_pay7
  simp only [shapeCast_self]
  rw [addf_apply, matmul_KD2_apply]
  simp only [k3_pay10_apply]

theorem k3_pay2_apply (tv ta tva : Vec Ideal S10x50x256 .bf16) (c1 c2 c3 : Vec Ideal S10x768x50 .bf16) (fac : Vec Ideal S10x768x1 .f32)
    (x : Vec Ideal S10x768x50 .f32) (b : Fin 10) (p : Fin 768) (s : Fin 50) :
    k3_pay2 (F := Ideal) (k3_pay8 ta) (k3_pay10 tv ta tva c1 c2 c3 fac) x (ix3 b p s)
      = x (ix3 b p s) + ∑ j : Fin 256, (fac (ix3 b p 0) * sTile c1 c2 c3 tv ta tva b p j) * ta (ix3 b s j) := by
  unfold k3_pay2 k3_pay8
  simp only [shapeCast_self]
  rw [addf_apply, matmul_KD2_apply]
  simp only [k3_pay10_apply]

theorem k3_pay3_apply (tv ta tva : Vec Ideal S10x50x256 .bf16) (c1 c2 c3 : Vec Ideal S10x768x50 .bf16) (fac : Vec Ideal S10x768x1 .f32)
    (x : Vec Ideal S10x768x50 .f32) (b : Fin 10) (p : Fin 768) (s : Fin 50) :
    k3_pay3 (F := Ideal) (k3_pay9 tva) (k3_pay10 tv ta tva c1 c2 c3 fac) x (ix3 b p s)
      = x (ix3 b p s) + ∑ j : Fin 256, (fac (ix3 b p 0) * sTile c1 c2 c3 tv ta tva b p j) * tva (ix3 b s j) := by
  unfold k3_pay3 k3_pay9
  simp only [shapeCast_self]
  rw [addf_apply, matmul_KD2_apply]
  simp only [k3_pay10_apply]

/-- The zero blocks the first point stores. -/
theorem k3_pay456_apply (b : Fin 10) (p : Fin 768) (s : Fin 50) :
    k3_pay4 (F := Ideal) (ix3 b p s) = 0 ∧ k3_pay5 (F := Ideal) (ix3 b p s) = 0 ∧ k3_pay6 (F := Ideal) (ix3 b p s) = 0 := by
  unfold k3_pay4 k3_pay5 k3_pay6
  simp only [shapeCast_self]
  exact ⟨Ideal.ofBits_zero_f32, Ideal.ofBits_zero_f32, Ideal.ofBits_zero_f32⟩

end Cert.KernelIdeal.Hand

end
-- ==== Proof.KI.ValBupd3.lean ====
/-
  Region 3's three result arrays at the ideal values, entry by entry: zero plus the sum over all 3072 columns of
  (factor(b,p)·s(b,p,d)) · x(b,k,d), x the visual, acoustic or va array.  Each point adds its tile's 256 columns.
-/
import proofs.«160248_j77816217469391_2_alg».proof.Proof.KI.BlocksBupd3
import proofs.«160248_j77816217469391_2_alg».proof.Proof.KI.PayBupd3
import proofs.«160248_j77816217469391_2_alg».proof.Proof.KI.Caps
import proofs.«160248_j77816217469391_2_alg».proof.Proof.LibTileSum

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem
open Cert.Lib.TileSum
open scoped BigOperators

variable [hK : Cert.KernelIdeal.Facts]
variable (V : (c : Dev nD) → (b : Ref sig .tc) → Buf (Elt Ideal) ((c : Thread nD τ).loc b))

theorem sTile_eq_sCol3 (c : Dev nD) (t : Fin cfg3.N) (b : Fin 10) (p : Fin 768) (j : Fin 256) (d : Fin 3072) (hd : d.val = 256 * t.val + j.val) :
    sTile (iblk3 V c 0 t) (iblk3 V c 1 t) (iblk3 V c 2 t) (iblk3 V c 3 t) (iblk3 V c 4 t) (iblk3 V c 5 t) b p j
      = sCol (V c main_v66) (V c main_v67) (V c main_v68) (V c main_v0) (V c main_v1) (V c main_v2) b p d := by
  unfold sTile sCol
  rw [iblk3_w0 V c t, iblk3_w1 V c t, iblk3_w2 V c t]
  simp only [fun b k => iblk3_w3 V c t b k j d hd, fun b k => iblk3_w4 V c t b k j d hd, fun b k => iblk3_w5 V c t b k j d hd]

set_option maxHeartbeats 2000000 in
theorem step3_A (c : Dev nD) (t : Fin cfg3.N) (h12 : t.val < 12) (x : Vec Ideal S10x768x50 .f32) (b : Fin 10) (p : Fin 768) (s : Fin 50) :
    k3_pay1 (F := Ideal) (k3_pay11 (iblk3 V c 3 t) (iblk3 V c 4 t) (iblk3 V c 5 t) (iblk3 V c 0 t) (iblk3 V c 1 t) (iblk3 V c 2 t) (iblk3 V c 6 t) x) (ix3 b p s)
      = x (ix3 b p s) + ∑ j : Fin 256, bTerm (V c main_v65) (V c main_v66) (V c main_v67) (V c main_v68) (V c main_v0) (V c main_v1) (V c main_v2) (V c main_v0) b p s (col ⟨t.val, h12⟩ j) := by
  refine (k3_pay11_apply _ _ _ _ _ _ _ x b p s).trans ?_
  refine congrArg (x (ix3 b p s) + ·) ?_
  refine Finset.sum_congr rfl fun j _ => ?_
  unfold bTerm
  rw [sTile_eq_sCol3 V c t b p j (col ⟨t.val, h12⟩ j) rfl, iblk3_w6 V c t, iblk3_w3 V c t b s j (col ⟨t.val, h12⟩ j) rfl]

set_option maxHeartbeats 2000000 in
theorem step3_B (c : Dev nD) (t : Fin cfg3.N) (h12 : t.val < 12) (x : Vec Ideal S10x768x50 .f32) (b : Fin 10) (p : Fin 768) (s : Fin 50) :
    k3_pay2 (F := Ideal) (k3_pay8 (iblk3 V c 4 t)) (k3_pay10 (iblk3 V c 3 t) (iblk3 V c 4 t) (iblk3 V c 5 t) (iblk3 V c 0 t) (iblk3 V c 1 t) (iblk3 V c 2 t) (iblk3 V c 6 t)) x (ix3 b p s)
      = x (ix3 b p s) + ∑ j : Fin 256, bTerm (V c main_v65) (V c main_v66) (V c main_v67) (V c main_v68) (V c main_v0) (V c main_v1) (V c main_v2) (V c main_v1) b p s (col ⟨t.val, h12⟩ j) := by
  refine (k3_pay2_apply _ _ _ _ _ _ _ x b p s).trans ?_
  refine congrArg (x (ix3 b p s) + ·) ?_
  refine Finset.sum_congr rfl fun j _ => ?_
  unfold bTerm
  rw [sTile_eq_sCol3 V c t b p j (col ⟨t.val, h12⟩ j) rfl, iblk3_w6 V c t, iblk3_w4 V c t b s j (col ⟨t.val, h12⟩ j) rfl]

set_option maxHeartbeats 2000000 in
theorem step3_C (c : Dev nD) (t : Fin cfg3.N) (h12 : t.val < 12) (x : Vec Ideal S10x768x50 .f32) (b : Fin 10) (p : Fin 768) (s : Fin 50) :
    k3_pay3 (F := Ideal) (k3_pay9 (iblk3 V c 5 t)) (k3_pay10 (iblk3 V c 3 t) (iblk3 V c 4 t) (iblk3 V c 5 t) (iblk3 V c 0 t) (iblk3 V c 1 t) (iblk3 V c 2 t) (iblk3 V c 6 t)) x (ix3 b p s)
      = x (ix3 b p s) + ∑ j : Fin 256, bTerm (V c main_v65) (V c main_v66) (V c main_v67) (V c main_v68) (V c main_v0) (V c main_v1) (V c main_v2) (V c main_v2) b p s (col ⟨t.val, h12⟩ j) := by
  refine (k3_pay3_apply _ _ _ _ _ _ _ x b p s).trans ?_
  refine congrArg (x (ix3 b p s) + ·) ?_
  refine Finset.sum_congr rfl fun j _ => ?_
  unfold bTerm
  rw [sTile_eq_sCol3 V c t b p j (col ⟨t.val, h12⟩ j) rfl, iblk3_w6 V c t, iblk3_w5 V c t b s j (col ⟨t.val, h12⟩ j) rfl]

set_option maxHeartbeats 4000000 in
/-- The three accumulators after point `n` at entry (b, p, s): the running totals. -/
theorem acc3_apply (c : Dev nD) (b : Fin 10) (p : Fin 768) (s : Fin 50) (n : ℕ) : ∀ (hn : n < cfg3.N),
    (acc3 V c n hn).1 (ix3 b p s) = run (0 : EReal) (fun u => if h : u < 12 then ∑ j : Fin 256, bTerm (V c main_v65) (V c main_v66) (V c main_v67) (V c main_v68) (V c main_v0) (V c main_v1) (V c main_v2) (V c main_v0) b p s (col ⟨u, h⟩ j) else 0) n
    ∧ (acc3 V c n hn).2.1 (ix3 b p s) = run (0 : EReal) (fun u => if h : u < 12 then ∑ j : Fin 256, bTerm (V c main_v65) (V c main_v66) (V c main_v67) (V c main_v68) (V c main_v0) (V c main_v1) (V c main_v2) (V c main_v1) b p s (col ⟨u, h⟩ j) else 0) n
    ∧ (acc3 V c n hn).2.2 (ix3 b p s) = run (0 : EReal) (fun u => if h : u < 12 then ∑ j : Fin 256, bTerm (V c main_v65) (V c main_v66) (V c main_v67) (V c main_v68) (V c main_v0) (V c main_v1) (V c main_v2) (V c main_v2) b p s (col ⟨u, h⟩ j) else 0) n := by
  induction n with
  | zero =>
    intro hn
    have h12 : (0 : ℕ) < 12 := by decide
    rw [acc3_zero V c ⟨0, hn⟩ rfl]
    refine ⟨?_, ?_, ?_⟩
    · refine (step3_A V c ⟨0, hn⟩ h12 _ b p s).trans ?_
      rw [(k3_pay456_apply b p s).1, run, dif_pos h12]
    · refine (step3_B V c ⟨0, hn⟩ h12 _ b p s).trans ?_
      rw [(k3_pay456_apply b p s).2.1, run, dif_pos h12]
    · refine (step3_C V c ⟨0, hn⟩ h12 _ b p s).trans ?_
      rw [(k3_pay456_apply b p s).2.2, run, dif_pos h12]
  | succ n ih =>
    intro hn
    have h12 : n + 1 < 12 := lt_of_lt_of_eq hn (show cfg3.N = 12 from N_3)
    obtain ⟨i1, i2, i3⟩ := ih (Nat.lt_of_succ_lt hn)
    rw [acc3_pos V c ⟨n + 1, hn⟩ (Nat.succ_ne_zero n)]
    refine ⟨?_, ?_, ?_⟩
    · refine (step3_A V c ⟨n + 1, hn⟩ h12 _ b p s).trans ?_
      rw [run, dif_pos h12]
      exact congrArg (· + _) i1
    · refine (step3_B V c ⟨n + 1, hn⟩ h12 _ b p s).trans ?_
      rw [run, dif_pos h12]
      exact congrArg (· + _) i2
    · refine (step3_C V c ⟨n + 1, hn⟩ h12 _ b p s).trans ?_
      rw [run, dif_pos h12]
      exact congrArg (· + _) i3

/-- Result array 0: the logit update against main_v0. -/
theorem region3_eq_7 (c : Dev nD) :
    (dat3 V c).arrAt 7 cfg3.N = capsB (V c main_v65) (V c main_v66) (V c main_v67) (V c main_v68) (V c main_v0) (V c main_v1) (V c main_v2) (V c main_v0) := by
  rw [final3_7]
  funext i
  obtain ⟨b, p, s, rfl⟩ : ∃ (b : Fin 10) (p : Fin 768) (s : Fin 50), i = ix3 b p s := ⟨i 0, i 1, i 2, eq_ix3 i⟩
  refine ((acc3_apply V c b p s 11 _).1).trans ?_
  rw [run_last, zero_add]
  show (∑ t : Fin 12, _) = ∑ d : Fin 3072, bTerm (V c main_v65) (V c main_v66) (V c main_v67) (V c main_v68) (V c main_v0) (V c main_v1) (V c main_v2) (V c main_v0) b p s d
  rw [sum_cols]
  refine Finset.sum_congr rfl fun t _ => ?_
  exact (dif_pos t.isLt).trans rfl

/-- Result array 1: the logit update against main_v1. -/
theorem region3_eq_8 (c : Dev nD) :
    (dat3 V c).arrAt 8 cfg3.N = capsB (V c main_v65) (V c main_v66) (V c main_v67) (V c main_v68) (V c main_v0) (V c main_v1) (V c main_v2) (V c main_v1) := by
  rw [final3_8]
  funext i
  obtain ⟨b, p, s, rfl⟩ : ∃ (b : Fin 10) (p : Fin 768) (s : Fin 50), i = ix3 b p s := ⟨i 0, i 1, i 2, eq_ix3 i⟩
  refine ((acc3_apply V c b p s 11 _).2.1).trans ?_
  rw [run_last, zero_add]
  show (∑ t : Fin 12, _) = ∑ d : Fin 3072, bTerm (V c main_v65) (V c main_v66) (V c main_v67) (V c main_v68) (V c main_v0) (V c main_v1) (V c main_v2) (V c main_v1) b p s d
  rw [sum_cols]
  refine Finset.sum_congr rfl fun t _ => ?_
  exact (dif_pos t.isLt).trans rfl

/-- Result array 2: the logit update against main_v2. -/
theorem region3_eq_9 (c : Dev nD) :
    (dat3 V c).arrAt 9 cfg3.N = capsB (V c main_v65) (V c main_v66) (V c main_v67) (V c main_v68) (V c main_v0) (V c main_v1) (V c main_v2) (V c main_v2) := by
  rw [final3_9]
  funext i
  obtain ⟨b, p, s, rfl⟩ : ∃ (b : Fin 10) (p : Fin 768) (s : Fin 50), i = ix3 b p s := ⟨i 0, i 1, i 2, eq_ix3 i⟩
  refine ((acc3_apply V c b p s 11 _).2.2).trans ?_
  rw [run_last, zero_add]
  show (∑ t : Fin 12, _) = ∑ d : Fin 3072, bTerm (V c main_v65) (V c main_v66) (V c main_v67) (V c main_v68) (V c main_v0) (V c main_v1) (V c main_v2) (V c main_v2) b p s d
  rw [sum_cols]
  refine Finset.sum_congr rfl fun t _ => ?_
  exact (dif_pos t.isLt).trans rfl

end Cert.KernelIdeal.Hand

end
-- ==== Proof.KI.ValOut5.lean ====
/-
  The output region's result array at the ideal values.  At point `t` the body stores, into tile `t` of the [10,50,3072] result,
  out(b,k,j) = Σ_p W(b,k,p) · (factor(b,p) · s(b,p,j)) over the tile's columns; tile `t` is written back after point `t`, and the
  twelve tiles cover the array.  So the array ends at that sum over the 768 capsules, every column read off the whole arrays.
-/
import proofs.«160248_j77816217469391_2_alg».proof.Proof.KI.Region5
import proofs.«160248_j77816217469391_2_alg».proof.Proof.KI.Common
import proofs.«160248_j77816217469391_2_alg».proof.Proof.KI.Caps
import proofs.«160248_j77816217469391_2_alg».proof.Proof.LibTileSum
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem
open Idealize.ShloMosaic.Pipeline (Dat)
open Cert.Lib.TileSum
open scoped BigOperators

theorem idxW5 : ∀ t : Fin cfg5.N,
    (win5_0.index t 0 = 0 ∧ win5_0.index t 1 = 0 ∧ win5_0.index t 2 = 0)
    ∧ (win5_1.index t 0 = 0 ∧ win5_1.index t 1 = 0 ∧ win5_1.index t 2 = 0)
    ∧ (win5_2.index t 0 = 0 ∧ win5_2.index t 1 = 0 ∧ win5_2.index t 2 = 0)
    ∧ (win5_3.index t 0 = 0 ∧ win5_3.index t 1 = 0 ∧ win5_3.index t 2 = t.val)
    ∧ (win5_4.index t 0 = 0 ∧ win5_4.index t 1 = 0 ∧ win5_4.index t 2 = t.val)
    ∧ (win5_5.index t 0 = 0 ∧ win5_5.index t 1 = 0 ∧ win5_5.index t 2 = t.val)
    ∧ (win5_6.index t 0 = 0 ∧ win5_6.index t 1 = 0 ∧ win5_6.index t 2 = 0)
    ∧ (win5_7.index t 0 = 0 ∧ win5_7.index t 1 = 0 ∧ win5_7.index t 2 = 0)
    ∧ (win5_8.index t 0 = 0 ∧ win5_8.index t 1 = 0 ∧ win5_8.index t 2 = t.val) :=
  (by decide +kernel : ∀ t : Fin grid5.N, _)

theorem xsize5_8 : ∀ t : Fin cfg5.N, win5_8.xsize (grid5.coords t) 0 = 10 ∧ win5_8.xsize (grid5.coords t) 1 = 50 ∧ win5_8.xsize (grid5.coords t) 2 = 256 :=
  (by decide +kernel : ∀ t : Fin grid5.N, _)

variable [hK : Cert.KernelIdeal.Facts]

/-- The output payload at an index. -/
theorem k5_pay1_apply (c1 : Vec Ideal S10x768x50 .bf16) (tv : Vec Ideal S10x50x256 .bf16) (c2 : Vec Ideal S10x768x50 .bf16) (ta : Vec Ideal S10x50x256 .bf16)
    (c3 : Vec Ideal S10x768x50 .bf16) (tva : Vec Ideal S10x50x256 .bf16) (fac : Vec Ideal S10x768x1 .f32) (w : Vec Ideal S10x50x768 .bf16)
    (b : Fin 10) (s : Fin 50) (j : Fin 256) :
    k5_pay1 (F := Ideal) c1 tv c2 ta c3 tva fac w (ix3 b s j)
      = ∑ p : Fin 768, w (ix3 b s p) * (fac (ix3 b p 0) * sTile c1 c2 c3 tv ta tva b p j) := by
  unfold k5_pay1
  simp only [shapeCast_self]
  rw [matmul_KD3_apply]
  refine Finset.sum_congr rfl fun p _ => ?_
  refine congrArg (w (ix3 b s p) * ·) ?_
  rw [truncf_apply, mulf_apply]
  congr 1
  · exact broadcastTo_apply _ _ (ix3 b p j) (ix3 b p 0) (fun a => by
      match a with
      | ⟨0, _⟩ => rfl
      | ⟨1, _⟩ => rfl
      | ⟨2, _⟩ => rfl)
  · simp only [addf_apply, matmul_KD1_apply]
    rfl

variable (V : (c : Dev nD) → (b : Ref sig .tc) → Buf (Elt Ideal) ((c : Thread nD τ).loc b))

theorem iblk5_w0 (c : Dev nD) (t : Fin cfg5.N) : (iblk5 V c 0 t : Vec Ideal S10x768x50 .bf16) = V c main_v99 := by
  obtain ⟨h0, h1, h2⟩ := (idxW5 t).1
  funext j
  unfold iblk5
  rw [View.read_apply]
  show V c main_v99 _ = V c main_v99 _
  congr 1
  funext a
  apply Fin.ext
  match a with
  | ⟨0, _⟩ => show win5_0.index t 0 * 10 + 1 * (j 0).val = (j 0).val; rw [h0]; omega
  | ⟨1, _⟩ => show win5_0.index t 1 * 768 + 1 * (j 1).val = (j 1).val; rw [h1]; omega
  | ⟨2, _⟩ => show win5_0.index t 2 * 50 + 1 * (j 2).val = (j 2).val; rw [h2]; omega

theorem iblk5_w1 (c : Dev nD) (t : Fin cfg5.N) : (iblk5 V c 1 t : Vec Ideal S10x768x50 .bf16) = V c main_v100 := by
  obtain ⟨h0, h1, h2⟩ := (idxW5 t).2.1
  funext j
  unfold iblk5
  rw [View.read_apply]
  show V c main_v100 _ = V c main_v100 _
  congr 1
  funext a
  apply Fin.ext
  match a with
  | ⟨0, _⟩ => show win5_1.index t 0 * 10 + 1 * (j 0).val = (j 0).val; rw [h0]; omega
  | ⟨1, _⟩ => show win5_1.index t 1 * 768 + 1 * (j 1).val = (j 1).val; rw [h1]; omega
  | ⟨2, _⟩ => show win5_1.index t 2 * 50 + 1 * (j 2).val = (j 2).val; rw [h2]; omega

theorem iblk5_w2 (c : Dev nD) (t : Fin cfg5.N) : (iblk5 V c 2 t : Vec Ideal S10x768x50 .bf16) = V c main_v101 := by
  obtain ⟨h0, h1, h2⟩ := (idxW5 t).2.2.1
  funext j
  unfold iblk5
  rw [View.read_apply]
  show V c main_v101 _ = V c main_v101 _
  congr 1
  funext a
  apply Fin.ext
  match a with
  | ⟨0, _⟩ => show win5_2.index t 0 * 10 + 1 * (j 0).val = (j 0).val; rw [h0]; omega
  | ⟨1, _⟩ => show win5_2.index t 1 * 768 + 1 * (j 1).val = (j 1).val; rw [h1]; omega
  | ⟨2, _⟩ => show win5_2.index t 2 * 50 + 1 * (j 2).val = (j 2).val; rw [h2]; omega

theorem iblk5_w6 (c : Dev nD) (t : Fin cfg5.N) : (iblk5 V c 6 t : Vec Ideal S10x768x1 .f32) = V c main_v98 := by
  obtain ⟨h0, h1, h2⟩ := (idxW5 t).2.2.2.2.2.2.1
  funext j
  unfold iblk5
  rw [View.read_apply]
  show V c main_v98 _ = V c main_v98 _
  congr 1
  funext a
  apply Fin.ext
  match a with
  | ⟨0, _⟩ => show win5_6.index t 0 * 10 + 1 * (j 0).val = (j 0).val; rw [h0]; omega
  | ⟨1, _⟩ => show win5_6.index t 1 * 768 + 1 * (j 1).val = (j 1).val; rw [h1]; omega
  | ⟨2, _⟩ => show win5_6.index t 2 * 1 + 1 * (j 2).val = (j 2).val; rw [h2]; omega

theorem iblk5_w7 (c : Dev nD) (t : Fin cfg5.N) : (iblk5 V c 7 t : Vec Ideal S10x50x768 .bf16) = V c main_v3 := by
  obtain ⟨h0, h1, h2⟩ := (idxW5 t).2.2.2.2.2.2.2.1
  funext j
  unfold iblk5
  rw [View.read_apply]
  show V c main_v3 _ = V c main_v3 _
  congr 1
  funext a
  apply Fin.ext
  match a with
  | ⟨0, _⟩ => show win5_7.index t 0 * 10 + 1 * (j 0).val = (j 0).val; rw [h0]; omega
  | ⟨1, _⟩ => show win5_7.index t 1 * 50 + 1 * (j 1).val = (j 1).val; rw [h1]; omega
  | ⟨2, _⟩ => show win5_7.index t 2 * 768 + 1 * (j 2).val = (j 2).val; rw [h2]; omega

theorem iblk5_w3 (c : Dev nD) (t : Fin cfg5.N) (b : Fin 10) (k : Fin 50) (j : Fin 256) (d : Fin 3072) (hd : d.val = 256 * t.val + j.val) :
    (iblk5 V c 3 t : Vec Ideal S10x50x256 .bf16) (ix3 b k j) = V c main_v0 (ix3 b k d) := by
  obtain ⟨h0, h1, h2⟩ := (idxW5 t).2.2.2.1
  unfold iblk5
  rw [View.read_apply]
  show V c main_v0 _ = V c main_v0 _
  congr 1
  funext a
  apply Fin.ext
  match a with
  | ⟨0, _⟩ => show win5_3.index t 0 * 10 + 1 * b.val = b.val; rw [h0]; omega
  | ⟨1, _⟩ => show win5_3.index t 1 * 50 + 1 * k.val = k.val; rw [h1]; omega
  | ⟨2, _⟩ => show win5_3.index t 2 * 256 + 1 * j.val = d.val; rw [h2, hd]; omega

theorem iblk5_w4 (c : Dev nD) (t : Fin cfg5.N) (b : Fin 10) (k : Fin 50) (j : Fin 256) (d : Fin 3072) (hd : d.val = 256 * t.val + j.val) :
    (iblk5 V c 4 t : Vec Ideal S10x50x256 .bf16) (ix3 b k j) = V c main_v1 (ix3 b k d) := by
  obtain ⟨h0, h1, h2⟩ := (idxW5 t).2.2.2.2.1
  unfold iblk5
  rw [View.read_apply]
  show V c main_v1 _ = V c main_v1 _
  congr 1
  funext a
  apply Fin.ext
  match a with
  | ⟨0, _⟩ => show win5_4.index t 0 * 10 + 1 * b.val = b.val; rw [h0]; omega
  | ⟨1, _⟩ => show win5_4.index t 1 * 50 + 1 * k.val = k.val; rw [h1]; omega
  | ⟨2, _⟩ => show win5_4.index t 2 * 256 + 1 * j.val = d.val; rw [h2, hd]; omega

theorem iblk5_w5 (c : Dev nD) (t : Fin cfg5.N) (b : Fin 10) (k : Fin 50) (j : Fin 256) (d : Fin 3072) (hd : d.val = 256 * t.val + j.val) :
    (iblk5 V c 5 t : Vec Ideal S10x50x256 .bf16) (ix3 b k j) = V c main_v2 (ix3 b k d) := by
  obtain ⟨h0, h1, h2⟩ := (idxW5 t).2.2.2.2.2.1
  unfold iblk5
  rw [View.read_apply]
  show V c main_v2 _ = V c main_v2 _
  congr 1
  funext a
  apply Fin.ext
  match a with
  | ⟨0, _⟩ => show win5_5.index t 0 * 10 + 1 * b.val = b.val; rw [h0]; omega
  | ⟨1, _⟩ => show win5_5.index t 1 * 50 + 1 * k.val = k.val; rw [h1]; omega
  | ⟨2, _⟩ => show win5_5.index t 2 * 256 + 1 * j.val = d.val; rw [h2, hd]; omega

theorem sTile_eq_sCol5 (c : Dev nD) (t : Fin cfg5.N) (b : Fin 10) (p : Fin 768) (j : Fin 256) (d : Fin 3072) (hd : d.val = 256 * t.val + j.val) :
    sTile (iblk5 V c 0 t) (iblk5 V c 1 t) (iblk5 V c 2 t) (iblk5 V c 3 t) (iblk5 V c 4 t) (iblk5 V c 5 t) b p j
      = sCol (V c main_v99) (V c main_v100) (V c main_v101) (V c main_v0) (V c main_v1) (V c main_v2) b p d := by
  unfold sTile sCol
  rw [iblk5_w0 V c t, iblk5_w1 V c t, iblk5_w2 V c t]
  simp only [fun b k => iblk5_w3 V c t b k j d hd, fun b k => iblk5_w4 V c t b k j d hd, fun b k => iblk5_w5 V c t b k j d hd]

/-- The whole result array as one function of the operands. -/
abbrev G5 (c : Dev nD) : S10x50x3072.Idx → EReal :=
  capsOut (V c main_v3) (V c main_v98) (V c main_v99) (V c main_v100) (V c main_v101) (V c main_v0) (V c main_v1) (V c main_v2)

set_option maxHeartbeats 4000000 in
/-- What point `t` writes back is tile `t` of `G5`. -/
theorem flushed_eq5 (c : Dev nD) (t : Fin cfg5.N) :
    (dat5 V c).flushed 8 t = ((cfg5.win 8).blk t).view.read (Elt Ideal) (G5 V c) := by
  have h12 : t.val < 12 := lt_of_lt_of_eq t.isLt (show cfg5.N = 12 from N_5)
  obtain ⟨h0, h1, h2⟩ := (idxW5 t).2.2.2.2.2.2.2.2
  show (cfg5.win 8).cut (grid5.coords t) ((dat5 V c).after 8 t) = _
  rw [after5_8]
  unfold out5_8
  rw [View.canon_unit_zero hz3]
  simp only [View.ld_unit_zero (S := S10x768x50) hz3, View.ld_unit_zero (S := S10x50x256) hz3, View.ld_unit_zero (S := S10x768x1) hz3, View.ld_unit_zero (S := S10x50x768) hz3]
  refine funext fun (y : S10x50x256.Idx) => ?_
  show k5_pay1 (F := Ideal) (iblk5 V c 0 t) (iblk5 V c 3 t) (iblk5 V c 1 t) (iblk5 V c 4 t) (iblk5 V c 2 t) (iblk5 V c 5 t) (iblk5 V c 6 t) (iblk5 V c 7 t) y
    = G5 V c (((cfg5.win 8).blk t).view.emb y)
  obtain ⟨b, s, j, rfl⟩ : ∃ (b : Fin 10) (s : Fin 50) (j : Fin 256), y = ix3 b s j := ⟨y 0, y 1, y 2, eq_ix3 y⟩
  have hemb : ((cfg5.win 8).blk t).view.emb (ix3 b s j) = ix3 b s (col ⟨t.val, h12⟩ j) := by
    funext a
    apply Fin.ext
    match a with
    | ⟨0, _⟩ => show win5_8.index t 0 * 10 + 1 * b.val = b.val; rw [h0]; omega
    | ⟨1, _⟩ => show win5_8.index t 1 * 50 + 1 * s.val = s.val; rw [h1]; omega
    | ⟨2, _⟩ => show win5_8.index t 2 * 256 + 1 * j.val = 256 * t.val + j.val; rw [h2]; omega
  rw [hemb]
  refine (k5_pay1_apply _ _ _ _ _ _ _ _ b s j).trans ?_
  show _ = ∑ p : Fin 768, _
  refine Finset.sum_congr rfl fun p _ => ?_
  rw [sTile_eq_sCol5 V c t b p j (col ⟨t.val, h12⟩ j) rfl, iblk5_w6 V c t, iblk5_w7 V c t]

/-- THE RESULT ARRAY after the run. -/
theorem region5_eq (c : Dev nD) : (dat5 V c).arrAt 8 cfg5.N = G5 V c :=
  (dat5 V c).arrAt_eq_of_cover 8 (G5 V c) (fun t _ => flushed_eq5 V c t) fun i => by
    have hi2 : (i 2 : Nat) < 3072 := (i 2).isLt
    have hN : cfg5.N = 12 := N_5
    let t : Fin cfg5.N := ⟨(i 2 : Nat) / 256, by rw [hN]; omega⟩
    obtain ⟨h0, h1, h2⟩ := (idxW5 t).2.2.2.2.2.2.2.2
    obtain ⟨x0, x1, x2⟩ := xsize5_8 t
    refine ⟨t, flush5_8 t, ?_⟩
    show i ∈ ((View.whole main_v102).slice (win5_8.rect t)).set
    rw [View.set_slice_whole, Rect.mem_set_unit]
    intro a
    have hi0 : (i 0 : Nat) < 10 := (i 0).isLt
    have hi1 : (i 1 : Nat) < 50 := (i 1).isLt
    have ht : t.val = (i 2 : Nat) / 256 := rfl
    match a with
    | ⟨0, _⟩ => show win5_8.index t 0 * win5_8.size 0 ≤ (i 0 : Nat) ∧ (i 0 : Nat) < win5_8.index t 0 * win5_8.size 0 + win5_8.xsize (grid5.coords t) 0
                rw [h0, x0]; omega
    | ⟨1, _⟩ => show win5_8.index t 1 * win5_8.size 1 ≤ (i 1 : Nat) ∧ (i 1 : Nat) < win5_8.index t 1 * win5_8.size 1 + win5_8.xsize (grid5.coords t) 1
                rw [h1, x1]; omega
    | ⟨2, _⟩ => show win5_8.index t 2 * win5_8.size 2 ≤ (i 2 : Nat) ∧ (i 2 : Nat) < win5_8.index t 2 * win5_8.size 2 + win5_8.xsize (grid5.coords t) 2
                rw [h2, x2, show win5_8.size 2 = 256 from rfl]; omega

end Cert.KernelIdeal.Hand

end
-- ==== Proof.Spec.lean ====
/-
  The whole computation as one function of the four arguments, in the form both programs are brought to.

  A routing step takes three logit arrays b1, b2, b3 ([10,768,50]): the routing weights c1, c2, c3 are the three slices of the
  softmax of their concatenation along the capsule axis (the host operations both programs share, kept here as written);
  the capsule sums, their squared lengths and the squash factor follow (Proof/KI/Caps.lean); each logit array grows by its
  update.  Two steps from zero logits, then W times the squashed capsules of the third weights.
-/
import proofs.«160248_j77816217469391_2_alg».proof.ReferenceIdeal
import proofs.«160248_j77816217469391_2_alg».proof.Proof.KI.Caps

noncomputable section

namespace Cert.Spec

open Idealize.ShloMosaic Cert.ReferenceIdeal Cert.ReferenceIdeal.Facts₀
open Cert.KernelIdeal.Hand (capsQ capsFac capsB capsOut)

variable [hR : Cert.ReferenceIdeal.Facts]

abbrev A := S10x768x50.Idx → EReal
abbrev X := S10x50x3072.Idx → EReal

/-- The zero logits. -/
def zeroB : A := broadcastInDim S10x768x50 ![] bcast_S_S10x768x50 (constant (F := Ideal) S_ .f32 0x00000000#32)

/-- The softmax of the concatenated logits along the capsule axis, as the host operations compute it. -/
def soft (b1 b2 b3 : A) : S10x2304x50.Idx → EReal :=
  let cat : FVec Ideal S10x2304x50 .f32 := concatenate S10x2304x50 1 [⟨S10x768x50, b1⟩, ⟨S10x768x50, b2⟩, ⟨S10x768x50, b3⟩] concatenates_S10x768x50_S10x768x50_S10x768x50_S10x2304x50_d1
  let mx : FVec Ideal S10x50 .f32 := maximumf (broadcastInDim S10x50 ![] bcast_S_S10x50 (constant S_ .f32 0xFF800000#32))
    (Host.reduce FloatOps.maximumf cat (constant S_ .f32 0xFF800000#32) reducesTo_S10x2304x50_S10x50_d1 h_S_)
  let e : FVec Ideal S10x2304x50 .f32 := Host.exp (subf cat (broadcastInDim S10x2304x50 ![0, 1, 2] bcast_S10x1x50_S10x2304x50_0_1_2 (broadcastInDim S10x1x50 ![0, 2] bcast_S10x50_S10x1x50_0_2 mx)))
  let sm : FVec Ideal S10x50 .f32 := Host.reduceAdd e (constant S_ .f32 0x00000000#32) reducesTo_S10x2304x50_S10x50_d1 h_S_
  Host.divf e (broadcastInDim S10x2304x50 ![0, 1, 2] bcast_S10x1x50_S10x2304x50_0_1_2 (broadcastInDim S10x1x50 ![0, 2] bcast_S10x50_S10x1x50_0_2 sm))

def cw1 (b1 b2 b3 : A) : A := extractStridedSlice S10x768x50 ![0, 0, 0] (soft b1 b2 b3) slices_S10x2304x50_S10x768x50_0_0_0
def cw2 (b1 b2 b3 : A) : A := extractStridedSlice S10x768x50 ![0, 768, 0] (soft b1 b2 b3) slices_S10x2304x50_S10x768x50_0_768_0
def cw3 (b1 b2 b3 : A) : A := extractStridedSlice S10x768x50 ![0, 1536, 0] (soft b1 b2 b3) slices_S10x2304x50_S10x768x50_0_1536_0

/-- The squash factor of a routing step. -/
def fac (b1 b2 b3 : A) (x0 x1 x2 : X) : S10x768x1.Idx → EReal :=
  capsFac (capsQ (cw1 b1 b2 b3) (cw2 b1 b2 b3) (cw3 b1 b2 b3) x0 x1 x2)

/-- One routing step's new logits. -/
def step (b1 b2 b3 : A) (x0 x1 x2 : X) : A × A × A :=
  (addf (F := Ideal) (φ := .f32) b1 (capsB (fac b1 b2 b3 x0 x1 x2) (cw1 b1 b2 b3) (cw2 b1 b2 b3) (cw3 b1 b2 b3) x0 x1 x2 x0),
   addf (F := Ideal) (φ := .f32) b2 (capsB (fac b1 b2 b3 x0 x1 x2) (cw1 b1 b2 b3) (cw2 b1 b2 b3) (cw3 b1 b2 b3) x0 x1 x2 x1),
   addf (F := Ideal) (φ := .f32) b3 (capsB (fac b1 b2 b3 x0 x1 x2) (cw1 b1 b2 b3) (cw2 b1 b2 b3) (cw3 b1 b2 b3) x0 x1 x2 x2))

/-- The result from given logits. -/
def out (b1 b2 b3 : A) (x0 x1 x2 : X) (w : S10x50x768.Idx → EReal) : X :=
  capsOut w (fac b1 b2 b3 x0 x1 x2) (cw1 b1 b2 b3) (cw2 b1 b2 b3) (cw3 b1 b2 b3) x0 x1 x2

/-- The whole computation. -/
def spec (x0 x1 x2 : X) (w : S10x50x768.Idx → EReal) : X :=
  let s1 := step zeroB zeroB zeroB x0 x1 x2
  let s2 := step s1.1 s1.2.1 s1.2.2 x0 x1 x2
  out s2.1 s2.2.1 s2.2.2 x0 x1 x2 w

end Cert.Spec

end
-- ==== Proof.LibNary3.lean ====
/-
  A host operation over a LITERAL family of three references (a concatenation of three operands): its result with each
  operand's contents at its own reference, so that the results of the operations before it go on being read off one by one.
  The same for four operands is in the library; this is the three-operand form, with the one-pass reading of a straight line
  of host operations that uses it.
-/
import Idealize.ShloMosaic.Lib.StableHlo.Run

namespace Idealize.ShloMosaic.StableHlo

variable {τ : Topo} {sig : RefSig} {Val : EltTy → Type}
variable {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- `after_results_simp` with the three-operand form in place of the general one. -/
macro "after_results_simp3" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.KI.Glue.lean ====
/-
  The kernel program's buffers, stage by stage, at the ideal values.  Through the twelve segments the bf16 copies of the
  modalities and of W stay what the first host stretch made them (at the ideal values a change of format is the identity: the
  arguments themselves); each routing iteration's weights are the softmax slices of its logits, its region's result the squared
  lengths, the next host stretch's the squash factor, the update region's results the logit updates, and the last region's the
  result.  So the result buffer ends at the specification (Proof/Spec.lean) of the four arguments.
-/
import proofs.«160248_j77816217469391_2_alg».proof.Proof.KI.Run
import proofs.«160248_j77816217469391_2_alg».proof.Proof.KI.EqSumsq0
import proofs.«160248_j77816217469391_2_alg».proof.Proof.KI.EqSumsq2
import proofs.«160248_j77816217469391_2_alg».proof.Proof.KI.EqSumsq4
import proofs.«160248_j77816217469391_2_alg».proof.Proof.KI.ValBupd1
import proofs.«160248_j77816217469391_2_alg».proof.Proof.KI.ValBupd3
import proofs.«160248_j77816217469391_2_alg».proof.Proof.KI.ValOut5
import proofs.«160248_j77816217469391_2_alg».proof.Proof.Spec
import proofs.«160248_j77816217469391_2_alg».proof.Proof.LibNary3
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.StableHlo
open Idealize.SL Idealize.SL.Sem
open Cert.Spec (zeroB cw1 cw2 cw3 fac step spec)

section Split2
variable {F : FTy → Type} [FloatOps F]
/-- Host stretch 2: the three additions that make the new logits, then the softmax of their concatenation. -/
def pre2 : List (HloOp τ sig (Elt F)) :=
  [ StableHlo.binary main_v4 main_v36_0 main_v37 (addf : (⟨S10x768x50, .f32⟩ : BufTy).Contents (Elt F) → (⟨S10x768x50, .f32⟩ : BufTy).Contents (Elt F) → (⟨S10x768x50, .f32⟩ : BufTy).Contents (Elt F)),
    StableHlo.binary main_v5 main_v36_1 main_v38 (addf : (⟨S10x768x50, .f32⟩ : BufTy).Contents (Elt F) → (⟨S10x768x50, .f32⟩ : BufTy).Contents (Elt F) → (⟨S10x768x50, .f32⟩ : BufTy).Contents (Elt F)),
    StableHlo.binary main_v6 main_v36_2 main_v39 (addf : (⟨S10x768x50, .f32⟩ : BufTy).Contents (Elt F) → (⟨S10x768x50, .f32⟩ : BufTy).Contents (Elt F) → (⟨S10x768x50, .f32⟩ : BufTy).Contents (Elt F)) ]
def post2 : List (HloOp τ sig (Elt F)) :=
  [ StableHlo.nary ![main_v37, main_v38, main_v39] main_v40 (fun u => concatenate S10x2304x50 1 [⟨S10x768x50, u 0⟩, ⟨S10x768x50, u 1⟩, ⟨S10x768x50, u 2⟩] concatenates_S10x768x50_S10x768x50_S10x768x50_S10x2304x50_d1),
    StableHlo.nullary main_cst_7 (constant S_ .f32 0xFF800000#32),
    StableHlo.binary main_v40 main_cst_7 main_v41 ((fun x v => Host.reduce FloatOps.maximumf x v reducesTo_S10x2304x50_S10x50_d1 h_S_) : (⟨S10x2304x50, .f32⟩ : BufTy).Contents (Elt F) → (⟨S_, .f32⟩ : BufTy).Contents (Elt F) → (⟨S10x50, .f32⟩ : BufTy).Contents (Elt F)),
    StableHlo.nullary main_cst_8 (constant S_ .f32 0xFF800000#32),
    StableHlo.unary main_cst_8 main_v42 (broadcastInDim S10x50 ![] bcast_S_S10x50 : (⟨S_, .f32⟩ : BufTy).Contents (Elt F) → (⟨S10x50, .f32⟩ : BufTy).Contents (Elt F)),
    StableHlo.binary main_v42 main_v41 main_v43 (maximumf : (⟨S10x50, .f32⟩ : BufTy).Contents (Elt F) → (⟨S10x50, .f32⟩ : BufTy).Contents (Elt F) → (⟨S10x50, .f32⟩ : BufTy).Contents (Elt F)),
    StableHlo.unary main_v43 main_v44 (broadcastInDim S10x1x50 ![0, 2] bcast_S10x50_S10x1x50_0_2 : (⟨S10x50, .f32⟩ : BufTy).Contents (Elt F) → (⟨S10x1x50, .f32⟩ : BufTy).Contents (Elt F)),
    StableHlo.unary main_v44 main_v45 (broadcastInDim S10x2304x50 ![0, 1, 2] bcast_S10x1x50_S10x2304x50_0_1_2 : (⟨S10x1x50, .f32⟩ : BufTy).Contents (Elt F) → (⟨S10x2304x50, .f32⟩ : BufTy).Contents (Elt F)),
    StableHlo.binary main_v40 main_v45 main_v46 (subf : (⟨S10x2304x50, .f32⟩ : BufTy).Contents (Elt F) → (⟨S10x2304x50, .f32⟩ : BufTy).Contents (Elt F) → (⟨S10x2304x50, .f32⟩ : BufTy).Contents (Elt F)),
    StableHlo.unary main_v46 main_v47 (Host.exp : (⟨S10x2304x50, .f32⟩ : BufTy).Contents (Elt F) → (⟨S10x2304x50, .f32⟩ : BufTy).Contents (Elt F)),
    StableHlo.nullary main_cst_9 (constant S_ .f32 0x00000000#32),
    StableHlo.binary main_v47 main_cst_9 main_v48 ((fun x v => Host.reduceAdd x v reducesTo_S10x2304x50_S10x50_d1 h_S_) : (⟨S10x2304x50, .f32⟩ : BufTy).Contents (Elt F) → (⟨S_, .f32⟩ : BufTy).Contents (Elt F) → (⟨S10x50, .f32⟩ : BufTy).Contents (Elt F)),
    StableHlo.unary main_v48 main_v49 (broadcastInDim S10x1x50 ![0, 2] bcast_S10x50_S10x1x50_0_2 : (⟨S10x50, .f32⟩ : BufTy).Contents (Elt F) → (⟨S10x1x50, .f32⟩ : BufTy).Contents (Elt F)),
    StableHlo.unary main_v49 main_v50 (broadcastInDim S10x2304x50 ![0, 1, 2] bcast_S10x1x50_S10x2304x50_0_1_2 : (⟨S10x1x50, .f32⟩ : BufTy).Contents (Elt F) → (⟨S10x2304x50, .f32⟩ : BufTy).Contents (Elt F)),
    StableHlo.binary main_v47 main_v50 main_v51 (Host.divf : (⟨S10x2304x50, .f32⟩ : BufTy).Contents (Elt F) → (⟨S10x2304x50, .f32⟩ : BufTy).Contents (Elt F) → (⟨S10x2304x50, .f32⟩ : BufTy).Contents (Elt F)),
    StableHlo.unary main_v51 main_v52 ((extractStridedSlice S10x768x50 ![0, 0, 0] · slices_S10x2304x50_S10x768x50_0_0_0) : (⟨S10x2304x50, .f32⟩ : BufTy).Contents (Elt F) → (⟨S10x768x50, .f32⟩ : BufTy).Contents (Elt F)),
    StableHlo.unary main_v51 main_v53 ((extractStridedSlice S10x768x50 ![0, 768, 0] · slices_S10x2304x50_S10x768x50_0_768_0) : (⟨S10x2304x50, .f32⟩ : BufTy).Contents (Elt F) → (⟨S10x768x50, .f32⟩ : BufTy).Contents (Elt F)),
    StableHlo.unary main_v51 main_v54 ((extractStridedSlice S10x768x50 ![0, 1536, 0] · slices_S10x2304x50_S10x768x50_0_1536_0) : (⟨S10x2304x50, .f32⟩ : BufTy).Contents (Elt F) → (⟨S10x768x50, .f32⟩ : BufTy).Contents (Elt F)),
    StableHlo.unary main_v52 main_v55 ((truncf .bf16 · bitsLt_bf16_f32) : (⟨S10x768x50, .f32⟩ : BufTy).Contents (Elt F) → (⟨S10x768x50, .bf16⟩ : BufTy).Contents (Elt F)),
    StableHlo.unary main_v53 main_v56 ((truncf .bf16 · bitsLt_bf16_f32) : (⟨S10x768x50, .f32⟩ : BufTy).Contents (Elt F) → (⟨S10x768x50, .bf16⟩ : BufTy).Contents (Elt F)),
    StableHlo.unary main_v54 main_v57 ((truncf .bf16 · bitsLt_bf16_f32) : (⟨S10x768x50, .f32⟩ : BufTy).Contents (Elt F) → (⟨S10x768x50, .bf16⟩ : BufTy).Contents (Elt F)) ]
theorem hostOps2_split : (hostOps2 : List (HloOp τ sig (Elt F))) = pre2 ++ post2 := rfl
end Split2

section Split4
variable {F : FTy → Type} [FloatOps F]
/-- Host stretch 4: the three additions that make the new logits, then the softmax of their concatenation. -/
def pre4 : List (HloOp τ sig (Elt F)) :=
  [ StableHlo.binary main_v37 main_v69_0 main_v70 (addf : (⟨S10x768x50, .f32⟩ : BufTy).Contents (Elt F) → (⟨S10x768x50, .f32⟩ : BufTy).Contents (Elt F) → (⟨S10x768x50, .f32⟩ : BufTy).Contents (Elt F)),
    StableHlo.binary main_v38 main_v69_1 main_v71 (addf : (⟨S10x768x50, .f32⟩ : BufTy).Contents (Elt F) → (⟨S10x768x50, .f32⟩ : BufTy).Contents (Elt F) → (⟨S10x768x50, .f32⟩ : BufTy).Contents (Elt F)),
    StableHlo.binary main_v39 main_v69_2 main_v72 (addf : (⟨S10x768x50, .f32⟩ : BufTy).Contents (Elt F) → (⟨S10x768x50, .f32⟩ : BufTy).Contents (Elt F) → (⟨S10x768x50, .f32⟩ : BufTy).Contents (Elt F)) ]
def post4 : List (HloOp τ sig (Elt F)) :=
  [ StableHlo.nary ![main_v70, main_v71, main_v72] main_v73 (fun u => concatenate S10x2304x50 1 [⟨S10x768x50, u 0⟩, ⟨S10x768x50, u 1⟩, ⟨S10x768x50, u 2⟩] concatenates_S10x768x50_S10x768x50_S10x768x50_S10x2304x50_d1),
    StableHlo.nullary main_cst_12 (constant S_ .f32 0xFF800000#32),
    StableHlo.binary main_v73 main_cst_12 main_v74 ((fun x v => Host.reduce FloatOps.maximumf x v reducesTo_S10x2304x50_S10x50_d1 h_S_) : (⟨S10x2304x50, .f32⟩ : BufTy).Contents (Elt F) → (⟨S_, .f32⟩ : BufTy).Contents (Elt F) → (⟨S10x50, .f32⟩ : BufTy).Contents (Elt F)),
    StableHlo.nullary main_cst_13 (constant S_ .f32 0xFF800000#32),
    StableHlo.unary main_cst_13 main_v75 (broadcastInDim S10x50 ![] bcast_S_S10x50 : (⟨S_, .f32⟩ : BufTy).Contents (Elt F) → (⟨S10x50, .f32⟩ : BufTy).Contents (Elt F)),
    StableHlo.binary main_v75 main_v74 main_v76 (maximumf : (⟨S10x50, .f32⟩ : BufTy).Contents (Elt F) → (⟨S10x50, .f32⟩ : BufTy).Contents (Elt F) → (⟨S10x50, .f32⟩ : BufTy).Contents (Elt F)),
    StableHlo.unary main_v76 main_v77 (broadcastInDim S10x1x50 ![0, 2] bcast_S10x50_S10x1x50_0_2 : (⟨S10x50, .f32⟩ : BufTy).Contents (Elt F) → (⟨S10x1x50, .f32⟩ : BufTy).Contents (Elt F)),
    StableHlo.unary main_v77 main_v78 (broadcastInDim S10x2304x50 ![0, 1, 2] bcast_S10x1x50_S10x2304x50_0_1_2 : (⟨S10x1x50, .f32⟩ : BufTy).Contents (Elt F) → (⟨S10x2304x50, .f32⟩ : BufTy).Contents (Elt F)),
    StableHlo.binary main_v73 main_v78 main_v79 (subf : (⟨S10x2304x50, .f32⟩ : BufTy).Contents (Elt F) → (⟨S10x2304x50, .f32⟩ : BufTy).Contents (Elt F) → (⟨S10x2304x50, .f32⟩ : BufTy).Contents (Elt F)),
    StableHlo.unary main_v79 main_v80 (Host.exp : (⟨S10x2304x50, .f32⟩ : BufTy).Contents (Elt F) → (⟨S10x2304x50, .f32⟩ : BufTy).Contents (Elt F)),
    StableHlo.nullary main_cst_14 (constant S_ .f32 0x00000000#32),
    StableHlo.binary main_v80 main_cst_14 main_v81 ((fun x v => Host.reduceAdd x v reducesTo_S10x2304x50_S10x50_d1 h_S_) : (⟨S10x2304x50, .f32⟩ : BufTy).Contents (Elt F) → (⟨S_, .f32⟩ : BufTy).Contents (Elt F) → (⟨S10x50, .f32⟩ : BufTy).Contents (Elt F)),
    StableHlo.unary main_v81 main_v82 (broadcastInDim S10x1x50 ![0, 2] bcast_S10x50_S10x1x50_0_2 : (⟨S10x50, .f32⟩ : BufTy).Contents (Elt F) → (⟨S10x1x50, .f32⟩ : BufTy).Contents (Elt F)),
    StableHlo.unary main_v82 main_v83 (broadcastInDim S10x2304x50 ![0, 1, 2] bcast_S10x1x50_S10x2304x50_0_1_2 : (⟨S10x1x50, .f32⟩ : BufTy).Contents (Elt F) → (⟨S10x2304x50, .f32⟩ : BufTy).Contents (Elt F)),
    StableHlo.binary main_v80 main_v83 main_v84 (Host.divf : (⟨S10x2304x50, .f32⟩ : BufTy).Contents (Elt F) → (⟨S10x2304x50, .f32⟩ : BufTy).Contents (Elt F) → (⟨S10x2304x50, .f32⟩ : BufTy).Contents (Elt F)),
    StableHlo.unary main_v84 main_v85 ((extractStridedSlice S10x768x50 ![0, 0, 0] · slices_S10x2304x50_S10x768x50_0_0_0) : (⟨S10x2304x50, .f32⟩ : BufTy).Contents (Elt F) → (⟨S10x768x50, .f32⟩ : BufTy).Contents (Elt F)),
    StableHlo.unary main_v84 main_v86 ((extractStridedSlice S10x768x50 ![0, 768, 0] · slices_S10x2304x50_S10x768x50_0_768_0) : (⟨S10x2304x50, .f32⟩ : BufTy).Contents (Elt F) → (⟨S10x768x50, .f32⟩ : BufTy).Contents (Elt F)),
    StableHlo.unary main_v84 main_v87 ((extractStridedSlice S10x768x50 ![0, 1536, 0] · slices_S10x2304x50_S10x768x50_0_1536_0) : (⟨S10x2304x50, .f32⟩ : BufTy).Contents (Elt F) → (⟨S10x768x50, .f32⟩ : BufTy).Contents (Elt F)),
    StableHlo.unary main_v85 main_v88 ((truncf .bf16 · bitsLt_bf16_f32) : (⟨S10x768x50, .f32⟩ : BufTy).Contents (Elt F) → (⟨S10x768x50, .bf16⟩ : BufTy).Contents (Elt F)),
    StableHlo.unary main_v86 main_v89 ((truncf .bf16 · bitsLt_bf16_f32) : (⟨S10x768x50, .f32⟩ : BufTy).Contents (Elt F) → (⟨S10x768x50, .bf16⟩ : BufTy).Contents (Elt F)),
    StableHlo.unary main_v87 main_v90 ((truncf .bf16 · bitsLt_bf16_f32) : (⟨S10x768x50, .f32⟩ : BufTy).Contents (Elt F) → (⟨S10x768x50, .bf16⟩ : BufTy).Contents (Elt F)) ]
theorem hostOps4_split : (hostOps4 : List (HloOp τ sig (Elt F))) = pre4 ++ post4 := rfl
end Split4

variable [hK : Cert.KernelIdeal.Facts] [hR : Cert.ReferenceIdeal.Facts]
variable (m : (ℓ : Loc nD τ sig) → Buf (Elt Ideal) ℓ) (ρ : Dev nD → PrngReg)

/-- The four arguments on core `c`. -/
abbrev x0 (c : Dev nD) : S10x50x3072.Idx → EReal := m ((c : Thread nD τ).loc main_arg0)
abbrev x1 (c : Dev nD) : S10x50x3072.Idx → EReal := m ((c : Thread nD τ).loc main_arg1)
abbrev x2 (c : Dev nD) : S10x50x3072.Idx → EReal := m ((c : Thread nD τ).loc main_arg2)
abbrev xw (c : Dev nD) : S10x50x768.Idx → EReal := m ((c : Thread nD τ).loc main_arg3)

/-! ## The modalities and W pass through every stage -/

set_option maxHeartbeats 8000000 in
theorem W1_v0 (c : Dev nD) : W1 m ρ c (Proc.devRef .tc main_v0) = x0 m c := by
  show StableHlo.after hostOps0 (W0 m ρ c) (Proc.devRef .tc main_v0) = _
  dsimp only [hostOps0]
  after_results_simp3
  rfl

set_option maxHeartbeats 8000000 in
theorem W1_v1 (c : Dev nD) : W1 m ρ c (Proc.devRef .tc main_v1) = x1 m c := by
  show StableHlo.after hostOps0 (W0 m ρ c) (Proc.devRef .tc main_v1) = _
  dsimp only [hostOps0]
  after_results_simp3
  rfl

set_option maxHeartbeats 8000000 in
theorem W1_v2 (c : Dev nD) : W1 m ρ c (Proc.devRef .tc main_v2) = x2 m c := by
  show StableHlo.after hostOps0 (W0 m ρ c) (Proc.devRef .tc main_v2) = _
  dsimp only [hostOps0]
  after_results_simp3
  rfl

set_option maxHeartbeats 8000000 in
theorem W1_v3 (c : Dev nD) : W1 m ρ c (Proc.devRef .tc main_v3) = xw m c := by
  show StableHlo.after hostOps0 (W0 m ρ c) (Proc.devRef .tc main_v3) = _
  dsimp only [hostOps0]
  after_results_simp3
  rfl

theorem W2_v0 (c : Dev nD) : W2 m ρ c (Proc.devRef .tc main_v0) = x0 m c :=
  ((W2_arr m ρ c 3).trans (((dat0 (V1 m ρ) c).arrAt_in 3 rfl _).trans (A_eq0 (V1 m ρ) c 3))).trans (W1_v0 m ρ c)

theorem W2_v1 (c : Dev nD) : W2 m ρ c (Proc.devRef .tc main_v1) = x1 m c :=
  ((W2_arr m ρ c 4).trans (((dat0 (V1 m ρ) c).arrAt_in 4 rfl _).trans (A_eq0 (V1 m ρ) c 4))).trans (W1_v1 m ρ c)

theorem W2_v2 (c : Dev nD) : W2 m ρ c (Proc.devRef .tc main_v2) = x2 m c :=
  ((W2_arr m ρ c 5).trans (((dat0 (V1 m ρ) c).arrAt_in 5 rfl _).trans (A_eq0 (V1 m ρ) c 5))).trans (W1_v2 m ρ c)

theorem W2_v3 (c : Dev nD) : W2 m ρ c (Proc.devRef .tc main_v3) = xw m c :=
  (W2_of_ne m ρ c main_v3 (by decide)).trans (W1_v3 m ρ c)

theorem W3_v0 (c : Dev nD) : W3 m ρ c (Proc.devRef .tc main_v0) = x0 m c :=
  (StableHlo.after_of_writes_sub hostOps1 _ hostOps1_writes (by decide)).trans (W2_v0 m ρ c)

theorem W3_v1 (c : Dev nD) : W3 m ρ c (Proc.devRef .tc main_v1) = x1 m c :=
  (StableHlo.after_of_writes_sub hostOps1 _ hostOps1_writes (by decide)).trans (W2_v1 m ρ c)

theorem W3_v2 (c : Dev nD) : W3 m ρ c (Proc.devRef .tc main_v2) = x2 m c :=
  (StableHlo.after_of_writes_sub hostOps1 _ hostOps1_writes (by decide)).trans (W2_v2 m ρ c)

theorem W3_v3 (c : Dev nD) : W3 m ρ c (Proc.devRef .tc main_v3) = xw m c :=
  (StableHlo.after_of_writes_sub hostOps1 _ hostOps1_writes (by decide)).trans (W2_v3 m ρ c)

theorem W4_v0 (c : Dev nD) : W4 m ρ c (Proc.devRef .tc main_v0) = x0 m c :=
  ((W4_arr m ρ c 3).trans (((dat1 (V3 m ρ) c).arrAt_in 3 rfl _).trans (A_eq1 (V3 m ρ) c 3))).trans (W3_v0 m ρ c)

theorem W4_v1 (c : Dev nD) : W4 m ρ c (Proc.devRef .tc main_v1) = x1 m c :=
  ((W4_arr m ρ c 4).trans (((dat1 (V3 m ρ) c).arrAt_in 4 rfl _).trans (A_eq1 (V3 m ρ) c 4))).trans (W3_v1 m ρ c)

theorem W4_v2 (c : Dev nD) : W4 m ρ c (Proc.devRef .tc main_v2) = x2 m c :=
  ((W4_arr m ρ c 5).trans (((dat1 (V3 m ρ) c).arrAt_in 5 rfl _).trans (A_eq1 (V3 m ρ) c 5))).trans (W3_v2 m ρ c)

theorem W4_v3 (c : Dev nD) : W4 m ρ c (Proc.devRef .tc main_v3) = xw m c :=
  (W4_of_ne m ρ c main_v3 (by decide)).trans (W3_v3 m ρ c)

theorem W5_v0 (c : Dev nD) : W5 m ρ c (Proc.devRef .tc main_v0) = x0 m c :=
  (StableHlo.after_of_writes_sub hostOps2 _ hostOps2_writes (by decide)).trans (W4_v0 m ρ c)

theorem W5_v1 (c : Dev nD) : W5 m ρ c (Proc.devRef .tc main_v1) = x1 m c :=
  (StableHlo.after_of_writes_sub hostOps2 _ hostOps2_writes (by decide)).trans (W4_v1 m ρ c)

theorem W5_v2 (c : Dev nD) : W5 m ρ c (Proc.devRef .tc main_v2) = x2 m c :=
  (StableHlo.after_of_writes_sub hostOps2 _ hostOps2_writes (by decide)).trans (W4_v2 m ρ c)

theorem W5_v3 (c : Dev nD) : W5 m ρ c (Proc.devRef .tc main_v3) = xw m c :=
  (StableHlo.after_of_writes_sub hostOps2 _ hostOps2_writes (by decide)).trans (W4_v3 m ρ c)

theorem W6_v0 (c : Dev nD) : W6 m ρ c (Proc.devRef .tc main_v0) = x0 m c :=
  ((W6_arr m ρ c 3).trans (((dat2 (V5 m ρ) c).arrAt_in 3 rfl _).trans (A_eq2 (V5 m ρ) c 3))).trans (W5_v0 m ρ c)

theorem W6_v1 (c : Dev nD) : W6 m ρ c (Proc.devRef .tc main_v1) = x1 m c :=
  ((W6_arr m ρ c 4).trans (((dat2 (V5 m ρ) c).arrAt_in 4 rfl _).trans (A_eq2 (V5 m ρ) c 4))).trans (W5_v1 m ρ c)

theorem W6_v2 (c : Dev nD) : W6 m ρ c (Proc.devRef .tc main_v2) = x2 m c :=
  ((W6_arr m ρ c 5).trans (((dat2 (V5 m ρ) c).arrAt_in 5 rfl _).trans (A_eq2 (V5 m ρ) c 5))).trans (W5_v2 m ρ c)

theorem W6_v3 (c : Dev nD) : W6 m ρ c (Proc.devRef .tc main_v3) = xw m c :=
  (W6_of_ne m ρ c main_v3 (by decide)).trans (W5_v3 m ρ c)

theorem W7_v0 (c : Dev nD) : W7 m ρ c (Proc.devRef .tc main_v0) = x0 m c :=
  (StableHlo.after_of_writes_sub hostOps3 _ hostOps3_writes (by decide)).trans (W6_v0 m ρ c)

theorem W7_v1 (c : Dev nD) : W7 m ρ c (Proc.devRef .tc main_v1) = x1 m c :=
  (StableHlo.after_of_writes_sub hostOps3 _ hostOps3_writes (by decide)).trans (W6_v1 m ρ c)

theorem W7_v2 (c : Dev nD) : W7 m ρ c (Proc.devRef .tc main_v2) = x2 m c :=
  (StableHlo.after_of_writes_sub hostOps3 _ hostOps3_writes (by decide)).trans (W6_v2 m ρ c)

theorem W7_v3 (c : Dev nD) : W7 m ρ c (Proc.devRef .tc main_v3) = xw m c :=
  (StableHlo.after_of_writes_sub hostOps3 _ hostOps3_writes (by decide)).trans (W6_v3 m ρ c)

theorem W8_v0 (c : Dev nD) : W8 m ρ c (Proc.devRef .tc main_v0) = x0 m c :=
  ((W8_arr m ρ c 3).trans (((dat3 (V7 m ρ) c).arrAt_in 3 rfl _).trans (A_eq3 (V7 m ρ) c 3))).trans (W7_v0 m ρ c)

theorem W8_v1 (c : Dev nD) : W8 m ρ c (Proc.devRef .tc main_v1) = x1 m c :=
  ((W8_arr m ρ c 4).trans (((dat3 (V7 m ρ) c).arrAt_in 4 rfl _).trans (A_eq3 (V7 m ρ) c 4))).trans (W7_v1 m ρ c)

theorem W8_v2 (c : Dev nD) : W8 m ρ c (Proc.devRef .tc main_v2) = x2 m c :=
  ((W8_arr m ρ c 5).trans (((dat3 (V7 m ρ) c).arrAt_in 5 rfl _).trans (A_eq3 (V7 m ρ) c 5))).trans (W7_v2 m ρ c)

theorem W8_v3 (c : Dev nD) : W8 m ρ c (Proc.devRef .tc main_v3) = xw m c :=
  (W8_of_ne m ρ c main_v3 (by decide)).trans (W7_v3 m ρ c)

theorem W9_v0 (c : Dev nD) : W9 m ρ c (Proc.devRef .tc main_v0) = x0 m c :=
  (StableHlo.after_of_writes_sub hostOps4 _ hostOps4_writes (by decide)).trans (W8_v0 m ρ c)

theorem W9_v1 (c : Dev nD) : W9 m ρ c (Proc.devRef .tc main_v1) = x1 m c :=
  (StableHlo.after_of_writes_sub hostOps4 _ hostOps4_writes (by decide)).trans (W8_v1 m ρ c)

theorem W9_v2 (c : Dev nD) : W9 m ρ c (Proc.devRef .tc main_v2) = x2 m c :=
  (StableHlo.after_of_writes_sub hostOps4 _ hostOps4_writes (by decide)).trans (W8_v2 m ρ c)

theorem W9_v3 (c : Dev nD) : W9 m ρ c (Proc.devRef .tc main_v3) = xw m c :=
  (StableHlo.after_of_writes_sub hostOps4 _ hostOps4_writes (by decide)).trans (W8_v3 m ρ c)

theorem W10_v0 (c : Dev nD) : W10 m ρ c (Proc.devRef .tc main_v0) = x0 m c :=
  ((W10_arr m ρ c 3).trans (((dat4 (V9 m ρ) c).arrAt_in 3 rfl _).trans (A_eq4 (V9 m ρ) c 3))).trans (W9_v0 m ρ c)

theorem W10_v1 (c : Dev nD) : W10 m ρ c (Proc.devRef .tc main_v1) = x1 m c :=
  ((W10_arr m ρ c 4).trans (((dat4 (V9 m ρ) c).arrAt_in 4 rfl _).trans (A_eq4 (V9 m ρ) c 4))).trans (W9_v1 m ρ c)

theorem W10_v2 (c : Dev nD) : W10 m ρ c (Proc.devRef .tc main_v2) = x2 m c :=
  ((W10_arr m ρ c 5).trans (((dat4 (V9 m ρ) c).arrAt_in 5 rfl _).trans (A_eq4 (V9 m ρ) c 5))).trans (W9_v2 m ρ c)

theorem W10_v3 (c : Dev nD) : W10 m ρ c (Proc.devRef .tc main_v3) = xw m c :=
  (W10_of_ne m ρ c main_v3 (by decide)).trans (W9_v3 m ρ c)

theorem W11_v0 (c : Dev nD) : W11 m ρ c (Proc.devRef .tc main_v0) = x0 m c :=
  (StableHlo.after_of_writes_sub hostOps5 _ hostOps5_writes (by decide)).trans (W10_v0 m ρ c)

theorem W11_v1 (c : Dev nD) : W11 m ρ c (Proc.devRef .tc main_v1) = x1 m c :=
  (StableHlo.after_of_writes_sub hostOps5 _ hostOps5_writes (by decide)).trans (W10_v1 m ρ c)

theorem W11_v2 (c : Dev nD) : W11 m ρ c (Proc.devRef .tc main_v2) = x2 m c :=
  (StableHlo.after_of_writes_sub hostOps5 _ hostOps5_writes (by decide)).trans (W10_v2 m ρ c)

theorem W11_v3 (c : Dev nD) : W11 m ρ c (Proc.devRef .tc main_v3) = xw m c :=
  (StableHlo.after_of_writes_sub hostOps5 _ hostOps5_writes (by decide)).trans (W10_v3 m ρ c)

/-! ## Routing iteration 1 -/

set_option maxHeartbeats 8000000 in
theorem W1_b0 (c : Dev nD) : W1 m ρ c (Proc.devRef .tc main_v4) = zeroB := by
  show StableHlo.after hostOps0 (W0 m ρ c) (Proc.devRef .tc main_v4) = _
  dsimp only [hostOps0]
  after_results_simp3
  rfl

set_option maxHeartbeats 8000000 in
theorem W1_b1 (c : Dev nD) : W1 m ρ c (Proc.devRef .tc main_v5) = zeroB := by
  show StableHlo.after hostOps0 (W0 m ρ c) (Proc.devRef .tc main_v5) = _
  dsimp only [hostOps0]
  after_results_simp3
  rfl

set_option maxHeartbeats 8000000 in
theorem W1_b2 (c : Dev nD) : W1 m ρ c (Proc.devRef .tc main_v6) = zeroB := by
  show StableHlo.after hostOps0 (W0 m ρ c) (Proc.devRef .tc main_v6) = _
  dsimp only [hostOps0]
  after_results_simp3
  rfl

set_option maxHeartbeats 8000000 in
theorem W1_c0 (c : Dev nD) : W1 m ρ c (Proc.devRef .tc main_v19) = cw1 zeroB zeroB zeroB := by
  show StableHlo.after hostOps0 (W0 m ρ c) (Proc.devRef .tc main_v19) = _
  dsimp only [hostOps0]
  after_results_simp3
  rfl

set_option maxHeartbeats 8000000 in
theorem W1_cb0 (c : Dev nD) : W1 m ρ c (Proc.devRef .tc main_v22) = cw1 zeroB zeroB zeroB := by
  show StableHlo.after hostOps0 (W0 m ρ c) (Proc.devRef .tc main_v22) = _
  dsimp only [hostOps0]
  after_results_simp3
  rfl

set_option maxHeartbeats 8000000 in
theorem W1_c1 (c : Dev nD) : W1 m ρ c (Proc.devRef .tc main_v20) = cw2 zeroB zeroB zeroB := by
  show StableHlo.after hostOps0 (W0 m ρ c) (Proc.devRef .tc main_v20) = _
  dsimp only [hostOps0]
  after_results_simp3
  rfl

set_option maxHeartbeats 8000000 in
theorem W1_cb1 (c : Dev nD) : W1 m ρ c (Proc.devRef .tc main_v23) = cw2 zeroB zeroB zeroB := by
  show StableHlo.after hostOps0 (W0 m ρ c) (Proc.devRef .tc main_v23) = _
  dsimp only [hostOps0]
  after_results_simp3
  rfl

set_option maxHeartbeats 8000000 in
theorem W1_c2 (c : Dev nD) : W1 m ρ c (Proc.devRef .tc main_v21) = cw3 zeroB zeroB zeroB := by
  show StableHlo.after hostOps0 (W0 m ρ c) (Proc.devRef .tc main_v21) = _
  dsimp only [hostOps0]
  after_results_simp3
  rfl

set_option maxHeartbeats 8000000 in
theorem W1_cb2 (c : Dev nD) : W1 m ρ c (Proc.devRef .tc main_v24) = cw3 zeroB zeroB zeroB := by
  show StableHlo.after hostOps0 (W0 m ρ c) (Proc.devRef .tc main_v24) = _
  dsimp only [hostOps0]
  after_results_simp3
  rfl

theorem W2_q (c : Dev nD) : W2 m ρ c (Proc.devRef .tc main_v25) = capsQ (cw1 zeroB zeroB zeroB) (cw2 zeroB zeroB zeroB) (cw3 zeroB zeroB zeroB) (x0 m c) (x1 m c) (x2 m c) := by
  rw [show W2 m ρ c (Proc.devRef .tc main_v25) = (dat0 (V1 m ρ) c).arrAt 6 cfg0.N from W2_arr m ρ c 6, region0_eq]
  show capsQ (W1 m ρ c (Proc.devRef .tc main_v22)) (W1 m ρ c (Proc.devRef .tc main_v23)) (W1 m ρ c (Proc.devRef .tc main_v24))
    (W1 m ρ c (Proc.devRef .tc main_v0)) (W1 m ρ c (Proc.devRef .tc main_v1)) (W1 m ρ c (Proc.devRef .tc main_v2)) = _
  rw [W1_cb0 m ρ c, W1_cb1 m ρ c, W1_cb2 m ρ c, W1_v0 m ρ c, W1_v1 m ρ c, W1_v2 m ρ c]

theorem W2_c0 (c : Dev nD) : W2 m ρ c (Proc.devRef .tc main_v19) = cw1 zeroB zeroB zeroB :=
  (W2_of_ne m ρ c main_v19 (by decide)).trans (W1_c0 m ρ c)

theorem W2_pb0 (c : Dev nD) : W2 m ρ c (Proc.devRef .tc main_v4) = zeroB :=
  (W2_of_ne m ρ c main_v4 (by decide)).trans (W1_b0 m ρ c)

theorem W2_c1 (c : Dev nD) : W2 m ρ c (Proc.devRef .tc main_v20) = cw2 zeroB zeroB zeroB :=
  (W2_of_ne m ρ c main_v20 (by decide)).trans (W1_c1 m ρ c)

theorem W2_pb1 (c : Dev nD) : W2 m ρ c (Proc.devRef .tc main_v5) = zeroB :=
  (W2_of_ne m ρ c main_v5 (by decide)).trans (W1_b1 m ρ c)

theorem W2_c2 (c : Dev nD) : W2 m ρ c (Proc.devRef .tc main_v21) = cw3 zeroB zeroB zeroB :=
  (W2_of_ne m ρ c main_v21 (by decide)).trans (W1_c2 m ρ c)

theorem W2_pb2 (c : Dev nD) : W2 m ρ c (Proc.devRef .tc main_v6) = zeroB :=
  (W2_of_ne m ρ c main_v6 (by decide)).trans (W1_b2 m ρ c)

set_option maxHeartbeats 8000000 in
theorem W3_fac (c : Dev nD) : W3 m ρ c (Proc.devRef .tc main_v32) = fac zeroB zeroB zeroB (x0 m c) (x1 m c) (x2 m c) := by
  show StableHlo.after hostOps1 (W2 m ρ c) (Proc.devRef .tc main_v32) = _
  dsimp only [hostOps1]
  after_results_simp3
  rw [W2_q m ρ c]
  rfl

set_option maxHeartbeats 8000000 in
theorem W3_cb0 (c : Dev nD) : W3 m ρ c (Proc.devRef .tc main_v33) = cw1 zeroB zeroB zeroB := by
  show StableHlo.after hostOps1 (W2 m ρ c) (Proc.devRef .tc main_v33) = _
  dsimp only [hostOps1]
  after_results_simp3
  rw [W2_c0 m ρ c]
  rfl

theorem W3_pb0 (c : Dev nD) : W3 m ρ c (Proc.devRef .tc main_v4) = zeroB :=
  (StableHlo.after_of_writes_sub hostOps1 _ hostOps1_writes (by decide)).trans (W2_pb0 m ρ c)

set_option maxHeartbeats 8000000 in
theorem W3_cb1 (c : Dev nD) : W3 m ρ c (Proc.devRef .tc main_v34) = cw2 zeroB zeroB zeroB := by
  show StableHlo.after hostOps1 (W2 m ρ c) (Proc.devRef .tc main_v34) = _
  dsimp only [hostOps1]
  after_results_simp3
  rw [W2_c1 m ρ c]
  rfl

theorem W3_pb1 (c : Dev nD) : W3 m ρ c (Proc.devRef .tc main_v5) = zeroB :=
  (StableHlo.after_of_writes_sub hostOps1 _ hostOps1_writes (by decide)).trans (W2_pb1 m ρ c)

set_option maxHeartbeats 8000000 in
theorem W3_cb2 (c : Dev nD) : W3 m ρ c (Proc.devRef .tc main_v35) = cw3 zeroB zeroB zeroB := by
  show StableHlo.after hostOps1 (W2 m ρ c) (Proc.devRef .tc main_v35) = _
  dsimp only [hostOps1]
  after_results_simp3
  rw [W2_c2 m ρ c]
  rfl

theorem W3_pb2 (c : Dev nD) : W3 m ρ c (Proc.devRef .tc main_v6) = zeroB :=
  (StableHlo.after_of_writes_sub hostOps1 _ hostOps1_writes (by decide)).trans (W2_pb2 m ρ c)

theorem W4_db0 (c : Dev nD) : W4 m ρ c (Proc.devRef .tc main_v36_0)
      = capsB (fac zeroB zeroB zeroB (x0 m c) (x1 m c) (x2 m c)) (cw1 zeroB zeroB zeroB) (cw2 zeroB zeroB zeroB) (cw3 zeroB zeroB zeroB) (x0 m c) (x1 m c) (x2 m c) (x0 m c) := by
  rw [show W4 m ρ c (Proc.devRef .tc main_v36_0) = (dat1 (V3 m ρ) c).arrAt 7 cfg1.N from W4_arr m ρ c 7, region1_eq_7]
  show capsB (W3 m ρ c (Proc.devRef .tc main_v32)) (W3 m ρ c (Proc.devRef .tc main_v33)) (W3 m ρ c (Proc.devRef .tc main_v34)) (W3 m ρ c (Proc.devRef .tc main_v35))
    (W3 m ρ c (Proc.devRef .tc main_v0)) (W3 m ρ c (Proc.devRef .tc main_v1)) (W3 m ρ c (Proc.devRef .tc main_v2)) (W3 m ρ c (Proc.devRef .tc main_v0)) = _
  rw [W3_fac m ρ c, W3_cb0 m ρ c, W3_cb1 m ρ c, W3_cb2 m ρ c, W3_v0 m ρ c, W3_v1 m ρ c, W3_v2 m ρ c]

theorem W4_pb0 (c : Dev nD) : W4 m ρ c (Proc.devRef .tc main_v4) = zeroB :=
  (W4_of_ne m ρ c main_v4 (by decide)).trans (W3_pb0 m ρ c)

theorem W4_db1 (c : Dev nD) : W4 m ρ c (Proc.devRef .tc main_v36_1)
      = capsB (fac zeroB zeroB zeroB (x0 m c) (x1 m c) (x2 m c)) (cw1 zeroB zeroB zeroB) (cw2 zeroB zeroB zeroB) (cw3 zeroB zeroB zeroB) (x0 m c) (x1 m c) (x2 m c) (x1 m c) := by
  rw [show W4 m ρ c (Proc.devRef .tc main_v36_1) = (dat1 (V3 m ρ) c).arrAt 8 cfg1.N from W4_arr m ρ c 8, region1_eq_8]
  show capsB (W3 m ρ c (Proc.devRef .tc main_v32)) (W3 m ρ c (Proc.devRef .tc main_v33)) (W3 m ρ c (Proc.devRef .tc main_v34)) (W3 m ρ c (Proc.devRef .tc main_v35))
    (W3 m ρ c (Proc.devRef .tc main_v0)) (W3 m ρ c (Proc.devRef .tc main_v1)) (W3 m ρ c (Proc.devRef .tc main_v2)) (W3 m ρ c (Proc.devRef .tc main_v1)) = _
  rw [W3_fac m ρ c, W3_cb0 m ρ c, W3_cb1 m ρ c, W3_cb2 m ρ c, W3_v0 m ρ c, W3_v1 m ρ c, W3_v2 m ρ c]

theorem W4_pb1 (c : Dev nD) : W4 m ρ c (Proc.devRef .tc main_v5) = zeroB :=
  (W4_of_ne m ρ c main_v5 (by decide)).trans (W3_pb1 m ρ c)

theorem W4_db2 (c : Dev nD) : W4 m ρ c (Proc.devRef .tc main_v36_2)
      = capsB (fac zeroB zeroB zeroB (x0 m c) (x1 m c) (x2 m c)) (cw1 zeroB zeroB zeroB) (cw2 zeroB zeroB zeroB) (cw3 zeroB zeroB zeroB) (x0 m c) (x1 m c) (x2 m c) (x2 m c) := by
  rw [show W4 m ρ c (Proc.devRef .tc main_v36_2) = (dat1 (V3 m ρ) c).arrAt 9 cfg1.N from W4_arr m ρ c 9, region1_eq_9]
  show capsB (W3 m ρ c (Proc.devRef .tc main_v32)) (W3 m ρ c (Proc.devRef .tc main_v33)) (W3 m ρ c (Proc.devRef .tc main_v34)) (W3 m ρ c (Proc.devRef .tc main_v35))
    (W3 m ρ c (Proc.devRef .tc main_v0)) (W3 m ρ c (Proc.devRef .tc main_v1)) (W3 m ρ c (Proc.devRef .tc main_v2)) (W3 m ρ c (Proc.devRef .tc main_v2)) = _
  rw [W3_fac m ρ c, W3_cb0 m ρ c, W3_cb1 m ρ c, W3_cb2 m ρ c, W3_v0 m ρ c, W3_v1 m ρ c, W3_v2 m ρ c]

theorem W4_pb2 (c : Dev nD) : W4 m ρ c (Proc.devRef .tc main_v6) = zeroB :=
  (W4_of_ne m ρ c main_v6 (by decide)).trans (W3_pb2 m ρ c)

/-! ## Routing iteration 2 -/

set_option maxHeartbeats 8000000 in
theorem W5_b0 (c : Dev nD) : W5 m ρ c (Proc.devRef .tc main_v37) = (step zeroB zeroB zeroB (x0 m c) (x1 m c) (x2 m c)).1 := by
  show StableHlo.after hostOps2 (W4 m ρ c) (Proc.devRef .tc main_v37) = _
  dsimp only [hostOps2]
  after_results_simp3
  rw [W4_pb0 m ρ c, W4_db0 m ρ c]
  rfl

set_option maxHeartbeats 8000000 in
theorem W5_b1 (c : Dev nD) : W5 m ρ c (Proc.devRef .tc main_v38) = (step zeroB zeroB zeroB (x0 m c) (x1 m c) (x2 m c)).2.1 := by
  show StableHlo.after hostOps2 (W4 m ρ c) (Proc.devRef .tc main_v38) = _
  dsimp only [hostOps2]
  after_results_simp3
  rw [W4_pb1 m ρ c, W4_db1 m ρ c]
  rfl

set_option maxHeartbeats 8000000 in
theorem W5_b2 (c : Dev nD) : W5 m ρ c (Proc.devRef .tc main_v39) = (step zeroB zeroB zeroB (x0 m c) (x1 m c) (x2 m c)).2.2 := by
  show StableHlo.after hostOps2 (W4 m ρ c) (Proc.devRef .tc main_v39) = _
  dsimp only [hostOps2]
  after_results_simp3
  rw [W4_pb2 m ρ c, W4_db2 m ρ c]
  rfl

/-- The buffers after the three additions of host stretch 2. -/
def W4p (c : Dev nD) : Valuation τ sig (Elt Ideal) := after (pre2 (F := Ideal)) (W4 m ρ c)

set_option maxHeartbeats 8000000 in
theorem W4p_b0 (c : Dev nD) : W4p m ρ c (Proc.devRef .tc main_v37) = (step zeroB zeroB zeroB (x0 m c) (x1 m c) (x2 m c)).1 := by
  show after pre2 (W4 m ρ c) _ = _
  dsimp only [pre2]
  after_results_simp3
  rw [W4_pb0 m ρ c, W4_db0 m ρ c]
  rfl

set_option maxHeartbeats 8000000 in
theorem W4p_b1 (c : Dev nD) : W4p m ρ c (Proc.devRef .tc main_v38) = (step zeroB zeroB zeroB (x0 m c) (x1 m c) (x2 m c)).2.1 := by
  show after pre2 (W4 m ρ c) _ = _
  dsimp only [pre2]
  after_results_simp3
  rw [W4_pb1 m ρ c, W4_db1 m ρ c]
  rfl

set_option maxHeartbeats 8000000 in
theorem W4p_b2 (c : Dev nD) : W4p m ρ c (Proc.devRef .tc main_v39) = (step zeroB zeroB zeroB (x0 m c) (x1 m c) (x2 m c)).2.2 := by
  show after pre2 (W4 m ρ c) _ = _
  dsimp only [pre2]
  after_results_simp3
  rw [W4_pb2 m ρ c, W4_db2 m ρ c]
  rfl

set_option maxHeartbeats 8000000 in
theorem W5_c0 (c : Dev nD) : W5 m ρ c (Proc.devRef .tc main_v52) = cw1 (step zeroB zeroB zeroB (x0 m c) (x1 m c) (x2 m c)).1 (step zeroB zeroB zeroB (x0 m c) (x1 m c) (x2 m c)).2.1 (step zeroB zeroB zeroB (x0 m c) (x1 m c) (x2 m c)).2.2 := by
  show StableHlo.after hostOps2 (W4 m ρ c) (Proc.devRef .tc main_v52) = _
  rw [hostOps2_split, StableHlo.after_append]
  show StableHlo.after post2 (W4p m ρ c) _ = _
  dsimp only [post2]
  after_results_simp3
  rw [W4p_b0 m ρ c, W4p_b1 m ρ c, W4p_b2 m ρ c]
  rfl

set_option maxHeartbeats 8000000 in
theorem W5_cb0 (c : Dev nD) : W5 m ρ c (Proc.devRef .tc main_v55) = cw1 (step zeroB zeroB zeroB (x0 m c) (x1 m c) (x2 m c)).1 (step zeroB zeroB zeroB (x0 m c) (x1 m c) (x2 m c)).2.1 (step zeroB zeroB zeroB (x0 m c) (x1 m c) (x2 m c)).2.2 := by
  show StableHlo.after hostOps2 (W4 m ρ c) (Proc.devRef .tc main_v55) = _
  rw [hostOps2_split, StableHlo.after_append]
  show StableHlo.after post2 (W4p m ρ c) _ = _
  dsimp only [post2]
  after_results_simp3
  rw [W4p_b0 m ρ c, W4p_b1 m ρ c, W4p_b2 m ρ c]
  rfl

set_option maxHeartbeats 8000000 in
theorem W5_c1 (c : Dev nD) : W5 m ρ c (Proc.devRef .tc main_v53) = cw2 (step zeroB zeroB zeroB (x0 m c) (x1 m c) (x2 m c)).1 (step zeroB zeroB zeroB (x0 m c) (x1 m c) (x2 m c)).2.1 (step zeroB zeroB zeroB (x0 m c) (x1 m c) (x2 m c)).2.2 := by
  show StableHlo.after hostOps2 (W4 m ρ c) (Proc.devRef .tc main_v53) = _
  rw [hostOps2_split, StableHlo.after_append]
  show StableHlo.after post2 (W4p m ρ c) _ = _
  dsimp only [post2]
  after_results_simp3
  rw [W4p_b0 m ρ c, W4p_b1 m ρ c, W4p_b2 m ρ c]
  rfl

set_option maxHeartbeats 8000000 in
theorem W5_cb1 (c : Dev nD) : W5 m ρ c (Proc.devRef .tc main_v56) = cw2 (step zeroB zeroB zeroB (x0 m c) (x1 m c) (x2 m c)).1 (step zeroB zeroB zeroB (x0 m c) (x1 m c) (x2 m c)).2.1 (step zeroB zeroB zeroB (x0 m c) (x1 m c) (x2 m c)).2.2 := by
  show StableHlo.after hostOps2 (W4 m ρ c) (Proc.devRef .tc main_v56) = _
  rw [hostOps2_split, StableHlo.after_append]
  show StableHlo.after post2 (W4p m ρ c) _ = _
  dsimp only [post2]
  after_results_simp3
  rw [W4p_b0 m ρ c, W4p_b1 m ρ c, W4p_b2 m ρ c]
  rfl

set_option maxHeartbeats 8000000 in
theorem W5_c2 (c : Dev nD) : W5 m ρ c (Proc.devRef .tc main_v54) = cw3 (step zeroB zeroB zeroB (x0 m c) (x1 m c) (x2 m c)).1 (step zeroB zeroB zeroB (x0 m c) (x1 m c) (x2 m c)).2.1 (step zeroB zeroB zeroB (x0 m c) (x1 m c) (x2 m c)).2.2 := by
  show StableHlo.after hostOps2 (W4 m ρ c) (Proc.devRef .tc main_v54) = _
  rw [hostOps2_split, StableHlo.after_append]
  show StableHlo.after post2 (W4p m ρ c) _ = _
  dsimp only [post2]
  after_results_simp3
  rw [W4p_b0 m ρ c, W4p_b1 m ρ c, W4p_b2 m ρ c]
  rfl

set_option maxHeartbeats 8000000 in
theorem W5_cb2 (c : Dev nD) : W5 m ρ c (Proc.devRef .tc main_v57) = cw3 (step zeroB zeroB zeroB (x0 m c) (x1 m c) (x2 m c)).1 (step zeroB zeroB zeroB (x0 m c) (x1 m c) (x2 m c)).2.1 (step zeroB zeroB zeroB (x0 m c) (x1 m c) (x2 m c)).2.2 := by
  show StableHlo.after hostOps2 (W4 m ρ c) (Proc.devRef .tc main_v57) = _
  rw [hostOps2_split, StableHlo.after_append]
  show StableHlo.after post2 (W4p m ρ c) _ = _
  dsimp only [post2]
  after_results_simp3
  rw [W4p_b0 m ρ c, W4p_b1 m ρ c, W4p_b2 m ρ c]
  rfl

theorem W6_q (c : Dev nD) : W6 m ρ c (Proc.devRef .tc main_v58) = capsQ (cw1 (step zeroB zeroB zeroB (x0 m c) (x1 m c) (x2 m c)).1 (step zeroB zeroB zeroB (x0 m c) (x1 m c) (x2 m c)).2.1 (step zeroB zeroB zeroB (x0 m c) (x1 m c) (x2 m c)).2.2) (cw2 (step zeroB zeroB zeroB (x0 m c) (x1 m c) (x2 m c)).1 (step zeroB zeroB zeroB (x0 m c) (x1 m c) (x2 m c)).2.1 (step zeroB zeroB zeroB (x0 m c) (x1 m c) (x2 m c)).2.2) (cw3 (step zeroB zeroB zeroB (x0 m c) (x1 m c) (x2 m c)).1 (step zeroB zeroB zeroB (x0 m c) (x1 m c) (x2 m c)).2.1 (step zeroB zeroB zeroB (x0 m c) (x1 m c) (x2 m c)).2.2) (x0 m c) (x1 m c) (x2 m c) := by
  rw [show W6 m ρ c (Proc.devRef .tc main_v58) = (dat2 (V5 m ρ) c).arrAt 6 cfg2.N from W6_arr m ρ c 6, region2_eq]
  show capsQ (W5 m ρ c (Proc.devRef .tc main_v55)) (W5 m ρ c (Proc.devRef .tc main_v56)) (W5 m ρ c (Proc.devRef .tc main_v57))
    (W5 m ρ c (Proc.devRef .tc main_v0)) (W5 m ρ c (Proc.devRef .tc main_v1)) (W5 m ρ c (Proc.devRef .tc main_v2)) = _
  rw [W5_cb0 m ρ c, W5_cb1 m ρ c, W5_cb2 m ρ c, W5_v0 m ρ c, W5_v1 m ρ c, W5_v2 m ρ c]

theorem W6_c0 (c : Dev nD) : W6 m ρ c (Proc.devRef .tc main_v52) = cw1 (step zeroB zeroB zeroB (x0 m c) (x1 m c) (x2 m c)).1 (step zeroB zeroB zeroB (x0 m c) (x1 m c) (x2 m c)).2.1 (step zeroB zeroB zeroB (x0 m c) (x1 m c) (x2 m c)).2.2 :=
  (W6_of_ne m ρ c main_v52 (by decide)).trans (W5_c0 m ρ c)

theorem W6_pb0 (c : Dev nD) : W6 m ρ c (Proc.devRef .tc main_v37) = (step zeroB zeroB zeroB (x0 m c) (x1 m c) (x2 m c)).1 :=
  (W6_of_ne m ρ c main_v37 (by decide)).trans (W5_b0 m ρ c)

theorem W6_c1 (c : Dev nD) : W6 m ρ c (Proc.devRef .tc main_v53) = cw2 (step zeroB zeroB zeroB (x0 m c) (x1 m c) (x2 m c)).1 (step zeroB zeroB zeroB (x0 m c) (x1 m c) (x2 m c)).2.1 (step zeroB zeroB zeroB (x0 m c) (x1 m c) (x2 m c)).2.2 :=
  (W6_of_ne m ρ c main_v53 (by decide)).trans (W5_c1 m ρ c)

theorem W6_pb1 (c : Dev nD) : W6 m ρ c (Proc.devRef .tc main_v38) = (step zeroB zeroB zeroB (x0 m c) (x1 m c) (x2 m c)).2.1 :=
  (W6_of_ne m ρ c main_v38 (by decide)).trans (W5_b1 m ρ c)

theorem W6_c2 (c : Dev nD) : W6 m ρ c (Proc.devRef .tc main_v54) = cw3 (step zeroB zeroB zeroB (x0 m c) (x1 m c) (x2 m c)).1 (step zeroB zeroB zeroB (x0 m c) (x1 m c) (x2 m c)).2.1 (step zeroB zeroB zeroB (x0 m c) (x1 m c) (x2 m c)).2.2 :=
  (W6_of_ne m ρ c main_v54 (by decide)).trans (W5_c2 m ρ c)

theorem W6_pb2 (c : Dev nD) : W6 m ρ c (Proc.devRef .tc main_v39) = (step zeroB zeroB zeroB (x0 m c) (x1 m c) (x2 m c)).2.2 :=
  (W6_of_ne m ρ c main_v39 (by decide)).trans (W5_b2 m ρ c)

set_option maxHeartbeats 8000000 in
theorem W7_fac (c : Dev nD) : W7 m ρ c (Proc.devRef .tc main_v65) = fac (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c) := by
  show StableHlo.after hostOps3 (W6 m ρ c) (Proc.devRef .tc main_v65) = _
  dsimp only [hostOps3]
  after_results_simp3
  rw [W6_q m ρ c]
  rfl

set_option maxHeartbeats 8000000 in
theorem W7_cb0 (c : Dev nD) : W7 m ρ c (Proc.devRef .tc main_v66) = cw1 (step zeroB zeroB zeroB (x0 m c) (x1 m c) (x2 m c)).1 (step zeroB zeroB zeroB (x0 m c) (x1 m c) (x2 m c)).2.1 (step zeroB zeroB zeroB (x0 m c) (x1 m c) (x2 m c)).2.2 := by
  show StableHlo.after hostOps3 (W6 m ρ c) (Proc.devRef .tc main_v66) = _
  dsimp only [hostOps3]
  after_results_simp3
  rw [W6_c0 m ρ c]
  rfl

theorem W7_pb0 (c : Dev nD) : W7 m ρ c (Proc.devRef .tc main_v37) = (step zeroB zeroB zeroB (x0 m c) (x1 m c) (x2 m c)).1 :=
  (StableHlo.after_of_writes_sub hostOps3 _ hostOps3_writes (by decide)).trans (W6_pb0 m ρ c)

set_option maxHeartbeats 8000000 in
theorem W7_cb1 (c : Dev nD) : W7 m ρ c (Proc.devRef .tc main_v67) = cw2 (step zeroB zeroB zeroB (x0 m c) (x1 m c) (x2 m c)).1 (step zeroB zeroB zeroB (x0 m c) (x1 m c) (x2 m c)).2.1 (step zeroB zeroB zeroB (x0 m c) (x1 m c) (x2 m c)).2.2 := by
  show StableHlo.after hostOps3 (W6 m ρ c) (Proc.devRef .tc main_v67) = _
  dsimp only [hostOps3]
  after_results_simp3
  rw [W6_c1 m ρ c]
  rfl

theorem W7_pb1 (c : Dev nD) : W7 m ρ c (Proc.devRef .tc main_v38) = (step zeroB zeroB zeroB (x0 m c) (x1 m c) (x2 m c)).2.1 :=
  (StableHlo.after_of_writes_sub hostOps3 _ hostOps3_writes (by decide)).trans (W6_pb1 m ρ c)

set_option maxHeartbeats 8000000 in
theorem W7_cb2 (c : Dev nD) : W7 m ρ c (Proc.devRef .tc main_v68) = cw3 (step zeroB zeroB zeroB (x0 m c) (x1 m c) (x2 m c)).1 (step zeroB zeroB zeroB (x0 m c) (x1 m c) (x2 m c)).2.1 (step zeroB zeroB zeroB (x0 m c) (x1 m c) (x2 m c)).2.2 := by
  show StableHlo.after hostOps3 (W6 m ρ c) (Proc.devRef .tc main_v68) = _
  dsimp only [hostOps3]
  after_results_simp3
  rw [W6_c2 m ρ c]
  rfl

theorem W7_pb2 (c : Dev nD) : W7 m ρ c (Proc.devRef .tc main_v39) = (step zeroB zeroB zeroB (x0 m c) (x1 m c) (x2 m c)).2.2 :=
  (StableHlo.after_of_writes_sub hostOps3 _ hostOps3_writes (by decide)).trans (W6_pb2 m ρ c)

theorem W8_db0 (c : Dev nD) : W8 m ρ c (Proc.devRef .tc main_v69_0)
      = capsB (fac (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)) (cw1 (step zeroB zeroB zeroB (x0 m c) (x1 m c) (x2 m c)).1 (step zeroB zeroB zeroB (x0 m c) (x1 m c) (x2 m c)).2.1 (step zeroB zeroB zeroB (x0 m c) (x1 m c) (x2 m c)).2.2) (cw2 (step zeroB zeroB zeroB (x0 m c) (x1 m c) (x2 m c)).1 (step zeroB zeroB zeroB (x0 m c) (x1 m c) (x2 m c)).2.1 (step zeroB zeroB zeroB (x0 m c) (x1 m c) (x2 m c)).2.2) (cw3 (step zeroB zeroB zeroB (x0 m c) (x1 m c) (x2 m c)).1 (step zeroB zeroB zeroB (x0 m c) (x1 m c) (x2 m c)).2.1 (step zeroB zeroB zeroB (x0 m c) (x1 m c) (x2 m c)).2.2) (x0 m c) (x1 m c) (x2 m c) (x0 m c) := by
  rw [show W8 m ρ c (Proc.devRef .tc main_v69_0) = (dat3 (V7 m ρ) c).arrAt 7 cfg3.N from W8_arr m ρ c 7, region3_eq_7]
  show capsB (W7 m ρ c (Proc.devRef .tc main_v65)) (W7 m ρ c (Proc.devRef .tc main_v66)) (W7 m ρ c (Proc.devRef .tc main_v67)) (W7 m ρ c (Proc.devRef .tc main_v68))
    (W7 m ρ c (Proc.devRef .tc main_v0)) (W7 m ρ c (Proc.devRef .tc main_v1)) (W7 m ρ c (Proc.devRef .tc main_v2)) (W7 m ρ c (Proc.devRef .tc main_v0)) = _
  rw [W7_fac m ρ c, W7_cb0 m ρ c, W7_cb1 m ρ c, W7_cb2 m ρ c, W7_v0 m ρ c, W7_v1 m ρ c, W7_v2 m ρ c]

theorem W8_pb0 (c : Dev nD) : W8 m ρ c (Proc.devRef .tc main_v37) = (step zeroB zeroB zeroB (x0 m c) (x1 m c) (x2 m c)).1 :=
  (W8_of_ne m ρ c main_v37 (by decide)).trans (W7_pb0 m ρ c)

theorem W8_db1 (c : Dev nD) : W8 m ρ c (Proc.devRef .tc main_v69_1)
      = capsB (fac (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)) (cw1 (step zeroB zeroB zeroB (x0 m c) (x1 m c) (x2 m c)).1 (step zeroB zeroB zeroB (x0 m c) (x1 m c) (x2 m c)).2.1 (step zeroB zeroB zeroB (x0 m c) (x1 m c) (x2 m c)).2.2) (cw2 (step zeroB zeroB zeroB (x0 m c) (x1 m c) (x2 m c)).1 (step zeroB zeroB zeroB (x0 m c) (x1 m c) (x2 m c)).2.1 (step zeroB zeroB zeroB (x0 m c) (x1 m c) (x2 m c)).2.2) (cw3 (step zeroB zeroB zeroB (x0 m c) (x1 m c) (x2 m c)).1 (step zeroB zeroB zeroB (x0 m c) (x1 m c) (x2 m c)).2.1 (step zeroB zeroB zeroB (x0 m c) (x1 m c) (x2 m c)).2.2) (x0 m c) (x1 m c) (x2 m c) (x1 m c) := by
  rw [show W8 m ρ c (Proc.devRef .tc main_v69_1) = (dat3 (V7 m ρ) c).arrAt 8 cfg3.N from W8_arr m ρ c 8, region3_eq_8]
  show capsB (W7 m ρ c (Proc.devRef .tc main_v65)) (W7 m ρ c (Proc.devRef .tc main_v66)) (W7 m ρ c (Proc.devRef .tc main_v67)) (W7 m ρ c (Proc.devRef .tc main_v68))
    (W7 m ρ c (Proc.devRef .tc main_v0)) (W7 m ρ c (Proc.devRef .tc main_v1)) (W7 m ρ c (Proc.devRef .tc main_v2)) (W7 m ρ c (Proc.devRef .tc main_v1)) = _
  rw [W7_fac m ρ c, W7_cb0 m ρ c, W7_cb1 m ρ c, W7_cb2 m ρ c, W7_v0 m ρ c, W7_v1 m ρ c, W7_v2 m ρ c]

theorem W8_pb1 (c : Dev nD) : W8 m ρ c (Proc.devRef .tc main_v38) = (step zeroB zeroB zeroB (x0 m c) (x1 m c) (x2 m c)).2.1 :=
  (W8_of_ne m ρ c main_v38 (by decide)).trans (W7_pb1 m ρ c)

theorem W8_db2 (c : Dev nD) : W8 m ρ c (Proc.devRef .tc main_v69_2)
      = capsB (fac (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)) (cw1 (step zeroB zeroB zeroB (x0 m c) (x1 m c) (x2 m c)).1 (step zeroB zeroB zeroB (x0 m c) (x1 m c) (x2 m c)).2.1 (step zeroB zeroB zeroB (x0 m c) (x1 m c) (x2 m c)).2.2) (cw2 (step zeroB zeroB zeroB (x0 m c) (x1 m c) (x2 m c)).1 (step zeroB zeroB zeroB (x0 m c) (x1 m c) (x2 m c)).2.1 (step zeroB zeroB zeroB (x0 m c) (x1 m c) (x2 m c)).2.2) (cw3 (step zeroB zeroB zeroB (x0 m c) (x1 m c) (x2 m c)).1 (step zeroB zeroB zeroB (x0 m c) (x1 m c) (x2 m c)).2.1 (step zeroB zeroB zeroB (x0 m c) (x1 m c) (x2 m c)).2.2) (x0 m c) (x1 m c) (x2 m c) (x2 m c) := by
  rw [show W8 m ρ c (Proc.devRef .tc main_v69_2) = (dat3 (V7 m ρ) c).arrAt 9 cfg3.N from W8_arr m ρ c 9, region3_eq_9]
  show capsB (W7 m ρ c (Proc.devRef .tc main_v65)) (W7 m ρ c (Proc.devRef .tc main_v66)) (W7 m ρ c (Proc.devRef .tc main_v67)) (W7 m ρ c (Proc.devRef .tc main_v68))
    (W7 m ρ c (Proc.devRef .tc main_v0)) (W7 m ρ c (Proc.devRef .tc main_v1)) (W7 m ρ c (Proc.devRef .tc main_v2)) (W7 m ρ c (Proc.devRef .tc main_v2)) = _
  rw [W7_fac m ρ c, W7_cb0 m ρ c, W7_cb1 m ρ c, W7_cb2 m ρ c, W7_v0 m ρ c, W7_v1 m ρ c, W7_v2 m ρ c]

theorem W8_pb2 (c : Dev nD) : W8 m ρ c (Proc.devRef .tc main_v39) = (step zeroB zeroB zeroB (x0 m c) (x1 m c) (x2 m c)).2.2 :=
  (W8_of_ne m ρ c main_v39 (by decide)).trans (W7_pb2 m ρ c)

/-! ## Routing iteration 3 -/

set_option maxHeartbeats 8000000 in
theorem W9_b0 (c : Dev nD) : W9 m ρ c (Proc.devRef .tc main_v70) = (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 := by
  show StableHlo.after hostOps4 (W8 m ρ c) (Proc.devRef .tc main_v70) = _
  dsimp only [hostOps4]
  after_results_simp3
  rw [W8_pb0 m ρ c, W8_db0 m ρ c]
  rfl

set_option maxHeartbeats 8000000 in
theorem W9_b1 (c : Dev nD) : W9 m ρ c (Proc.devRef .tc main_v71) = (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 := by
  show StableHlo.after hostOps4 (W8 m ρ c) (Proc.devRef .tc main_v71) = _
  dsimp only [hostOps4]
  after_results_simp3
  rw [W8_pb1 m ρ c, W8_db1 m ρ c]
  rfl

set_option maxHeartbeats 8000000 in
theorem W9_b2 (c : Dev nD) : W9 m ρ c (Proc.devRef .tc main_v72) = (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2 := by
  show StableHlo.after hostOps4 (W8 m ρ c) (Proc.devRef .tc main_v72) = _
  dsimp only [hostOps4]
  after_results_simp3
  rw [W8_pb2 m ρ c, W8_db2 m ρ c]
  rfl

/-- The buffers after the three additions of host stretch 4. -/
def W8p (c : Dev nD) : Valuation τ sig (Elt Ideal) := after (pre4 (F := Ideal)) (W8 m ρ c)

set_option maxHeartbeats 8000000 in
theorem W8p_b0 (c : Dev nD) : W8p m ρ c (Proc.devRef .tc main_v70) = (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 := by
  show after pre4 (W8 m ρ c) _ = _
  dsimp only [pre4]
  after_results_simp3
  rw [W8_pb0 m ρ c, W8_db0 m ρ c]
  rfl

set_option maxHeartbeats 8000000 in
theorem W8p_b1 (c : Dev nD) : W8p m ρ c (Proc.devRef .tc main_v71) = (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 := by
  show after pre4 (W8 m ρ c) _ = _
  dsimp only [pre4]
  after_results_simp3
  rw [W8_pb1 m ρ c, W8_db1 m ρ c]
  rfl

set_option maxHeartbeats 8000000 in
theorem W8p_b2 (c : Dev nD) : W8p m ρ c (Proc.devRef .tc main_v72) = (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2 := by
  show after pre4 (W8 m ρ c) _ = _
  dsimp only [pre4]
  after_results_simp3
  rw [W8_pb2 m ρ c, W8_db2 m ρ c]
  rfl

set_option maxHeartbeats 8000000 in
theorem W9_c0 (c : Dev nD) : W9 m ρ c (Proc.devRef .tc main_v85) = cw1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2 := by
  show StableHlo.after hostOps4 (W8 m ρ c) (Proc.devRef .tc main_v85) = _
  rw [hostOps4_split, StableHlo.after_append]
  show StableHlo.after post4 (W8p m ρ c) _ = _
  dsimp only [post4]
  after_results_simp3
  rw [W8p_b0 m ρ c, W8p_b1 m ρ c, W8p_b2 m ρ c]
  rfl

set_option maxHeartbeats 8000000 in
theorem W9_cb0 (c : Dev nD) : W9 m ρ c (Proc.devRef .tc main_v88) = cw1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2 := by
  show StableHlo.after hostOps4 (W8 m ρ c) (Proc.devRef .tc main_v88) = _
  rw [hostOps4_split, StableHlo.after_append]
  show StableHlo.after post4 (W8p m ρ c) _ = _
  dsimp only [post4]
  after_results_simp3
  rw [W8p_b0 m ρ c, W8p_b1 m ρ c, W8p_b2 m ρ c]
  rfl

set_option maxHeartbeats 8000000 in
theorem W9_c1 (c : Dev nD) : W9 m ρ c (Proc.devRef .tc main_v86) = cw2 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2 := by
  show StableHlo.after hostOps4 (W8 m ρ c) (Proc.devRef .tc main_v86) = _
  rw [hostOps4_split, StableHlo.after_append]
  show StableHlo.after post4 (W8p m ρ c) _ = _
  dsimp only [post4]
  after_results_simp3
  rw [W8p_b0 m ρ c, W8p_b1 m ρ c, W8p_b2 m ρ c]
  rfl

set_option maxHeartbeats 8000000 in
theorem W9_cb1 (c : Dev nD) : W9 m ρ c (Proc.devRef .tc main_v89) = cw2 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2 := by
  show StableHlo.after hostOps4 (W8 m ρ c) (Proc.devRef .tc main_v89) = _
  rw [hostOps4_split, StableHlo.after_append]
  show StableHlo.after post4 (W8p m ρ c) _ = _
  dsimp only [post4]
  after_results_simp3
  rw [W8p_b0 m ρ c, W8p_b1 m ρ c, W8p_b2 m ρ c]
  rfl

set_option maxHeartbeats 8000000 in
theorem W9_c2 (c : Dev nD) : W9 m ρ c (Proc.devRef .tc main_v87) = cw3 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2 := by
  show StableHlo.after hostOps4 (W8 m ρ c) (Proc.devRef .tc main_v87) = _
  rw [hostOps4_split, StableHlo.after_append]
  show StableHlo.after post4 (W8p m ρ c) _ = _
  dsimp only [post4]
  after_results_simp3
  rw [W8p_b0 m ρ c, W8p_b1 m ρ c, W8p_b2 m ρ c]
  rfl

set_option maxHeartbeats 8000000 in
theorem W9_cb2 (c : Dev nD) : W9 m ρ c (Proc.devRef .tc main_v90) = cw3 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2 := by
  show StableHlo.after hostOps4 (W8 m ρ c) (Proc.devRef .tc main_v90) = _
  rw [hostOps4_split, StableHlo.after_append]
  show StableHlo.after post4 (W8p m ρ c) _ = _
  dsimp only [post4]
  after_results_simp3
  rw [W8p_b0 m ρ c, W8p_b1 m ρ c, W8p_b2 m ρ c]
  rfl

theorem W10_q (c : Dev nD) : W10 m ρ c (Proc.devRef .tc main_v91) = capsQ (cw1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2) (cw2 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2) (cw3 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2) (x0 m c) (x1 m c) (x2 m c) := by
  rw [show W10 m ρ c (Proc.devRef .tc main_v91) = (dat4 (V9 m ρ) c).arrAt 6 cfg4.N from W10_arr m ρ c 6, region4_eq]
  show capsQ (W9 m ρ c (Proc.devRef .tc main_v88)) (W9 m ρ c (Proc.devRef .tc main_v89)) (W9 m ρ c (Proc.devRef .tc main_v90))
    (W9 m ρ c (Proc.devRef .tc main_v0)) (W9 m ρ c (Proc.devRef .tc main_v1)) (W9 m ρ c (Proc.devRef .tc main_v2)) = _
  rw [W9_cb0 m ρ c, W9_cb1 m ρ c, W9_cb2 m ρ c, W9_v0 m ρ c, W9_v1 m ρ c, W9_v2 m ρ c]

theorem W10_c0 (c : Dev nD) : W10 m ρ c (Proc.devRef .tc main_v85) = cw1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2 :=
  (W10_of_ne m ρ c main_v85 (by decide)).trans (W9_c0 m ρ c)

theorem W10_pb0 (c : Dev nD) : W10 m ρ c (Proc.devRef .tc main_v70) = (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 :=
  (W10_of_ne m ρ c main_v70 (by decide)).trans (W9_b0 m ρ c)

theorem W10_c1 (c : Dev nD) : W10 m ρ c (Proc.devRef .tc main_v86) = cw2 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2 :=
  (W10_of_ne m ρ c main_v86 (by decide)).trans (W9_c1 m ρ c)

theorem W10_pb1 (c : Dev nD) : W10 m ρ c (Proc.devRef .tc main_v71) = (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 :=
  (W10_of_ne m ρ c main_v71 (by decide)).trans (W9_b1 m ρ c)

theorem W10_c2 (c : Dev nD) : W10 m ρ c (Proc.devRef .tc main_v87) = cw3 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2 :=
  (W10_of_ne m ρ c main_v87 (by decide)).trans (W9_c2 m ρ c)

theorem W10_pb2 (c : Dev nD) : W10 m ρ c (Proc.devRef .tc main_v72) = (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2 :=
  (W10_of_ne m ρ c main_v72 (by decide)).trans (W9_b2 m ρ c)

set_option maxHeartbeats 8000000 in
theorem W11_fac (c : Dev nD) : W11 m ρ c (Proc.devRef .tc main_v98) = fac (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2 (x0 m c) (x1 m c) (x2 m c) := by
  show StableHlo.after hostOps5 (W10 m ρ c) (Proc.devRef .tc main_v98) = _
  dsimp only [hostOps5]
  after_results_simp3
  rw [W10_q m ρ c]
  rfl

set_option maxHeartbeats 8000000 in
theorem W11_cb0 (c : Dev nD) : W11 m ρ c (Proc.devRef .tc main_v99) = cw1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2 := by
  show StableHlo.after hostOps5 (W10 m ρ c) (Proc.devRef .tc main_v99) = _
  dsimp only [hostOps5]
  after_results_simp3
  rw [W10_c0 m ρ c]
  rfl

theorem W11_pb0 (c : Dev nD) : W11 m ρ c (Proc.devRef .tc main_v70) = (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 :=
  (StableHlo.after_of_writes_sub hostOps5 _ hostOps5_writes (by decide)).trans (W10_pb0 m ρ c)

set_option maxHeartbeats 8000000 in
theorem W11_cb1 (c : Dev nD) : W11 m ρ c (Proc.devRef .tc main_v100) = cw2 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2 := by
  show StableHlo.after hostOps5 (W10 m ρ c) (Proc.devRef .tc main_v100) = _
  dsimp only [hostOps5]
  after_results_simp3
  rw [W10_c1 m ρ c]
  rfl

theorem W11_pb1 (c : Dev nD) : W11 m ρ c (Proc.devRef .tc main_v71) = (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 :=
  (StableHlo.after_of_writes_sub hostOps5 _ hostOps5_writes (by decide)).trans (W10_pb1 m ρ c)

set_option maxHeartbeats 8000000 in
theorem W11_cb2 (c : Dev nD) : W11 m ρ c (Proc.devRef .tc main_v101) = cw3 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.1 (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2 := by
  show StableHlo.after hostOps5 (W10 m ρ c) (Proc.devRef .tc main_v101) = _
  dsimp only [hostOps5]
  after_results_simp3
  rw [W10_c2 m ρ c]
  rfl

theorem W11_pb2 (c : Dev nD) : W11 m ρ c (Proc.devRef .tc main_v72) = (step (step zeroB zeroB zeroB (x0 m c) (x1 m c) (x2 m c)).1 (step zeroB zeroB zeroB (x0 m c) (x1 m c) (x2 m c)).2.1 (step zeroB zeroB zeroB (x0 m c) (x1 m c) (x2 m c)).2.2 (x0 m c) (x1 m c) (x2 m c)).2.2 :=
  (StableHlo.after_of_writes_sub hostOps5 _ hostOps5_writes (by decide)).trans (W10_pb2 m ρ c)

/-- THE RESULT: the kernel program's result buffer after the run is the specification of the arguments. -/
theorem W12_out (c : Dev nD) : W12 m ρ c (Proc.devRef .tc main_v102) = spec (x0 m c) (x1 m c) (x2 m c) (xw m c) := by
  rw [show W12 m ρ c (Proc.devRef .tc main_v102) = (dat5 (V11 m ρ) c).arrAt 8 cfg5.N from W12_arr m ρ c 8, region5_eq]
  show capsOut (W11 m ρ c (Proc.devRef .tc main_v3)) (W11 m ρ c (Proc.devRef .tc main_v98)) (W11 m ρ c (Proc.devRef .tc main_v99)) (W11 m ρ c (Proc.devRef .tc main_v100)) (W11 m ρ c (Proc.devRef .tc main_v101))
    (W11 m ρ c (Proc.devRef .tc main_v0)) (W11 m ρ c (Proc.devRef .tc main_v1)) (W11 m ρ c (Proc.devRef .tc main_v2)) = _
  rw [W11_v3 m ρ c, W11_fac m ρ c, W11_cb0 m ρ c, W11_cb1 m ρ c, W11_cb2 m ρ c, W11_v0 m ρ c, W11_v1 m ρ c, W11_v2 m ρ c]
  rfl

end Cert.KernelIdeal.Hand

end
-- ==== Proof.KI.Value.lean ====
/-
  The kernel program's run, read: every weakly fair execution terminates with the result buffer at the specification of the four
  arguments and the arguments unchanged.
-/
import proofs.«160248_j77816217469391_2_alg».proof.Proof.KI.Glue
import proofs.«160248_j77816217469391_2_alg».proof.Proof.KI.Frame

set_option maxRecDepth 16384

noncomputable section

namespace Cert.KernelIdeal.Hand

open Cert.KernelIdeal Cert.KernelIdeal.Gen
open Idealize.ShloMosaic Idealize.ShloMosaic.TcCoe Idealize.SL.Sem

variable [hK : Cert.KernelIdeal.Facts] [hR : Cert.ReferenceIdeal.Facts]

/-- The specification of core `c`'s four arguments, as contents of the result buffer. -/
def specK (m : (ℓ : Loc nD τ sig) → Buf (Elt Ideal) ℓ) (c : Dev nD) : Buf (Elt Ideal) ((c.tc : Thread nD τ).loc main_v102) :=
  Cert.Spec.spec (x0 m c) (x1 m c) (x2 m c) (xw m c)

set_option maxHeartbeats 1000000 in
theorem ker_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v102) = specK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v102 (by decide))).trans (W12_out m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c)⟩) (run_all m ρ)

end Cert.KernelIdeal.Hand

end
-- ==== Proof.LibSquashScale.lean ====
/-
  Capsule "squash" scaling on the extended reals.

  A squashed vector is `scale · x / (√q + ε)` with `q` the vector's sum of squares, `scale = q / (1 + q)` and `ε > 0`.
  One program divides the scalar factor first and multiplies the vector entry afterwards, `(scale / d) · x`; the other
  multiplies first and divides afterwards, `(scale · x) / d`, with `d = √q + ε`.  On the extended reals a quotient by a
  NONZERO divisor is the product with its inverse, so both are products of the same three factors, and the divisor
  `√q + ε` is never zero: a square root is either junk `⊥` (then `d = ⊥`) or at least `0` (then `d ≥ ε > 0`).
  No finiteness of `q`, `scale` or `x` is needed.
-/
import Idealize.ShloMosaic.PureOps.Ideal
import Idealize.ShloMosaic.PureOps.Ideal.Laws

noncomputable section

namespace Cert.Lib.SquashScale

open Idealize.ShloMosaic

/-- Off a zero divisor, dividing a factor and then multiplying is multiplying and then dividing. -/
theorem div_mul_eq_mul_div {d : EReal} (hd : d ≠ 0) (a s : EReal) :
    Ideal.div a d * s = Ideal.div (a * s) d := by
  rw [Ideal.div, Ideal.div, if_neg hd, if_neg hd, mul_right_comm]

/-- A square root plus a positive real is never zero on the extended reals. -/
theorem sqrt_add_pos_ne_zero (q : EReal) {e : ℝ} (he : 0 < e) : Ideal.sqrt q + (e : EReal) ≠ 0 := by
  induction q using EReal.rec with
  | bot => simp
  | top => simp
  | coe r =>
    rw [Ideal.sqrt_coe]
    split_ifs
    · simp
    · have h0 : 0 ≤ Real.sqrt r := Real.sqrt_nonneg r
      have : Real.sqrt r + e ≠ 0 := by positivity
      rw [← EReal.coe_add]
      exact_mod_cast this

/-- The f32 pattern `0x322BCC77` (the float nearest `1e-8`) denotes a positive real. -/
theorem eps_pos : ∃ e : ℝ, 0 < e ∧ Ideal.ofBits .f32 0x322BCC77#32 = (e : EReal) := by
  refine ⟨_, ?_, by simp [Ideal.ofBits, Ideal.ieee]; rfl⟩
  positivity

/-- The squash divisor `√q + ε` at the printed `ε` is never zero. -/
theorem squash_divisor_ne_zero (q : EReal) : Ideal.sqrt q + Ideal.ofBits .f32 0x322BCC77#32 ≠ 0 := by
  obtain ⟨e, he, h⟩ := eps_pos
  rw [h]
  exact sqrt_add_pos_ne_zero q he

/-- The two spellings of a squashed entry agree: `(scale / (√q + ε)) · x = (scale · x) / (√q + ε)`. -/
theorem squash_entry (scale q x : EReal) :
    Ideal.div scale (Ideal.sqrt q + Ideal.ofBits .f32 0x322BCC77#32) * x
      = Ideal.div (scale * x) (Ideal.sqrt q + Ideal.ofBits .f32 0x322BCC77#32) :=
  div_mul_eq_mul_div (squash_divisor_ne_zero q) scale x

end Cert.Lib.SquashScale

end
-- ==== Proof.RefOps.lean ====
/-
  The reference's whole-array operations read at an index, at the ideal values, and brought to the entry-by-entry forms of
  Proof/KI/Caps.lean: its three batched products, the squared lengths (a product, a sum along the columns, a broadcast), the
  squashed capsules (the reference multiplies by scale first and divides by √q + ε afterwards; the kernel's factor divides
  first: one value, Proof/LibSquashScale.lean), the logit update (a product with the transposed modality) and the result.
-/
import proofs.«160248_j77816217469391_2_alg».proof.ReferenceIdeal
import proofs.«160248_j77816217469391_2_alg».proof.Proof.KI.Caps
import proofs.«160248_j77816217469391_2_alg».proof.Proof.LibSquashScale
import Idealize.ShloMosaic.PureOps.Ideal.Laws
import Idealize.ShloMosaic.Lib.ValueIdx
import Idealize.ShloMosaic.Lib.Pipeline.Value

set_option maxRecDepth 16384

noncomputable section

namespace Cert.ReferenceIdeal.Hand

open Cert.ReferenceIdeal Cert.ReferenceIdeal.Facts₀ Idealize.ShloMosaic Idealize.ShloMosaic.ValueIdx
open Cert.KernelIdeal.Hand (sCol capsQ capsFac capsB capsOut)
open scoped BigOperators

theorem ext3 {n : Fin 3 → ℕ} {x y : (a : Fin 3) → Fin (n a)} (h0 : (x 0 : ℕ) = y 0) (h1 : (x 1 : ℕ) = y 1) (h2 : (x 2 : ℕ) = y 2) : x = y :=
  funext fun a => Fin.ext <| match a with | ⟨0, _⟩ => h0 | ⟨1, _⟩ => h1 | ⟨2, _⟩ => h2

variable [hR : Cert.ReferenceIdeal.Facts]

abbrev RD1 := dot_S10x768x50_S10x50x3072_S10x768x3072_2_1_1_2_0_0
theorem RD1_rank : RD1.contr.rank = 1 := rfl
theorem RD1_size : RD1.contr.size ⟨0, by rw [RD1_rank]; exact Nat.one_pos⟩ = 50 := rfl
theorem RD1_lhs0 (j : S10x768x3072.Idx) (k : RD1.contr.Idx) : (RD1.lhsIdx j k 0 : ℕ) = j 0 := by
  simp [DotDims.lhsIdx, RD1, dot_S10x768x50_S10x50x3072_S10x768x3072_2_1_1_2_0_0]; rfl
theorem RD1_lhs1 (j : S10x768x3072.Idx) (k : RD1.contr.Idx) : (RD1.lhsIdx j k 1 : ℕ) = j 1 := by
  simp [DotDims.lhsIdx, RD1, dot_S10x768x50_S10x50x3072_S10x768x3072_2_1_1_2_0_0]; rfl
theorem RD1_lhs2 (j : S10x768x3072.Idx) (k : RD1.contr.Idx) : (RD1.lhsIdx j k 2 : ℕ) = k ⟨0, by rw [RD1_rank]; exact Nat.one_pos⟩ := by
  simp [DotDims.lhsIdx, RD1, dot_S10x768x50_S10x50x3072_S10x768x3072_2_1_1_2_0_0]; rfl
theorem RD1_rhs0 (j : S10x768x3072.Idx) (k : RD1.contr.Idx) : (RD1.rhsIdx j k 0 : ℕ) = j 0 := by
  simp [DotDims.rhsIdx, RD1, dot_S10x768x50_S10x50x3072_S10x768x3072_2_1_1_2_0_0]; rfl
theorem RD1_rhs1 (j : S10x768x3072.Idx) (k : RD1.contr.Idx) : (RD1.rhsIdx j k 1 : ℕ) = k ⟨0, by rw [RD1_rank]; exact Nat.one_pos⟩ := by
  simp [DotDims.rhsIdx, RD1, dot_S10x768x50_S10x50x3072_S10x768x3072_2_1_1_2_0_0]; rfl
theorem RD1_rhs2 (j : S10x768x3072.Idx) (k : RD1.contr.Idx) : (RD1.rhsIdx j k 2 : ℕ) = j 2 := by
  simp [DotDims.rhsIdx, RD1, dot_S10x768x50_S10x50x3072_S10x768x3072_2_1_1_2_0_0]; rfl

abbrev RD2 := dot_S10x768x3072_S10x3072x50_S10x768x50_2_1_1_2_0_0
theorem RD2_rank : RD2.contr.rank = 1 := rfl
theorem RD2_size : RD2.contr.size ⟨0, by rw [RD2_rank]; exact Nat.one_pos⟩ = 3072 := rfl
theorem RD2_lhs0 (j : S10x768x50.Idx) (k : RD2.contr.Idx) : (RD2.lhsIdx j k 0 : ℕ) = j 0 := by
  simp [DotDims.lhsIdx, RD2, dot_S10x768x3072_S10x3072x50_S10x768x50_2_1_1_2_0_0]; rfl
theorem RD2_lhs1 (j : S10x768x50.Idx) (k : RD2.contr.Idx) : (RD2.lhsIdx j k 1 : ℕ) = j 1 := by
  simp [DotDims.lhsIdx, RD2, dot_S10x768x3072_S10x3072x50_S10x768x50_2_1_1_2_0_0]; rfl
theorem RD2_lhs2 (j : S10x768x50.Idx) (k : RD2.contr.Idx) : (RD2.lhsIdx j k 2 : ℕ) = k ⟨0, by rw [RD2_rank]; exact Nat.one_pos⟩ := by
  simp [DotDims.lhsIdx, RD2, dot_S10x768x3072_S10x3072x50_S10x768x50_2_1_1_2_0_0]; rfl
theorem RD2_rhs0 (j : S10x768x50.Idx) (k : RD2.contr.Idx) : (RD2.rhsIdx j k 0 : ℕ) = j 0 := by
  simp [DotDims.rhsIdx, RD2, dot_S10x768x3072_S10x3072x50_S10x768x50_2_1_1_2_0_0]; rfl
theorem RD2_rhs1 (j : S10x768x50.Idx) (k : RD2.contr.Idx) : (RD2.rhsIdx j k 1 : ℕ) = k ⟨0, by rw [RD2_rank]; exact Nat.one_pos⟩ := by
  simp [DotDims.rhsIdx, RD2, dot_S10x768x3072_S10x3072x50_S10x768x50_2_1_1_2_0_0]; rfl
theorem RD2_rhs2 (j : S10x768x50.Idx) (k : RD2.contr.Idx) : (RD2.rhsIdx j k 2 : ℕ) = j 2 := by
  simp [DotDims.rhsIdx, RD2, dot_S10x768x3072_S10x3072x50_S10x768x50_2_1_1_2_0_0]; rfl

abbrev RD3 := dot_S10x50x768_S10x768x3072_S10x50x3072_2_1_1_2_0_0
theorem RD3_rank : RD3.contr.rank = 1 := rfl
theorem RD3_size : RD3.contr.size ⟨0, by rw [RD3_rank]; exact Nat.one_pos⟩ = 768 := rfl
theorem RD3_lhs0 (j : S10x50x3072.Idx) (k : RD3.contr.Idx) : (RD3.lhsIdx j k 0 : ℕ) = j 0 := by
  simp [DotDims.lhsIdx, RD3, dot_S10x50x768_S10x768x3072_S10x50x3072_2_1_1_2_0_0]; rfl
theorem RD3_lhs1 (j : S10x50x3072.Idx) (k : RD3.contr.Idx) : (RD3.lhsIdx j k 1 : ℕ) = j 1 := by
  simp [DotDims.lhsIdx, RD3, dot_S10x50x768_S10x768x3072_S10x50x3072_2_1_1_2_0_0]; rfl
theorem RD3_lhs2 (j : S10x50x3072.Idx) (k : RD3.contr.Idx) : (RD3.lhsIdx j k 2 : ℕ) = k ⟨0, by rw [RD3_rank]; exact Nat.one_pos⟩ := by
  simp [DotDims.lhsIdx, RD3, dot_S10x50x768_S10x768x3072_S10x50x3072_2_1_1_2_0_0]; rfl
theorem RD3_rhs0 (j : S10x50x3072.Idx) (k : RD3.contr.Idx) : (RD3.rhsIdx j k 0 : ℕ) = j 0 := by
  simp [DotDims.rhsIdx, RD3, dot_S10x50x768_S10x768x3072_S10x50x3072_2_1_1_2_0_0]; rfl
theorem RD3_rhs1 (j : S10x50x3072.Idx) (k : RD3.contr.Idx) : (RD3.rhsIdx j k 1 : ℕ) = k ⟨0, by rw [RD3_rank]; exact Nat.one_pos⟩ := by
  simp [DotDims.rhsIdx, RD3, dot_S10x50x768_S10x768x3072_S10x50x3072_2_1_1_2_0_0]; rfl
theorem RD3_rhs2 (j : S10x50x3072.Idx) (k : RD3.contr.Idx) : (RD3.rhsIdx j k 2 : ℕ) = j 2 := by
  simp [DotDims.rhsIdx, RD3, dot_S10x50x768_S10x768x3072_S10x50x3072_2_1_1_2_0_0]; rfl

theorem dg_RD1_apply (L : FVec Ideal S10x768x50 .f32) (R : FVec Ideal S10x50x3072 .f32) (b : Fin 10) (p : Fin 768) (d : Fin 3072) :
    Host.dotGeneral RD1 none L R (ix3 b p d) = ∑ k : Fin 50, L (ix3 b p k) * R (ix3 b k d) := by
  rw [show Host.dotGeneral RD1 none L R (ix3 b p d) = _ from Ideal.dotGeneral_apply RD1 none .single L R (ix3 b p d)]
  rw [← Equiv.sum_comp (contrEquiv1 RD1 50 RD1_rank RD1_size).symm]
  refine Finset.sum_congr rfl fun k _ => ?_
  congr 2
  · exact ext3 (RD1_lhs0 _ _) (RD1_lhs1 _ _) ((RD1_lhs2 _ _).trans (contrEquiv1_symm_val RD1 50 RD1_rank RD1_size k))
  · exact ext3 (RD1_rhs0 _ _) ((RD1_rhs1 _ _).trans (contrEquiv1_symm_val RD1 50 RD1_rank RD1_size k)) (RD1_rhs2 _ _)

theorem dg_RD2_apply (L : FVec Ideal S10x768x3072 .f32) (R : FVec Ideal S10x3072x50 .f32) (b : Fin 10) (p : Fin 768) (s : Fin 50) :
    Host.dotGeneral RD2 none L R (ix3 b p s) = ∑ d : Fin 3072, L (ix3 b p d) * R (ix3 b d s) := by
  rw [show Host.dotGeneral RD2 none L R (ix3 b p s) = _ from Ideal.dotGeneral_apply RD2 none .single L R (ix3 b p s)]
  rw [← Equiv.sum_comp (contrEquiv1 RD2 3072 RD2_rank RD2_size).symm]
  refine Finset.sum_congr rfl fun k _ => ?_
  congr 2
  · exact ext3 (RD2_lhs0 _ _) (RD2_lhs1 _ _) ((RD2_lhs2 _ _).trans (contrEquiv1_symm_val RD2 3072 RD2_rank RD2_size k))
  · exact ext3 (RD2_rhs0 _ _) ((RD2_rhs1 _ _).trans (contrEquiv1_symm_val RD2 3072 RD2_rank RD2_size k)) (RD2_rhs2 _ _)

theorem dg_RD3_apply (L : FVec Ideal S10x50x768 .f32) (R : FVec Ideal S10x768x3072 .f32) (b : Fin 10) (s : Fin 50) (d : Fin 3072) :
    Host.dotGeneral RD3 none L R (ix3 b s d) = ∑ p : Fin 768, L (ix3 b s p) * R (ix3 b p d) := by
  rw [show Host.dotGeneral RD3 none L R (ix3 b s d) = _ from Ideal.dotGeneral_apply RD3 none .single L R (ix3 b s d)]
  rw [← Equiv.sum_comp (contrEquiv1 RD3 768 RD3_rank RD3_size).symm]
  refine Finset.sum_congr rfl fun k _ => ?_
  congr 2
  · exact ext3 (RD3_lhs0 _ _) (RD3_lhs1 _ _) ((RD3_lhs2 _ _).trans (contrEquiv1_symm_val RD3 768 RD3_rank RD3_size k))
  · exact ext3 (RD3_rhs0 _ _) ((RD3_rhs1 _ _).trans (contrEquiv1_symm_val RD3 768 RD3_rank RD3_size k)) (RD3_rhs2 _ _)

/-- The reference's capsule sums, as written. -/
def sRef (c1 c2 c3 : FVec Ideal S10x768x50 .f32) (x0 x1 x2 : FVec Ideal S10x50x3072 .f32) : FVec Ideal S10x768x3072 .f32 :=
  addf (addf (Host.dotGeneral RD1 none c1 x0) (Host.dotGeneral RD1 none c2 x1)) (Host.dotGeneral RD1 none c3 x2)

theorem sRef_apply (c1 c2 c3 : FVec Ideal S10x768x50 .f32) (x0 x1 x2 : FVec Ideal S10x50x3072 .f32) (b : Fin 10) (p : Fin 768) (d : Fin 3072) :
    sRef c1 c2 c3 x0 x1 x2 (ix3 b p d) = sCol c1 c2 c3 x0 x1 x2 b p d := by
  unfold sRef
  simp only [addf_apply, dg_RD1_apply]
  rfl

/-- The reference's squared lengths, as written. -/
def qRef (s : FVec Ideal S10x768x3072 .f32) : FVec Ideal S10x768x1 .f32 :=
  broadcastInDim S10x768x1 ![0, 1] bcast_S10x768_S10x768x1_0_1 (Host.reduceAdd (mulf s s) (constant S_ .f32 0x00000000#32) reducesTo_S10x768x3072_S10x768_d2 h_S_)

theorem red_d2 : S10x768x3072.Reduces [2] S10x768 := by decide

theorem qRef_eq (c1 c2 c3 : FVec Ideal S10x768x50 .f32) (x0 x1 x2 : FVec Ideal S10x50x3072 .f32) :
    qRef (sRef c1 c2 c3 x0 x1 x2) = capsQ c1 c2 c3 x0 x1 x2 := by
  funext i
  obtain ⟨b, p, z, rfl⟩ : ∃ (b : Fin 10) (p : Fin 768) (z : Fin 1), i = ix3 b p z := ⟨i 0, i 1, i 2, eq_ix3 i⟩
  unfold qRef
  refine (broadcastInDim_apply ![0, 1] bcast_S10x768_S10x768x1_0_1 _ (ix3 b p z) (ix2 b p) (fun a => by
    match a with
    | ⟨0, _⟩ => rfl
    | ⟨1, _⟩ => rfl)).trans ?_
  unfold Host.reduceAdd
  rw [Ideal.hostReduceAdd_def]
  refine (Ideal.hostReduceAdd_single reducesTo_S10x768x3072_S10x768_d2 red_d2 _ _ (ix2 b p)).trans ?_
  show Ideal.ofBits .f32 0x00000000#32 + _ = 0 + _
  rw [Ideal.ofBits_zero_f32]
  refine congrArg ((0 : EReal) + ·) ?_
  refine Finset.sum_congr rfl fun (d : Fin 3072) _ => ?_
  have hl : red_d2.lift (ix2 b p) d = ix3 b p d := ext3 rfl rfl rfl
  rw [hl, mulf_apply, sRef_apply]

/-- The reference's squashed capsules, as written: scale times the sums, divided by √q + ε. -/
def aRef (q : FVec Ideal S10x768x1 .f32) (s : FVec Ideal S10x768x3072 .f32) : FVec Ideal S10x768x3072 .f32 :=
  Host.divf (mulf (broadcastInDim S10x768x3072 ![0, 1, 2] bcast_S10x768x1_S10x768x3072_0_1_2
      (Host.divf q (addf (broadcastInDim S10x768x1 ![] bcast_S_S10x768x1 (constant S_ .f32 0x3F800000#32)) q))) s)
    (broadcastInDim S10x768x3072 ![0, 1, 2] bcast_S10x768x1_S10x768x3072_0_1_2
      (addf (Host.sqrt q) (broadcastInDim S10x768x1 ![] bcast_S_S10x768x1 (constant S_ .f32 0x322BCC77#32))))

theorem aRef_apply (q : FVec Ideal S10x768x1 .f32) (s : FVec Ideal S10x768x3072 .f32) (b : Fin 10) (p : Fin 768) (d : Fin 3072) :
    aRef q s (ix3 b p d) = capsFac q (ix3 b p 0) * s (ix3 b p d) := by
  have hb : ∀ (v : FVec Ideal S10x768x1 .f32), broadcastInDim S10x768x3072 ![0, 1, 2] bcast_S10x768x1_S10x768x3072_0_1_2 v (ix3 b p d) = v (ix3 b p 0) :=
    fun v => broadcastInDim_apply ![0, 1, 2] bcast_S10x768x1_S10x768x3072_0_1_2 v (ix3 b p d) (ix3 b p 0) (fun a => by
      match a with
      | ⟨0, _⟩ => rfl
      | ⟨1, _⟩ => rfl
      | ⟨2, _⟩ => rfl)
  unfold aRef
  show Ideal.div (_ * s (ix3 b p d)) _ = _
  rw [hb, hb]
  unfold capsFac
  exact (Cert.Lib.SquashScale.div_mul_eq_mul_div (Cert.Lib.SquashScale.squash_divisor_ne_zero _) _ _).symm

/-- The reference's logit update against a modality is the entry-by-entry update with the kernel's factor. -/
theorem bRef_eq (c1 c2 c3 : FVec Ideal S10x768x50 .f32) (x0 x1 x2 x : FVec Ideal S10x50x3072 .f32) :
    Host.dotGeneral RD2 none (aRef (capsQ c1 c2 c3 x0 x1 x2) (sRef c1 c2 c3 x0 x1 x2)) (transpose S10x3072x50 [0, 2, 1] x transposes_S10x50x3072_S10x3072x50_0_2_1)
      = capsB (capsFac (capsQ c1 c2 c3 x0 x1 x2)) c1 c2 c3 x0 x1 x2 x := by
  funext i
  obtain ⟨b, p, s, rfl⟩ : ∃ (b : Fin 10) (p : Fin 768) (s : Fin 50), i = ix3 b p s := ⟨i 0, i 1, i 2, eq_ix3 i⟩
  rw [dg_RD2_apply]
  show _ = ∑ d : Fin 3072, (capsFac (capsQ c1 c2 c3 x0 x1 x2) (ix3 b p 0) * sCol c1 c2 c3 x0 x1 x2 b p d) * x (ix3 b s d)
  refine Finset.sum_congr rfl fun d _ => ?_
  rw [aRef_apply, sRef_apply]
  refine congrArg (capsFac (capsQ c1 c2 c3 x0 x1 x2) (ix3 b p 0) * sCol c1 c2 c3 x0 x1 x2 b p d * ·) ?_
  exact transpose_apply [0, 2, 1] x transposes_S10x50x3072_S10x3072x50_0_2_1 (ix3 b d s) (ix3 b s d) (fun a => by
    match a with
    | ⟨0, _⟩ => rfl
    | ⟨1, _⟩ => rfl
    | ⟨2, _⟩ => rfl)

/-- The reference's result is W times the squashed capsules, entry by entry. -/
theorem oRef_eq (w : FVec Ideal S10x50x768 .f32) (c1 c2 c3 : FVec Ideal S10x768x50 .f32) (x0 x1 x2 : FVec Ideal S10x50x3072 .f32) :
    Host.dotGeneral RD3 none w (aRef (capsQ c1 c2 c3 x0 x1 x2) (sRef c1 c2 c3 x0 x1 x2))
      = capsOut w (capsFac (capsQ c1 c2 c3 x0 x1 x2)) c1 c2 c3 x0 x1 x2 := by
  funext i
  obtain ⟨b, s, d, rfl⟩ : ∃ (b : Fin 10) (s : Fin 50) (d : Fin 3072), i = ix3 b s d := ⟨i 0, i 1, i 2, eq_ix3 i⟩
  rw [dg_RD3_apply]
  show _ = ∑ p : Fin 768, _
  refine Finset.sum_congr rfl fun p _ => ?_
  rw [aRef_apply, sRef_apply]

end Cert.ReferenceIdeal.Hand

end
-- ==== Proof.RefGlue.lean ====
/-
  The reference program's buffers, chunk by chunk, at the ideal values.  Its 142 host operations are cut where a routing
  iteration's weights, and then its new logits, are complete; each chunk's results are read off the chunk before's, and brought
  to the specification's terms (Proof/Spec.lean) by the entry-by-entry readings of Proof/RefOps.lean.
-/
import proofs.«160248_j77816217469391_2_alg».proof.Proof.RefRun
import proofs.«160248_j77816217469391_2_alg».proof.Proof.RefOps
import proofs.«160248_j77816217469391_2_alg».proof.Proof.Spec
import proofs.«160248_j77816217469391_2_alg».proof.Proof.LibNary3

set_option maxRecDepth 65536

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo
open Cert.KernelIdeal.Hand (capsQ capsFac capsB capsOut)
open Cert.Spec (zeroB cw1 cw2 cw3 fac step out spec)

variable [hR : Cert.ReferenceIdeal.Facts]

section Chunks
variable {F : FTy → Type} [FloatOps F]

def opsA : List (HloOp τ sig (Elt F)) :=
  [ nullary main_cst (constant S_ .f32 0x00000000#32),
    unary main_cst main_v0 (broadcastInDim S10x768x50 ![] bcast_S_S10x768x50 : (⟨S_, .f32⟩ : BufTy).Contents (Elt F) → (⟨S10x768x50, .f32⟩ : BufTy).Contents (Elt F)),
    nullary main_cst_0 (constant S_ .f32 0x00000000#32),
    unary main_cst_0 main_v1 (broadcastInDim S10x768x50 ![] bcast_S_S10x768x50 : (⟨S_, .f32⟩ : BufTy).Contents (Elt F) → (⟨S10x768x50, .f32⟩ : BufTy).Contents (Elt F)),
    nullary main_cst_1 (constant S_ .f32 0x00000000#32),
    unary main_cst_1 main_v2 (broadcastInDim S10x768x50 ![] bcast_S_S10x768x50 : (⟨S_, .f32⟩ : BufTy).Contents (Elt F) → (⟨S10x768x50, .f32⟩ : BufTy).Contents (Elt F)),
    nary ![main_v0, main_v1, main_v2] main_v3 (fun u => concatenate S10x2304x50 1 [⟨S10x768x50, u 0⟩, ⟨S10x768x50, u 1⟩, ⟨S10x768x50, u 2⟩] concatenates_S10x768x50_S10x768x50_S10x768x50_S10x2304x50_d1),
    nullary main_cst_2 (constant S_ .f32 0xFF800000#32),
    binary main_v3 main_cst_2 main_v4 ((fun x v => Host.reduce FloatOps.maximumf x v reducesTo_S10x2304x50_S10x50_d1 h_S_) : (⟨S10x2304x50, .f32⟩ : BufTy).Contents (Elt F) → (⟨S_, .f32⟩ : BufTy).Contents (Elt F) → (⟨S10x50, .f32⟩ : BufTy).Contents (Elt F)),
    nullary main_cst_3 (constant S_ .f32 0xFF800000#32),
    unary main_cst_3 main_v5 (broadcastInDim S10x50 ![] bcast_S_S10x50 : (⟨S_, .f32⟩ : BufTy).Contents (Elt F) → (⟨S10x50, .f32⟩ : BufTy).Contents (Elt F)),
    binary main_v5 main_v4 main_v6 (maximumf : (⟨S10x50, .f32⟩ : BufTy).Contents (Elt F) → (⟨S10x50, .f32⟩ : BufTy).Contents (Elt F) → (⟨S10x50, .f32⟩ : BufTy).Contents (Elt F)),
    unary main_v6 main_v7 (broadcastInDim S10x1x50 ![0, 2] bcast_S10x50_S10x1x50_0_2 : (⟨S10x50, .f32⟩ : BufTy).Contents (Elt F) → (⟨S10x1x50, .f32⟩ : BufTy).Contents (Elt F)),
    unary main_v7 main_v8 (broadcastInDim S10x2304x50 ![0, 1, 2] bcast_S10x1x50_S10x2304x50_0_1_2 : (⟨S10x1x50, .f32⟩ : BufTy).Contents (Elt F) → (⟨S10x2304x50, .f32⟩ : BufTy).Contents (Elt F)),
    binary main_v3 main_v8 main_v9 (subf : (⟨S10x2304x50, .f32⟩ : BufTy).Contents (Elt F) → (⟨S10x2304x50, .f32⟩ : BufTy).Contents (Elt F) → (⟨S10x2304x50, .f32⟩ : BufTy).Contents (Elt F)),
    unary main_v9 main_v10 (Host.exp : (⟨S10x2304x50, .f32⟩ : BufTy).Contents (Elt F) → (⟨S10x2304x50, .f32⟩ : BufTy).Contents (Elt F)),
    nullary main_cst_4 (constant S_ .f32 0x00000000#32),
    binary main_v10 main_cst_4 main_v11 ((fun x v => Host.reduceAdd x v reducesTo_S10x2304x50_S10x50_d1 h_S_) : (⟨S10x2304x50, .f32⟩ : BufTy).Contents (Elt F) → (⟨S_, .f32⟩ : BufTy).Contents (Elt F) → (⟨S10x50, .f32⟩ : BufTy).Contents (Elt F)),
    unary main_v11 main_v12 (broadcastInDim S10x1x50 ![0, 2] bcast_S10x50_S10x1x50_0_2 : (⟨S10x50, .f32⟩ : BufTy).Contents (Elt F) → (⟨S10x1x50, .f32⟩ : BufTy).Contents (Elt F)),
    unary main_v12 main_v13 (broadcastInDim S10x2304x50 ![0, 1, 2] bcast_S10x1x50_S10x2304x50_0_1_2 : (⟨S10x1x50, .f32⟩ : BufTy).Contents (Elt F) → (⟨S10x2304x50, .f32⟩ : BufTy).Contents (Elt F)),
    binary main_v10 main_v13 main_v14 (Host.divf : (⟨S10x2304x50, .f32⟩ : BufTy).Contents (Elt F) → (⟨S10x2304x50, .f32⟩ : BufTy).Contents (Elt F) → (⟨S10x2304x50, .f32⟩ : BufTy).Contents (Elt F)),
    unary main_v14 main_v15 ((extractStridedSlice S10x768x50 ![0, 0, 0] · slices_S10x2304x50_S10x768x50_0_0_0) : (⟨S10x2304x50, .f32⟩ : BufTy).Contents (Elt F) → (⟨S10x768x50, .f32⟩ : BufTy).Contents (Elt F)),
    unary main_v14 main_v16 ((extractStridedSlice S10x768x50 ![0, 768, 0] · slices_S10x2304x50_S10x768x50_0_768_0) : (⟨S10x2304x50, .f32⟩ : BufTy).Contents (Elt F) → (⟨S10x768x50, .f32⟩ : BufTy).Contents (Elt F)),
    unary main_v14 main_v17 ((extractStridedSlice S10x768x50 ![0, 1536, 0] · slices_S10x2304x50_S10x768x50_0_1536_0) : (⟨S10x2304x50, .f32⟩ : BufTy).Contents (Elt F) → (⟨S10x768x50, .f32⟩ : BufTy).Contents (Elt F)) ]

def opsB : List (HloOp τ sig (Elt F)) :=
  [ binary main_v15 main_arg0 main_v18 ((fun l r => Host.dotGeneral dot_S10x768x50_S10x50x3072_S10x768x3072_2_1_1_2_0_0 none l r) : (⟨S10x768x50, .f32⟩ : BufTy).Contents (Elt F) → (⟨S10x50x3072, .f32⟩ : BufTy).Contents (Elt F) → (⟨S10x768x3072, .f32⟩ : BufTy).Contents (Elt F)),
    binary main_v16 main_arg1 main_v19 ((fun l r => Host.dotGeneral dot_S10x768x50_S10x50x3072_S10x768x3072_2_1_1_2_0_0 none l r) : (⟨S10x768x50, .f32⟩ : BufTy).Contents (Elt F) → (⟨S10x50x3072, .f32⟩ : BufTy).Contents (Elt F) → (⟨S10x768x3072, .f32⟩ : BufTy).Contents (Elt F)),
    binary main_v18 main_v19 main_v20 (addf : (⟨S10x768x3072, .f32⟩ : BufTy).Contents (Elt F) → (⟨S10x768x3072, .f32⟩ : BufTy).Contents (Elt F) → (⟨S10x768x3072, .f32⟩ : BufTy).Contents (Elt F)),
    binary main_v17 main_arg2 main_v21 ((fun l r => Host.dotGeneral dot_S10x768x50_S10x50x3072_S10x768x3072_2_1_1_2_0_0 none l r) : (⟨S10x768x50, .f32⟩ : BufTy).Contents (Elt F) → (⟨S10x50x3072, .f32⟩ : BufTy).Contents (Elt F) → (⟨S10x768x3072, .f32⟩ : BufTy).Contents (Elt F)),
    binary main_v20 main_v21 main_v22 (addf : (⟨S10x768x3072, .f32⟩ : BufTy).Contents (Elt F) → (⟨S10x768x3072, .f32⟩ : BufTy).Contents (Elt F) → (⟨S10x768x3072, .f32⟩ : BufTy).Contents (Elt F)),
    binary main_v22 main_v22 main_v23 (mulf : (⟨S10x768x3072, .f32⟩ : BufTy).Contents (Elt F) → (⟨S10x768x3072, .f32⟩ : BufTy).Contents (Elt F) → (⟨S10x768x3072, .f32⟩ : BufTy).Contents (Elt F)),
    nullary main_cst_5 (constant S_ .f32 0x00000000#32),
    binary main_v23 main_cst_5 main_v24 ((fun x v => Host.reduceAdd x v reducesTo_S10x768x3072_S10x768_d2 h_S_) : (⟨S10x768x3072, .f32⟩ : BufTy).Contents (Elt F) → (⟨S_, .f32⟩ : BufTy).Contents (Elt F) → (⟨S10x768, .f32⟩ : BufTy).Contents (Elt F)),
    unary main_v24 main_v25 (broadcastInDim S10x768x1 ![0, 1] bcast_S10x768_S10x768x1_0_1 : (⟨S10x768, .f32⟩ : BufTy).Contents (Elt F) → (⟨S10x768x1, .f32⟩ : BufTy).Contents (Elt F)),
    nullary main_cst_6 (constant S_ .f32 0x3F800000#32),
    unary main_cst_6 main_v26 (broadcastInDim S10x768x1 ![] bcast_S_S10x768x1 : (⟨S_, .f32⟩ : BufTy).Contents (Elt F) → (⟨S10x768x1, .f32⟩ : BufTy).Contents (Elt F)),
    binary main_v26 main_v25 main_v27 (addf : (⟨S10x768x1, .f32⟩ : BufTy).Contents (Elt F) → (⟨S10x768x1, .f32⟩ : BufTy).Contents (Elt F) → (⟨S10x768x1, .f32⟩ : BufTy).Contents (Elt F)),
    binary main_v25 main_v27 main_v28 (Host.divf : (⟨S10x768x1, .f32⟩ : BufTy).Contents (Elt F) → (⟨S10x768x1, .f32⟩ : BufTy).Contents (Elt F) → (⟨S10x768x1, .f32⟩ : BufTy).Contents (Elt F)),
    unary main_v28 main_v29 (broadcastInDim S10x768x3072 ![0, 1, 2] bcast_S10x768x1_S10x768x3072_0_1_2 : (⟨S10x768x1, .f32⟩ : BufTy).Contents (Elt F) → (⟨S10x768x3072, .f32⟩ : BufTy).Contents (Elt F)),
    binary main_v29 main_v22 main_v30 (mulf : (⟨S10x768x3072, .f32⟩ : BufTy).Contents (Elt F) → (⟨S10x768x3072, .f32⟩ : BufTy).Contents (Elt F) → (⟨S10x768x3072, .f32⟩ : BufTy).Contents (Elt F)),
    unary main_v25 main_v31 (Host.sqrt : (⟨S10x768x1, .f32⟩ : BufTy).Contents (Elt F) → (⟨S10x768x1, .f32⟩ : BufTy).Contents (Elt F)),
    nullary main_cst_7 (constant S_ .f32 0x322BCC77#32),
    unary main_cst_7 main_v32 (broadcastInDim S10x768x1 ![] bcast_S_S10x768x1 : (⟨S_, .f32⟩ : BufTy).Contents (Elt F) → (⟨S10x768x1, .f32⟩ : BufTy).Contents (Elt F)),
    binary main_v31 main_v32 main_v33 (addf : (⟨S10x768x1, .f32⟩ : BufTy).Contents (Elt F) → (⟨S10x768x1, .f32⟩ : BufTy).Contents (Elt F) → (⟨S10x768x1, .f32⟩ : BufTy).Contents (Elt F)),
    unary main_v33 main_v34 (broadcastInDim S10x768x3072 ![0, 1, 2] bcast_S10x768x1_S10x768x3072_0_1_2 : (⟨S10x768x1, .f32⟩ : BufTy).Contents (Elt F) → (⟨S10x768x3072, .f32⟩ : BufTy).Contents (Elt F)),
    binary main_v30 main_v34 main_v35 (Host.divf : (⟨S10x768x3072, .f32⟩ : BufTy).Contents (Elt F) → (⟨S10x768x3072, .f32⟩ : BufTy).Contents (Elt F) → (⟨S10x768x3072, .f32⟩ : BufTy).Contents (Elt F)),
    unary main_arg0 main_v36 ((transpose S10x3072x50 [0, 2, 1] · transposes_S10x50x3072_S10x3072x50_0_2_1) : (⟨S10x50x3072, .f32⟩ : BufTy).Contents (Elt F) → (⟨S10x3072x50, .f32⟩ : BufTy).Contents (Elt F)),
    binary main_v35 main_v36 main_v37 ((fun l r => Host.dotGeneral dot_S10x768x3072_S10x3072x50_S10x768x50_2_1_1_2_0_0 none l r) : (⟨S10x768x3072, .f32⟩ : BufTy).Contents (Elt F) → (⟨S10x3072x50, .f32⟩ : BufTy).Contents (Elt F) → (⟨S10x768x50, .f32⟩ : BufTy).Contents (Elt F)),
    binary main_v0 main_v37 main_v38 (addf : (⟨S10x768x50, .f32⟩ : BufTy).Contents (Elt F) → (⟨S10x768x50, .f32⟩ : BufTy).Contents (Elt F) → (⟨S10x768x50, .f32⟩ : BufTy).Contents (Elt F)),
    unary main_arg1 main_v39 ((transpose S10x3072x50 [0, 2, 1] · transposes_S10x50x3072_S10x3072x50_0_2_1) : (⟨S10x50x3072, .f32⟩ : BufTy).Contents (Elt F) → (⟨S10x3072x50, .f32⟩ : BufTy).Contents (Elt F)),
    binary main_v35 main_v39 main_v40 ((fun l r => Host.dotGeneral dot_S10x768x3072_S10x3072x50_S10x768x50_2_1_1_2_0_0 none l r) : (⟨S10x768x3072, .f32⟩ : BufTy).Contents (Elt F) → (⟨S10x3072x50, .f32⟩ : BufTy).Contents (Elt F) → (⟨S10x768x50, .f32⟩ : BufTy).Contents (Elt F)),
    binary main_v1 main_v40 main_v41 (addf : (⟨S10x768x50, .f32⟩ : BufTy).Contents (Elt F) → (⟨S10x768x50, .f32⟩ : BufTy).Contents (Elt F) → (⟨S10x768x50, .f32⟩ : BufTy).Contents (Elt F)),
    unary main_arg2 main_v42 ((transpose S10x3072x50 [0, 2, 1] · transposes_S10x50x3072_S10x3072x50_0_2_1) : (⟨S10x50x3072, .f32⟩ : BufTy).Contents (Elt F) → (⟨S10x3072x50, .f32⟩ : BufTy).Contents (Elt F)),
    binary main_v35 main_v42 main_v43 ((fun l r => Host.dotGeneral dot_S10x768x3072_S10x3072x50_S10x768x50_2_1_1_2_0_0 none l r) : (⟨S10x768x3072, .f32⟩ : BufTy).Contents (Elt F) → (⟨S10x3072x50, .f32⟩ : BufTy).Contents (Elt F) → (⟨S10x768x50, .f32⟩ : BufTy).Contents (Elt F)),
    binary main_v2 main_v43 main_v44 (addf : (⟨S10x768x50, .f32⟩ : BufTy).Contents (Elt F) → (⟨S10x768x50, .f32⟩ : BufTy).Contents (Elt F) → (⟨S10x768x50, .f32⟩ : BufTy).Contents (Elt F)) ]

def opsC : List (HloOp τ sig (Elt F)) :=
  [ nary ![main_v38, main_v41, main_v44] main_v45 (fun u => concatenate S10x2304x50 1 [⟨S10x768x50, u 0⟩, ⟨S10x768x50, u 1⟩, ⟨S10x768x50, u 2⟩] concatenates_S10x768x50_S10x768x50_S10x768x50_S10x2304x50_d1),
    nullary main_cst_8 (constant S_ .f32 0xFF800000#32),
    binary main_v45 main_cst_8 main_v46 ((fun x v => Host.reduce FloatOps.maximumf x v reducesTo_S10x2304x50_S10x50_d1 h_S_) : (⟨S10x2304x50, .f32⟩ : BufTy).Contents (Elt F) → (⟨S_, .f32⟩ : BufTy).Contents (Elt F) → (⟨S10x50, .f32⟩ : BufTy).Contents (Elt F)),
    nullary main_cst_9 (constant S_ .f32 0xFF800000#32),
    unary main_cst_9 main_v47 (broadcastInDim S10x50 ![] bcast_S_S10x50 : (⟨S_, .f32⟩ : BufTy).Contents (Elt F) → (⟨S10x50, .f32⟩ : BufTy).Contents (Elt F)),
    binary main_v47 main_v46 main_v48 (maximumf : (⟨S10x50, .f32⟩ : BufTy).Contents (Elt F) → (⟨S10x50, .f32⟩ : BufTy).Contents (Elt F) → (⟨S10x50, .f32⟩ : BufTy).Contents (Elt F)),
    unary main_v48 main_v49 (broadcastInDim S10x1x50 ![0, 2] bcast_S10x50_S10x1x50_0_2 : (⟨S10x50, .f32⟩ : BufTy).Contents (Elt F) → (⟨S10x1x50, .f32⟩ : BufTy).Contents (Elt F)),
    unary main_v49 main_v50 (broadcastInDim S10x2304x50 ![0, 1, 2] bcast_S10x1x50_S10x2304x50_0_1_2 : (⟨S10x1x50, .f32⟩ : BufTy).Contents (Elt F) → (⟨S10x2304x50, .f32⟩ : BufTy).Contents (Elt F)),
    binary main_v45 main_v50 main_v51 (subf : (⟨S10x2304x50, .f32⟩ : BufTy).Contents (Elt F) → (⟨S10x2304x50, .f32⟩ : BufTy).Contents (Elt F) → (⟨S10x2304x50, .f32⟩ : BufTy).Contents (Elt F)),
    unary main_v51 main_v52 (Host.exp : (⟨S10x2304x50, .f32⟩ : BufTy).Contents (Elt F) → (⟨S10x2304x50, .f32⟩ : BufTy).Contents (Elt F)),
    nullary main_cst_10 (constant S_ .f32 0x00000000#32),
    binary main_v52 main_cst_10 main_v53 ((fun x v => Host.reduceAdd x v reducesTo_S10x2304x50_S10x50_d1 h_S_) : (⟨S10x2304x50, .f32⟩ : BufTy).Contents (Elt F) → (⟨S_, .f32⟩ : BufTy).Contents (Elt F) → (⟨S10x50, .f32⟩ : BufTy).Contents (Elt F)),
    unary main_v53 main_v54 (broadcastInDim S10x1x50 ![0, 2] bcast_S10x50_S10x1x50_0_2 : (⟨S10x50, .f32⟩ : BufTy).Contents (Elt F) → (⟨S10x1x50, .f32⟩ : BufTy).Contents (Elt F)),
    unary main_v54 main_v55 (broadcastInDim S10x2304x50 ![0, 1, 2] bcast_S10x1x50_S10x2304x50_0_1_2 : (⟨S10x1x50, .f32⟩ : BufTy).Contents (Elt F) → (⟨S10x2304x50, .f32⟩ : BufTy).Contents (Elt F)),
    binary main_v52 main_v55 main_v56 (Host.divf : (⟨S10x2304x50, .f32⟩ : BufTy).Contents (Elt F) → (⟨S10x2304x50, .f32⟩ : BufTy).Contents (Elt F) → (⟨S10x2304x50, .f32⟩ : BufTy).Contents (Elt F)),
    unary main_v56 main_v57 ((extractStridedSlice S10x768x50 ![0, 0, 0] · slices_S10x2304x50_S10x768x50_0_0_0) : (⟨S10x2304x50, .f32⟩ : BufTy).Contents (Elt F) → (⟨S10x768x50, .f32⟩ : BufTy).Contents (Elt F)),
    unary main_v56 main_v58 ((extractStridedSlice S10x768x50 ![0, 768, 0] · slices_S10x2304x50_S10x768x50_0_768_0) : (⟨S10x2304x50, .f32⟩ : BufTy).Contents (Elt F) → (⟨S10x768x50, .f32⟩ : BufTy).Contents (Elt F)),
    unary main_v56 main_v59 ((extractStridedSlice S10x768x50 ![0, 1536, 0] · slices_S10x2304x50_S10x768x50_0_1536_0) : (⟨S10x2304x50, .f32⟩ : BufTy).Contents (Elt F) → (⟨S10x768x50, .f32⟩ : BufTy).Contents (Elt F)) ]

def opsD : List (HloOp τ sig (Elt F)) :=
  [ binary main_v57 main_arg0 main_v60 ((fun l r => Host.dotGeneral dot_S10x768x50_S10x50x3072_S10x768x3072_2_1_1_2_0_0 none l r) : (⟨S10x768x50, .f32⟩ : BufTy).Contents (Elt F) → (⟨S10x50x3072, .f32⟩ : BufTy).Contents (Elt F) → (⟨S10x768x3072, .f32⟩ : BufTy).Contents (Elt F)),
    binary main_v58 main_arg1 main_v61 ((fun l r => Host.dotGeneral dot_S10x768x50_S10x50x3072_S10x768x3072_2_1_1_2_0_0 none l r) : (⟨S10x768x50, .f32⟩ : BufTy).Contents (Elt F) → (⟨S10x50x3072, .f32⟩ : BufTy).Contents (Elt F) → (⟨S10x768x3072, .f32⟩ : BufTy).Contents (Elt F)),
    binary main_v60 main_v61 main_v62 (addf : (⟨S10x768x3072, .f32⟩ : BufTy).Contents (Elt F) → (⟨S10x768x3072, .f32⟩ : BufTy).Contents (Elt F) → (⟨S10x768x3072, .f32⟩ : BufTy).Contents (Elt F)),
    binary main_v59 main_arg2 main_v63 ((fun l r => Host.dotGeneral dot_S10x768x50_S10x50x3072_S10x768x3072_2_1_1_2_0_0 none l r) : (⟨S10x768x50, .f32⟩ : BufTy).Contents (Elt F) → (⟨S10x50x3072, .f32⟩ : BufTy).Contents (Elt F) → (⟨S10x768x3072, .f32⟩ : BufTy).Contents (Elt F)),
    binary main_v62 main_v63 main_v64 (addf : (⟨S10x768x3072, .f32⟩ : BufTy).Contents (Elt F) → (⟨S10x768x3072, .f32⟩ : BufTy).Contents (Elt F) → (⟨S10x768x3072, .f32⟩ : BufTy).Contents (Elt F)),
    binary main_v64 main_v64 main_v65 (mulf : (⟨S10x768x3072, .f32⟩ : BufTy).Contents (Elt F) → (⟨S10x768x3072, .f32⟩ : BufTy).Contents (Elt F) → (⟨S10x768x3072, .f32⟩ : BufTy).Contents (Elt F)),
    nullary main_cst_11 (constant S_ .f32 0x00000000#32),
    binary main_v65 main_cst_11 main_v66 ((fun x v => Host.reduceAdd x v reducesTo_S10x768x3072_S10x768_d2 h_S_) : (⟨S10x768x3072, .f32⟩ : BufTy).Contents (Elt F) → (⟨S_, .f32⟩ : BufTy).Contents (Elt F) → (⟨S10x768, .f32⟩ : BufTy).Contents (Elt F)),
    unary main_v66 main_v67 (broadcastInDim S10x768x1 ![0, 1] bcast_S10x768_S10x768x1_0_1 : (⟨S10x768, .f32⟩ : BufTy).Contents (Elt F) → (⟨S10x768x1, .f32⟩ : BufTy).Contents (Elt F)),
    nullary main_cst_12 (constant S_ .f32 0x3F800000#32),
    unary main_cst_12 main_v68 (broadcastInDim S10x768x1 ![] bcast_S_S10x768x1 : (⟨S_, .f32⟩ : BufTy).Contents (Elt F) → (⟨S10x768x1, .f32⟩ : BufTy).Contents (Elt F)),
    binary main_v68 main_v67 main_v69 (addf : (⟨S10x768x1, .f32⟩ : BufTy).Contents (Elt F) → (⟨S10x768x1, .f32⟩ : BufTy).Contents (Elt F) → (⟨S10x768x1, .f32⟩ : BufTy).Contents (Elt F)),
    binary main_v67 main_v69 main_v70 (Host.divf : (⟨S10x768x1, .f32⟩ : BufTy).Contents (Elt F) → (⟨S10x768x1, .f32⟩ : BufTy).Contents (Elt F) → (⟨S10x768x1, .f32⟩ : BufTy).Contents (Elt F)),
    unary main_v70 main_v71 (broadcastInDim S10x768x3072 ![0, 1, 2] bcast_S10x768x1_S10x768x3072_0_1_2 : (⟨S10x768x1, .f32⟩ : BufTy).Contents (Elt F) → (⟨S10x768x3072, .f32⟩ : BufTy).Contents (Elt F)),
    binary main_v71 main_v64 main_v72 (mulf : (⟨S10x768x3072, .f32⟩ : BufTy).Contents (Elt F) → (⟨S10x768x3072, .f32⟩ : BufTy).Contents (Elt F) → (⟨S10x768x3072, .f32⟩ : BufTy).Contents (Elt F)),
    unary main_v67 main_v73 (Host.sqrt : (⟨S10x768x1, .f32⟩ : BufTy).Contents (Elt F) → (⟨S10x768x1, .f32⟩ : BufTy).Contents (Elt F)),
    nullary main_cst_13 (constant S_ .f32 0x322BCC77#32),
    unary main_cst_13 main_v74 (broadcastInDim S10x768x1 ![] bcast_S_S10x768x1 : (⟨S_, .f32⟩ : BufTy).Contents (Elt F) → (⟨S10x768x1, .f32⟩ : BufTy).Contents (Elt F)),
    binary main_v73 main_v74 main_v75 (addf : (⟨S10x768x1, .f32⟩ : BufTy).Contents (Elt F) → (⟨S10x768x1, .f32⟩ : BufTy).Contents (Elt F) → (⟨S10x768x1, .f32⟩ : BufTy).Contents (Elt F)),
    unary main_v75 main_v76 (broadcastInDim S10x768x3072 ![0, 1, 2] bcast_S10x768x1_S10x768x3072_0_1_2 : (⟨S10x768x1, .f32⟩ : BufTy).Contents (Elt F) → (⟨S10x768x3072, .f32⟩ : BufTy).Contents (Elt F)),
    binary main_v72 main_v76 main_v77 (Host.divf : (⟨S10x768x3072, .f32⟩ : BufTy).Contents (Elt F) → (⟨S10x768x3072, .f32⟩ : BufTy).Contents (Elt F) → (⟨S10x768x3072, .f32⟩ : BufTy).Contents (Elt F)),
    unary main_arg0 main_v78 ((transpose S10x3072x50 [0, 2, 1] · transposes_S10x50x3072_S10x3072x50_0_2_1) : (⟨S10x50x3072, .f32⟩ : BufTy).Contents (Elt F) → (⟨S10x3072x50, .f32⟩ : BufTy).Contents (Elt F)),
    binary main_v77 main_v78 main_v79 ((fun l r => Host.dotGeneral dot_S10x768x3072_S10x3072x50_S10x768x50_2_1_1_2_0_0 none l r) : (⟨S10x768x3072, .f32⟩ : BufTy).Contents (Elt F) → (⟨S10x3072x50, .f32⟩ : BufTy).Contents (Elt F) → (⟨S10x768x50, .f32⟩ : BufTy).Contents (Elt F)),
    binary main_v38 main_v79 main_v80 (addf : (⟨S10x768x50, .f32⟩ : BufTy).Contents (Elt F) → (⟨S10x768x50, .f32⟩ : BufTy).Contents (Elt F) → (⟨S10x768x50, .f32⟩ : BufTy).Contents (Elt F)),
    unary main_arg1 main_v81 ((transpose S10x3072x50 [0, 2, 1] · transposes_S10x50x3072_S10x3072x50_0_2_1) : (⟨S10x50x3072, .f32⟩ : BufTy).Contents (Elt F) → (⟨S10x3072x50, .f32⟩ : BufTy).Contents (Elt F)),
    binary main_v77 main_v81 main_v82 ((fun l r => Host.dotGeneral dot_S10x768x3072_S10x3072x50_S10x768x50_2_1_1_2_0_0 none l r) : (⟨S10x768x3072, .f32⟩ : BufTy).Contents (Elt F) → (⟨S10x3072x50, .f32⟩ : BufTy).Contents (Elt F) → (⟨S10x768x50, .f32⟩ : BufTy).Contents (Elt F)),
    binary main_v41 main_v82 main_v83 (addf : (⟨S10x768x50, .f32⟩ : BufTy).Contents (Elt F) → (⟨S10x768x50, .f32⟩ : BufTy).Contents (Elt F) → (⟨S10x768x50, .f32⟩ : BufTy).Contents (Elt F)),
    unary main_arg2 main_v84 ((transpose S10x3072x50 [0, 2, 1] · transposes_S10x50x3072_S10x3072x50_0_2_1) : (⟨S10x50x3072, .f32⟩ : BufTy).Contents (Elt F) → (⟨S10x3072x50, .f32⟩ : BufTy).Contents (Elt F)),
    binary main_v77 main_v84 main_v85 ((fun l r => Host.dotGeneral dot_S10x768x3072_S10x3072x50_S10x768x50_2_1_1_2_0_0 none l r) : (⟨S10x768x3072, .f32⟩ : BufTy).Contents (Elt F) → (⟨S10x3072x50, .f32⟩ : BufTy).Contents (Elt F) → (⟨S10x768x50, .f32⟩ : BufTy).Contents (Elt F)),
    binary main_v44 main_v85 main_v86 (addf : (⟨S10x768x50, .f32⟩ : BufTy).Contents (Elt F) → (⟨S10x768x50, .f32⟩ : BufTy).Contents (Elt F) → (⟨S10x768x50, .f32⟩ : BufTy).Contents (Elt F)) ]

def opsE : List (HloOp τ sig (Elt F)) :=
  [ nary ![main_v80, main_v83, main_v86] main_v87 (fun u => concatenate S10x2304x50 1 [⟨S10x768x50, u 0⟩, ⟨S10x768x50, u 1⟩, ⟨S10x768x50, u 2⟩] concatenates_S10x768x50_S10x768x50_S10x768x50_S10x2304x50_d1),
    nullary main_cst_14 (constant S_ .f32 0xFF800000#32),
    binary main_v87 main_cst_14 main_v88 ((fun x v => Host.reduce FloatOps.maximumf x v reducesTo_S10x2304x50_S10x50_d1 h_S_) : (⟨S10x2304x50, .f32⟩ : BufTy).Contents (Elt F) → (⟨S_, .f32⟩ : BufTy).Contents (Elt F) → (⟨S10x50, .f32⟩ : BufTy).Contents (Elt F)),
    nullary main_cst_15 (constant S_ .f32 0xFF800000#32),
    unary main_cst_15 main_v89 (broadcastInDim S10x50 ![] bcast_S_S10x50 : (⟨S_, .f32⟩ : BufTy).Contents (Elt F) → (⟨S10x50, .f32⟩ : BufTy).Contents (Elt F)),
    binary main_v89 main_v88 main_v90 (maximumf : (⟨S10x50, .f32⟩ : BufTy).Contents (Elt F) → (⟨S10x50, .f32⟩ : BufTy).Contents (Elt F) → (⟨S10x50, .f32⟩ : BufTy).Contents (Elt F)),
    unary main_v90 main_v91 (broadcastInDim S10x1x50 ![0, 2] bcast_S10x50_S10x1x50_0_2 : (⟨S10x50, .f32⟩ : BufTy).Contents (Elt F) → (⟨S10x1x50, .f32⟩ : BufTy).Contents (Elt F)),
    unary main_v91 main_v92 (broadcastInDim S10x2304x50 ![0, 1, 2] bcast_S10x1x50_S10x2304x50_0_1_2 : (⟨S10x1x50, .f32⟩ : BufTy).Contents (Elt F) → (⟨S10x2304x50, .f32⟩ : BufTy).Contents (Elt F)),
    binary main_v87 main_v92 main_v93 (subf : (⟨S10x2304x50, .f32⟩ : BufTy).Contents (Elt F) → (⟨S10x2304x50, .f32⟩ : BufTy).Contents (Elt F) → (⟨S10x2304x50, .f32⟩ : BufTy).Contents (Elt F)),
    unary main_v93 main_v94 (Host.exp : (⟨S10x2304x50, .f32⟩ : BufTy).Contents (Elt F) → (⟨S10x2304x50, .f32⟩ : BufTy).Contents (Elt F)),
    nullary main_cst_16 (constant S_ .f32 0x00000000#32),
    binary main_v94 main_cst_16 main_v95 ((fun x v => Host.reduceAdd x v reducesTo_S10x2304x50_S10x50_d1 h_S_) : (⟨S10x2304x50, .f32⟩ : BufTy).Contents (Elt F) → (⟨S_, .f32⟩ : BufTy).Contents (Elt F) → (⟨S10x50, .f32⟩ : BufTy).Contents (Elt F)),
    unary main_v95 main_v96 (broadcastInDim S10x1x50 ![0, 2] bcast_S10x50_S10x1x50_0_2 : (⟨S10x50, .f32⟩ : BufTy).Contents (Elt F) → (⟨S10x1x50, .f32⟩ : BufTy).Contents (Elt F)),
    unary main_v96 main_v97 (broadcastInDim S10x2304x50 ![0, 1, 2] bcast_S10x1x50_S10x2304x50_0_1_2 : (⟨S10x1x50, .f32⟩ : BufTy).Contents (Elt F) → (⟨S10x2304x50, .f32⟩ : BufTy).Contents (Elt F)),
    binary main_v94 main_v97 main_v98 (Host.divf : (⟨S10x2304x50, .f32⟩ : BufTy).Contents (Elt F) → (⟨S10x2304x50, .f32⟩ : BufTy).Contents (Elt F) → (⟨S10x2304x50, .f32⟩ : BufTy).Contents (Elt F)),
    unary main_v98 main_v99 ((extractStridedSlice S10x768x50 ![0, 0, 0] · slices_S10x2304x50_S10x768x50_0_0_0) : (⟨S10x2304x50, .f32⟩ : BufTy).Contents (Elt F) → (⟨S10x768x50, .f32⟩ : BufTy).Contents (Elt F)),
    unary main_v98 main_v100 ((extractStridedSlice S10x768x50 ![0, 768, 0] · slices_S10x2304x50_S10x768x50_0_768_0) : (⟨S10x2304x50, .f32⟩ : BufTy).Contents (Elt F) → (⟨S10x768x50, .f32⟩ : BufTy).Contents (Elt F)),
    unary main_v98 main_v101 ((extractStridedSlice S10x768x50 ![0, 1536, 0] · slices_S10x2304x50_S10x768x50_0_1536_0) : (⟨S10x2304x50, .f32⟩ : BufTy).Contents (Elt F) → (⟨S10x768x50, .f32⟩ : BufTy).Contents (Elt F)) ]

def opsF : List (HloOp τ sig (Elt F)) :=
  [ binary main_v99 main_arg0 main_v102 ((fun l r => Host.dotGeneral dot_S10x768x50_S10x50x3072_S10x768x3072_2_1_1_2_0_0 none l r) : (⟨S10x768x50, .f32⟩ : BufTy).Contents (Elt F) → (⟨S10x50x3072, .f32⟩ : BufTy).Contents (Elt F) → (⟨S10x768x3072, .f32⟩ : BufTy).Contents (Elt F)),
    binary main_v100 main_arg1 main_v103 ((fun l r => Host.dotGeneral dot_S10x768x50_S10x50x3072_S10x768x3072_2_1_1_2_0_0 none l r) : (⟨S10x768x50, .f32⟩ : BufTy).Contents (Elt F) → (⟨S10x50x3072, .f32⟩ : BufTy).Contents (Elt F) → (⟨S10x768x3072, .f32⟩ : BufTy).Contents (Elt F)),
    binary main_v102 main_v103 main_v104 (addf : (⟨S10x768x3072, .f32⟩ : BufTy).Contents (Elt F) → (⟨S10x768x3072, .f32⟩ : BufTy).Contents (Elt F) → (⟨S10x768x3072, .f32⟩ : BufTy).Contents (Elt F)),
    binary main_v101 main_arg2 main_v105 ((fun l r => Host.dotGeneral dot_S10x768x50_S10x50x3072_S10x768x3072_2_1_1_2_0_0 none l r) : (⟨S10x768x50, .f32⟩ : BufTy).Contents (Elt F) → (⟨S10x50x3072, .f32⟩ : BufTy).Contents (Elt F) → (⟨S10x768x3072, .f32⟩ : BufTy).Contents (Elt F)),
    binary main_v104 main_v105 main_v106 (addf : (⟨S10x768x3072, .f32⟩ : BufTy).Contents (Elt F) → (⟨S10x768x3072, .f32⟩ : BufTy).Contents (Elt F) → (⟨S10x768x3072, .f32⟩ : BufTy).Contents (Elt F)),
    binary main_v106 main_v106 main_v107 (mulf : (⟨S10x768x3072, .f32⟩ : BufTy).Contents (Elt F) → (⟨S10x768x3072, .f32⟩ : BufTy).Contents (Elt F) → (⟨S10x768x3072, .f32⟩ : BufTy).Contents (Elt F)),
    nullary main_cst_17 (constant S_ .f32 0x00000000#32),
    binary main_v107 main_cst_17 main_v108 ((fun x v => Host.reduceAdd x v reducesTo_S10x768x3072_S10x768_d2 h_S_) : (⟨S10x768x3072, .f32⟩ : BufTy).Contents (Elt F) → (⟨S_, .f32⟩ : BufTy).Contents (Elt F) → (⟨S10x768, .f32⟩ : BufTy).Contents (Elt F)),
    unary main_v108 main_v109 (broadcastInDim S10x768x1 ![0, 1] bcast_S10x768_S10x768x1_0_1 : (⟨S10x768, .f32⟩ : BufTy).Contents (Elt F) → (⟨S10x768x1, .f32⟩ : BufTy).Contents (Elt F)),
    nullary main_cst_18 (constant S_ .f32 0x3F800000#32),
    unary main_cst_18 main_v110 (broadcastInDim S10x768x1 ![] bcast_S_S10x768x1 : (⟨S_, .f32⟩ : BufTy).Contents (Elt F) → (⟨S10x768x1, .f32⟩ : BufTy).Contents (Elt F)),
    binary main_v110 main_v109 main_v111 (addf : (⟨S10x768x1, .f32⟩ : BufTy).Contents (Elt F) → (⟨S10x768x1, .f32⟩ : BufTy).Contents (Elt F) → (⟨S10x768x1, .f32⟩ : BufTy).Contents (Elt F)),
    binary main_v109 main_v111 main_v112 (Host.divf : (⟨S10x768x1, .f32⟩ : BufTy).Contents (Elt F) → (⟨S10x768x1, .f32⟩ : BufTy).Contents (Elt F) → (⟨S10x768x1, .f32⟩ : BufTy).Contents (Elt F)),
    unary main_v112 main_v113 (broadcastInDim S10x768x3072 ![0, 1, 2] bcast_S10x768x1_S10x768x3072_0_1_2 : (⟨S10x768x1, .f32⟩ : BufTy).Contents (Elt F) → (⟨S10x768x3072, .f32⟩ : BufTy).Contents (Elt F)),
    binary main_v113 main_v106 main_v114 (mulf : (⟨S10x768x3072, .f32⟩ : BufTy).Contents (Elt F) → (⟨S10x768x3072, .f32⟩ : BufTy).Contents (Elt F) → (⟨S10x768x3072, .f32⟩ : BufTy).Contents (Elt F)),
    unary main_v109 main_v115 (Host.sqrt : (⟨S10x768x1, .f32⟩ : BufTy).Contents (Elt F) → (⟨S10x768x1, .f32⟩ : BufTy).Contents (Elt F)),
    nullary main_cst_19 (constant S_ .f32 0x322BCC77#32),
    unary main_cst_19 main_v116 (broadcastInDim S10x768x1 ![] bcast_S_S10x768x1 : (⟨S_, .f32⟩ : BufTy).Contents (Elt F) → (⟨S10x768x1, .f32⟩ : BufTy).Contents (Elt F)),
    binary main_v115 main_v116 main_v117 (addf : (⟨S10x768x1, .f32⟩ : BufTy).Contents (Elt F) → (⟨S10x768x1, .f32⟩ : BufTy).Contents (Elt F) → (⟨S10x768x1, .f32⟩ : BufTy).Contents (Elt F)),
    unary main_v117 main_v118 (broadcastInDim S10x768x3072 ![0, 1, 2] bcast_S10x768x1_S10x768x3072_0_1_2 : (⟨S10x768x1, .f32⟩ : BufTy).Contents (Elt F) → (⟨S10x768x3072, .f32⟩ : BufTy).Contents (Elt F)),
    binary main_v114 main_v118 main_v119 (Host.divf : (⟨S10x768x3072, .f32⟩ : BufTy).Contents (Elt F) → (⟨S10x768x3072, .f32⟩ : BufTy).Contents (Elt F) → (⟨S10x768x3072, .f32⟩ : BufTy).Contents (Elt F)),
    binary main_arg3 main_v119 main_v120 ((fun l r => Host.dotGeneral dot_S10x50x768_S10x768x3072_S10x50x3072_2_1_1_2_0_0 none l r) : (⟨S10x50x768, .f32⟩ : BufTy).Contents (Elt F) → (⟨S10x768x3072, .f32⟩ : BufTy).Contents (Elt F) → (⟨S10x50x3072, .f32⟩ : BufTy).Contents (Elt F)) ]

set_option maxRecDepth 65536 in
theorem ops_split : (ops : List (HloOp τ sig (Elt F))) = opsA ++ (opsB ++ (opsC ++ (opsD ++ (opsE ++ opsF)))) := rfl

end Chunks

/-- One new logit array, as the reference's operations spell it, is the specification's. -/
theorem step_form0 (c1 c2 c3 : FVec Ideal S10x768x50 .f32) (x0 x1 x2 : FVec Ideal S10x50x3072 .f32) (b : FVec Ideal S10x768x50 .f32) :
    addf b (Host.dotGeneral RD2 none (aRef (qRef (sRef c1 c2 c3 x0 x1 x2)) (sRef c1 c2 c3 x0 x1 x2)) (transpose S10x3072x50 [0, 2, 1] x0 transposes_S10x50x3072_S10x3072x50_0_2_1))
      = addf b (capsB (capsFac (capsQ c1 c2 c3 x0 x1 x2)) c1 c2 c3 x0 x1 x2 x0) := by
  rw [qRef_eq, bRef_eq]
theorem step_form1 (c1 c2 c3 : FVec Ideal S10x768x50 .f32) (x0 x1 x2 : FVec Ideal S10x50x3072 .f32) (b : FVec Ideal S10x768x50 .f32) :
    addf b (Host.dotGeneral RD2 none (aRef (qRef (sRef c1 c2 c3 x0 x1 x2)) (sRef c1 c2 c3 x0 x1 x2)) (transpose S10x3072x50 [0, 2, 1] x1 transposes_S10x50x3072_S10x3072x50_0_2_1))
      = addf b (capsB (capsFac (capsQ c1 c2 c3 x0 x1 x2)) c1 c2 c3 x0 x1 x2 x1) := by
  rw [qRef_eq, bRef_eq]
theorem step_form2 (c1 c2 c3 : FVec Ideal S10x768x50 .f32) (x0 x1 x2 : FVec Ideal S10x50x3072 .f32) (b : FVec Ideal S10x768x50 .f32) :
    addf b (Host.dotGeneral RD2 none (aRef (qRef (sRef c1 c2 c3 x0 x1 x2)) (sRef c1 c2 c3 x0 x1 x2)) (transpose S10x3072x50 [0, 2, 1] x2 transposes_S10x50x3072_S10x3072x50_0_2_1))
      = addf b (capsB (capsFac (capsQ c1 c2 c3 x0 x1 x2)) c1 c2 c3 x0 x1 x2 x2) := by
  rw [qRef_eq, bRef_eq]
theorem out_form (c1 c2 c3 : FVec Ideal S10x768x50 .f32) (x0 x1 x2 : FVec Ideal S10x50x3072 .f32) (w : FVec Ideal S10x50x768 .f32) :
    Host.dotGeneral RD3 none w (aRef (qRef (sRef c1 c2 c3 x0 x1 x2)) (sRef c1 c2 c3 x0 x1 x2))
      = capsOut w (capsFac (capsQ c1 c2 c3 x0 x1 x2)) c1 c2 c3 x0 x1 x2 := by
  rw [qRef_eq, oRef_eq]

variable (m : (ℓ : Loc nD τ sig) → Buf (Elt Ideal) ℓ)

/-- The four arguments on core `c`. -/
abbrev y0 (c : Dev nD) : S10x50x3072.Idx → EReal := m ((c.tc : Thread nD τ).loc main_arg0)
abbrev y1 (c : Dev nD) : S10x50x3072.Idx → EReal := m ((c.tc : Thread nD τ).loc main_arg1)
abbrev y2 (c : Dev nD) : S10x50x3072.Idx → EReal := m ((c.tc : Thread nD τ).loc main_arg2)
abbrev yw (c : Dev nD) : S10x50x768.Idx → EReal := m ((c.tc : Thread nD τ).loc main_arg3)

/-- The buffers at the chunk boundaries. -/
abbrev R0 (c : Dev nD) : Valuation τ sig (Elt Ideal) := launchContents m c
def RA (c : Dev nD) : Valuation τ sig (Elt Ideal) := after (opsA (F := Ideal)) (R0 m c)
def RB (c : Dev nD) : Valuation τ sig (Elt Ideal) := after (opsB (F := Ideal)) (RA m c)
def RC (c : Dev nD) : Valuation τ sig (Elt Ideal) := after (opsC (F := Ideal)) (RB m c)
def RD (c : Dev nD) : Valuation τ sig (Elt Ideal) := after (opsD (F := Ideal)) (RC m c)
def RE (c : Dev nD) : Valuation τ sig (Elt Ideal) := after (opsE (F := Ideal)) (RD m c)

set_option maxHeartbeats 8000000 in
theorem RA_b0 (c : Dev nD) : RA m c (Proc.devRef .tc main_v0) = zeroB := by
  show after opsA (R0 m c) _ = _
  dsimp only [opsA]
  after_results_simp3
  rfl

set_option maxHeartbeats 8000000 in
theorem RA_b1 (c : Dev nD) : RA m c (Proc.devRef .tc main_v1) = zeroB := by
  show after opsA (R0 m c) _ = _
  dsimp only [opsA]
  after_results_simp3
  rfl

set_option maxHeartbeats 8000000 in
theorem RA_b2 (c : Dev nD) : RA m c (Proc.devRef .tc main_v2) = zeroB := by
  show after opsA (R0 m c) _ = _
  dsimp only [opsA]
  after_results_simp3
  rfl

set_option maxHeartbeats 8000000 in
theorem RA_c0 (c : Dev nD) : RA m c (Proc.devRef .tc main_v15) = cw1 zeroB zeroB zeroB := by
  show after opsA (R0 m c) _ = _
  dsimp only [opsA]
  after_results_simp3
  rfl

set_option maxHeartbeats 8000000 in
theorem RA_c1 (c : Dev nD) : RA m c (Proc.devRef .tc main_v16) = cw2 zeroB zeroB zeroB := by
  show after opsA (R0 m c) _ = _
  dsimp only [opsA]
  after_results_simp3
  rfl

set_option maxHeartbeats 8000000 in
theorem RA_c2 (c : Dev nD) : RA m c (Proc.devRef .tc main_v17) = cw3 zeroB zeroB zeroB := by
  show after opsA (R0 m c) _ = _
  dsimp only [opsA]
  after_results_simp3
  rfl

set_option maxHeartbeats 8000000 in
theorem RA_a0 (c : Dev nD) : RA m c (Proc.devRef .tc main_arg0) = y0 m c := by
  show after opsA (R0 m c) _ = _
  dsimp only [opsA]
  after_results_simp3
  all_goals rfl

set_option maxHeartbeats 8000000 in
theorem RA_a1 (c : Dev nD) : RA m c (Proc.devRef .tc main_arg1) = y1 m c := by
  show after opsA (R0 m c) _ = _
  dsimp only [opsA]
  after_results_simp3
  all_goals rfl

set_option maxHeartbeats 8000000 in
theorem RA_a2 (c : Dev nD) : RA m c (Proc.devRef .tc main_arg2) = y2 m c := by
  show after opsA (R0 m c) _ = _
  dsimp only [opsA]
  after_results_simp3
  all_goals rfl

set_option maxHeartbeats 8000000 in
theorem RA_a3 (c : Dev nD) : RA m c (Proc.devRef .tc main_arg3) = yw m c := by
  show after opsA (R0 m c) _ = _
  dsimp only [opsA]
  after_results_simp3
  all_goals rfl

set_option maxHeartbeats 16000000 in
theorem RB_b0 (c : Dev nD) : RB m c (Proc.devRef .tc main_v38) = (step zeroB zeroB zeroB (y0 m c) (y1 m c) (y2 m c)).1 := by
  show after opsB (RA m c) _ = _
  dsimp only [opsB]
  after_results_simp3
  rw [RA_c0 m c, RA_c1 m c, RA_c2 m c, RA_a0 m c, RA_a1 m c, RA_a2 m c, RA_b0 m c]
  exact step_form0 (cw1 zeroB zeroB zeroB) (cw2 zeroB zeroB zeroB) (cw3 zeroB zeroB zeroB) (y0 m c) (y1 m c) (y2 m c) _

set_option maxHeartbeats 16000000 in
theorem RB_b1 (c : Dev nD) : RB m c (Proc.devRef .tc main_v41) = (step zeroB zeroB zeroB (y0 m c) (y1 m c) (y2 m c)).2.1 := by
  show after opsB (RA m c) _ = _
  dsimp only [opsB]
  after_results_simp3
  rw [RA_c0 m c, RA_c1 m c, RA_c2 m c, RA_a0 m c, RA_a1 m c, RA_a2 m c, RA_b1 m c]
  exact step_form1 (cw1 zeroB zeroB zeroB) (cw2 zeroB zeroB zeroB) (cw3 zeroB zeroB zeroB) (y0 m c) (y1 m c) (y2 m c) _

set_option maxHeartbeats 16000000 in
theorem RB_b2 (c : Dev nD) : RB m c (Proc.devRef .tc main_v44) = (step zeroB zeroB zeroB (y0 m c) (y1 m c) (y2 m c)).2.2 := by
  show after opsB (RA m c) _ = _
  dsimp only [opsB]
  after_results_simp3
  rw [RA_c0 m c, RA_c1 m c, RA_c2 m c, RA_a0 m c, RA_a1 m c, RA_a2 m c, RA_b2 m c]
  exact step_form2 (cw1 zeroB zeroB zeroB) (cw2 zeroB zeroB zeroB) (cw3 zeroB zeroB zeroB) (y0 m c) (y1 m c) (y2 m c) _

set_option maxHeartbeats 8000000 in
theorem RB_a0 (c : Dev nD) : RB m c (Proc.devRef .tc main_arg0) = y0 m c := by
  show after opsB (RA m c) _ = _
  dsimp only [opsB]
  after_results_simp3
  exact RA_a0 m c

set_option maxHeartbeats 8000000 in
theorem RB_a1 (c : Dev nD) : RB m c (Proc.devRef .tc main_arg1) = y1 m c := by
  show after opsB (RA m c) _ = _
  dsimp only [opsB]
  after_results_simp3
  exact RA_a1 m c

set_option maxHeartbeats 8000000 in
theorem RB_a2 (c : Dev nD) : RB m c (Proc.devRef .tc main_arg2) = y2 m c := by
  show after opsB (RA m c) _ = _
  dsimp only [opsB]
  after_results_simp3
  exact RA_a2 m c

set_option maxHeartbeats 8000000 in
theorem RB_a3 (c : Dev nD) : RB m c (Proc.devRef .tc main_arg3) = yw m c := by
  show after opsB (RA m c) _ = _
  dsimp only [opsB]
  after_results_simp3
  exact RA_a3 m c

set_option maxHeartbeats 16000000 in
theorem RC_c0 (c : Dev nD) : RC m c (Proc.devRef .tc main_v57) = cw1 (step zeroB zeroB zeroB (y0 m c) (y1 m c) (y2 m c)).1 (step zeroB zeroB zeroB (y0 m c) (y1 m c) (y2 m c)).2.1 (step zeroB zeroB zeroB (y0 m c) (y1 m c) (y2 m c)).2.2 := by
  show after opsC (RB m c) _ = _
  dsimp only [opsC]
  after_results_simp3
  rw [RB_b0 m c, RB_b1 m c, RB_b2 m c]
  rfl

set_option maxHeartbeats 16000000 in
theorem RC_c1 (c : Dev nD) : RC m c (Proc.devRef .tc main_v58) = cw2 (step zeroB zeroB zeroB (y0 m c) (y1 m c) (y2 m c)).1 (step zeroB zeroB zeroB (y0 m c) (y1 m c) (y2 m c)).2.1 (step zeroB zeroB zeroB (y0 m c) (y1 m c) (y2 m c)).2.2 := by
  show after opsC (RB m c) _ = _
  dsimp only [opsC]
  after_results_simp3
  rw [RB_b0 m c, RB_b1 m c, RB_b2 m c]
  rfl

set_option maxHeartbeats 16000000 in
theorem RC_c2 (c : Dev nD) : RC m c (Proc.devRef .tc main_v59) = cw3 (step zeroB zeroB zeroB (y0 m c) (y1 m c) (y2 m c)).1 (step zeroB zeroB zeroB (y0 m c) (y1 m c) (y2 m c)).2.1 (step zeroB zeroB zeroB (y0 m c) (y1 m c) (y2 m c)).2.2 := by
  show after opsC (RB m c) _ = _
  dsimp only [opsC]
  after_results_simp3
  rw [RB_b0 m c, RB_b1 m c, RB_b2 m c]
  rfl

set_option maxHeartbeats 8000000 in
theorem RC_a0 (c : Dev nD) : RC m c (Proc.devRef .tc main_arg0) = y0 m c := by
  show after opsC (RB m c) _ = _
  dsimp only [opsC]
  after_results_simp3
  exact RB_a0 m c

set_option maxHeartbeats 8000000 in
theorem RC_a1 (c : Dev nD) : RC m c (Proc.devRef .tc main_arg1) = y1 m c := by
  show after opsC (RB m c) _ = _
  dsimp only [opsC]
  after_results_simp3
  exact RB_a1 m c

set_option maxHeartbeats 8000000 in
theorem RC_a2 (c : Dev nD) : RC m c (Proc.devRef .tc main_arg2) = y2 m c := by
  show after opsC (RB m c) _ = _
  dsimp only [opsC]
  after_results_simp3
  exact RB_a2 m c

set_option maxHeartbeats 8000000 in
theorem RC_a3 (c : Dev nD) : RC m c (Proc.devRef .tc main_arg3) = yw m c := by
  show after opsC (RB m c) _ = _
  dsimp only [opsC]
  after_results_simp3
  exact RB_a3 m c

set_option maxHeartbeats 8000000 in
theorem RC_b0 (c : Dev nD) : RC m c (Proc.devRef .tc main_v38) = (step zeroB zeroB zeroB (y0 m c) (y1 m c) (y2 m c)).1 := by
  show after opsC (RB m c) _ = _
  dsimp only [opsC]
  after_results_simp3
  exact RB_b0 m c

set_option maxHeartbeats 8000000 in
theorem RC_b1 (c : Dev nD) : RC m c (Proc.devRef .tc main_v41) = (step zeroB zeroB zeroB (y0 m c) (y1 m c) (y2 m c)).2.1 := by
  show after opsC (RB m c) _ = _
  dsimp only [opsC]
  after_results_simp3
  exact RB_b1 m c

set_option maxHeartbeats 8000000 in
theorem RC_b2 (c : Dev nD) : RC m c (Proc.devRef .tc main_v44) = (step zeroB zeroB zeroB (y0 m c) (y1 m c) (y2 m c)).2.2 := by
  show after opsC (RB m c) _ = _
  dsimp only [opsC]
  after_results_simp3
  exact RB_b2 m c

set_option maxHeartbeats 16000000 in
theorem RD_b0 (c : Dev nD) : RD m c (Proc.devRef .tc main_v80) = (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).1 := by
  show after opsD (RC m c) _ = _
  dsimp only [opsD]
  after_results_simp3
  rw [RC_c0 m c, RC_c1 m c, RC_c2 m c, RC_a0 m c, RC_a1 m c, RC_a2 m c, RC_b0 m c]
  exact step_form0 (cw1 (step zeroB zeroB zeroB (y0 m c) (y1 m c) (y2 m c)).1 (step zeroB zeroB zeroB (y0 m c) (y1 m c) (y2 m c)).2.1 (step zeroB zeroB zeroB (y0 m c) (y1 m c) (y2 m c)).2.2) (cw2 (step zeroB zeroB zeroB (y0 m c) (y1 m c) (y2 m c)).1 (step zeroB zeroB zeroB (y0 m c) (y1 m c) (y2 m c)).2.1 (step zeroB zeroB zeroB (y0 m c) (y1 m c) (y2 m c)).2.2) (cw3 (step zeroB zeroB zeroB (y0 m c) (y1 m c) (y2 m c)).1 (step zeroB zeroB zeroB (y0 m c) (y1 m c) (y2 m c)).2.1 (step zeroB zeroB zeroB (y0 m c) (y1 m c) (y2 m c)).2.2) (y0 m c) (y1 m c) (y2 m c) _

set_option maxHeartbeats 16000000 in
theorem RD_b1 (c : Dev nD) : RD m c (Proc.devRef .tc main_v83) = (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).2.1 := by
  show after opsD (RC m c) _ = _
  dsimp only [opsD]
  after_results_simp3
  rw [RC_c0 m c, RC_c1 m c, RC_c2 m c, RC_a0 m c, RC_a1 m c, RC_a2 m c, RC_b1 m c]
  exact step_form1 (cw1 (step zeroB zeroB zeroB (y0 m c) (y1 m c) (y2 m c)).1 (step zeroB zeroB zeroB (y0 m c) (y1 m c) (y2 m c)).2.1 (step zeroB zeroB zeroB (y0 m c) (y1 m c) (y2 m c)).2.2) (cw2 (step zeroB zeroB zeroB (y0 m c) (y1 m c) (y2 m c)).1 (step zeroB zeroB zeroB (y0 m c) (y1 m c) (y2 m c)).2.1 (step zeroB zeroB zeroB (y0 m c) (y1 m c) (y2 m c)).2.2) (cw3 (step zeroB zeroB zeroB (y0 m c) (y1 m c) (y2 m c)).1 (step zeroB zeroB zeroB (y0 m c) (y1 m c) (y2 m c)).2.1 (step zeroB zeroB zeroB (y0 m c) (y1 m c) (y2 m c)).2.2) (y0 m c) (y1 m c) (y2 m c) _

set_option maxHeartbeats 16000000 in
theorem RD_b2 (c : Dev nD) : RD m c (Proc.devRef .tc main_v86) = (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).2.2 := by
  show after opsD (RC m c) _ = _
  dsimp only [opsD]
  after_results_simp3
  rw [RC_c0 m c, RC_c1 m c, RC_c2 m c, RC_a0 m c, RC_a1 m c, RC_a2 m c, RC_b2 m c]
  exact step_form2 (cw1 (step zeroB zeroB zeroB (y0 m c) (y1 m c) (y2 m c)).1 (step zeroB zeroB zeroB (y0 m c) (y1 m c) (y2 m c)).2.1 (step zeroB zeroB zeroB (y0 m c) (y1 m c) (y2 m c)).2.2) (cw2 (step zeroB zeroB zeroB (y0 m c) (y1 m c) (y2 m c)).1 (step zeroB zeroB zeroB (y0 m c) (y1 m c) (y2 m c)).2.1 (step zeroB zeroB zeroB (y0 m c) (y1 m c) (y2 m c)).2.2) (cw3 (step zeroB zeroB zeroB (y0 m c) (y1 m c) (y2 m c)).1 (step zeroB zeroB zeroB (y0 m c) (y1 m c) (y2 m c)).2.1 (step zeroB zeroB zeroB (y0 m c) (y1 m c) (y2 m c)).2.2) (y0 m c) (y1 m c) (y2 m c) _

set_option maxHeartbeats 8000000 in
theorem RD_a0 (c : Dev nD) : RD m c (Proc.devRef .tc main_arg0) = y0 m c := by
  show after opsD (RC m c) _ = _
  dsimp only [opsD]
  after_results_simp3
  exact RC_a0 m c

set_option maxHeartbeats 8000000 in
theorem RD_a1 (c : Dev nD) : RD m c (Proc.devRef .tc main_arg1) = y1 m c := by
  show after opsD (RC m c) _ = _
  dsimp only [opsD]
  after_results_simp3
  exact RC_a1 m c

set_option maxHeartbeats 8000000 in
theorem RD_a2 (c : Dev nD) : RD m c (Proc.devRef .tc main_arg2) = y2 m c := by
  show after opsD (RC m c) _ = _
  dsimp only [opsD]
  after_results_simp3
  exact RC_a2 m c

set_option maxHeartbeats 8000000 in
theorem RD_a3 (c : Dev nD) : RD m c (Proc.devRef .tc main_arg3) = yw m c := by
  show after opsD (RC m c) _ = _
  dsimp only [opsD]
  after_results_simp3
  exact RC_a3 m c

set_option maxHeartbeats 16000000 in
theorem RE_c0 (c : Dev nD) : RE m c (Proc.devRef .tc main_v99) = cw1 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).1 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).2.1 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).2.2 := by
  show after opsE (RD m c) _ = _
  dsimp only [opsE]
  after_results_simp3
  rw [RD_b0 m c, RD_b1 m c, RD_b2 m c]
  rfl

set_option maxHeartbeats 16000000 in
theorem RE_c1 (c : Dev nD) : RE m c (Proc.devRef .tc main_v100) = cw2 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).1 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).2.1 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).2.2 := by
  show after opsE (RD m c) _ = _
  dsimp only [opsE]
  after_results_simp3
  rw [RD_b0 m c, RD_b1 m c, RD_b2 m c]
  rfl

set_option maxHeartbeats 16000000 in
theorem RE_c2 (c : Dev nD) : RE m c (Proc.devRef .tc main_v101) = cw3 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).1 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).2.1 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).2.2 := by
  show after opsE (RD m c) _ = _
  dsimp only [opsE]
  after_results_simp3
  rw [RD_b0 m c, RD_b1 m c, RD_b2 m c]
  rfl

set_option maxHeartbeats 8000000 in
theorem RE_a0 (c : Dev nD) : RE m c (Proc.devRef .tc main_arg0) = y0 m c := by
  show after opsE (RD m c) _ = _
  dsimp only [opsE]
  after_results_simp3
  exact RD_a0 m c

set_option maxHeartbeats 8000000 in
theorem RE_a1 (c : Dev nD) : RE m c (Proc.devRef .tc main_arg1) = y1 m c := by
  show after opsE (RD m c) _ = _
  dsimp only [opsE]
  after_results_simp3
  exact RD_a1 m c

set_option maxHeartbeats 8000000 in
theorem RE_a2 (c : Dev nD) : RE m c (Proc.devRef .tc main_arg2) = y2 m c := by
  show after opsE (RD m c) _ = _
  dsimp only [opsE]
  after_results_simp3
  exact RD_a2 m c

set_option maxHeartbeats 8000000 in
theorem RE_a3 (c : Dev nD) : RE m c (Proc.devRef .tc main_arg3) = yw m c := by
  show after opsE (RD m c) _ = _
  dsimp only [opsE]
  after_results_simp3
  exact RD_a3 m c

set_option maxHeartbeats 16000000 in
/-- THE RESULT: the reference's result buffer is the specification of the arguments. -/
theorem RF_out (c : Dev nD) : after opsF (RE m c) (Proc.devRef .tc main_v120) = spec (y0 m c) (y1 m c) (y2 m c) (yw m c) := by
  dsimp only [opsF]
  after_results_simp3
  rw [RE_c0 m c, RE_c1 m c, RE_c2 m c, RE_a0 m c, RE_a1 m c, RE_a2 m c, RE_a3 m c]
  exact out_form (cw1 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).1 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).2.1 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).2.2) (cw2 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).1 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).2.1 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).2.2) (cw3 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).1 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).2.1 (step (step zeroB zeroB zeroB (y0 m c) (y1 m c) (y2 m c)).1 (step zeroB zeroB zeroB (y0 m c) (y1 m c) (y2 m c)).2.1 (step zeroB zeroB zeroB (y0 m c) (y1 m c) (y2 m c)).2.2 (y0 m c) (y1 m c) (y2 m c)).2.2) (y0 m c) (y1 m c) (y2 m c) (yw m c)

/-- The whole reference: its result buffer after all 142 operations. -/
theorem ref_out (c : Dev nD) : after (ops (F := Ideal)) (launchContents m c) (Proc.devRef .tc main_v120) = spec (y0 m c) (y1 m c) (y2 m c) (yw m c) := by
  rw [ops_split, StableHlo.after_append, StableHlo.after_append, StableHlo.after_append, StableHlo.after_append, StableHlo.after_append]
  exact RF_out m c

end Cert.ReferenceIdeal.Hand

end
-- ==== Proof.RefValue.lean ====
/-
  The reference program's run, read: every weakly fair execution terminates with the result buffer at the specification of the
  four arguments and the arguments unchanged.
-/
import proofs.«160248_j77816217469391_2_alg».proof.Proof.RefGlue
import proofs.«160248_j77816217469391_2_alg».proof.Proof.RefFrame

set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

variable [hR : Cert.ReferenceIdeal.Facts]

set_option maxHeartbeats 1000000 in
theorem ref_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v120) = Cert.Spec.spec (y0 m c) (y1 m c) (y2 m c) (yw m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_v120).trans (ref_out m c),
     (h c main_arg0).trans (Cert.Proof.RefFrame.args_kept m c).1,
     (h c main_arg1).trans (Cert.Proof.RefFrame.args_kept m c).2.1,
     (h c main_arg2).trans (Cert.Proof.RefFrame.args_kept m c).2.2.1,
     (h c main_arg3).trans (Cert.Proof.RefFrame.args_kept m c).2.2.2⟩)
    (Cert.Proof.RefFrame.run_fold (F := Ideal) m ρ)

end Cert.ReferenceIdeal.Hand

end
-- ==== Proof.Algebraic.lean ====
/-
  The two idealized programs end with equal results.  The kernel program's run ends with its result buffer at the specification
  of its four arguments (Proof/KI/Value.lean); the reference's run ends with its result buffer at the same specification of its
  arguments (Proof/RefValue.lean).  The memories agree on the arguments, so the results are equal.  No finiteness is used: the
  squash divisor √q + ε is never zero on the extended reals, and sums there may be regrouped freely.
-/
import proofs.«160248_j77816217469391_2_alg».proof.Defs
import proofs.«160248_j77816217469391_2_alg».proof.Proof.KI.Value
import proofs.«160248_j77816217469391_2_alg».proof.Proof.RefValue

set_option maxRecDepth 16384

noncomputable section

namespace Cert.Proof

open Idealize.ShloMosaic Idealize.ShloMosaic.TcCoe Idealize.SL.Sem

variable [hK : Cert.KernelIdeal.Facts] [hR : Cert.ReferenceIdeal.Facts]

set_option maxHeartbeats 400000 in
/-- Memories that agree on the four arguments have equal specifications. -/
theorem spec_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.Spec.spec (Cert.ReferenceIdeal.Hand.y0 m' c) (Cert.ReferenceIdeal.Hand.y1 m' c) (Cert.ReferenceIdeal.Hand.y2 m' c) (Cert.ReferenceIdeal.Hand.yw m' c)
      = Cert.KernelIdeal.Hand.specK m c := by
  unfold Cert.KernelIdeal.Hand.specK
  have h0 : Cert.ReferenceIdeal.Hand.y0 m' c = Cert.KernelIdeal.Hand.x0 m c := e0
  have h1 : Cert.ReferenceIdeal.Hand.y1 m' c = Cert.KernelIdeal.Hand.x1 m c := e1
  have h2 : Cert.ReferenceIdeal.Hand.y2 m' c = Cert.KernelIdeal.Hand.x2 m c := e2
  have h3 : Cert.ReferenceIdeal.Hand.yw m' c = Cert.KernelIdeal.Hand.xw m c := e3
  rw [h0, h1, h2, h3]

set_option maxHeartbeats 400000 in
theorem algebraic [hP : Cert.Pre_finite_inputs.Facts] : Cert.algebraic_KernelIdeal_ReferenceIdeal := by
  intro m ρ m' ρ' _ hagree
  refine ⟨Cert.KernelIdeal.Hand.specK m, Cert.KernelIdeal.Hand.ker_run m ρ, ?_⟩
  refine (θ_run Cert.ReferenceIdeal.defs _ _).mono (fun _ h c => ?_) (Cert.ReferenceIdeal.Hand.ref_run m' ρ')
  obtain ⟨hv, h0, h1, h2, h3⟩ := h c
  exact ⟨hv.trans (spec_agree m m' c (hagree c).1 (hagree c).2.1 (hagree c).2.2.1 (hagree c).2.2.2), h0, h1, h2, h3⟩

end Cert.Proof

end
-- ==== Proof.lean ====
/-
  Kernel against reference: capsule dynamic routing (three routing iterations over softmax weights, squashed capsules,
  logit updates; the last iteration's squashed capsules multiplied by W).

  The kernel program is six Pallas regions among stretches of host operations; each region is run point by point over its
  twelve 256-column tiles (Proof/K and Proof/KI: the word-level and the idealized program, one text).
    frames      the reference is a host program whose operations write no argument (Proof/RefFrame.lean); the kernel
                program's run ends with every buffer at the fold of its segments, which at an argument is the launch memory
                (Proof/K/Frame.lean, Proof/KI/Frame.lean).
    preserves   the idealization rewrote nothing.
    algebraic   on the extended reals both programs compute one function of the four arguments (Proof/Spec.lean): the regions'
                tile-by-tile sums are the reference's whole sums regrouped, a change of float format is the identity, and
                (scale/(√q+ε))·s = (scale·s)/(√q+ε) because the divisor is never zero (Proof/Algebraic.lean).
-/
import proofs.«160248_j77816217469391_2_alg».proof.Defs
import proofs.«160248_j77816217469391_2_alg».proof.Proof.Gen.Kernel
import proofs.«160248_j77816217469391_2_alg».proof.Proof.Gen.KernelIdeal
import proofs.«160248_j77816217469391_2_alg».proof.Proof.Gen.ReferenceIdeal
import proofs.«160248_j77816217469391_2_alg».proof.Proof.Gen.Pre_finite_inputs
import proofs.«160248_j77816217469391_2_alg».proof.Proof.K.Frame
import proofs.«160248_j77816217469391_2_alg».proof.Proof.KI.Frame
import proofs.«160248_j77816217469391_2_alg».proof.Proof.RefFrame
import proofs.«160248_j77816217469391_2_alg».proof.Proof.Algebraic
import Idealize.ShloMosaic.Adequacy
import Idealize.ShloMosaic.Init

noncomputable section

namespace Cert.Proof

open Idealize.ShloMosaic Idealize.SL.Sem

theorem frame_Kernel [hK : Cert.Kernel.Facts] [hP : Cert.Pre_finite_inputs.Facts] : Cert.frame_Kernel :=
  fun m ρ _ => Cert.Kernel.Hand.frame (F := Bits) m ρ

theorem frame_KernelIdeal [hK : Cert.KernelIdeal.Facts] [hP : Cert.Pre_finite_inputs.Facts] : Cert.frame_KernelIdeal :=
  fun m ρ _ => Cert.KernelIdeal.Hand.frame (F := Ideal) m ρ

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_Kernel, frame_KernelIdeal, Cert.Proof.RefFrame.frame_ReferenceIdeal, preserves, algebraic⟩

end Cert.Proof

end
